-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v328)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v328) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v537) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x1600000 : Shape := ⟨2, ![2, 1600000]⟩
abbrev S1600000x3 : Shape := ⟨2, ![1600000, 3]⟩
abbrev S32x3 : Shape := ⟨2, ![32, 3]⟩
abbrev S32 : Shape := ⟨1, ![32]⟩
abbrev S1x32 : Shape := ⟨2, ![1, 32]⟩
abbrev S1 : Shape := ⟨1, ![1]⟩
abbrev S3x8x3 : Shape := ⟨3, ![3, 8, 3]⟩
abbrev S3x8 : Shape := ⟨2, ![3, 8]⟩
abbrev S3x32x8 : Shape := ⟨3, ![3, 32, 8]⟩
abbrev S3x32 : Shape := ⟨2, ![3, 32]⟩
abbrev S3x32x32 : Shape := ⟨3, ![3, 32, 32]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S3x8x3 : S_.BroadcastsInDim S3x8x3 (![] : Fin 0 → Fin S3x8x3.rank)
  reducesTo_S3x8x3_S_d0_1_2 : S3x8x3.ReducesTo [0, 1, 2] S_
  bcast_S_S3x8 : S_.BroadcastsInDim S3x8 (![] : Fin 0 → Fin S3x8.rank)
  reducesTo_S3x8_S_d0_1 : S3x8.ReducesTo [0, 1] S_
  bcast_S_S3x32x8 : S_.BroadcastsInDim S3x32x8 (![] : Fin 0 → Fin S3x32x8.rank)
  reducesTo_S3x32x8_S_d0_1_2 : S3x32x8.ReducesTo [0, 1, 2] S_
  bcast_S_S3x32 : S_.BroadcastsInDim S3x32 (![] : Fin 0 → Fin S3x32.rank)
  reducesTo_S3x32_S_d0_1 : S3x32.ReducesTo [0, 1] S_
  bcast_S_S3x32x32 : S_.BroadcastsInDim S3x32x32 (![] : Fin 0 → Fin S3x32x32.rank)
  reducesTo_S3x32x32_S_d0_1_2 : S3x32x32.ReducesTo [0, 1, 2] S_

variable [Facts]

def fn_part3 {F : FTy → Type} [FloatOps F] (main_arg12 : FVec F S3x32 .f32) (main_v48 : IVec S_ 1) (main_v49 : FVec F S3x32x32 .f32) (main_v50 : FVec F S3x32x32 .f32) : IVec S_ 1 :=
  let main_v51 : IVec S3x32x32 1 := cmpf .olt main_v49 main_v50
  let main_c_19 : IVec S_ 1 := constantI S_ 1 1#1
  let main_v52 : IVec S_ 1 := (fun x v => Host.reduce IntOp.andi x v reducesTo_S3x32x32_S_d0_1_2 h_S_) main_v51 main_c_19
  let main_v53 : IVec S_ 1 := andi main_v48 main_v52
  let main_v54 : FVec F S3x32 .f32 := Host.absf main_arg12
  let main_cst_20 : FVec F S_ .f32 := constant S_ .f32 0x7F800000#32
  let main_v55 : FVec F S3x32 .f32 := broadcastInDim S3x32 ![] bcast_S_S3x32 main_cst_20
  let main_v56 : IVec S3x32 1 := cmpf .olt main_v54 main_v55
  let main_c_21 : IVec S_ 1 := constantI S_ 1 1#1
  let main_v57 : IVec S_ 1 := (fun x v => Host.reduce IntOp.andi x v reducesTo_S3x32_S_d0_1 h_S_) main_v56 main_c_21
  let main_v58 : IVec S_ 1 := andi main_v53 main_v57
  main_v58

def fn_part2 {F : FTy → Type} [FloatOps F] (main_arg8 : FVec F S3x8 .f32) (main_arg9 : FVec F S3x32x8 .f32) (main_arg10 : FVec F S3x32 .f32) (main_arg11 : FVec F S3x32x32 .f32) (main_arg12 : FVec F S3x32 .f32) (main_v33 : IVec S_ 1) : IVec S_ 1 :=
  let main_v34 : FVec F S3x8 .f32 := Host.absf main_arg8
  let main_cst_12 : FVec F S_ .f32 := constant S_ .f32 0x7F800000#32
  let main_v35 : FVec F S3x8 .f32 := broadcastInDim S3x8 ![] bcast_S_S3x8 main_cst_12
  let main_v36 : IVec S3x8 1 := cmpf .olt main_v34 main_v35
  let main_c_13 : IVec S_ 1 := constantI S_ 1 1#1
  let main_v37 : IVec S_ 1 := (fun x v => Host.reduce IntOp.andi x v reducesTo_S3x8_S_d0_1 h_S_) main_v36 main_c_13
  let main_v38 : IVec S_ 1 := andi main_v33 main_v37
  let main_v39 : FVec F S3x32x8 .f32 := Host.absf main_arg9
  let main_cst_14 : FVec F S_ .f32 := constant S_ .f32 0x7F800000#32
  let main_v40 : FVec F S3x32x8 .f32 := broadcastInDim S3x32x8 ![] bcast_S_S3x32x8 main_cst_14
  let main_v41 : IVec S3x32x8 1 := cmpf .olt main_v39 main_v40
  let main_c_15 : IVec S_ 1 := constantI S_ 1 1#1
  let main_v42 : IVec S_ 1 := (fun x v => Host.reduce IntOp.andi x v reducesTo_S3x32x8_S_d0_1_2 h_S_) main_v41 main_c_15
  let main_v43 : IVec S_ 1 := andi main_v38 main_v42
  let main_v44 : FVec F S3x32 .f32 := Host.absf main_arg10
  let main_cst_16 : FVec F S_ .f32 := constant S_ .f32 0x7F800000#32
  let main_v45 : FVec F S3x32 .f32 := broadcastInDim S3x32 ![] bcast_S_S3x32 main_cst_16
  let main_v46 : IVec S3x32 1 := cmpf .olt main_v44 main_v45
  let main_c_17 : IVec S_ 1 := constantI S_ 1 1#1
  let main_v47 : IVec S_ 1 := (fun x v => Host.reduce IntOp.andi x v reducesTo_S3x32_S_d0_1 h_S_) main_v46 main_c_17
  let main_v48 : IVec S_ 1 := andi main_v43 main_v47
  let main_v49 : FVec F S3x32x32 .f32 := Host.absf main_arg11
  let main_cst_18 : FVec F S_ .f32 := constant S_ .f32 0x7F800000#32
  let main_v50 : FVec F S3x32x32 .f32 := broadcastInDim S3x32x32 ![] bcast_S_S3x32x32 main_cst_18
  fn_part3 (F := F) main_arg12 main_v48 main_v49 main_v50

def fn_part1 {F : FTy → Type} [FloatOps F] (main_arg5 : FVec F S1x32 .f32) (main_arg6 : FVec F S1 .f32) (main_arg7 : FVec F S3x8x3 .f32) (main_arg8 : FVec F S3x8 .f32) (main_arg9 : FVec F S3x32x8 .f32) (main_arg10 : FVec F S3x32 .f32) (main_arg11 : FVec F S3x32x32 .f32) (main_arg12 : FVec F S3x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S1x32 .f32 := Host.absf main_arg5
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S3x8x3 .f32 := Host.absf main_arg7
  let main_cst_10 : FVec F S_ .f32 := constant S_ .f32 0x7F800000#32
  let main_v30 : FVec F S3x8x3 .f32 := broadcastInDim S3x8x3 ![] bcast_S_S3x8x3 main_cst_10
  let main_v31 : IVec S3x8x3 1 := cmpf .olt main_v29 main_v30
  let main_c_11 : IVec S_ 1 := constantI S_ 1 1#1
  let main_v32 : IVec S_ 1 := (fun x v => Host.reduce IntOp.andi x v reducesTo_S3x8x3_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x3 .f32) (main_arg1 : IVec S2x1600000 32) (main_arg2 : FVec F S1600000x3 .f32) (main_arg3 : FVec F S32x3 .f32) (main_arg4 : FVec F S32 .f32) (main_arg5 : FVec F S1x32 .f32) (main_arg6 : FVec F S1 .f32) (main_arg7 : FVec F S3x8x3 .f32) (main_arg8 : FVec F S3x8 .f32) (main_arg9 : FVec F S3x32x8 .f32) (main_arg10 : FVec F S3x32 .f32) (main_arg11 : FVec F S3x32x32 .f32) (main_arg12 : FVec F S3x32 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S32x3 .f32 := Host.absf main_arg3
  let main_cst_2 : FVec F S_ .f32 := constant S_ .f32 0x7F800000#32
  let main_v10 : FVec F S32x3 .f32 := broadcastInDim S32x3 ![] bcast_S_S32x3 main_cst_2
  let main_v11 : IVec S32x3 1 := cmpf .olt main_v9 main_v10
  let main_c_3 : IVec S_ 1 := constantI S_ 1 1#1
  let main_v12 : IVec S_ 1 := (fun x v => Host.reduce IntOp.andi x v reducesTo_S32x3_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_v13 main_v16
-- ==== Kernel.lean ====
abbrev S50000x3 : Shape := ⟨2, ![50000, 3]⟩
abbrev S2x1600000 : Shape := ⟨2, ![2, 1600000]⟩
abbrev S1600000x3 : Shape := ⟨2, ![1600000, 3]⟩
abbrev S32x3 : Shape := ⟨2, ![32, 3]⟩
abbrev S32 : Shape := ⟨1, ![32]⟩
abbrev S1x32 : Shape := ⟨2, ![1, 32]⟩
abbrev S1 : Shape := ⟨1, ![1]⟩
abbrev S3x8x3 : Shape := ⟨3, ![3, 8, 3]⟩
abbrev S3x8 : Shape := ⟨2, ![3, 8]⟩
abbrev S3x32x8 : Shape := ⟨3, ![3, 32, 8]⟩
abbrev S3x32 : Shape := ⟨2, ![3, 32]⟩
abbrev S3x32x32 : Shape := ⟨3, ![3, 32, 32]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x32 : Shape := ⟨2, ![50000, 32]⟩
abbrev S5000x3 : Shape := ⟨2, ![5000, 3]⟩
abbrev S5000x32 : Shape := ⟨2, ![5000, 32]⟩
abbrev S1600000x32 : Shape := ⟨2, ![1600000, 32]⟩
abbrev S1x8x3 : Shape := ⟨3, ![1, 8, 3]⟩
abbrev S8x3 : Shape := ⟨2, ![8, 3]⟩
abbrev S1x32x8 : Shape := ⟨3, ![1, 32, 8]⟩
abbrev S32x8 : Shape := ⟨2, ![32, 8]⟩
abbrev S8x32 : Shape := ⟨2, ![8, 32]⟩
abbrev S1x8 : Shape := ⟨2, ![1, 8]⟩
abbrev S8 : Shape := ⟨1, ![8]⟩
abbrev S8000x3 : Shape := ⟨2, ![8000, 3]⟩
abbrev S8000x32 : Shape := ⟨2, ![8000, 32]⟩
abbrev S8000x8 : Shape := ⟨2, ![8000, 8]⟩
abbrev S1x32x32 : Shape := ⟨3, ![1, 32, 32]⟩
abbrev S32x32 : Shape := ⟨2, ![32, 32]⟩
abbrev S5000x1 : Shape := ⟨2, ![5000, 1]⟩
abbrev S32x1 : Shape := ⟨2, ![32, 1]⟩
abbrev S1x1 : Shape := ⟨2, ![1, 1]⟩

abbrev nBuf : Space → Nat
  | .hbm => 382
  | .vmem => 252
  | .smem => 0
  | _ => 0

abbrev hbmTy0_0 (i : Nat) : BufTy := match i % 128 with
  | 0 => ⟨S50000x3, .f32⟩
  | 1 => ⟨S2x1600000, .i32⟩
  | 2 => ⟨S1600000x3, .f32⟩
  | 3 => ⟨S32x3, .f32⟩
  | 4 => ⟨S32, .f32⟩
  | 5 => ⟨S1x32, .f32⟩
  | 6 => ⟨S1, .f32⟩
  | 7 => ⟨S3x8x3, .f32⟩
  | 8 => ⟨S3x8, .f32⟩
  | 9 => ⟨S3x32x8, .f32⟩
  | 10 => ⟨S3x32, .f32⟩
  | 11 => ⟨S3x32x32, .f32⟩
  | 12 => ⟨S3x32, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S50000, .f32⟩
  | 21 => ⟨S1600000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000x1, .f32⟩
  | 30 => ⟨S3x32, .f32⟩
  | 31 => ⟨S50000x32, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x32, .f32⟩
  | 41 => ⟨S1x8x3, .f32⟩
  | 42 => ⟨S8x3, .f32⟩
  | 43 => ⟨S3x8, .f32⟩
  | 44 => ⟨S1x32x8, .f32⟩
  | 45 => ⟨S32x8, .f32⟩
  | 46 => ⟨S8x32, .f32⟩
  | 47 => ⟨S1x8, .f32⟩
  | 48 => ⟨S8, .f32⟩
  | 49 => ⟨S1x32, .f32⟩
  | 50 => ⟨S32, .f32⟩
  | 51 => ⟨S1600000x32, .f32⟩
  | 52 => ⟨S_, .f32⟩
  | 53 => ⟨S50000x32, .f32⟩
  | 54 => ⟨S1600000x1, .i32⟩
  | 55 => ⟨S50000x32, .f32⟩
  | 56 => ⟨S1x32x32, .f32⟩
  | 57 => ⟨S32x32, .f32⟩
  | 58 => ⟨S1x32, .f32⟩
  | 59 => ⟨S32, .f32⟩
  | 60 => ⟨S50000x32, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x32, .f32⟩
  | 70 => ⟨S1x8x3, .f32⟩
  | 71 => ⟨S8x3, .f32⟩
  | 72 => ⟨S3x8, .f32⟩
  | 73 => ⟨S1x32x8, .f32⟩
  | 74 => ⟨S32x8, .f32⟩
  | 75 => ⟨S8x32, .f32⟩
  | 76 => ⟨S1x8, .f32⟩
  | 77 => ⟨S8, .f32⟩
  | 78 => ⟨S1x32, .f32⟩
  | 79 => ⟨S32, .f32⟩
  | 80 => ⟨S1600000x32, .f32⟩
  | 81 => ⟨S_, .f32⟩
  | 82 => ⟨S50000x32, .f32⟩
  | 83 => ⟨S1600000x1, .i32⟩
  | 84 => ⟨S50000x32, .f32⟩
  | 85 => ⟨S1x32x32, .f32⟩
  | 86 => ⟨S32x32, .f32⟩
  | 87 => ⟨S1x32, .f32⟩
  | 88 => ⟨S32, .f32⟩
  | 89 => ⟨S50000x32, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1x8x3, .f32⟩
  | 100 => ⟨S8x3, .f32⟩
  | 101 => ⟨S3x8, .f32⟩
  | 102 => ⟨S1x32x8, .f32⟩
  | 103 => ⟨S32x8, .f32⟩
  | 104 => ⟨S8x32, .f32⟩
  | 105 => ⟨S1x8, .f32⟩
  | 106 => ⟨S8, .f32⟩
  | 107 => ⟨S1x32, .f32⟩
  | 108 => ⟨S32, .f32⟩
  | 109 => ⟨S1600000x32, .f32⟩
  | 110 => ⟨S_, .f32⟩
  | 111 => ⟨S50000x32, .f32⟩
  | 112 => ⟨S1600000x1, .i32⟩
  | 113 => ⟨S50000x32, .f32⟩
  | 114 => ⟨S1x32x32, .f32⟩
  | 115 => ⟨S32x32, .f32⟩
  | 116 => ⟨S1x32, .f32⟩
  | 117 => ⟨S32, .f32⟩
  | 118 => ⟨S50000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S50000x3, .f32⟩

abbrev hbmTy0_1 (i : Nat) : BufTy := match i % 128 with
  | 0 => ⟨S1x8x3, .f32⟩
  | 1 => ⟨S8x3, .f32⟩
  | 2 => ⟨S3x8, .f32⟩
  | 3 => ⟨S1x32x8, .f32⟩
  | 4 => ⟨S32x8, .f32⟩
  | 5 => ⟨S8x32, .f32⟩
  | 6 => ⟨S1x8, .f32⟩
  | 7 => ⟨S8, .f32⟩
  | 8 => ⟨S1x32, .f32⟩
  | 9 => ⟨S32, .f32⟩
  | 10 => ⟨S1600000x32, .f32⟩
  | 11 => ⟨S_, .f32⟩
  | 12 => ⟨S50000x32, .f32⟩
  | 13 => ⟨S1600000x1, .i32⟩
  | 14 => ⟨S50000x32, .f32⟩
  | 15 => ⟨S1x32x32, .f32⟩
  | 16 => ⟨S32x32, .f32⟩
  | 17 => ⟨S1x32, .f32⟩
  | 18 => ⟨S32, .f32⟩
  | 19 => ⟨S50000x32, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x32, .f32⟩
  | 29 => ⟨S1x8x3, .f32⟩
  | 30 => ⟨S8x3, .f32⟩
  | 31 => ⟨S3x8, .f32⟩
  | 32 => ⟨S1x32x8, .f32⟩
  | 33 => ⟨S32x8, .f32⟩
  | 34 => ⟨S8x32, .f32⟩
  | 35 => ⟨S1x8, .f32⟩
  | 36 => ⟨S8, .f32⟩
  | 37 => ⟨S1x32, .f32⟩
  | 38 => ⟨S32, .f32⟩
  | 39 => ⟨S1600000x32, .f32⟩
  | 40 => ⟨S_, .f32⟩
  | 41 => ⟨S50000x32, .f32⟩
  | 42 => ⟨S1600000x1, .i32⟩
  | 43 => ⟨S50000x32, .f32⟩
  | 44 => ⟨S1x32x32, .f32⟩
  | 45 => ⟨S32x32, .f32⟩
  | 46 => ⟨S1x32, .f32⟩
  | 47 => ⟨S32, .f32⟩
  | 48 => ⟨S50000x32, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1x8x3, .f32⟩
  | 59 => ⟨S8x3, .f32⟩
  | 60 => ⟨S3x8, .f32⟩
  | 61 => ⟨S1x32x8, .f32⟩
  | 62 => ⟨S32x8, .f32⟩
  | 63 => ⟨S8x32, .f32⟩
  | 64 => ⟨S1x8, .f32⟩
  | 65 => ⟨S8, .f32⟩
  | 66 => ⟨S1x32, .f32⟩
  | 67 => ⟨S32, .f32⟩
  | 68 => ⟨S1600000x32, .f32⟩
  | 69 => ⟨S_, .f32⟩
  | 70 => ⟨S50000x32, .f32⟩
  | 71 => ⟨S1600000x1, .i32⟩
  | 72 => ⟨S50000x32, .f32⟩
  | 73 => ⟨S1x32x32, .f32⟩
  | 74 => ⟨S32x32, .f32⟩
  | 75 => ⟨S1x32, .f32⟩
  | 76 => ⟨S32, .f32⟩
  | 77 => ⟨S50000x32, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x32, .f32⟩
  | 87 => ⟨S1x8x3, .f32⟩
  | 88 => ⟨S8x3, .f32⟩
  | 89 => ⟨S3x8, .f32⟩
  | 90 => ⟨S1x32x8, .f32⟩
  | 91 => ⟨S32x8, .f32⟩
  | 92 => ⟨S8x32, .f32⟩
  | 93 => ⟨S1x8, .f32⟩
  | 94 => ⟨S8, .f32⟩
  | 95 => ⟨S1x32, .f32⟩
  | 96 => ⟨S32, .f32⟩
  | 97 => ⟨S1600000x32, .f32⟩
  | 98 => ⟨S_, .f32⟩
  | 99 => ⟨S50000x32, .f32⟩
  | 100 => ⟨S1600000x1, .i32⟩
  | 101 => ⟨S50000x32, .f32⟩
  | 102 => ⟨S1x32x32, .f32⟩
  | 103 => ⟨S32x32, .f32⟩
  | 104 => ⟨S1x32, .f32⟩
  | 105 => ⟨S32, .f32⟩
  | 106 => ⟨S50000x32, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x32, .f32⟩
  | 116 => ⟨S1x8x3, .f32⟩
  | 117 => ⟨S8x3, .f32⟩
  | 118 => ⟨S3x8, .f32⟩
  | 119 => ⟨S1x32x8, .f32⟩
  | 120 => ⟨S32x8, .f32⟩
  | 121 => ⟨S8x32, .f32⟩
  | 122 => ⟨S1x8, .f32⟩
  | 123 => ⟨S8, .f32⟩
  | 124 => ⟨S1x32, .f32⟩
  | 125 => ⟨S32, .f32⟩
  | 126 => ⟨S1600000x32, .f32⟩
  | 127 => ⟨S_, .f32⟩
  | _ => ⟨S50000x3, .f32⟩

abbrev hbmTy0_2 (i : Nat) : BufTy := match i % 128 with
  | 0 => ⟨S50000x32, .f32⟩
  | 1 => ⟨S1600000x1, .i32⟩
  | 2 => ⟨S50000x32, .f32⟩
  | 3 => ⟨S1x32x32, .f32⟩
  | 4 => ⟨S32x32, .f32⟩
  | 5 => ⟨S1x32, .f32⟩
  | 6 => ⟨S32, .f32⟩
  | 7 => ⟨S50000x32, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x32, .f32⟩
  | 17 => ⟨S1x8x3, .f32⟩
  | 18 => ⟨S8x3, .f32⟩
  | 19 => ⟨S3x8, .f32⟩
  | 20 => ⟨S1x32x8, .f32⟩
  | 21 => ⟨S32x8, .f32⟩
  | 22 => ⟨S8x32, .f32⟩
  | 23 => ⟨S1x8, .f32⟩
  | 24 => ⟨S8, .f32⟩
  | 25 => ⟨S1x32, .f32⟩
  | 26 => ⟨S32, .f32⟩
  | 27 => ⟨S1600000x32, .f32⟩
  | 28 => ⟨S_, .f32⟩
  | 29 => ⟨S50000x32, .f32⟩
  | 30 => ⟨S1600000x1, .i32⟩
  | 31 => ⟨S50000x32, .f32⟩
  | 32 => ⟨S1x32x32, .f32⟩
  | 33 => ⟨S32x32, .f32⟩
  | 34 => ⟨S1x32, .f32⟩
  | 35 => ⟨S32, .f32⟩
  | 36 => ⟨S50000x32, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x32, .f32⟩
  | 46 => ⟨S1x8x3, .f32⟩
  | 47 => ⟨S8x3, .f32⟩
  | 48 => ⟨S3x8, .f32⟩
  | 49 => ⟨S1x32x8, .f32⟩
  | 50 => ⟨S32x8, .f32⟩
  | 51 => ⟨S8x32, .f32⟩
  | 52 => ⟨S1x8, .f32⟩
  | 53 => ⟨S8, .f32⟩
  | 54 => ⟨S1x32, .f32⟩
  | 55 => ⟨S32, .f32⟩
  | 56 => ⟨S1600000x32, .f32⟩
  | 57 => ⟨S_, .f32⟩
  | 58 => ⟨S50000x32, .f32⟩
  | 59 => ⟨S1600000x1, .i32⟩
  | 60 => ⟨S50000x32, .f32⟩
  | 61 => ⟨S1x32x32, .f32⟩
  | 62 => ⟨S32x32, .f32⟩
  | 63 => ⟨S1x32, .f32⟩
  | 64 => ⟨S32, .f32⟩
  | 65 => ⟨S50000x32, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x32, .f32⟩
  | 75 => ⟨S1x8x3, .f32⟩
  | 76 => ⟨S8x3, .f32⟩
  | 77 => ⟨S3x8, .f32⟩
  | 78 => ⟨S1x32x8, .f32⟩
  | 79 => ⟨S32x8, .f32⟩
  | 80 => ⟨S8x32, .f32⟩
  | 81 => ⟨S1x8, .f32⟩
  | 82 => ⟨S8, .f32⟩
  | 83 => ⟨S1x32, .f32⟩
  | 84 => ⟨S32, .f32⟩
  | 85 => ⟨S1600000x32, .f32⟩
  | 86 => ⟨S_, .f32⟩
  | 87 => ⟨S50000x32, .f32⟩
  | 88 => ⟨S1600000x1, .i32⟩
  | 89 => ⟨S50000x32, .f32⟩
  | 90 => ⟨S1x32x32, .f32⟩
  | 91 => ⟨S32x32, .f32⟩
  | 92 => ⟨S1x32, .f32⟩
  | 93 => ⟨S32, .f32⟩
  | 94 => ⟨S50000x32, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x32, .f32⟩
  | 104 => ⟨S1x8x3, .f32⟩
  | 105 => ⟨S8x3, .f32⟩
  | 106 => ⟨S3x8, .f32⟩
  | 107 => ⟨S1x32x8, .f32⟩
  | 108 => ⟨S32x8, .f32⟩
  | 109 => ⟨S8x32, .f32⟩
  | 110 => ⟨S1x8, .f32⟩
  | 111 => ⟨S8, .f32⟩
  | 112 => ⟨S1x32, .f32⟩
  | 113 => ⟨S32, .f32⟩
  | 114 => ⟨S1600000x32, .f32⟩
  | 115 => ⟨S_, .f32⟩
  | 116 => ⟨S50000x32, .f32⟩
  | 117 => ⟨S1600000x1, .i32⟩
  | 118 => ⟨S50000x32, .f32⟩
  | 119 => ⟨S1x32x32, .f32⟩
  | 120 => ⟨S32x32, .f32⟩
  | 121 => ⟨S1x32, .f32⟩
  | 122 => ⟨S32, .f32⟩
  | 123 => ⟨S50000x32, .f32⟩
  | 124 => ⟨S32x1, .f32⟩
  | 125 => ⟨S50000x1, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev vmemTy0_0 (i : Nat) : BufTy := match i % 128 with
  | 0 => ⟨S5000x3, .f32⟩
  | 1 => ⟨S5000x3, .f32⟩
  | 2 => ⟨S3x32, .f32⟩
  | 3 => ⟨S32, .f32⟩
  | 4 => ⟨S5000x32, .f32⟩
  | 5 => ⟨S5000x32, .f32⟩
  | 6 => ⟨S8000x3, .f32⟩
  | 7 => ⟨S8000x3, .f32⟩
  | 8 => ⟨S8000x32, .f32⟩
  | 9 => ⟨S8000x32, .f32⟩
  | 10 => ⟨S3x8, .f32⟩
  | 11 => ⟨S8, .f32⟩
  | 12 => ⟨S8x32, .f32⟩
  | 13 => ⟨S32, .f32⟩
  | 14 => ⟨S8000x32, .f32⟩
  | 15 => ⟨S8000x32, .f32⟩
  | 16 => ⟨S5000x32, .f32⟩
  | 17 => ⟨S5000x32, .f32⟩
  | 18 => ⟨S5000x32, .f32⟩
  | 19 => ⟨S5000x32, .f32⟩
  | 20 => ⟨S5000x1, .f32⟩
  | 21 => ⟨S5000x1, .f32⟩
  | 22 => ⟨S32x32, .f32⟩
  | 23 => ⟨S32, .f32⟩
  | 24 => ⟨S5000x32, .f32⟩
  | 25 => ⟨S5000x32, .f32⟩
  | 26 => ⟨S8000x3, .f32⟩
  | 27 => ⟨S8000x3, .f32⟩
  | 28 => ⟨S8000x32, .f32⟩
  | 29 => ⟨S8000x32, .f32⟩
  | 30 => ⟨S3x8, .f32⟩
  | 31 => ⟨S8, .f32⟩
  | 32 => ⟨S8x32, .f32⟩
  | 33 => ⟨S32, .f32⟩
  | 34 => ⟨S8000x32, .f32⟩
  | 35 => ⟨S8000x32, .f32⟩
  | 36 => ⟨S5000x32, .f32⟩
  | 37 => ⟨S5000x32, .f32⟩
  | 38 => ⟨S5000x32, .f32⟩
  | 39 => ⟨S5000x32, .f32⟩
  | 40 => ⟨S5000x1, .f32⟩
  | 41 => ⟨S5000x1, .f32⟩
  | 42 => ⟨S32x32, .f32⟩
  | 43 => ⟨S32, .f32⟩
  | 44 => ⟨S5000x32, .f32⟩
  | 45 => ⟨S5000x32, .f32⟩
  | 46 => ⟨S8000x3, .f32⟩
  | 47 => ⟨S8000x3, .f32⟩
  | 48 => ⟨S8000x32, .f32⟩
  | 49 => ⟨S8000x32, .f32⟩
  | 50 => ⟨S3x8, .f32⟩
  | 51 => ⟨S8, .f32⟩
  | 52 => ⟨S8x32, .f32⟩
  | 53 => ⟨S32, .f32⟩
  | 54 => ⟨S8000x32, .f32⟩
  | 55 => ⟨S8000x32, .f32⟩
  | 56 => ⟨S5000x32, .f32⟩
  | 57 => ⟨S5000x32, .f32⟩
  | 58 => ⟨S5000x32, .f32⟩
  | 59 => ⟨S5000x32, .f32⟩
  | 60 => ⟨S5000x1, .f32⟩
  | 61 => ⟨S5000x1, .f32⟩
  | 62 => ⟨S32x32, .f32⟩
  | 63 => ⟨S32, .f32⟩
  | 64 => ⟨S5000x32, .f32⟩
  | 65 => ⟨S5000x32, .f32⟩
  | 66 => ⟨S8000x3, .f32⟩
  | 67 => ⟨S8000x3, .f32⟩
  | 68 => ⟨S8000x32, .f32⟩
  | 69 => ⟨S8000x32, .f32⟩
  | 70 => ⟨S3x8, .f32⟩
  | 71 => ⟨S8, .f32⟩
  | 72 => ⟨S8x32, .f32⟩
  | 73 => ⟨S32, .f32⟩
  | 74 => ⟨S8000x32, .f32⟩
  | 75 => ⟨S8000x32, .f32⟩
  | 76 => ⟨S5000x32, .f32⟩
  | 77 => ⟨S5000x32, .f32⟩
  | 78 => ⟨S5000x32, .f32⟩
  | 79 => ⟨S5000x32, .f32⟩
  | 80 => ⟨S5000x1, .f32⟩
  | 81 => ⟨S5000x1, .f32⟩
  | 82 => ⟨S32x32, .f32⟩
  | 83 => ⟨S32, .f32⟩
  | 84 => ⟨S5000x32, .f32⟩
  | 85 => ⟨S5000x32, .f32⟩
  | 86 => ⟨S8000x3, .f32⟩
  | 87 => ⟨S8000x3, .f32⟩
  | 88 => ⟨S8000x32, .f32⟩
  | 89 => ⟨S8000x32, .f32⟩
  | 90 => ⟨S3x8, .f32⟩
  | 91 => ⟨S8, .f32⟩
  | 92 => ⟨S8x32, .f32⟩
  | 93 => ⟨S32, .f32⟩
  | 94 => ⟨S8000x32, .f32⟩
  | 95 => ⟨S8000x32, .f32⟩
  | 96 => ⟨S5000x32, .f32⟩
  | 97 => ⟨S5000x32, .f32⟩
  | 98 => ⟨S5000x32, .f32⟩
  | 99 => ⟨S5000x32, .f32⟩
  | 100 => ⟨S5000x1, .f32⟩
  | 101 => ⟨S5000x1, .f32⟩
  | 102 => ⟨S32x32, .f32⟩
  | 103 => ⟨S32, .f32⟩
  | 104 => ⟨S5000x32, .f32⟩
  | 105 => ⟨S5000x32, .f32⟩
  | 106 => ⟨S8000x3, .f32⟩
  | 107 => ⟨S8000x3, .f32⟩
  | 108 => ⟨S8000x32, .f32⟩
  | 109 => ⟨S8000x32, .f32⟩
  | 110 => ⟨S3x8, .f32⟩
  | 111 => ⟨S8, .f32⟩
  | 112 => ⟨S8x32, .f32⟩
  | 113 => ⟨S32, .f32⟩
  | 114 => ⟨S8000x32, .f32⟩
  | 115 => ⟨S8000x32, .f32⟩
  | 116 => ⟨S5000x32, .f32⟩
  | 117 => ⟨S5000x32, .f32⟩
  | 118 => ⟨S5000x32, .f32⟩
  | 119 => ⟨S5000x32, .f32⟩
  | 120 => ⟨S5000x1, .f32⟩
  | 121 => ⟨S5000x1, .f32⟩
  | 122 => ⟨S32x32, .f32⟩
  | 123 => ⟨S32, .f32⟩
  | 124 => ⟨S5000x32, .f32⟩
  | 125 => ⟨S5000x32, .f32⟩
  | 126 => ⟨S8000x3, .f32⟩
  | 127 => ⟨S8000x3, .f32⟩
  | _ => ⟨S50000x3, .f32⟩

abbrev vmemTy0_1 (i : Nat) : BufTy := match i % 128 with
  | 0 => ⟨S8000x32, .f32⟩
  | 1 => ⟨S8000x32, .f32⟩
  | 2 => ⟨S3x8, .f32⟩
  | 3 => ⟨S8, .f32⟩
  | 4 => ⟨S8x32, .f32⟩
  | 5 => ⟨S32, .f32⟩
  | 6 => ⟨S8000x32, .f32⟩
  | 7 => ⟨S8000x32, .f32⟩
  | 8 => ⟨S5000x32, .f32⟩
  | 9 => ⟨S5000x32, .f32⟩
  | 10 => ⟨S5000x32, .f32⟩
  | 11 => ⟨S5000x32, .f32⟩
  | 12 => ⟨S5000x1, .f32⟩
  | 13 => ⟨S5000x1, .f32⟩
  | 14 => ⟨S32x32, .f32⟩
  | 15 => ⟨S32, .f32⟩
  | 16 => ⟨S5000x32, .f32⟩
  | 17 => ⟨S5000x32, .f32⟩
  | 18 => ⟨S8000x3, .f32⟩
  | 19 => ⟨S8000x3, .f32⟩
  | 20 => ⟨S8000x32, .f32⟩
  | 21 => ⟨S8000x32, .f32⟩
  | 22 => ⟨S3x8, .f32⟩
  | 23 => ⟨S8, .f32⟩
  | 24 => ⟨S8x32, .f32⟩
  | 25 => ⟨S32, .f32⟩
  | 26 => ⟨S8000x32, .f32⟩
  | 27 => ⟨S8000x32, .f32⟩
  | 28 => ⟨S5000x32, .f32⟩
  | 29 => ⟨S5000x32, .f32⟩
  | 30 => ⟨S5000x32, .f32⟩
  | 31 => ⟨S5000x32, .f32⟩
  | 32 => ⟨S5000x1, .f32⟩
  | 33 => ⟨S5000x1, .f32⟩
  | 34 => ⟨S32x32, .f32⟩
  | 35 => ⟨S32, .f32⟩
  | 36 => ⟨S5000x32, .f32⟩
  | 37 => ⟨S5000x32, .f32⟩
  | 38 => ⟨S8000x3, .f32⟩
  | 39 => ⟨S8000x3, .f32⟩
  | 40 => ⟨S8000x32, .f32⟩
  | 41 => ⟨S8000x32, .f32⟩
  | 42 => ⟨S3x8, .f32⟩
  | 43 => ⟨S8, .f32⟩
  | 44 => ⟨S8x32, .f32⟩
  | 45 => ⟨S32, .f32⟩
  | 46 => ⟨S8000x32, .f32⟩
  | 47 => ⟨S8000x32, .f32⟩
  | 48 => ⟨S5000x32, .f32⟩
  | 49 => ⟨S5000x32, .f32⟩
  | 50 => ⟨S5000x32, .f32⟩
  | 51 => ⟨S5000x32, .f32⟩
  | 52 => ⟨S5000x1, .f32⟩
  | 53 => ⟨S5000x1, .f32⟩
  | 54 => ⟨S32x32, .f32⟩
  | 55 => ⟨S32, .f32⟩
  | 56 => ⟨S5000x32, .f32⟩
  | 57 => ⟨S5000x32, .f32⟩
  | 58 => ⟨S8000x3, .f32⟩
  | 59 => ⟨S8000x3, .f32⟩
  | 60 => ⟨S8000x32, .f32⟩
  | 61 => ⟨S8000x32, .f32⟩
  | 62 => ⟨S3x8, .f32⟩
  | 63 => ⟨S8, .f32⟩
  | 64 => ⟨S8x32, .f32⟩
  | 65 => ⟨S32, .f32⟩
  | 66 => ⟨S8000x32, .f32⟩
  | 67 => ⟨S8000x32, .f32⟩
  | 68 => ⟨S5000x32, .f32⟩
  | 69 => ⟨S5000x32, .f32⟩
  | 70 => ⟨S5000x32, .f32⟩
  | 71 => ⟨S5000x32, .f32⟩
  | 72 => ⟨S5000x1, .f32⟩
  | 73 => ⟨S5000x1, .f32⟩
  | 74 => ⟨S32x32, .f32⟩
  | 75 => ⟨S32, .f32⟩
  | 76 => ⟨S5000x32, .f32⟩
  | 77 => ⟨S5000x32, .f32⟩
  | 78 => ⟨S8000x3, .f32⟩
  | 79 => ⟨S8000x3, .f32⟩
  | 80 => ⟨S8000x32, .f32⟩
  | 81 => ⟨S8000x32, .f32⟩
  | 82 => ⟨S3x8, .f32⟩
  | 83 => ⟨S8, .f32⟩
  | 84 => ⟨S8x32, .f32⟩
  | 85 => ⟨S32, .f32⟩
  | 86 => ⟨S8000x32, .f32⟩
  | 87 => ⟨S8000x32, .f32⟩
  | 88 => ⟨S5000x32, .f32⟩
  | 89 => ⟨S5000x32, .f32⟩
  | 90 => ⟨S5000x32, .f32⟩
  | 91 => ⟨S5000x32, .f32⟩
  | 92 => ⟨S5000x1, .f32⟩
  | 93 => ⟨S5000x1, .f32⟩
  | 94 => ⟨S32x32, .f32⟩
  | 95 => ⟨S32, .f32⟩
  | 96 => ⟨S5000x32, .f32⟩
  | 97 => ⟨S5000x32, .f32⟩
  | 98 => ⟨S8000x3, .f32⟩
  | 99 => ⟨S8000x3, .f32⟩
  | 100 => ⟨S8000x32, .f32⟩
  | 101 => ⟨S8000x32, .f32⟩
  | 102 => ⟨S3x8, .f32⟩
  | 103 => ⟨S8, .f32⟩
  | 104 => ⟨S8x32, .f32⟩
  | 105 => ⟨S32, .f32⟩
  | 106 => ⟨S8000x32, .f32⟩
  | 107 => ⟨S8000x32, .f32⟩
  | 108 => ⟨S5000x32, .f32⟩
  | 109 => ⟨S5000x32, .f32⟩
  | 110 => ⟨S5000x32, .f32⟩
  | 111 => ⟨S5000x32, .f32⟩
  | 112 => ⟨S5000x1, .f32⟩
  | 113 => ⟨S5000x1, .f32⟩
  | 114 => ⟨S32x32, .f32⟩
  | 115 => ⟨S32, .f32⟩
  | 116 => ⟨S5000x32, .f32⟩
  | 117 => ⟨S5000x32, .f32⟩
  | 118 => ⟨S5000x32, .f32⟩
  | 119 => ⟨S5000x32, .f32⟩
  | 120 => ⟨S32x1, .f32⟩
  | 121 => ⟨S1, .f32⟩
  | 122 => ⟨S5000x1, .f32⟩
  | 123 => ⟨S5000x1, .f32⟩
  | _ => ⟨S50000x3, .f32⟩

abbrev vmemTy (i : Nat) : BufTy := match i / 128 with
  | 0 => vmemTy0_0 i
  | 1 => vmemTy0_1 i
  | _ => ⟨S50000x3, .f32⟩

abbrev bufTy : (tb : Table) → Fin (tcTables nBuf tb) → BufTy
  | .hbm, ⟨i, _⟩ => hbmTy i
  | .local _ .vmem, ⟨i, _⟩ => vmemTy i
  | _, _ => ⟨S50000x3, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 252 → Bool
  | ⟨i, _⟩ => dmaSemScopedAt i

abbrev sig : RefSig :=
  ofTc nBuf bufTy 0 252 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_8 : Ref sig .tc := ⟨.hbm, 90, rfl⟩
abbrev main_v67 : Ref sig .tc := ⟨.hbm, 91, rfl⟩
abbrev main_v68 : Ref sig .tc := ⟨.hbm, 92, rfl⟩
abbrev main_c_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_11 : Ref sig .tc := ⟨.hbm, 119, rfl⟩
abbrev main_v93 : Ref sig .tc := ⟨.hbm, 120, rfl⟩
abbrev main_v94 : Ref sig .tc := ⟨.hbm, 121, rfl⟩
abbrev main_c_12 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_13 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_c_14 : Ref sig .tc := ⟨.hbm, 148, rfl⟩
abbrev main_v119 : Ref sig .tc := ⟨.hbm, 149, rfl⟩
abbrev main_v120 : Ref sig .tc := ⟨.hbm, 150, rfl⟩
abbrev main_c_15 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_16 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_c_17 : Ref sig .tc := ⟨.hbm, 177, rfl⟩
abbrev main_v145 : Ref sig .tc := ⟨.hbm, 178, rfl⟩
abbrev main_v146 : Ref sig .tc := ⟨.hbm, 179, rfl⟩
abbrev main_c_18 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_19 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_c_20 : Ref sig .tc := ⟨.hbm, 206, rfl⟩
abbrev main_v171 : Ref sig .tc := ⟨.hbm, 207, rfl⟩
abbrev main_v172 : Ref sig .tc := ⟨.hbm, 208, rfl⟩
abbrev main_c_21 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_22 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_c_23 : Ref sig .tc := ⟨.hbm, 235, rfl⟩
abbrev main_v197 : Ref sig .tc := ⟨.hbm, 236, rfl⟩
abbrev main_v198 : Ref sig .tc := ⟨.hbm, 237, rfl⟩
abbrev main_c_24 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_cst_25 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_c_26 : Ref sig .tc := ⟨.hbm, 264, rfl⟩
abbrev main_v223 : Ref sig .tc := ⟨.hbm, 265, rfl⟩
abbrev main_v224 : Ref sig .tc := ⟨.hbm, 266, rfl⟩
abbrev main_c_27 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_cst_28 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_c_29 : Ref sig .tc := ⟨.hbm, 293, rfl⟩
abbrev main_v249 : Ref sig .tc := ⟨.hbm, 294, rfl⟩
abbrev main_v250 : Ref sig .tc := ⟨.hbm, 295, rfl⟩
abbrev main_c_30 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_cst_31 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_c_32 : Ref sig .tc := ⟨.hbm, 322, rfl⟩
abbrev main_v275 : Ref sig .tc := ⟨.hbm, 323, rfl⟩
abbrev main_v276 : Ref sig .tc := ⟨.hbm, 324, rfl⟩
abbrev main_c_33 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_cst_34 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_c_35 : Ref sig .tc := ⟨.hbm, 351, rfl⟩
abbrev main_v301 : Ref sig .tc := ⟨.hbm, 352, rfl⟩
abbrev main_v302 : Ref sig .tc := ⟨.hbm, 353, rfl⟩
abbrev main_c_36 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_cst_37 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg5_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg1_1 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg6_0 : Ref sig .tc := ⟨.vmem, 94, rfl⟩
abbrev cc9_stg6_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg1_1 : Ref sig .tc := ⟨.vmem, 99, rfl⟩
abbrev cc10_stg2_0 : Ref sig .tc := ⟨.vmem, 100, rfl⟩
abbrev cc10_stg2_1 : Ref sig .tc := ⟨.vmem, 101, rfl⟩
abbrev cc10_stg3_0 : Ref sig .tc := ⟨.vmem, 102, rfl⟩
abbrev cc10_stg4_0 : Ref sig .tc := ⟨.vmem, 103, rfl⟩
abbrev cc10_stg5_0 : Ref sig .tc := ⟨.vmem, 104, rfl⟩
abbrev cc10_stg5_1 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg1_1 : Ref sig .tc := ⟨.vmem, 109, rfl⟩
abbrev cc11_stg2_0 : Ref sig .tc := ⟨.vmem, 110, rfl⟩
abbrev cc11_stg3_0 : Ref sig .tc := ⟨.vmem, 111, rfl⟩
abbrev cc11_stg4_0 : Ref sig .tc := ⟨.vmem, 112, rfl⟩
abbrev cc11_stg5_0 : Ref sig .tc := ⟨.vmem, 113, rfl⟩
abbrev cc11_stg6_0 : Ref sig .tc := ⟨.vmem, 114, rfl⟩
abbrev cc11_stg6_1 : Ref sig .tc := ⟨.vmem, 115, rfl⟩
abbrev cc12_stg0_0 : Ref sig .tc := ⟨.vmem, 116, rfl⟩
abbrev cc12_stg0_1 : Ref sig .tc := ⟨.vmem, 117, rfl⟩
abbrev cc12_stg1_0 : Ref sig .tc := ⟨.vmem, 118, rfl⟩
abbrev cc12_stg1_1 : Ref sig .tc := ⟨.vmem, 119, rfl⟩
abbrev cc12_stg2_0 : Ref sig .tc := ⟨.vmem, 120, rfl⟩
abbrev cc12_stg2_1 : Ref sig .tc := ⟨.vmem, 121, rfl⟩
abbrev cc12_stg3_0 : Ref sig .tc := ⟨.vmem, 122, rfl⟩
abbrev cc12_stg4_0 : Ref sig .tc := ⟨.vmem, 123, rfl⟩
abbrev cc12_stg5_0 : Ref sig .tc := ⟨.vmem, 124, rfl⟩
abbrev cc12_stg5_1 : Ref sig .tc := ⟨.vmem, 125, rfl⟩
abbrev cc13_stg0_0 : Ref sig .tc := ⟨.vmem, 126, rfl⟩
abbrev cc13_stg0_1 : Ref sig .tc := ⟨.vmem, 127, rfl⟩
abbrev cc13_stg1_0 : Ref sig .tc := ⟨.vmem, 128, rfl⟩
abbrev cc13_stg1_1 : Ref sig .tc := ⟨.vmem, 129, rfl⟩
abbrev cc13_stg2_0 : Ref sig .tc := ⟨.vmem, 130, rfl⟩
abbrev cc13_stg3_0 : Ref sig .tc := ⟨.vmem, 131, rfl⟩
abbrev cc13_stg4_0 : Ref sig .tc := ⟨.vmem, 132, rfl⟩
abbrev cc13_stg5_0 : Ref sig .tc := ⟨.vmem, 133, rfl⟩
abbrev cc13_stg6_0 : Ref sig .tc := ⟨.vmem, 134, rfl⟩
abbrev cc13_stg6_1 : Ref sig .tc := ⟨.vmem, 135, rfl⟩
abbrev cc14_stg0_0 : Ref sig .tc := ⟨.vmem, 136, rfl⟩
abbrev cc14_stg0_1 : Ref sig .tc := ⟨.vmem, 137, rfl⟩
abbrev cc14_stg1_0 : Ref sig .tc := ⟨.vmem, 138, rfl⟩
abbrev cc14_stg1_1 : Ref sig .tc := ⟨.vmem, 139, rfl⟩
abbrev cc14_stg2_0 : Ref sig .tc := ⟨.vmem, 140, rfl⟩
abbrev cc14_stg2_1 : Ref sig .tc := ⟨.vmem, 141, rfl⟩
abbrev cc14_stg3_0 : Ref sig .tc := ⟨.vmem, 142, rfl⟩
abbrev cc14_stg4_0 : Ref sig .tc := ⟨.vmem, 143, rfl⟩
abbrev cc14_stg5_0 : Ref sig .tc := ⟨.vmem, 144, rfl⟩
abbrev cc14_stg5_1 : Ref sig .tc := ⟨.vmem, 145, rfl⟩
abbrev cc15_stg0_0 : Ref sig .tc := ⟨.vmem, 146, rfl⟩
abbrev cc15_stg0_1 : Ref sig .tc := ⟨.vmem, 147, rfl⟩
abbrev cc15_stg1_0 : Ref sig .tc := ⟨.vmem, 148, rfl⟩
abbrev cc15_stg1_1 : Ref sig .tc := ⟨.vmem, 149, rfl⟩
abbrev cc15_stg2_0 : Ref sig .tc := ⟨.vmem, 150, rfl⟩
abbrev cc15_stg3_0 : Ref sig .tc := ⟨.vmem, 151, rfl⟩
abbrev cc15_stg4_0 : Ref sig .tc := ⟨.vmem, 152, rfl⟩
abbrev cc15_stg5_0 : Ref sig .tc := ⟨.vmem, 153, rfl⟩
abbrev cc15_stg6_0 : Ref sig .tc := ⟨.vmem, 154, rfl⟩
abbrev cc15_stg6_1 : Ref sig .tc := ⟨.vmem, 155, rfl⟩
abbrev cc16_stg0_0 : Ref sig .tc := ⟨.vmem, 156, rfl⟩
abbrev cc16_stg0_1 : Ref sig .tc := ⟨.vmem, 157, rfl⟩
abbrev cc16_stg1_0 : Ref sig .tc := ⟨.vmem, 158, rfl⟩
abbrev cc16_stg1_1 : Ref sig .tc := ⟨.vmem, 159, rfl⟩
abbrev cc16_stg2_0 : Ref sig .tc := ⟨.vmem, 160, rfl⟩
abbrev cc16_stg2_1 : Ref sig .tc := ⟨.vmem, 161, rfl⟩
abbrev cc16_stg3_0 : Ref sig .tc := ⟨.vmem, 162, rfl⟩
abbrev cc16_stg4_0 : Ref sig .tc := ⟨.vmem, 163, rfl⟩
abbrev cc16_stg5_0 : Ref sig .tc := ⟨.vmem, 164, rfl⟩
abbrev cc16_stg5_1 : Ref sig .tc := ⟨.vmem, 165, rfl⟩
abbrev cc17_stg0_0 : Ref sig .tc := ⟨.vmem, 166, rfl⟩
abbrev cc17_stg0_1 : Ref sig .tc := ⟨.vmem, 167, rfl⟩
abbrev cc17_stg1_0 : Ref sig .tc := ⟨.vmem, 168, rfl⟩
abbrev cc17_stg1_1 : Ref sig .tc := ⟨.vmem, 169, rfl⟩
abbrev cc17_stg2_0 : Ref sig .tc := ⟨.vmem, 170, rfl⟩
abbrev cc17_stg3_0 : Ref sig .tc := ⟨.vmem, 171, rfl⟩
abbrev cc17_stg4_0 : Ref sig .tc := ⟨.vmem, 172, rfl⟩
abbrev cc17_stg5_0 : Ref sig .tc := ⟨.vmem, 173, rfl⟩
abbrev cc17_stg6_0 : Ref sig .tc := ⟨.vmem, 174, rfl⟩
abbrev cc17_stg6_1 : Ref sig .tc := ⟨.vmem, 175, rfl⟩
abbrev cc18_stg0_0 : Ref sig .tc := ⟨.vmem, 176, rfl⟩
abbrev cc18_stg0_1 : Ref sig .tc := ⟨.vmem, 177, rfl⟩
abbrev cc18_stg1_0 : Ref sig .tc := ⟨.vmem, 178, rfl⟩
abbrev cc18_stg1_1 : Ref sig .tc := ⟨.vmem, 179, rfl⟩
abbrev cc18_stg2_0 : Ref sig .tc := ⟨.vmem, 180, rfl⟩
abbrev cc18_stg2_1 : Ref sig .tc := ⟨.vmem, 181, rfl⟩
abbrev cc18_stg3_0 : Ref sig .tc := ⟨.vmem, 182, rfl⟩
abbrev cc18_stg4_0 : Ref sig .tc := ⟨.vmem, 183, rfl⟩
abbrev cc18_stg5_0 : Ref sig .tc := ⟨.vmem, 184, rfl⟩
abbrev cc18_stg5_1 : Ref sig .tc := ⟨.vmem, 185, rfl⟩
abbrev cc19_stg0_0 : Ref sig .tc := ⟨.vmem, 186, rfl⟩
abbrev cc19_stg0_1 : Ref sig .tc := ⟨.vmem, 187, rfl⟩
abbrev cc19_stg1_0 : Ref sig .tc := ⟨.vmem, 188, rfl⟩
abbrev cc19_stg1_1 : Ref sig .tc := ⟨.vmem, 189, rfl⟩
abbrev cc19_stg2_0 : Ref sig .tc := ⟨.vmem, 190, rfl⟩
abbrev cc19_stg3_0 : Ref sig .tc := ⟨.vmem, 191, rfl⟩
abbrev cc19_stg4_0 : Ref sig .tc := ⟨.vmem, 192, rfl⟩
abbrev cc19_stg5_0 : Ref sig .tc := ⟨.vmem, 193, rfl⟩
abbrev cc19_stg6_0 : Ref sig .tc := ⟨.vmem, 194, rfl⟩
abbrev cc19_stg6_1 : Ref sig .tc := ⟨.vmem, 195, rfl⟩
abbrev cc20_stg0_0 : Ref sig .tc := ⟨.vmem, 196, rfl⟩
abbrev cc20_stg0_1 : Ref sig .tc := ⟨.vmem, 197, rfl⟩
abbrev cc20_stg1_0 : Ref sig .tc := ⟨.vmem, 198, rfl⟩
abbrev cc20_stg1_1 : Ref sig .tc := ⟨.vmem, 199, rfl⟩
abbrev cc20_stg2_0 : Ref sig .tc := ⟨.vmem, 200, rfl⟩
abbrev cc20_stg2_1 : Ref sig .tc := ⟨.vmem, 201, rfl⟩
abbrev cc20_stg3_0 : Ref sig .tc := ⟨.vmem, 202, rfl⟩
abbrev cc20_stg4_0 : Ref sig .tc := ⟨.vmem, 203, rfl⟩
abbrev cc20_stg5_0 : Ref sig .tc := ⟨.vmem, 204, rfl⟩
abbrev cc20_stg5_1 : Ref sig .tc := ⟨.vmem, 205, rfl⟩
abbrev cc21_stg0_0 : Ref sig .tc := ⟨.vmem, 206, rfl⟩
abbrev cc21_stg0_1 : Ref sig .tc := ⟨.vmem, 207, rfl⟩
abbrev cc21_stg1_0 : Ref sig .tc := ⟨.vmem, 208, rfl⟩
abbrev cc21_stg1_1 : Ref sig .tc := ⟨.vmem, 209, rfl⟩
abbrev cc21_stg2_0 : Ref sig .tc := ⟨.vmem, 210, rfl⟩
abbrev cc21_stg3_0 : Ref sig .tc := ⟨.vmem, 211, rfl⟩
abbrev cc21_stg4_0 : Ref sig .tc := ⟨.vmem, 212, rfl⟩
abbrev cc21_stg5_0 : Ref sig .tc := ⟨.vmem, 213, rfl⟩
abbrev cc21_stg6_0 : Ref sig .tc := ⟨.vmem, 214, rfl⟩
abbrev cc21_stg6_1 : Ref sig .tc := ⟨.vmem, 215, rfl⟩
abbrev cc22_stg0_0 : Ref sig .tc := ⟨.vmem, 216, rfl⟩
abbrev cc22_stg0_1 : Ref sig .tc := ⟨.vmem, 217, rfl⟩
abbrev cc22_stg1_0 : Ref sig .tc := ⟨.vmem, 218, rfl⟩
abbrev cc22_stg1_1 : Ref sig .tc := ⟨.vmem, 219, rfl⟩
abbrev cc22_stg2_0 : Ref sig .tc := ⟨.vmem, 220, rfl⟩
abbrev cc22_stg2_1 : Ref sig .tc := ⟨.vmem, 221, rfl⟩
abbrev cc22_stg3_0 : Ref sig .tc := ⟨.vmem, 222, rfl⟩
abbrev cc22_stg4_0 : Ref sig .tc := ⟨.vmem, 223, rfl⟩
abbrev cc22_stg5_0 : Ref sig .tc := ⟨.vmem, 224, rfl⟩
abbrev cc22_stg5_1 : Ref sig .tc := ⟨.vmem, 225, rfl⟩
abbrev cc23_stg0_0 : Ref sig .tc := ⟨.vmem, 226, rfl⟩
abbrev cc23_stg0_1 : Ref sig .tc := ⟨.vmem, 227, rfl⟩
abbrev cc23_stg1_0 : Ref sig .tc := ⟨.vmem, 228, rfl⟩
abbrev cc23_stg1_1 : Ref sig .tc := ⟨.vmem, 229, rfl⟩
abbrev cc23_stg2_0 : Ref sig .tc := ⟨.vmem, 230, rfl⟩
abbrev cc23_stg3_0 : Ref sig .tc := ⟨.vmem, 231, rfl⟩
abbrev cc23_stg4_0 : Ref sig .tc := ⟨.vmem, 232, rfl⟩
abbrev cc23_stg5_0 : Ref sig .tc := ⟨.vmem, 233, rfl⟩
abbrev cc23_stg6_0 : Ref sig .tc := ⟨.vmem, 234, rfl⟩
abbrev cc23_stg6_1 : Ref sig .tc := ⟨.vmem, 235, rfl⟩
abbrev cc24_stg0_0 : Ref sig .tc := ⟨.vmem, 236, rfl⟩
abbrev cc24_stg0_1 : Ref sig .tc := ⟨.vmem, 237, rfl⟩
abbrev cc24_stg1_0 : Ref sig .tc := ⟨.vmem, 238, rfl⟩
abbrev cc24_stg1_1 : Ref sig .tc := ⟨.vmem, 239, rfl⟩
abbrev cc24_stg2_0 : Ref sig .tc := ⟨.vmem, 240, rfl⟩
abbrev cc24_stg2_1 : Ref sig .tc := ⟨.vmem, 241, rfl⟩
abbrev cc24_stg3_0 : Ref sig .tc := ⟨.vmem, 242, rfl⟩
abbrev cc24_stg4_0 : Ref sig .tc := ⟨.vmem, 243, rfl⟩
abbrev cc24_stg5_0 : Ref sig .tc := ⟨.vmem, 244, rfl⟩
abbrev cc24_stg5_1 : Ref sig .tc := ⟨.vmem, 245, rfl⟩
abbrev cc25_stg0_0 : Ref sig .tc := ⟨.vmem, 246, rfl⟩
abbrev cc25_stg0_1 : Ref sig .tc := ⟨.vmem, 247, rfl⟩
abbrev cc25_stg1_0 : Ref sig .tc := ⟨.vmem, 248, rfl⟩
abbrev cc25_stg2_0 : Ref sig .tc := ⟨.vmem, 249, rfl⟩
abbrev cc25_stg3_0 : Ref sig .tc := ⟨.vmem, 250, rfl⟩
abbrev cc25_stg3_1 : Ref sig .tc := ⟨.vmem, 251, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81
abbrev cc8_sem3_0 : DmaSem sig := 82
abbrev cc8_sem4_0 : DmaSem sig := 83
abbrev cc8_sem5_0 : DmaSem sig := 84
abbrev cc8_sem5_1 : DmaSem sig := 85
abbrev cc9_sem0_0 : DmaSem sig := 86
abbrev cc9_sem0_1 : DmaSem sig := 87
abbrev cc9_sem1_0 : DmaSem sig := 88
abbrev cc9_sem1_1 : DmaSem sig := 89
abbrev cc9_sem2_0 : DmaSem sig := 90
abbrev cc9_sem3_0 : DmaSem sig := 91
abbrev cc9_sem4_0 : DmaSem sig := 92
abbrev cc9_sem5_0 : DmaSem sig := 93
abbrev cc9_sem6_0 : DmaSem sig := 94
abbrev cc9_sem6_1 : DmaSem sig := 95
abbrev cc10_sem0_0 : DmaSem sig := 96
abbrev cc10_sem0_1 : DmaSem sig := 97
abbrev cc10_sem1_0 : DmaSem sig := 98
abbrev cc10_sem1_1 : DmaSem sig := 99
abbrev cc10_sem2_0 : DmaSem sig := 100
abbrev cc10_sem2_1 : DmaSem sig := 101
abbrev cc10_sem3_0 : DmaSem sig := 102
abbrev cc10_sem4_0 : DmaSem sig := 103
abbrev cc10_sem5_0 : DmaSem sig := 104
abbrev cc10_sem5_1 : DmaSem sig := 105
abbrev cc11_sem0_0 : DmaSem sig := 106
abbrev cc11_sem0_1 : DmaSem sig := 107
abbrev cc11_sem1_0 : DmaSem sig := 108
abbrev cc11_sem1_1 : DmaSem sig := 109
abbrev cc11_sem2_0 : DmaSem sig := 110
abbrev cc11_sem3_0 : DmaSem sig := 111
abbrev cc11_sem4_0 : DmaSem sig := 112
abbrev cc11_sem5_0 : DmaSem sig := 113
abbrev cc11_sem6_0 : DmaSem sig := 114
abbrev cc11_sem6_1 : DmaSem sig := 115
abbrev cc12_sem0_0 : DmaSem sig := 116
abbrev cc12_sem0_1 : DmaSem sig := 117
abbrev cc12_sem1_0 : DmaSem sig := 118
abbrev cc12_sem1_1 : DmaSem sig := 119
abbrev cc12_sem2_0 : DmaSem sig := 120
abbrev cc12_sem2_1 : DmaSem sig := 121
abbrev cc12_sem3_0 : DmaSem sig := 122
abbrev cc12_sem4_0 : DmaSem sig := 123
abbrev cc12_sem5_0 : DmaSem sig := 124
abbrev cc12_sem5_1 : DmaSem sig := 125
abbrev cc13_sem0_0 : DmaSem sig := 126
abbrev cc13_sem0_1 : DmaSem sig := 127
abbrev cc13_sem1_0 : DmaSem sig := 128
abbrev cc13_sem1_1 : DmaSem sig := 129
abbrev cc13_sem2_0 : DmaSem sig := 130
abbrev cc13_sem3_0 : DmaSem sig := 131
abbrev cc13_sem4_0 : DmaSem sig := 132
abbrev cc13_sem5_0 : DmaSem sig := 133
abbrev cc13_sem6_0 : DmaSem sig := 134
abbrev cc13_sem6_1 : DmaSem sig := 135
abbrev cc14_sem0_0 : DmaSem sig := 136
abbrev cc14_sem0_1 : DmaSem sig := 137
abbrev cc14_sem1_0 : DmaSem sig := 138
abbrev cc14_sem1_1 : DmaSem sig := 139
abbrev cc14_sem2_0 : DmaSem sig := 140
abbrev cc14_sem2_1 : DmaSem sig := 141
abbrev cc14_sem3_0 : DmaSem sig := 142
abbrev cc14_sem4_0 : DmaSem sig := 143
abbrev cc14_sem5_0 : DmaSem sig := 144
abbrev cc14_sem5_1 : DmaSem sig := 145
abbrev cc15_sem0_0 : DmaSem sig := 146
abbrev cc15_sem0_1 : DmaSem sig := 147
abbrev cc15_sem1_0 : DmaSem sig := 148
abbrev cc15_sem1_1 : DmaSem sig := 149
abbrev cc15_sem2_0 : DmaSem sig := 150
abbrev cc15_sem3_0 : DmaSem sig := 151
abbrev cc15_sem4_0 : DmaSem sig := 152
abbrev cc15_sem5_0 : DmaSem sig := 153
abbrev cc15_sem6_0 : DmaSem sig := 154
abbrev cc15_sem6_1 : DmaSem sig := 155
abbrev cc16_sem0_0 : DmaSem sig := 156
abbrev cc16_sem0_1 : DmaSem sig := 157
abbrev cc16_sem1_0 : DmaSem sig := 158
abbrev cc16_sem1_1 : DmaSem sig := 159
abbrev cc16_sem2_0 : DmaSem sig := 160
abbrev cc16_sem2_1 : DmaSem sig := 161
abbrev cc16_sem3_0 : DmaSem sig := 162
abbrev cc16_sem4_0 : DmaSem sig := 163
abbrev cc16_sem5_0 : DmaSem sig := 164
abbrev cc16_sem5_1 : DmaSem sig := 165
abbrev cc17_sem0_0 : DmaSem sig := 166
abbrev cc17_sem0_1 : DmaSem sig := 167
abbrev cc17_sem1_0 : DmaSem sig := 168
abbrev cc17_sem1_1 : DmaSem sig := 169
abbrev cc17_sem2_0 : DmaSem sig := 170
abbrev cc17_sem3_0 : DmaSem sig := 171
abbrev cc17_sem4_0 : DmaSem sig := 172
abbrev cc17_sem5_0 : DmaSem sig := 173
abbrev cc17_sem6_0 : DmaSem sig := 174
abbrev cc17_sem6_1 : DmaSem sig := 175
abbrev cc18_sem0_0 : DmaSem sig := 176
abbrev cc18_sem0_1 : DmaSem sig := 177
abbrev cc18_sem1_0 : DmaSem sig := 178
abbrev cc18_sem1_1 : DmaSem sig := 179
abbrev cc18_sem2_0 : DmaSem sig := 180
abbrev cc18_sem2_1 : DmaSem sig := 181
abbrev cc18_sem3_0 : DmaSem sig := 182
abbrev cc18_sem4_0 : DmaSem sig := 183
abbrev cc18_sem5_0 : DmaSem sig := 184
abbrev cc18_sem5_1 : DmaSem sig := 185
abbrev cc19_sem0_0 : DmaSem sig := 186
abbrev cc19_sem0_1 : DmaSem sig := 187
abbrev cc19_sem1_0 : DmaSem sig := 188
abbrev cc19_sem1_1 : DmaSem sig := 189
abbrev cc19_sem2_0 : DmaSem sig := 190
abbrev cc19_sem3_0 : DmaSem sig := 191
abbrev cc19_sem4_0 : DmaSem sig := 192
abbrev cc19_sem5_0 : DmaSem sig := 193
abbrev cc19_sem6_0 : DmaSem sig := 194
abbrev cc19_sem6_1 : DmaSem sig := 195
abbrev cc20_sem0_0 : DmaSem sig := 196
abbrev cc20_sem0_1 : DmaSem sig := 197
abbrev cc20_sem1_0 : DmaSem sig := 198
abbrev cc20_sem1_1 : DmaSem sig := 199
abbrev cc20_sem2_0 : DmaSem sig := 200
abbrev cc20_sem2_1 : DmaSem sig := 201
abbrev cc20_sem3_0 : DmaSem sig := 202
abbrev cc20_sem4_0 : DmaSem sig := 203
abbrev cc20_sem5_0 : DmaSem sig := 204
abbrev cc20_sem5_1 : DmaSem sig := 205
abbrev cc21_sem0_0 : DmaSem sig := 206
abbrev cc21_sem0_1 : DmaSem sig := 207
abbrev cc21_sem1_0 : DmaSem sig := 208
abbrev cc21_sem1_1 : DmaSem sig := 209
abbrev cc21_sem2_0 : DmaSem sig := 210
abbrev cc21_sem3_0 : DmaSem sig := 211
abbrev cc21_sem4_0 : DmaSem sig := 212
abbrev cc21_sem5_0 : DmaSem sig := 213
abbrev cc21_sem6_0 : DmaSem sig := 214
abbrev cc21_sem6_1 : DmaSem sig := 215
abbrev cc22_sem0_0 : DmaSem sig := 216
abbrev cc22_sem0_1 : DmaSem sig := 217
abbrev cc22_sem1_0 : DmaSem sig := 218
abbrev cc22_sem1_1 : DmaSem sig := 219
abbrev cc22_sem2_0 : DmaSem sig := 220
abbrev cc22_sem2_1 : DmaSem sig := 221
abbrev cc22_sem3_0 : DmaSem sig := 222
abbrev cc22_sem4_0 : DmaSem sig := 223
abbrev cc22_sem5_0 : DmaSem sig := 224
abbrev cc22_sem5_1 : DmaSem sig := 225
abbrev cc23_sem0_0 : DmaSem sig := 226
abbrev cc23_sem0_1 : DmaSem sig := 227
abbrev cc23_sem1_0 : DmaSem sig := 228
abbrev cc23_sem1_1 : DmaSem sig := 229
abbrev cc23_sem2_0 : DmaSem sig := 230
abbrev cc23_sem3_0 : DmaSem sig := 231
abbrev cc23_sem4_0 : DmaSem sig := 232
abbrev cc23_sem5_0 : DmaSem sig := 233
abbrev cc23_sem6_0 : DmaSem sig := 234
abbrev cc23_sem6_1 : DmaSem sig := 235
abbrev cc24_sem0_0 : DmaSem sig := 236
abbrev cc24_sem0_1 : DmaSem sig := 237
abbrev cc24_sem1_0 : DmaSem sig := 238
abbrev cc24_sem1_1 : DmaSem sig := 239
abbrev cc24_sem2_0 : DmaSem sig := 240
abbrev cc24_sem2_1 : DmaSem sig := 241
abbrev cc24_sem3_0 : DmaSem sig := 242
abbrev cc24_sem4_0 : DmaSem sig := 243
abbrev cc24_sem5_0 : DmaSem sig := 244
abbrev cc24_sem5_1 : DmaSem sig := 245
abbrev cc25_sem0_0 : DmaSem sig := 246
abbrev cc25_sem0_1 : DmaSem sig := 247
abbrev cc25_sem1_0 : DmaSem sig := 248
abbrev cc25_sem2_0 : DmaSem sig := 249
abbrev cc25_sem3_0 : DmaSem sig := 250
abbrev cc25_sem3_1 : DmaSem sig := 251

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S3x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S3x8 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S8x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S32x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![200], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x3 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S3x8 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S8 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S8x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S8000x32 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S32x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S32 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x32 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![200], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x3 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8000x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S3x8 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S8 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S8x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S32 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S8000x32 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x32 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S32x32 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S32 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x32 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![200], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x3 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8000x32 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S3x8 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S8 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S8x32 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S32 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S8000x32 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x32 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S32x32 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S32 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x32 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![200], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8000x3 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8000x32 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S3x8 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S8 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S8x32 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S32 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 2 → Memref sig .tc .vmem S8000x32 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 1 → Nat :=
  let arg0 : BitVec 32 := BitVec.ofNat 32 (i 0).val
  let c0_i32 : BitVec 32 := 0#32
  let c0_i32_0 : BitVec 32 := 0#32
  ![c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x32 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x1 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S32x32 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S32 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x32 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![200], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S8000x3 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S8000x32 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S3x8 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S8 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S8x32 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S32 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 2 → Memref sig .tc .vmem S8000x32 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x32 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x32 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S5000x1 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S32x32 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S32 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S5000x32 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![200], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S8000x3 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S8000x32 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S3x8 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S8 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S8x32 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 1 → Memref sig .tc .vmem S32 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 2 → Memref sig .tc .vmem S8000x32 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 1 → Nat :=
  let arg0 : BitVec 32 := BitVec.ofNat 32 (i 0).val
  let c0_i32 : BitVec 32 := 0#32
  let c0_i32_0 : BitVec 32 := 0#32
  ![c0_i32.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x32 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x32 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S5000x1 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 1 → Memref sig .tc .vmem S32x32 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S32 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 2 → Memref sig .tc .vmem S5000x32 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev grid21 : Pipeline.Grid := ⟨1, ![200], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 1 → Nat :=
  let arg0 : BitVec 32 := BitVec.ofNat 32 (i 0).val
  let c0_i32 : BitVec 32 := 0#32
  let c0_i32_0 : BitVec 32 := 0#32
  ![c0_i32.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 1 → Nat :=
  let arg0 : BitVec 32 := BitVec.ofNat 32 (i 0).val
  let c0_i32 : BitVec 32 := 0#32
  let c0_i32_0 : BitVec 32 := 0#32
  ![c0_i32.toNat]

def cc21_transform_6 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S8000x3 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S8000x32 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S3x8 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S8 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S8x32 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 1 → Memref sig .tc .vmem S32 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![false]

abbrev stage21_6 : Fin 2 → Memref sig .tc .vmem S8000x32 .f32 := fun | 0 => Memref.whole cc21_stg6_0 | 1 => Memref.whole cc21_stg6_1 | ⟨_ + 2, h⟩ => absurd h (Nat.not_lt.2 (Nat.le_add_left _ _))
abbrev sem21_6 : Fin 2 → DmaSem sig := fun | 0 => cc21_sem6_0 | 1 => cc21_sem6_1 | ⟨_ + 2, h⟩ => absurd h (Nat.not_lt.2 (Nat.le_add_left _ _))
abbrev reads21_6 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 1 → Nat :=
  let arg0 : BitVec 32 := BitVec.ofNat 32 (i 0).val
  let c0_i32 : BitVec 32 := 0#32
  let c0_i32_0 : BitVec 32 := 0#32
  ![c0_i32.toNat]

def cc22_transform_5 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x32 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x32 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S5000x1 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 1 → Memref sig .tc .vmem S32x32 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S32 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 2 → Memref sig .tc .vmem S5000x32 .f32 := fun | 0 => Memref.whole cc22_stg5_0 | 1 => Memref.whole cc22_stg5_1 | ⟨_ + 2, h⟩ => absurd h (Nat.not_lt.2 (Nat.le_add_left _ _))
abbrev sem22_5 : Fin 2 → DmaSem sig := fun | 0 => cc22_sem5_0 | 1 => cc22_sem5_1 | ⟨_ + 2, h⟩ => absurd h (Nat.not_lt.2 (Nat.le_add_left _ _))
abbrev reads22_5 : Fin grid22.rank → Bool := ![true]

abbrev grid23 : Pipeline.Grid := ⟨1, ![200], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 1 → Nat :=
  let arg0 : BitVec 32 := BitVec.ofNat 32 (i 0).val
  let c0_i32 : BitVec 32 := 0#32
  let c0_i32_0 : BitVec 32 := 0#32
  ![c0_i32.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 1 → Nat :=
  let arg0 : BitVec 32 := BitVec.ofNat 32 (i 0).val
  let c0_i32 : BitVec 32 := 0#32
  let c0_i32_0 : BitVec 32 := 0#32
  ![c0_i32.toNat]

def cc23_transform_6 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S8000x3 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S8000x32 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 1 → Memref sig .tc .vmem S3x8 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S8 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S8x32 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 1 → Memref sig .tc .vmem S32 .f32 := fun | 0 => Memref.whole cc23_stg5_0 | ⟨_ + 1, h⟩ => absurd h (Nat.not_lt.2 (Nat.le_add_left _ _))
abbrev sem23_5 : Fin 1 → DmaSem sig := fun | 0 => cc23_sem5_0 | ⟨_ + 1, h⟩ => absurd h (Nat.not_lt.2 (Nat.le_add_left _ _))
abbrev reads23_5 : Fin grid23.rank → Bool := ![false]

abbrev stage23_6 : Fin 2 → Memref sig .tc .vmem S8000x32 .f32 := fun | 0 => Memref.whole cc23_stg6_0 | 1 => Memref.whole cc23_stg6_1 | ⟨_ + 2, h⟩ => absurd h (Nat.not_lt.2 (Nat.le_add_left _ _))
abbrev sem23_6 : Fin 2 → DmaSem sig := fun | 0 => cc23_sem6_0 | 1 => cc23_sem6_1 | ⟨_ + 2, h⟩ => absurd h (Nat.not_lt.2 (Nat.le_add_left _ _))
abbrev reads23_6 : Fin grid23.rank → Bool := ![true]

abbrev grid24 : Pipeline.Grid := ⟨1, ![10], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 1 → Nat :=
  let arg0 : BitVec 32 := BitVec.ofNat 32 (i 0).val
  let c0_i32 : BitVec 32 := 0#32
  let c0_i32_0 : BitVec 32 := 0#32
  ![c0_i32.toNat]

def cc24_transform_5 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S5000x32 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x32 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S5000x1 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 1 → Memref sig .tc .vmem S32x32 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S32 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 2 → Memref sig .tc .vmem S5000x32 .f32 := fun | 0 => Memref.whole cc24_stg5_0 | 1 => Memref.whole cc24_stg5_1 | ⟨_ + 2, h⟩ => absurd h (Nat.not_lt.2 (Nat.le_add_left _ _))
abbrev sem24_5 : Fin 2 → DmaSem sig := fun | 0 => cc24_sem5_0 | 1 => cc24_sem5_1 | ⟨_ + 2, h⟩ => absurd h (Nat.not_lt.2 (Nat.le_add_left _ _))
abbrev reads24_5 : Fin grid24.rank → Bool := ![true]

abbrev grid25 : Pipeline.Grid := ⟨1, ![10], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 1 → Nat :=
  let arg0 : BitVec 32 := BitVec.ofNat 32 (i 0).val
  let c0_i32 : BitVec 32 := 0#32
  let c0_i32_0 : BitVec 32 := 0#32
  ![c0_i32.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S5000x32 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S32x1 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 2 → Memref sig .tc .vmem S5000x1 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  transposes_S32x3_S3x32_1_0 : S32x3.Transposes [1, 0] S3x32
  inb_S5000x3_S5000x3_0_0 : ∀ a, (![0, 0] : Fin 2 → Nat) a + S5000x3.size a ≤ S5000x3.size a
  h_S5000x3 : 0 < S5000x3.numel
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  slices_S3x8x3_S1x8x3_0_0_0 : S3x8x3.Slices ![0, 0, 0] S1x8x3
  shapeCasts_S1x8x3_S8x3 : S1x8x3.ShapeCasts S8x3
  transposes_S8x3_S3x8_1_0 : S8x3.Transposes [1, 0] S3x8
  slices_S3x32x8_S1x32x8_0_0_0 : S3x32x8.Slices ![0, 0, 0] S1x32x8
  shapeCasts_S1x32x8_S32x8 : S1x32x8.ShapeCasts S32x8
  transposes_S32x8_S8x32_1_0 : S32x8.Transposes [1, 0] S8x32
  slices_S3x8_S1x8_0_0 : S3x8.Slices ![0, 0] S1x8
  shapeCasts_S1x8_S8 : S1x8.ShapeCasts S8
  slices_S3x32_S1x32_0_0 : S3x32.Slices ![0, 0] S1x32
  shapeCasts_S1x32_S32 : S1x32.ShapeCasts S32
  inb_S8000x3_S8000x3_0_0 : ∀ a, (![0, 0] : Fin 2 → Nat) a + S8000x3.size a ≤ S8000x3.size a
  h_S8000x3 : 0 < S8000x3.numel
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S8000x8 : S1x8.Broadcasts S8000x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  shapeCasts_S32_S32 : S32.ShapeCasts S32
  broadcasts_S1x32_S8000x32 : S1x32.Broadcasts S8000x32
  bcast_S_S50000x32 : S_.BroadcastsInDim S50000x32 (![] : Fin 0 → Fin S50000x32.rank)
  slices_S3x32x32_S1x32x32_0_0_0 : S3x32x32.Slices ![0, 0, 0] S1x32x32
  shapeCasts_S1x32x32_S32x32 : S1x32x32.ShapeCasts S32x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S5000x1_S5000x32 : S5000x1.Broadcasts S5000x32
  slices_S3x8x3_S1x8x3_1_0_0 : S3x8x3.Slices ![1, 0, 0] S1x8x3
  slices_S3x32x8_S1x32x8_1_0_0 : S3x32x8.Slices ![1, 0, 0] S1x32x8
  slices_S3x8_S1x8_1_0 : S3x8.Slices ![1, 0] S1x8
  slices_S3x32_S1x32_1_0 : S3x32.Slices ![1, 0] S1x32
  slices_S3x32x32_S1x32x32_1_0_0 : S3x32x32.Slices ![1, 0, 0] S1x32x32
  slices_S3x8x3_S1x8x3_2_0_0 : S3x8x3.Slices ![2, 0, 0] S1x8x3
  slices_S3x32x8_S1x32x8_2_0_0 : S3x32x8.Slices ![2, 0, 0] S1x32x8
  slices_S3x8_S1x8_2_0 : S3x8.Slices ![2, 0] S1x8
  slices_S3x32_S1x32_2_0 : S3x32.Slices ![2, 0] S1x32
  slices_S3x32x32_S1x32x32_2_0_0 : S3x32x32.Slices ![2, 0, 0] S1x32x32
  transposes_S1x32_S32x1_1_0 : S1x32.Transposes [1, 0] S32x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S50000_S1600000x1_S1600000_n_0_0_1_wf : ScatterDims.WF S50000 S1600000x1 S1600000 [] [0] [0] 1
  dot_S5000x3_S3x32_S5000x32_1_0_0_1_n_n_wf : DotDims.WF S5000x3 S3x32 S5000x32 [1] [0] [0] [1] [] []
  gather_S50000x32_S1600000x1_S1600000x32_1_0_n_n_0_1_132_wf : GatherDims.WF S50000x32 S1600000x1 S1600000x32 [1] [0] [] [0] [] 1 ![1, 32]
  dot_S8000x3_S3x8_S8000x8_1_0_0_1_n_n_wf : DotDims.WF S8000x3 S3x8 S8000x8 [1] [0] [0] [1] [] []
  dot_S8000x8_S8x32_S8000x32_1_0_0_1_n_n_wf : DotDims.WF S8000x8 S8x32 S8000x32 [1] [0] [0] [1] [] []
  scatter_S50000x32_S1600000x1_S1600000x32_1_0_0_1_wf : ScatterDims.WF S50000x32 S1600000x1 S1600000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x3.size a ≤ S1600000x3.size a
  hwx1_0 : ∀ i : grid1.Coords, EltTy.bits .f32 = 32 ∨ (Rect.block (s := S1600000x3) S8000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x8.size a ≤ S3x8.size a
  hwx1_2 : ∀ i : grid1.Coords, EltTy.bits .f32 = 32 ∨ (Rect.block (s := S3x8) S3x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x32.size a ≤ S8x32.size a
  hwx1_4 : ∀ i : grid1.Coords, EltTy.bits .f32 = 32 ∨ (Rect.block (s := S8x32) S8x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x32.size a ≤ S1600000x32.size a
  hwx1_6 : ∀ i : grid1.Coords, EltTy.bits .f32 = 32 ∨ (Rect.block (s := S1600000x32) S8000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S50000x32.size a
  hwx2_1 : ∀ i : grid2.Coords, EltTy.bits .f32 = 32 ∨ (Rect.block (s := S50000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S50000x32.size a
  hwx2_5 : ∀ i : grid2.Coords, EltTy.bits .f32 = 32 ∨ (Rect.block (s := S50000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x3.size a ≤ S1600000x3.size a
  hwx3_0 : ∀ i : grid3.Coords, EltTy.bits .f32 = 32 ∨ (Rect.block (s := S1600000x3) S8000x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x32.size a ≤ S1600000x32.size a
  hwx3_1 : ∀ i : grid3.Coords, EltTy.bits .f32 = 32 ∨ (Rect.block (s := S1600000x32) S8000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x8.size a ≤ S3x8.size a
  hwx3_2 : ∀ i : grid3.Coords, EltTy.bits .f32 = 32 ∨ (Rect.block (s := S3x8) S3x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8.size a ≤ S8.size a
  hwx3_3 : ∀ i : grid3.Coords, EltTy.bits .f32 = 32 ∨ (Rect.block (s := S8) S8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x32.size a ≤ S8x32.size a
  hwx3_4 : ∀ i : grid3.Coords, EltTy.bits .f32 = 32 ∨ (Rect.block (s := S8x32) S8x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32.size a ≤ S32.size a
  hwx3_5 : ∀ i : grid3.Coords, EltTy.bits .f32 = 32 ∨ (Rect.block (s := S32) S32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x32.size a ≤ S1600000x32.size a
  hwx3_6 : ∀ i : grid3.Coords, EltTy.bits .f32 = 32 ∨ (Rect.block (s := S1600000x32) S8000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S50000x32.size a
  hwx4_1 : ∀ i : grid4.Coords, EltTy.bits .f32 = 32 ∨ (Rect.block (s := S50000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x32.size a ≤ S50000x32.size a
  hwx4_5 : ∀ i : grid4.Coords, EltTy.bits .f32 = 32 ∨ (Rect.block (s := S50000x32) S5000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x3.size a ≤ S1600000x3.size a
  hwx5_0 : ∀ i : grid5.Coords, EltTy.bits .f32 = 32 ∨ (Rect.block (s := S1600000x3) S8000x3.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x32.size a ≤ S1600000x32.size a
  hwx5_1 : ∀ i : grid5.Coords, EltTy.bits .f32 = 32 ∨ (Rect.block (s := S1600000x32) S8000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x8.size a ≤ S3x8.size a
  hwx5_2 : ∀ i : grid5.Coords, EltTy.bits .f32 = 32 ∨ (Rect.block (s := S3x8) S3x8.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S8.size a ≤ S8.size a
  hwx5_3 : ∀ i : grid5.Coords, EltTy.bits .f32 = 32 ∨ (Rect.block (s := S8) S8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8x32.size a ≤ S8x32.size a
  hwx5_4 : ∀ i : grid5.Coords, EltTy.bits .f32 = 32 ∨ (Rect.block (s := S8x32) S8x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32.size a ≤ S32.size a
  hwx5_5 : ∀ i : grid5.Coords, EltTy.bits .f32 = 32 ∨ (Rect.block (s := S32) S32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8000x32.size a ≤ S1600000x32.size a
  hwx5_6 : ∀ i : grid5.Coords, EltTy.bits .f32 = 32 ∨ (Rect.block (s := S1600000x32) S8000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x32.size a ≤ S50000x32.size a
  hwx6_1 : ∀ i : grid6.Coords, EltTy.bits .f32 = 32 ∨ (Rect.block (s := S50000x32) S5000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32.size a ≤ S32.size a
  hwx6_4 : ∀ i : grid6.Coords, EltTy.bits .f32 = 32 ∨ (Rect.block (s := S32) S32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x32.size a ≤ S50000x32.size a
  hwx6_5 : ∀ i : grid6.Coords, EltTy.bits .f32 = 32 ∨ (Rect.block (s := S50000x32) S5000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x3.size a ≤ S1600000x3.size a
  hwx7_0 : ∀ i : grid7.Coords, EltTy.bits .f32 = 32 ∨ (Rect.block (s := S1600000x3) S8000x3.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x32.size a ≤ S1600000x32.size a
  hwx7_1 : ∀ i : grid7.Coords, EltTy.bits .f32 = 32 ∨ (Rect.block (s := S1600000x32) S8000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S3x8.size a ≤ S3x8.size a
  hwx7_2 : ∀ i : grid7.Coords, EltTy.bits .f32 = 32 ∨ (Rect.block (s := S3x8) S3x8.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S8.size a ≤ S8.size a
  hwx7_3 : ∀ i : grid7.Coords, EltTy.bits .f32 = 32 ∨ (Rect.block (s := S8) S8.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S8x32.size a ≤ S8x32.size a
  hwx7_4 : ∀ i : grid7.Coords, EltTy.bits .f32 = 32 ∨ (Rect.block (s := S8x32) S8x32.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S32.size a ≤ S32.size a
  hwx7_5 : ∀ i : grid7.Coords, EltTy.bits .f32 = 32 ∨ (Rect.block (s := S32) S32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S8000x32.size a ≤ S1600000x32.size a
  hwx7_6 : ∀ i : grid7.Coords, EltTy.bits .f32 = 32 ∨ (Rect.block (s := S1600000x32) S8000x32.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S50000x32.size a
  hwx8_0 : ∀ i : grid8.Coords, EltTy.bits .f32 = 32 ∨ (Rect.block (s := S50000x32) S5000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x32.size a ≤ S50000x32.size a
  hwx8_1 : ∀ i : grid8.Coords, EltTy.bits .f32 = 32 ∨ (Rect.block (s := S50000x32) S5000x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x32.size a ≤ S32x32.size a
  hwx8_3 : ∀ i : grid8.Coords, EltTy.bits .f32 = 32 ∨ (Rect.block (s := S32x32) S32x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S32.size a ≤ S32.size a
  hwx8_4 : ∀ i : grid8.Coords, EltTy.bits .f32 = 32 ∨ (Rect.block (s := S32) S32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x32.size a ≤ S50000x32.size a
  hwx8_5 : ∀ i : grid8.Coords, EltTy.bits .f32 = 32 ∨ (Rect.block (s := S50000x32) S5000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x3.size a ≤ S1600000x3.size a
  hwx9_0 : ∀ i : grid9.Coords, EltTy.bits .f32 = 32 ∨ (Rect.block (s := S1600000x3) S8000x3.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x32.size a ≤ S1600000x32.size a
  hwx9_1 : ∀ i : grid9.Coords, EltTy.bits .f32 = 32 ∨ (Rect.block (s := S1600000x32) S8000x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S3x8.size a ≤ S3x8.size a
  hwx9_2 : ∀ i : grid9.Coords, EltTy.bits .f32 = 32 ∨ (Rect.block (s := S3x8) S3x8.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S8.size a ≤ S8.size a
  hwx9_3 : ∀ i : grid9.Coords, EltTy.bits .f32 = 32 ∨ (Rect.block (s := S8) S8.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S8x32.size a ≤ S8x32.size a
  hwx9_4 : ∀ i : grid9.Coords, EltTy.bits .f32 = 32 ∨ (Rect.block (s := S8x32) S8x32.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32.size a ≤ S32.size a
  hwx9_5 : ∀ i : grid9.Coords, EltTy.bits .f32 = 32 ∨ (Rect.block (s := S32) S32.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S8000x32.size a ≤ S1600000x32.size a
  hwx9_6 : ∀ i : grid9.Coords, EltTy.bits .f32 = 32 ∨ (Rect.block (s := S1600000x32) S8000x32.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S50000x32.size a
  hwx10_0 : ∀ i : grid10.Coords, EltTy.bits .f32 = 32 ∨ (Rect.block (s := S50000x32) S5000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x32.size a ≤ S50000x32.size a
  hwx10_1 : ∀ i : grid10.Coords, EltTy.bits .f32 = 32 ∨ (Rect.block (s := S50000x32) S5000x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S50000x1.size a
  hwx10_2 : ∀ i : grid10.Coords, EltTy.bits .f32 = 32 ∨ (Rect.block (s := S50000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S32x32.size a ≤ S32x32.size a
  hwx10_3 : ∀ i : grid10.Coords, EltTy.bits .f32 = 32 ∨ (Rect.block (s := S32x32) S32x32.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S32.size a ≤ S32.size a
  hwx10_4 : ∀ i : grid10.Coords, EltTy.bits .f32 = 32 ∨ (Rect.block (s := S32) S32.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x32.size a ≤ S50000x32.size a
  hwx10_5 : ∀ i : grid10.Coords, EltTy.bits .f32 = 32 ∨ (Rect.block (s := S50000x32) S5000x32.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x3.size a ≤ S1600000x3.size a
  hwx11_0 : ∀ i : grid11.Coords, EltTy.bits .f32 = 32 ∨ (Rect.block (s := S1600000x3) S8000x3.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8000x32.size a ≤ S1600000x32.size a
  hwx11_1 : ∀ i : grid11.Coords, EltTy.bits .f32 = 32 ∨ (Rect.block (s := S1600000x32) S8000x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S3x8.size a ≤ S3x8.size a
  hwx11_2 : ∀ i : grid11.Coords, EltTy.bits .f32 = 32 ∨ (Rect.block (s := S3x8) S3x8.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S8.size a ≤ S8.size a
  hwx11_3 : ∀ i : grid11.Coords, EltTy.bits .f32 = 32 ∨ (Rect.block (s := S8) S8.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S8x32.size a ≤ S8x32.size a
  hwx11_4 : ∀ i : grid11.Coords, EltTy.bits .f32 = 32 ∨ (Rect.block (s := S8x32) S8x32.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S32.size a ≤ S32.size a
  hwx11_5 : ∀ i : grid11.Coords, EltTy.bits .f32 = 32 ∨ (Rect.block (s := S32) S32.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S8000x32.size a ≤ S1600000x32.size a
  hwx11_6 : ∀ i : grid11.Coords, EltTy.bits .f32 = 32 ∨ (Rect.block (s := S1600000x32) S8000x32.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x32.size a ≤ S50000x32.size a
  hwx12_0 : ∀ i : grid12.Coords, EltTy.bits .f32 = 32 ∨ (Rect.block (s := S50000x32) S5000x32.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x32.size a ≤ S50000x32.size a
  hwx12_1 : ∀ i : grid12.Coords, EltTy.bits .f32 = 32 ∨ (Rect.block (s := S50000x32) S5000x32.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x1.size a ≤ S50000x1.size a
  hwx12_2 : ∀ i : grid12.Coords, EltTy.bits .f32 = 32 ∨ (Rect.block (s := S50000x1) S5000x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x32.size a ≤ S32x32.size a
  hwx12_3 : ∀ i : grid12.Coords, EltTy.bits .f32 = 32 ∨ (Rect.block (s := S32x32) S32x32.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S32.size a ≤ S32.size a
  hwx12_4 : ∀ i : grid12.Coords, EltTy.bits .f32 = 32 ∨ (Rect.block (s := S32) S32.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x32.size a ≤ S50000x32.size a
  hwx12_5 : ∀ i : grid12.Coords, EltTy.bits .f32 = 32 ∨ (Rect.block (s := S50000x32) S5000x32.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x3.size a ≤ S1600000x3.size a
  hwx13_0 : ∀ i : grid13.Coords, EltTy.bits .f32 = 32 ∨ (Rect.block (s := S1600000x3) S8000x3.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8000x32.size a ≤ S1600000x32.size a
  hwx13_1 : ∀ i : grid13.Coords, EltTy.bits .f32 = 32 ∨ (Rect.block (s := S1600000x32) S8000x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S3x8.size a ≤ S3x8.size a
  hwx13_2 : ∀ i : grid13.Coords, EltTy.bits .f32 = 32 ∨ (Rect.block (s := S3x8) S3x8.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S8.size a ≤ S8.size a
  hwx13_3 : ∀ i : grid13.Coords, EltTy.bits .f32 = 32 ∨ (Rect.block (s := S8) S8.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S8x32.size a ≤ S8x32.size a
  hwx13_4 : ∀ i : grid13.Coords, EltTy.bits .f32 = 32 ∨ (Rect.block (s := S8x32) S8x32.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S32.size a ≤ S32.size a
  hwx13_5 : ∀ i : grid13.Coords, EltTy.bits .f32 = 32 ∨ (Rect.block (s := S32) S32.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S8000x32.size a ≤ S1600000x32.size a
  hwx13_6 : ∀ i : grid13.Coords, EltTy.bits .f32 = 32 ∨ (Rect.block (s := S1600000x32) S8000x32.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x32.size a ≤ S50000x32.size a
  hwx14_0 : ∀ i : grid14.Coords, EltTy.bits .f32 = 32 ∨ (Rect.block (s := S50000x32) S5000x32.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x32.size a ≤ S50000x32.size a
  hwx14_1 : ∀ i : grid14.Coords, EltTy.bits .f32 = 32 ∨ (Rect.block (s := S50000x32) S5000x32.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x1.size a ≤ S50000x1.size a
  hwx14_2 : ∀ i : grid14.Coords, EltTy.bits .f32 = 32 ∨ (Rect.block (s := S50000x1) S5000x1.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S32x32.size a ≤ S32x32.size a
  hwx14_3 : ∀ i : grid14.Coords, EltTy.bits .f32 = 32 ∨ (Rect.block (s := S32x32) S32x32.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S32.size a ≤ S32.size a
  hwx14_4 : ∀ i : grid14.Coords, EltTy.bits .f32 = 32 ∨ (Rect.block (s := S32) S32.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x32.size a ≤ S50000x32.size a
  hwx14_5 : ∀ i : grid14.Coords, EltTy.bits .f32 = 32 ∨ (Rect.block (s := S50000x32) S5000x32.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8000x3.size a ≤ S1600000x3.size a
  hwx15_0 : ∀ i : grid15.Coords, EltTy.bits .f32 = 32 ∨ (Rect.block (s := S1600000x3) S8000x3.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8000x32.size a ≤ S1600000x32.size a
  hwx15_1 : ∀ i : grid15.Coords, EltTy.bits .f32 = 32 ∨ (Rect.block (s := S1600000x32) S8000x32.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S3x8.size a ≤ S3x8.size a
  hwx15_2 : ∀ i : grid15.Coords, EltTy.bits .f32 = 32 ∨ (Rect.block (s := S3x8) S3x8.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S8.size a ≤ S8.size a
  hwx15_3 : ∀ i : grid15.Coords, EltTy.bits .f32 = 32 ∨ (Rect.block (s := S8) S8.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S8x32.size a ≤ S8x32.size a
  hwx15_4 : ∀ i : grid15.Coords, EltTy.bits .f32 = 32 ∨ (Rect.block (s := S8x32) S8x32.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S32.size a ≤ S32.size a
  hwx15_5 : ∀ i : grid15.Coords, EltTy.bits .f32 = 32 ∨ (Rect.block (s := S32) S32.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S8000x32.size a ≤ S1600000x32.size a
  hwx15_6 : ∀ i : grid15.Coords, EltTy.bits .f32 = 32 ∨ (Rect.block (s := S1600000x32) S8000x32.size (cc15_transform_6 i) (hinb15_6 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x32.size a ≤ S50000x32.size a
  hwx16_0 : ∀ i : grid16.Coords, EltTy.bits .f32 = 32 ∨ (Rect.block (s := S50000x32) S5000x32.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x32.size a ≤ S50000x32.size a
  hwx16_1 : ∀ i : grid16.Coords, EltTy.bits .f32 = 32 ∨ (Rect.block (s := S50000x32) S5000x32.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x1.size a ≤ S50000x1.size a
  hwx16_2 : ∀ i : grid16.Coords, EltTy.bits .f32 = 32 ∨ (Rect.block (s := S50000x1) S5000x1.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S32x32.size a ≤ S32x32.size a
  hwx16_3 : ∀ i : grid16.Coords, EltTy.bits .f32 = 32 ∨ (Rect.block (s := S32x32) S32x32.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S32.size a ≤ S32.size a
  hwx16_4 : ∀ i : grid16.Coords, EltTy.bits .f32 = 32 ∨ (Rect.block (s := S32) S32.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x32.size a ≤ S50000x32.size a
  hwx16_5 : ∀ i : grid16.Coords, EltTy.bits .f32 = 32 ∨ (Rect.block (s := S50000x32) S5000x32.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8000x3.size a ≤ S1600000x3.size a
  hwx17_0 : ∀ i : grid17.Coords, EltTy.bits .f32 = 32 ∨ (Rect.block (s := S1600000x3) S8000x3.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S8000x32.size a ≤ S1600000x32.size a
  hwx17_1 : ∀ i : grid17.Coords, EltTy.bits .f32 = 32 ∨ (Rect.block (s := S1600000x32) S8000x32.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S3x8.size a ≤ S3x8.size a
  hwx17_2 : ∀ i : grid17.Coords, EltTy.bits .f32 = 32 ∨ (Rect.block (s := S3x8) S3x8.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S8.size a ≤ S8.size a
  hwx17_3 : ∀ i : grid17.Coords, EltTy.bits .f32 = 32 ∨ (Rect.block (s := S8) S8.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S8x32.size a ≤ S8x32.size a
  hwx17_4 : ∀ i : grid17.Coords, EltTy.bits .f32 = 32 ∨ (Rect.block (s := S8x32) S8x32.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S32.size a ≤ S32.size a
  hwx17_5 : ∀ i : grid17.Coords, EltTy.bits .f32 = 32 ∨ (Rect.block (s := S32) S32.size (cc17_transform_5 i) (hinb17_5 i)).WholeWords (EltTy.packing .f32)
  hstage17_6 : ∀ j, (stage17_6 j).IsWhole
  nbuf17_6 : grid17.bufCount reads17_6 false = 2
  hreads17_6 : ∀ i i' : grid17.Coords, (∀ a, reads17_6 a = true → i a = i' a) → cc17_transform_6 i = cc17_transform_6 i'
  hinb17_6 : ∀ (i : grid17.Coords) a, (cc17_transform_6 i a + 1) * S8000x32.size a ≤ S1600000x32.size a
  hwx17_6 : ∀ i : grid17.Coords, EltTy.bits .f32 = 32 ∨ (Rect.block (s := S1600000x32) S8000x32.size (cc17_transform_6 i) (hinb17_6 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x32.size a ≤ S50000x32.size a
  hwx18_0 : ∀ i : grid18.Coords, EltTy.bits .f32 = 32 ∨ (Rect.block (s := S50000x32) S5000x32.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x32.size a ≤ S50000x32.size a
  hwx18_1 : ∀ i : grid18.Coords, EltTy.bits .f32 = 32 ∨ (Rect.block (s := S50000x32) S5000x32.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x1.size a ≤ S50000x1.size a
  hwx18_2 : ∀ i : grid18.Coords, EltTy.bits .f32 = 32 ∨ (Rect.block (s := S50000x1) S5000x1.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S32x32.size a ≤ S32x32.size a
  hwx18_3 : ∀ i : grid18.Coords, EltTy.bits .f32 = 32 ∨ (Rect.block (s := S32x32) S32x32.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S32.size a ≤ S32.size a
  hwx18_4 : ∀ i : grid18.Coords, EltTy.bits .f32 = 32 ∨ (Rect.block (s := S32) S32.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S5000x32.size a ≤ S50000x32.size a
  hwx18_5 : ∀ i : grid18.Coords, EltTy.bits .f32 = 32 ∨ (Rect.block (s := S50000x32) S5000x32.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8000x3.size a ≤ S1600000x3.size a
  hwx19_0 : ∀ i : grid19.Coords, EltTy.bits .f32 = 32 ∨ (Rect.block (s := S1600000x3) S8000x3.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S8000x32.size a ≤ S1600000x32.size a
  hwx19_1 : ∀ i : grid19.Coords, EltTy.bits .f32 = 32 ∨ (Rect.block (s := S1600000x32) S8000x32.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S3x8.size a ≤ S3x8.size a
  hwx19_2 : ∀ i : grid19.Coords, EltTy.bits .f32 = 32 ∨ (Rect.block (s := S3x8) S3x8.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S8.size a ≤ S8.size a
  hwx19_3 : ∀ i : grid19.Coords, EltTy.bits .f32 = 32 ∨ (Rect.block (s := S8) S8.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S8x32.size a ≤ S8x32.size a
  hwx19_4 : ∀ i : grid19.Coords, EltTy.bits .f32 = 32 ∨ (Rect.block (s := S8x32) S8x32.size (cc19_transform_4 i) (hinb19_4 i)).WholeWords (EltTy.packing .f32)
  hstage19_5 : ∀ j, (stage19_5 j).IsWhole
  nbuf19_5 : grid19.bufCount reads19_5 true = 1
  hreads19_5 : ∀ i i' : grid19.Coords, (∀ a, reads19_5 a = true → i a = i' a) → cc19_transform_5 i = cc19_transform_5 i'
  hinb19_5 : ∀ (i : grid19.Coords) a, (cc19_transform_5 i a + 1) * S32.size a ≤ S32.size a
  hwx19_5 : ∀ i : grid19.Coords, EltTy.bits .f32 = 32 ∨ (Rect.block (s := S32) S32.size (cc19_transform_5 i) (hinb19_5 i)).WholeWords (EltTy.packing .f32)
  hstage19_6 : ∀ j, (stage19_6 j).IsWhole
  nbuf19_6 : grid19.bufCount reads19_6 false = 2
  hreads19_6 : ∀ i i' : grid19.Coords, (∀ a, reads19_6 a = true → i a = i' a) → cc19_transform_6 i = cc19_transform_6 i'
  hinb19_6 : ∀ (i : grid19.Coords) a, (cc19_transform_6 i a + 1) * S8000x32.size a ≤ S1600000x32.size a
  hwx19_6 : ∀ i : grid19.Coords, EltTy.bits .f32 = 32 ∨ (Rect.block (s := S1600000x32) S8000x32.size (cc19_transform_6 i) (hinb19_6 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x32.size a ≤ S50000x32.size a
  hwx20_0 : ∀ i : grid20.Coords, EltTy.bits .f32 = 32 ∨ (Rect.block (s := S50000x32) S5000x32.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x32.size a ≤ S50000x32.size a
  hwx20_1 : ∀ i : grid20.Coords, EltTy.bits .f32 = 32 ∨ (Rect.block (s := S50000x32) S5000x32.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S5000x1.size a ≤ S50000x1.size a
  hwx20_2 : ∀ i : grid20.Coords, EltTy.bits .f32 = 32 ∨ (Rect.block (s := S50000x1) S5000x1.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S32x32.size a ≤ S32x32.size a
  hwx20_3 : ∀ i : grid20.Coords, EltTy.bits .f32 = 32 ∨ (Rect.block (s := S32x32) S32x32.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S32.size a ≤ S32.size a
  hwx20_4 : ∀ i : grid20.Coords, EltTy.bits .f32 = 32 ∨ (Rect.block (s := S32) S32.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S5000x32.size a ≤ S50000x32.size a
  hwx20_5 : ∀ i : grid20.Coords, EltTy.bits .f32 = 32 ∨ (Rect.block (s := S50000x32) S5000x32.size (cc20_transform_5 i) (hinb20_5 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S8000x3.size a ≤ S1600000x3.size a
  hwx21_0 : ∀ i : grid21.Coords, EltTy.bits .f32 = 32 ∨ (Rect.block (s := S1600000x3) S8000x3.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S8000x32.size a ≤ S1600000x32.size a
  hwx21_1 : ∀ i : grid21.Coords, EltTy.bits .f32 = 32 ∨ (Rect.block (s := S1600000x32) S8000x32.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S3x8.size a ≤ S3x8.size a
  hwx21_2 : ∀ i : grid21.Coords, EltTy.bits .f32 = 32 ∨ (Rect.block (s := S3x8) S3x8.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S8.size a ≤ S8.size a
  hwx21_3 : ∀ i : grid21.Coords, EltTy.bits .f32 = 32 ∨ (Rect.block (s := S8) S8.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S8x32.size a ≤ S8x32.size a
  hwx21_4 : ∀ i : grid21.Coords, EltTy.bits .f32 = 32 ∨ (Rect.block (s := S8x32) S8x32.size (cc21_transform_4 i) (hinb21_4 i)).WholeWords (EltTy.packing .f32)
  hstage21_5 : ∀ j, (stage21_5 j).IsWhole
  nbuf21_5 : grid21.bufCount reads21_5 true = 1
  hreads21_5 : ∀ i i' : grid21.Coords, (∀ a, reads21_5 a = true → i a = i' a) → cc21_transform_5 i = cc21_transform_5 i'
  hinb21_5 : ∀ (i : grid21.Coords) a, (cc21_transform_5 i a + 1) * S32.size a ≤ S32.size a
  hwx21_5 : ∀ i : grid21.Coords, EltTy.bits .f32 = 32 ∨ (Rect.block (s := S32) S32.size (cc21_transform_5 i) (hinb21_5 i)).WholeWords (EltTy.packing .f32)
  hstage21_6 : ∀ j, (stage21_6 j).IsWhole
  nbuf21_6 : grid21.bufCount reads21_6 false = 2
  hreads21_6 : ∀ i i' : grid21.Coords, (∀ a, reads21_6 a = true → i a = i' a) → cc21_transform_6 i = cc21_transform_6 i'
  hinb21_6 : ∀ (i : grid21.Coords) a, (cc21_transform_6 i a + 1) * S8000x32.size a ≤ S1600000x32.size a
  hwx21_6 : ∀ i : grid21.Coords, EltTy.bits .f32 = 32 ∨ (Rect.block (s := S1600000x32) S8000x32.size (cc21_transform_6 i) (hinb21_6 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x32.size a ≤ S50000x32.size a
  hwx22_0 : ∀ i : grid22.Coords, EltTy.bits .f32 = 32 ∨ (Rect.block (s := S50000x32) S5000x32.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x32.size a ≤ S50000x32.size a
  hwx22_1 : ∀ i : grid22.Coords, EltTy.bits .f32 = 32 ∨ (Rect.block (s := S50000x32) S5000x32.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x1.size a ≤ S50000x1.size a
  hwx22_2 : ∀ i : grid22.Coords, EltTy.bits .f32 = 32 ∨ (Rect.block (s := S50000x1) S5000x1.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S32x32.size a ≤ S32x32.size a
  hwx22_3 : ∀ i : grid22.Coords, EltTy.bits .f32 = 32 ∨ (Rect.block (s := S32x32) S32x32.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S32.size a ≤ S32.size a
  hwx22_4 : ∀ i : grid22.Coords, EltTy.bits .f32 = 32 ∨ (Rect.block (s := S32) S32.size (cc22_transform_4 i) (hinb22_4 i)).WholeWords (EltTy.packing .f32)
  hstage22_5 : ∀ j, (stage22_5 j).IsWhole
  nbuf22_5 : grid22.bufCount reads22_5 false = 2
  hreads22_5 : ∀ i i' : grid22.Coords, (∀ a, reads22_5 a = true → i a = i' a) → cc22_transform_5 i = cc22_transform_5 i'
  hinb22_5 : ∀ (i : grid22.Coords) a, (cc22_transform_5 i a + 1) * S5000x32.size a ≤ S50000x32.size a
  hwx22_5 : ∀ i : grid22.Coords, EltTy.bits .f32 = 32 ∨ (Rect.block (s := S50000x32) S5000x32.size (cc22_transform_5 i) (hinb22_5 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S8000x3.size a ≤ S1600000x3.size a
  hwx23_0 : ∀ i : grid23.Coords, EltTy.bits .f32 = 32 ∨ (Rect.block (s := S1600000x3) S8000x3.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S8000x32.size a ≤ S1600000x32.size a
  hwx23_1 : ∀ i : grid23.Coords, EltTy.bits .f32 = 32 ∨ (Rect.block (s := S1600000x32) S8000x32.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S3x8.size a ≤ S3x8.size a
  hwx23_2 : ∀ i : grid23.Coords, EltTy.bits .f32 = 32 ∨ (Rect.block (s := S3x8) S3x8.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S8.size a ≤ S8.size a
  hwx23_3 : ∀ i : grid23.Coords, EltTy.bits .f32 = 32 ∨ (Rect.block (s := S8) S8.size (cc23_transform_3 i) (hinb23_3 i)).WholeWords (EltTy.packing .f32)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S8x32.size a ≤ S8x32.size a
  hwx23_4 : ∀ i : grid23.Coords, EltTy.bits .f32 = 32 ∨ (Rect.block (s := S8x32) S8x32.size (cc23_transform_4 i) (hinb23_4 i)).WholeWords (EltTy.packing .f32)
  hstage23_5 : ∀ j, (stage23_5 j).IsWhole
  nbuf23_5 : grid23.bufCount reads23_5 true = 1
  hreads23_5 : ∀ i i' : grid23.Coords, (∀ a, reads23_5 a = true → i a = i' a) → cc23_transform_5 i = cc23_transform_5 i'
  hinb23_5 : ∀ (i : grid23.Coords) a, (cc23_transform_5 i a + 1) * S32.size a ≤ S32.size a
  hwx23_5 : ∀ i : grid23.Coords, EltTy.bits .f32 = 32 ∨ (Rect.block (s := S32) S32.size (cc23_transform_5 i) (hinb23_5 i)).WholeWords (EltTy.packing .f32)
  hstage23_6 : ∀ j, (stage23_6 j).IsWhole
  nbuf23_6 : grid23.bufCount reads23_6 false = 2
  hreads23_6 : ∀ i i' : grid23.Coords, (∀ a, reads23_6 a = true → i a = i' a) → cc23_transform_6 i = cc23_transform_6 i'
  hinb23_6 : ∀ (i : grid23.Coords) a, (cc23_transform_6 i a + 1) * S8000x32.size a ≤ S1600000x32.size a
  hwx23_6 : ∀ i : grid23.Coords, EltTy.bits .f32 = 32 ∨ (Rect.block (s := S1600000x32) S8000x32.size (cc23_transform_6 i) (hinb23_6 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x32.size a ≤ S50000x32.size a
  hwx24_0 : ∀ i : grid24.Coords, EltTy.bits .f32 = 32 ∨ (Rect.block (s := S50000x32) S5000x32.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x32.size a ≤ S50000x32.size a
  hwx24_1 : ∀ i : grid24.Coords, EltTy.bits .f32 = 32 ∨ (Rect.block (s := S50000x32) S5000x32.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S5000x1.size a ≤ S50000x1.size a
  hwx24_2 : ∀ i : grid24.Coords, EltTy.bits .f32 = 32 ∨ (Rect.block (s := S50000x1) S5000x1.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S32x32.size a ≤ S32x32.size a
  hwx24_3 : ∀ i : grid24.Coords, EltTy.bits .f32 = 32 ∨ (Rect.block (s := S32x32) S32x32.size (cc24_transform_3 i) (hinb24_3 i)).WholeWords (EltTy.packing .f32)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S32.size a ≤ S32.size a
  hwx24_4 : ∀ i : grid24.Coords, EltTy.bits .f32 = 32 ∨ (Rect.block (s := S32) S32.size (cc24_transform_4 i) (hinb24_4 i)).WholeWords (EltTy.packing .f32)
  hstage24_5 : ∀ j, (stage24_5 j).IsWhole
  nbuf24_5 : grid24.bufCount reads24_5 false = 2
  hreads24_5 : ∀ i i' : grid24.Coords, (∀ a, reads24_5 a = true → i a = i' a) → cc24_transform_5 i = cc24_transform_5 i'
  hinb24_5 : ∀ (i : grid24.Coords) a, (cc24_transform_5 i a + 1) * S5000x32.size a ≤ S50000x32.size a
  hwx24_5 : ∀ i : grid24.Coords, EltTy.bits .f32 = 32 ∨ (Rect.block (s := S50000x32) S5000x32.size (cc24_transform_5 i) (hinb24_5 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x32.size a ≤ S50000x32.size a
  hwx25_0 : ∀ i : grid25.Coords, EltTy.bits .f32 = 32 ∨ (Rect.block (s := S50000x32) S5000x32.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S32x1.size a ≤ S32x1.size a
  hwx25_1 : ∀ i : grid25.Coords, EltTy.bits .f32 = 32 ∨ (Rect.block (s := S32x1) S32x1.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1.size a ≤ S1.size a
  hwx25_2 : ∀ i : grid25.Coords, EltTy.bits .f32 = 32 ∨ (Rect.block (s := S1) S1.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S5000x1.size a ≤ S50000x1.size a
  hwx25_3 : ∀ i : grid25.Coords, EltTy.bits .f32 = 32 ∨ (Rect.block (s := S50000x1) S5000x1.size (cc25_transform_3 i) (hinb25_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S8000x3_S3x8_S8000x8_1_0_0_1_n_n : DotDims S8000x3 S3x8 S8000x8 where
  lhsContracting := [1]
  rhsContracting := [0]
  lhsNonContracting := [0]
  rhsNonContracting := [1]
  lhsBatch := []
  rhsBatch := []
  wf := dot_S8000x3_S3x8_S8000x8_1_0_0_1_n_n_wf
def dot_S8000x8_S8x32_S8000x32_1_0_0_1_n_n : DotDims S8000x8 S8x32 S8000x32 where
  lhsContracting := [1]
  rhsContracting := [0]
  lhsNonContracting := [0]
  rhsNonContracting := [1]
  lhsBatch := []
  rhsBatch := []
  wf := dot_S8000x8_S8x32_S8000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S3x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S8x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S8000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg2) S8000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S8000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S3x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S8x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S8000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v61) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v63) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S5000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg2) S8000x3.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S8000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S3x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S8x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v84) S8000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v87) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S5000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v89) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v91) S32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S5000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg2) S8000x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S8000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S3x8.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v107) S8.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v105) S8x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v109) S32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v110) S8000x32.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v113) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v92) S5000x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v115) S32x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v117) S32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v118) S5000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_arg2) S8000x3.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S8000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v128) S3x8.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v133) S8.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v131) S8x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v135) S32.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v136) S8000x32.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v139) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v118) S5000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v12) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v141) S32x32.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v143) S32.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v144) S5000x32.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_arg2) S8000x3.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v151) S8000x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v154) S3x8.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v159) S8.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v157) S8x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v161) S32.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v162) S8000x32.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v165) S5000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v144) S5000x32.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v12) S5000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v167) S32x32.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v169) S32.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v170) S5000x32.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_arg2) S8000x3.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v177) S8000x32.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v180) S3x8.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v185) S8.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v183) S8x32.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v187) S32.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v188) S8000x32.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v191) S5000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v170) S5000x32.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v12) S5000x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v193) S32x32.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v195) S32.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v196) S5000x32.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_arg2) S8000x3.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v203) S8000x32.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v206) S3x8.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v211) S8.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v209) S8x32.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v213) S32.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v214) S8000x32.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v217) S5000x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v196) S5000x32.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v12) S5000x1.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v219) S32x32.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v221) S32.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v222) S5000x32.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_arg2) S8000x3.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v229) S8000x32.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v232) S3x8.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v237) S8.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v235) S8x32.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v239) S32.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v240) S8000x32.size cc17_transform_6 reads17_6 true false 2 stage17_6 sem17_6
    hrank17 hreads17_6 hinb17_6 nbuf17_6 (Memref.isWhole_whole _) hwx17_6 hstage17_6

abbrev win17 : Fin 7 → Pipeline.Window sig grid17 := fun | 0 => win17_0 | 1 => win17_1 | 2 => win17_2 | 3 => win17_3 | 4 => win17_4 | 5 => win17_5 | 6 => win17_6 | ⟨_ + 7, h⟩ => absurd h (Nat.not_lt.2 (Nat.le_add_left _ _))
abbrev spec17 : Fin 7 → Pipeline.WinSpec sig grid17.rank := fun w => (win17 w).toWinSpec

abbrev win18_0 : Pipeline.Window sig grid18 :=
  Pipeline.Window.ofSpec (Memref.whole main_v243) S5000x32.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v222) S5000x32.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v12) S5000x1.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v245) S32x32.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v247) S32.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v248) S5000x32.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_arg2) S8000x3.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v255) S8000x32.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v258) S3x8.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v263) S8.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v261) S8x32.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v265) S32.size cc19_transform_5 reads19_5 false true 1 stage19_5 sem19_5
    hrank19 hreads19_5 hinb19_5 nbuf19_5 (Memref.isWhole_whole _) hwx19_5 hstage19_5

abbrev win19_6 : Pipeline.Window sig grid19 :=
  Pipeline.Window.ofSpec (Memref.whole main_v266) S8000x32.size cc19_transform_6 reads19_6 true false 2 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v269) S5000x32.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v248) S5000x32.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v12) S5000x1.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_v271) S32x32.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v273) S32.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v274) S5000x32.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

abbrev win21_0 : Pipeline.Window sig grid21 :=
  Pipeline.Window.ofSpec (Memref.whole main_arg2) S8000x3.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v281) S8000x32.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v284) S3x8.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v289) S8.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v287) S8x32.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v291) S32.size cc21_transform_5 reads21_5 false true 1 stage21_5 sem21_5
    hrank21 hreads21_5 hinb21_5 nbuf21_5 (Memref.isWhole_whole _) hwx21_5 hstage21_5

abbrev win21_6 : Pipeline.Window sig grid21 :=
  Pipeline.Window.ofSpec (Memref.whole main_v292) S8000x32.size cc21_transform_6 reads21_6 true false 2 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

abbrev win22_0 : Pipeline.Window sig grid22 :=
  Pipeline.Window.ofSpec (Memref.whole main_v295) S5000x32.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v274) S5000x32.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v12) S5000x1.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v297) S32x32.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v299) S32.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v300) S5000x32.size cc22_transform_5 reads22_5 true false 2 stage22_5 sem22_5
    hrank22 hreads22_5 hinb22_5 nbuf22_5 (Memref.isWhole_whole _) hwx22_5 hstage22_5

abbrev win22 : Fin 6 → Pipeline.Window sig grid22 := fun | 0 => win22_0 | 1 => win22_1 | 2 => win22_2 | 3 => win22_3 | 4 => win22_4 | 5 => win22_5 | ⟨_ + 6, h⟩ => absurd h (Nat.not_lt.2 (Nat.le_add_left _ _))
abbrev spec22 : Fin 6 → Pipeline.WinSpec sig grid22.rank := fun w => (win22 w).toWinSpec

abbrev win23_0 : Pipeline.Window sig grid23 :=
  Pipeline.Window.ofSpec (Memref.whole main_arg2) S8000x3.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v307) S8000x32.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v310) S3x8.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v315) S8.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v313) S8x32.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v317) S32.size cc23_transform_5 reads23_5 false true 1 stage23_5 sem23_5
    hrank23 hreads23_5 hinb23_5 nbuf23_5 (Memref.isWhole_whole _) hwx23_5 hstage23_5

abbrev win23_6 : Pipeline.Window sig grid23 :=
  Pipeline.Window.ofSpec (Memref.whole main_v318) S8000x32.size cc23_transform_6 reads23_6 true false 2 stage23_6 sem23_6
    hrank23 hreads23_6 hinb23_6 nbuf23_6 (Memref.isWhole_whole _) hwx23_6 hstage23_6

abbrev win23 : Fin 7 → Pipeline.Window sig grid23 := fun | 0 => win23_0 | 1 => win23_1 | 2 => win23_2 | 3 => win23_3 | 4 => win23_4 | 5 => win23_5 | 6 => win23_6 | ⟨_ + 7, h⟩ => absurd h (Nat.not_lt.2 (Nat.le_add_left _ _))
abbrev spec23 : Fin 7 → Pipeline.WinSpec sig grid23.rank := fun w => (win23 w).toWinSpec

abbrev win24_0 : Pipeline.Window sig grid24 :=
  Pipeline.Window.ofSpec (Memref.whole main_v321) S5000x32.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v300) S5000x32.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v12) S5000x1.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v323) S32x32.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v325) S32.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v326) S5000x32.size cc24_transform_5 reads24_5 true false 2 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

abbrev win25_0 : Pipeline.Window sig grid25 :=
  Pipeline.Window.ofSpec (Memref.whole main_v326) S5000x32.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v327) S32x1.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_arg6) S1.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v328) S5000x1.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

class Facts : Prop extends Facts₀ where

variable [Facts]
-- ==== ReferenceIdeal.lean ====
abbrev S50000x3 : Shape := ⟨2, ![50000, 3]⟩
abbrev S2x1600000 : Shape := ⟨2, ![2, 1600000]⟩
abbrev S1600000x3 : Shape := ⟨2, ![1600000, 3]⟩
abbrev S32x3 : Shape := ⟨2, ![32, 3]⟩
abbrev S32 : Shape := ⟨1, ![32]⟩
abbrev S1x32 : Shape := ⟨2, ![1, 32]⟩
abbrev S1 : Shape := ⟨1, ![1]⟩
abbrev S3x8x3 : Shape := ⟨3, ![3, 8, 3]⟩
abbrev S3x8 : Shape := ⟨2, ![3, 8]⟩
abbrev S3x32x8 : Shape := ⟨3, ![3, 32, 8]⟩
abbrev S3x32 : Shape := ⟨2, ![3, 32]⟩
abbrev S3x32x32 : Shape := ⟨3, ![3, 32, 32]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S1x8x3 : Shape := ⟨3, ![1, 8, 3]⟩
abbrev S8x3 : Shape := ⟨2, ![8, 3]⟩
abbrev S1600000x8 : Shape := ⟨2, ![1600000, 8]⟩
abbrev S1x8 : Shape := ⟨2, ![1, 8]⟩
abbrev S8 : Shape := ⟨1, ![8]⟩
abbrev S1x32x8 : Shape := ⟨3, ![1, 32, 8]⟩
abbrev S32x8 : Shape := ⟨2, ![32, 8]⟩
abbrev S8x32 : Shape := ⟨2, ![8, 32]⟩
abbrev S1600000x32 : Shape := ⟨2, ![1600000, 32]⟩
abbrev S50000x1 : Shape := ⟨2, ![50000, 1]⟩
abbrev S1x32x32 : Shape := ⟨3, ![1, 32, 32]⟩
abbrev S32x32 : Shape := ⟨2, ![32, 32]⟩
abbrev S32x1 : Shape := ⟨2, ![32, 1]⟩
abbrev S1x1 : Shape := ⟨2, ![1, 1]⟩

abbrev nBuf : Space → Nat
  | .hbm => 639
  | .vmem => 0
  | .smem => 0
  | _ => 0

abbrev hbmTy0_0 (i : Nat) : BufTy := match i % 128 with
  | 0 => ⟨S50000x3, .f32⟩
  | 1 => ⟨S2x1600000, .i32⟩
  | 2 => ⟨S1600000x3, .f32⟩
  | 3 => ⟨S32x3, .f32⟩
  | 4 => ⟨S32, .f32⟩
  | 5 => ⟨S1x32, .f32⟩
  | 6 => ⟨S1, .f32⟩
  | 7 => ⟨S3x8x3, .f32⟩
  | 8 => ⟨S3x8, .f32⟩
  | 9 => ⟨S3x32x8, .f32⟩
  | 10 => ⟨S3x32, .f32⟩
  | 11 => ⟨S3x32x32, .f32⟩
  | 12 => ⟨S3x32, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S50000, .f32⟩
  | 21 => ⟨S1600000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S3x32, .f32⟩
  | 30 => ⟨S50000x32, .f32⟩
  | 31 => ⟨S1x32, .f32⟩
  | 32 => ⟨S50000x32, .f32⟩
  | 33 => ⟨S50000x32, .f32⟩
  | 34 => ⟨S1x8x3, .f32⟩
  | 35 => ⟨S8x3, .f32⟩
  | 36 => ⟨S3x8, .f32⟩
  | 37 => ⟨S1600000x8, .f32⟩
  | 38 => ⟨S1x8, .f32⟩
  | 39 => ⟨S8, .f32⟩
  | 40 => ⟨S1x8, .f32⟩
  | 41 => ⟨S1600000x8, .f32⟩
  | 42 => ⟨S1600000x8, .f32⟩
  | 43 => ⟨S_, .f32⟩
  | 44 => ⟨S1600000x8, .f32⟩
  | 45 => ⟨S1600000x8, .f32⟩
  | 46 => ⟨S1x32x8, .f32⟩
  | 47 => ⟨S32x8, .f32⟩
  | 48 => ⟨S8x32, .f32⟩
  | 49 => ⟨S1600000x32, .f32⟩
  | 50 => ⟨S1x32, .f32⟩
  | 51 => ⟨S32, .f32⟩
  | 52 => ⟨S1x32, .f32⟩
  | 53 => ⟨S1600000x32, .f32⟩
  | 54 => ⟨S1600000x32, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x32, .f32⟩
  | 64 => ⟨S1600000x32, .f32⟩
  | 65 => ⟨S_, .f32⟩
  | 66 => ⟨S50000x32, .f32⟩
  | 67 => ⟨S1600000x1, .i32⟩
  | 68 => ⟨S50000x32, .f32⟩
  | 69 => ⟨S50000x1, .f32⟩
  | 70 => ⟨S50000x32, .f32⟩
  | 71 => ⟨S50000x32, .f32⟩
  | 72 => ⟨S1x32x32, .f32⟩
  | 73 => ⟨S32x32, .f32⟩
  | 74 => ⟨S50000x32, .f32⟩
  | 75 => ⟨S50000x32, .f32⟩
  | 76 => ⟨S1x32, .f32⟩
  | 77 => ⟨S32, .f32⟩
  | 78 => ⟨S1x32, .f32⟩
  | 79 => ⟨S50000x32, .f32⟩
  | 80 => ⟨S50000x32, .f32⟩
  | 81 => ⟨S_, .f32⟩
  | 82 => ⟨S50000x32, .f32⟩
  | 83 => ⟨S50000x32, .f32⟩
  | 84 => ⟨S1x8x3, .f32⟩
  | 85 => ⟨S8x3, .f32⟩
  | 86 => ⟨S3x8, .f32⟩
  | 87 => ⟨S1600000x8, .f32⟩
  | 88 => ⟨S1x8, .f32⟩
  | 89 => ⟨S8, .f32⟩
  | 90 => ⟨S1x8, .f32⟩
  | 91 => ⟨S1600000x8, .f32⟩
  | 92 => ⟨S1600000x8, .f32⟩
  | 93 => ⟨S_, .f32⟩
  | 94 => ⟨S1600000x8, .f32⟩
  | 95 => ⟨S1600000x8, .f32⟩
  | 96 => ⟨S1x32x8, .f32⟩
  | 97 => ⟨S32x8, .f32⟩
  | 98 => ⟨S8x32, .f32⟩
  | 99 => ⟨S1600000x32, .f32⟩
  | 100 => ⟨S1x32, .f32⟩
  | 101 => ⟨S32, .f32⟩
  | 102 => ⟨S1x32, .f32⟩
  | 103 => ⟨S1600000x32, .f32⟩
  | 104 => ⟨S1600000x32, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S1600000x32, .f32⟩
  | 115 => ⟨S_, .f32⟩
  | 116 => ⟨S50000x32, .f32⟩
  | 117 => ⟨S1600000x1, .i32⟩
  | 118 => ⟨S50000x32, .f32⟩
  | 119 => ⟨S50000x1, .f32⟩
  | 120 => ⟨S50000x32, .f32⟩
  | 121 => ⟨S50000x32, .f32⟩
  | 122 => ⟨S1x32x32, .f32⟩
  | 123 => ⟨S32x32, .f32⟩
  | 124 => ⟨S50000x32, .f32⟩
  | 125 => ⟨S50000x32, .f32⟩
  | 126 => ⟨S1x32, .f32⟩
  | 127 => ⟨S32, .f32⟩
  | _ => ⟨S50000x3, .f32⟩

abbrev hbmTy0_1 (i : Nat) : BufTy := match i % 128 with
  | 0 => ⟨S1x32, .f32⟩
  | 1 => ⟨S50000x32, .f32⟩
  | 2 => ⟨S50000x32, .f32⟩
  | 3 => ⟨S_, .f32⟩
  | 4 => ⟨S50000x32, .f32⟩
  | 5 => ⟨S50000x32, .f32⟩
  | 6 => ⟨S1x8x3, .f32⟩
  | 7 => ⟨S8x3, .f32⟩
  | 8 => ⟨S3x8, .f32⟩
  | 9 => ⟨S1600000x8, .f32⟩
  | 10 => ⟨S1x8, .f32⟩
  | 11 => ⟨S8, .f32⟩
  | 12 => ⟨S1x8, .f32⟩
  | 13 => ⟨S1600000x8, .f32⟩
  | 14 => ⟨S1600000x8, .f32⟩
  | 15 => ⟨S_, .f32⟩
  | 16 => ⟨S1600000x8, .f32⟩
  | 17 => ⟨S1600000x8, .f32⟩
  | 18 => ⟨S1x32x8, .f32⟩
  | 19 => ⟨S32x8, .f32⟩
  | 20 => ⟨S8x32, .f32⟩
  | 21 => ⟨S1600000x32, .f32⟩
  | 22 => ⟨S1x32, .f32⟩
  | 23 => ⟨S32, .f32⟩
  | 24 => ⟨S1x32, .f32⟩
  | 25 => ⟨S1600000x32, .f32⟩
  | 26 => ⟨S1600000x32, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x32, .f32⟩
  | 36 => ⟨S1600000x32, .f32⟩
  | 37 => ⟨S_, .f32⟩
  | 38 => ⟨S50000x32, .f32⟩
  | 39 => ⟨S1600000x1, .i32⟩
  | 40 => ⟨S50000x32, .f32⟩
  | 41 => ⟨S50000x1, .f32⟩
  | 42 => ⟨S50000x32, .f32⟩
  | 43 => ⟨S50000x32, .f32⟩
  | 44 => ⟨S1x32x32, .f32⟩
  | 45 => ⟨S32x32, .f32⟩
  | 46 => ⟨S50000x32, .f32⟩
  | 47 => ⟨S50000x32, .f32⟩
  | 48 => ⟨S1x32, .f32⟩
  | 49 => ⟨S32, .f32⟩
  | 50 => ⟨S1x32, .f32⟩
  | 51 => ⟨S50000x32, .f32⟩
  | 52 => ⟨S50000x32, .f32⟩
  | 53 => ⟨S_, .f32⟩
  | 54 => ⟨S50000x32, .f32⟩
  | 55 => ⟨S50000x32, .f32⟩
  | 56 => ⟨S1x8x3, .f32⟩
  | 57 => ⟨S8x3, .f32⟩
  | 58 => ⟨S3x8, .f32⟩
  | 59 => ⟨S1600000x8, .f32⟩
  | 60 => ⟨S1x8, .f32⟩
  | 61 => ⟨S8, .f32⟩
  | 62 => ⟨S1x8, .f32⟩
  | 63 => ⟨S1600000x8, .f32⟩
  | 64 => ⟨S1600000x8, .f32⟩
  | 65 => ⟨S_, .f32⟩
  | 66 => ⟨S1600000x8, .f32⟩
  | 67 => ⟨S1600000x8, .f32⟩
  | 68 => ⟨S1x32x8, .f32⟩
  | 69 => ⟨S32x8, .f32⟩
  | 70 => ⟨S8x32, .f32⟩
  | 71 => ⟨S1600000x32, .f32⟩
  | 72 => ⟨S1x32, .f32⟩
  | 73 => ⟨S32, .f32⟩
  | 74 => ⟨S1x32, .f32⟩
  | 75 => ⟨S1600000x32, .f32⟩
  | 76 => ⟨S1600000x32, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x32, .f32⟩
  | 86 => ⟨S1600000x32, .f32⟩
  | 87 => ⟨S_, .f32⟩
  | 88 => ⟨S50000x32, .f32⟩
  | 89 => ⟨S1600000x1, .i32⟩
  | 90 => ⟨S50000x32, .f32⟩
  | 91 => ⟨S50000x1, .f32⟩
  | 92 => ⟨S50000x32, .f32⟩
  | 93 => ⟨S50000x32, .f32⟩
  | 94 => ⟨S1x32x32, .f32⟩
  | 95 => ⟨S32x32, .f32⟩
  | 96 => ⟨S50000x32, .f32⟩
  | 97 => ⟨S50000x32, .f32⟩
  | 98 => ⟨S1x32, .f32⟩
  | 99 => ⟨S32, .f32⟩
  | 100 => ⟨S1x32, .f32⟩
  | 101 => ⟨S50000x32, .f32⟩
  | 102 => ⟨S50000x32, .f32⟩
  | 103 => ⟨S_, .f32⟩
  | 104 => ⟨S50000x32, .f32⟩
  | 105 => ⟨S50000x32, .f32⟩
  | 106 => ⟨S1x8x3, .f32⟩
  | 107 => ⟨S8x3, .f32⟩
  | 108 => ⟨S3x8, .f32⟩
  | 109 => ⟨S1600000x8, .f32⟩
  | 110 => ⟨S1x8, .f32⟩
  | 111 => ⟨S8, .f32⟩
  | 112 => ⟨S1x8, .f32⟩
  | 113 => ⟨S1600000x8, .f32⟩
  | 114 => ⟨S1600000x8, .f32⟩
  | 115 => ⟨S_, .f32⟩
  | 116 => ⟨S1600000x8, .f32⟩
  | 117 => ⟨S1600000x8, .f32⟩
  | 118 => ⟨S1x32x8, .f32⟩
  | 119 => ⟨S32x8, .f32⟩
  | 120 => ⟨S8x32, .f32⟩
  | 121 => ⟨S1600000x32, .f32⟩
  | 122 => ⟨S1x32, .f32⟩
  | 123 => ⟨S32, .f32⟩
  | 124 => ⟨S1x32, .f32⟩
  | 125 => ⟨S1600000x32, .f32⟩
  | 126 => ⟨S1600000x32, .f32⟩
  | 127 => ⟨S_, .i32⟩
  | _ => ⟨S50000x3, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x32, .f32⟩
  | 8 => ⟨S1600000x32, .f32⟩
  | 9 => ⟨S_, .f32⟩
  | 10 => ⟨S50000x32, .f32⟩
  | 11 => ⟨S1600000x1, .i32⟩
  | 12 => ⟨S50000x32, .f32⟩
  | 13 => ⟨S50000x1, .f32⟩
  | 14 => ⟨S50000x32, .f32⟩
  | 15 => ⟨S50000x32, .f32⟩
  | 16 => ⟨S1x32x32, .f32⟩
  | 17 => ⟨S32x32, .f32⟩
  | 18 => ⟨S50000x32, .f32⟩
  | 19 => ⟨S50000x32, .f32⟩
  | 20 => ⟨S1x32, .f32⟩
  | 21 => ⟨S32, .f32⟩
  | 22 => ⟨S1x32, .f32⟩
  | 23 => ⟨S50000x32, .f32⟩
  | 24 => ⟨S50000x32, .f32⟩
  | 25 => ⟨S_, .f32⟩
  | 26 => ⟨S50000x32, .f32⟩
  | 27 => ⟨S50000x32, .f32⟩
  | 28 => ⟨S1x8x3, .f32⟩
  | 29 => ⟨S8x3, .f32⟩
  | 30 => ⟨S3x8, .f32⟩
  | 31 => ⟨S1600000x8, .f32⟩
  | 32 => ⟨S1x8, .f32⟩
  | 33 => ⟨S8, .f32⟩
  | 34 => ⟨S1x8, .f32⟩
  | 35 => ⟨S1600000x8, .f32⟩
  | 36 => ⟨S1600000x8, .f32⟩
  | 37 => ⟨S_, .f32⟩
  | 38 => ⟨S1600000x8, .f32⟩
  | 39 => ⟨S1600000x8, .f32⟩
  | 40 => ⟨S1x32x8, .f32⟩
  | 41 => ⟨S32x8, .f32⟩
  | 42 => ⟨S8x32, .f32⟩
  | 43 => ⟨S1600000x32, .f32⟩
  | 44 => ⟨S1x32, .f32⟩
  | 45 => ⟨S32, .f32⟩
  | 46 => ⟨S1x32, .f32⟩
  | 47 => ⟨S1600000x32, .f32⟩
  | 48 => ⟨S1600000x32, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x32, .f32⟩
  | 59 => ⟨S_, .f32⟩
  | 60 => ⟨S50000x32, .f32⟩
  | 61 => ⟨S1600000x1, .i32⟩
  | 62 => ⟨S50000x32, .f32⟩
  | 63 => ⟨S50000x1, .f32⟩
  | 64 => ⟨S50000x32, .f32⟩
  | 65 => ⟨S50000x32, .f32⟩
  | 66 => ⟨S1x32x32, .f32⟩
  | 67 => ⟨S32x32, .f32⟩
  | 68 => ⟨S50000x32, .f32⟩
  | 69 => ⟨S50000x32, .f32⟩
  | 70 => ⟨S1x32, .f32⟩
  | 71 => ⟨S32, .f32⟩
  | 72 => ⟨S1x32, .f32⟩
  | 73 => ⟨S50000x32, .f32⟩
  | 74 => ⟨S50000x32, .f32⟩
  | 75 => ⟨S_, .f32⟩
  | 76 => ⟨S50000x32, .f32⟩
  | 77 => ⟨S50000x32, .f32⟩
  | 78 => ⟨S1x8x3, .f32⟩
  | 79 => ⟨S8x3, .f32⟩
  | 80 => ⟨S3x8, .f32⟩
  | 81 => ⟨S1600000x8, .f32⟩
  | 82 => ⟨S1x8, .f32⟩
  | 83 => ⟨S8, .f32⟩
  | 84 => ⟨S1x8, .f32⟩
  | 85 => ⟨S1600000x8, .f32⟩
  | 86 => ⟨S1600000x8, .f32⟩
  | 87 => ⟨S_, .f32⟩
  | 88 => ⟨S1600000x8, .f32⟩
  | 89 => ⟨S1600000x8, .f32⟩
  | 90 => ⟨S1x32x8, .f32⟩
  | 91 => ⟨S32x8, .f32⟩
  | 92 => ⟨S8x32, .f32⟩
  | 93 => ⟨S1600000x32, .f32⟩
  | 94 => ⟨S1x32, .f32⟩
  | 95 => ⟨S32, .f32⟩
  | 96 => ⟨S1x32, .f32⟩
  | 97 => ⟨S1600000x32, .f32⟩
  | 98 => ⟨S1600000x32, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S1600000x32, .f32⟩
  | 109 => ⟨S_, .f32⟩
  | 110 => ⟨S50000x32, .f32⟩
  | 111 => ⟨S1600000x1, .i32⟩
  | 112 => ⟨S50000x32, .f32⟩
  | 113 => ⟨S50000x1, .f32⟩
  | 114 => ⟨S50000x32, .f32⟩
  | 115 => ⟨S50000x32, .f32⟩
  | 116 => ⟨S1x32x32, .f32⟩
  | 117 => ⟨S32x32, .f32⟩
  | 118 => ⟨S50000x32, .f32⟩
  | 119 => ⟨S50000x32, .f32⟩
  | 120 => ⟨S1x32, .f32⟩
  | 121 => ⟨S32, .f32⟩
  | 122 => ⟨S1x32, .f32⟩
  | 123 => ⟨S50000x32, .f32⟩
  | 124 => ⟨S50000x32, .f32⟩
  | 125 => ⟨S_, .f32⟩
  | 126 => ⟨S50000x32, .f32⟩
  | 127 => ⟨S50000x32, .f32⟩
  | _ => ⟨S50000x3, .f32⟩

abbrev hbmTy0_3 (i : Nat) : BufTy := match i % 128 with
  | 0 => ⟨S1x8x3, .f32⟩
  | 1 => ⟨S8x3, .f32⟩
  | 2 => ⟨S3x8, .f32⟩
  | 3 => ⟨S1600000x8, .f32⟩
  | 4 => ⟨S1x8, .f32⟩
  | 5 => ⟨S8, .f32⟩
  | 6 => ⟨S1x8, .f32⟩
  | 7 => ⟨S1600000x8, .f32⟩
  | 8 => ⟨S1600000x8, .f32⟩
  | 9 => ⟨S_, .f32⟩
  | 10 => ⟨S1600000x8, .f32⟩
  | 11 => ⟨S1600000x8, .f32⟩
  | 12 => ⟨S1x32x8, .f32⟩
  | 13 => ⟨S32x8, .f32⟩
  | 14 => ⟨S8x32, .f32⟩
  | 15 => ⟨S1600000x32, .f32⟩
  | 16 => ⟨S1x32, .f32⟩
  | 17 => ⟨S32, .f32⟩
  | 18 => ⟨S1x32, .f32⟩
  | 19 => ⟨S1600000x32, .f32⟩
  | 20 => ⟨S1600000x32, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x32, .f32⟩
  | 30 => ⟨S1600000x32, .f32⟩
  | 31 => ⟨S_, .f32⟩
  | 32 => ⟨S50000x32, .f32⟩
  | 33 => ⟨S1600000x1, .i32⟩
  | 34 => ⟨S50000x32, .f32⟩
  | 35 => ⟨S50000x1, .f32⟩
  | 36 => ⟨S50000x32, .f32⟩
  | 37 => ⟨S50000x32, .f32⟩
  | 38 => ⟨S1x32x32, .f32⟩
  | 39 => ⟨S32x32, .f32⟩
  | 40 => ⟨S50000x32, .f32⟩
  | 41 => ⟨S50000x32, .f32⟩
  | 42 => ⟨S1x32, .f32⟩
  | 43 => ⟨S32, .f32⟩
  | 44 => ⟨S1x32, .f32⟩
  | 45 => ⟨S50000x32, .f32⟩
  | 46 => ⟨S50000x32, .f32⟩
  | 47 => ⟨S_, .f32⟩
  | 48 => ⟨S50000x32, .f32⟩
  | 49 => ⟨S50000x32, .f32⟩
  | 50 => ⟨S1x8x3, .f32⟩
  | 51 => ⟨S8x3, .f32⟩
  | 52 => ⟨S3x8, .f32⟩
  | 53 => ⟨S1600000x8, .f32⟩
  | 54 => ⟨S1x8, .f32⟩
  | 55 => ⟨S8, .f32⟩
  | 56 => ⟨S1x8, .f32⟩
  | 57 => ⟨S1600000x8, .f32⟩
  | 58 => ⟨S1600000x8, .f32⟩
  | 59 => ⟨S_, .f32⟩
  | 60 => ⟨S1600000x8, .f32⟩
  | 61 => ⟨S1600000x8, .f32⟩
  | 62 => ⟨S1x32x8, .f32⟩
  | 63 => ⟨S32x8, .f32⟩
  | 64 => ⟨S8x32, .f32⟩
  | 65 => ⟨S1600000x32, .f32⟩
  | 66 => ⟨S1x32, .f32⟩
  | 67 => ⟨S32, .f32⟩
  | 68 => ⟨S1x32, .f32⟩
  | 69 => ⟨S1600000x32, .f32⟩
  | 70 => ⟨S1600000x32, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x32, .f32⟩
  | 80 => ⟨S1600000x32, .f32⟩
  | 81 => ⟨S_, .f32⟩
  | 82 => ⟨S50000x32, .f32⟩
  | 83 => ⟨S1600000x1, .i32⟩
  | 84 => ⟨S50000x32, .f32⟩
  | 85 => ⟨S50000x1, .f32⟩
  | 86 => ⟨S50000x32, .f32⟩
  | 87 => ⟨S50000x32, .f32⟩
  | 88 => ⟨S1x32x32, .f32⟩
  | 89 => ⟨S32x32, .f32⟩
  | 90 => ⟨S50000x32, .f32⟩
  | 91 => ⟨S50000x32, .f32⟩
  | 92 => ⟨S1x32, .f32⟩
  | 93 => ⟨S32, .f32⟩
  | 94 => ⟨S1x32, .f32⟩
  | 95 => ⟨S50000x32, .f32⟩
  | 96 => ⟨S50000x32, .f32⟩
  | 97 => ⟨S_, .f32⟩
  | 98 => ⟨S50000x32, .f32⟩
  | 99 => ⟨S50000x32, .f32⟩
  | 100 => ⟨S1x8x3, .f32⟩
  | 101 => ⟨S8x3, .f32⟩
  | 102 => ⟨S3x8, .f32⟩
  | 103 => ⟨S1600000x8, .f32⟩
  | 104 => ⟨S1x8, .f32⟩
  | 105 => ⟨S8, .f32⟩
  | 106 => ⟨S1x8, .f32⟩
  | 107 => ⟨S1600000x8, .f32⟩
  | 108 => ⟨S1600000x8, .f32⟩
  | 109 => ⟨S_, .f32⟩
  | 110 => ⟨S1600000x8, .f32⟩
  | 111 => ⟨S1600000x8, .f32⟩
  | 112 => ⟨S1x32x8, .f32⟩
  | 113 => ⟨S32x8, .f32⟩
  | 114 => ⟨S8x32, .f32⟩
  | 115 => ⟨S1600000x32, .f32⟩
  | 116 => ⟨S1x32, .f32⟩
  | 117 => ⟨S32, .f32⟩
  | 118 => ⟨S1x32, .f32⟩
  | 119 => ⟨S1600000x32, .f32⟩
  | 120 => ⟨S1600000x32, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S50000x3, .f32⟩

abbrev hbmTy0_4 (i : Nat) : BufTy := match i % 128 with
  | 0 => ⟨S1600000x1, .i32⟩
  | 1 => ⟨S1600000x32, .f32⟩
  | 2 => ⟨S1600000x32, .f32⟩
  | 3 => ⟨S_, .f32⟩
  | 4 => ⟨S50000x32, .f32⟩
  | 5 => ⟨S1600000x1, .i32⟩
  | 6 => ⟨S50000x32, .f32⟩
  | 7 => ⟨S50000x1, .f32⟩
  | 8 => ⟨S50000x32, .f32⟩
  | 9 => ⟨S50000x32, .f32⟩
  | 10 => ⟨S1x32x32, .f32⟩
  | 11 => ⟨S32x32, .f32⟩
  | 12 => ⟨S50000x32, .f32⟩
  | 13 => ⟨S50000x32, .f32⟩
  | 14 => ⟨S1x32, .f32⟩
  | 15 => ⟨S32, .f32⟩
  | 16 => ⟨S1x32, .f32⟩
  | 17 => ⟨S50000x32, .f32⟩
  | 18 => ⟨S50000x32, .f32⟩
  | 19 => ⟨S_, .f32⟩
  | 20 => ⟨S50000x32, .f32⟩
  | 21 => ⟨S50000x32, .f32⟩
  | 22 => ⟨S1x8x3, .f32⟩
  | 23 => ⟨S8x3, .f32⟩
  | 24 => ⟨S3x8, .f32⟩
  | 25 => ⟨S1600000x8, .f32⟩
  | 26 => ⟨S1x8, .f32⟩
  | 27 => ⟨S8, .f32⟩
  | 28 => ⟨S1x8, .f32⟩
  | 29 => ⟨S1600000x8, .f32⟩
  | 30 => ⟨S1600000x8, .f32⟩
  | 31 => ⟨S_, .f32⟩
  | 32 => ⟨S1600000x8, .f32⟩
  | 33 => ⟨S1600000x8, .f32⟩
  | 34 => ⟨S1x32x8, .f32⟩
  | 35 => ⟨S32x8, .f32⟩
  | 36 => ⟨S8x32, .f32⟩
  | 37 => ⟨S1600000x32, .f32⟩
  | 38 => ⟨S1x32, .f32⟩
  | 39 => ⟨S32, .f32⟩
  | 40 => ⟨S1x32, .f32⟩
  | 41 => ⟨S1600000x32, .f32⟩
  | 42 => ⟨S1600000x32, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x32, .f32⟩
  | 52 => ⟨S1600000x32, .f32⟩
  | 53 => ⟨S_, .f32⟩
  | 54 => ⟨S50000x32, .f32⟩
  | 55 => ⟨S1600000x1, .i32⟩
  | 56 => ⟨S50000x32, .f32⟩
  | 57 => ⟨S50000x1, .f32⟩
  | 58 => ⟨S50000x32, .f32⟩
  | 59 => ⟨S50000x32, .f32⟩
  | 60 => ⟨S1x32x32, .f32⟩
  | 61 => ⟨S32x32, .f32⟩
  | 62 => ⟨S50000x32, .f32⟩
  | 63 => ⟨S50000x32, .f32⟩
  | 64 => ⟨S1x32, .f32⟩
  | 65 => ⟨S32, .f32⟩
  | 66 => ⟨S1x32, .f32⟩
  | 67 => ⟨S50000x32, .f32⟩
  | 68 => ⟨S50000x32, .f32⟩
  | 69 => ⟨S_, .f32⟩
  | 70 => ⟨S50000x32, .f32⟩
  | 71 => ⟨S50000x32, .f32⟩
  | 72 => ⟨S1x8x3, .f32⟩
  | 73 => ⟨S8x3, .f32⟩
  | 74 => ⟨S3x8, .f32⟩
  | 75 => ⟨S1600000x8, .f32⟩
  | 76 => ⟨S1x8, .f32⟩
  | 77 => ⟨S8, .f32⟩
  | 78 => ⟨S1x8, .f32⟩
  | 79 => ⟨S1600000x8, .f32⟩
  | 80 => ⟨S1600000x8, .f32⟩
  | 81 => ⟨S_, .f32⟩
  | 82 => ⟨S1600000x8, .f32⟩
  | 83 => ⟨S1600000x8, .f32⟩
  | 84 => ⟨S1x32x8, .f32⟩
  | 85 => ⟨S32x8, .f32⟩
  | 86 => ⟨S8x32, .f32⟩
  | 87 => ⟨S1600000x32, .f32⟩
  | 88 => ⟨S1x32, .f32⟩
  | 89 => ⟨S32, .f32⟩
  | 90 => ⟨S1x32, .f32⟩
  | 91 => ⟨S1600000x32, .f32⟩
  | 92 => ⟨S1600000x32, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x32, .f32⟩
  | 102 => ⟨S1600000x32, .f32⟩
  | 103 => ⟨S_, .f32⟩
  | 104 => ⟨S50000x32, .f32⟩
  | 105 => ⟨S1600000x1, .i32⟩
  | 106 => ⟨S50000x32, .f32⟩
  | 107 => ⟨S50000x1, .f32⟩
  | 108 => ⟨S50000x32, .f32⟩
  | 109 => ⟨S50000x32, .f32⟩
  | 110 => ⟨S1x32x32, .f32⟩
  | 111 => ⟨S32x32, .f32⟩
  | 112 => ⟨S50000x32, .f32⟩
  | 113 => ⟨S50000x32, .f32⟩
  | 114 => ⟨S1x32, .f32⟩
  | 115 => ⟨S32, .f32⟩
  | 116 => ⟨S1x32, .f32⟩
  | 117 => ⟨S50000x32, .f32⟩
  | 118 => ⟨S50000x32, .f32⟩
  | 119 => ⟨S_, .f32⟩
  | 120 => ⟨S50000x32, .f32⟩
  | 121 => ⟨S50000x32, .f32⟩
  | 122 => ⟨S32x1, .f32⟩
  | 123 => ⟨S50000x1, .f32⟩
  | 124 => ⟨S1x1, .f32⟩
  | 125 => ⟨S50000x1, .f32⟩
  | 126 => ⟨S50000x1, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call2_cst : Ref sig .tc := ⟨.hbm, 93, rfl⟩
abbrev main_call2_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_5 : Ref sig .tc := ⟨.hbm, 105, rfl⟩
abbrev main_v79 : Ref sig .tc := ⟨.hbm, 106, rfl⟩
abbrev main_v80 : Ref sig .tc := ⟨.hbm, 107, rfl⟩
abbrev main_c_6 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_7 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call3_cst : Ref sig .tc := ⟨.hbm, 131, rfl⟩
abbrev main_call3_v0 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_call4_cst : Ref sig .tc := ⟨.hbm, 143, rfl⟩
abbrev main_call4_v0 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_c_8 : Ref sig .tc := ⟨.hbm, 155, rfl⟩
abbrev main_v122 : Ref sig .tc := ⟨.hbm, 156, rfl⟩
abbrev main_v123 : Ref sig .tc := ⟨.hbm, 157, rfl⟩
abbrev main_c_9 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_10 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_call5_cst : Ref sig .tc := ⟨.hbm, 181, rfl⟩
abbrev main_call5_v0 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_call6_cst : Ref sig .tc := ⟨.hbm, 193, rfl⟩
abbrev main_call6_v0 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_c_11 : Ref sig .tc := ⟨.hbm, 205, rfl⟩
abbrev main_v165 : Ref sig .tc := ⟨.hbm, 206, rfl⟩
abbrev main_v166 : Ref sig .tc := ⟨.hbm, 207, rfl⟩
abbrev main_c_12 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_cst_13 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_call7_cst : Ref sig .tc := ⟨.hbm, 231, rfl⟩
abbrev main_call7_v0 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_call8_cst : Ref sig .tc := ⟨.hbm, 243, rfl⟩
abbrev main_call8_v0 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_c_14 : Ref sig .tc := ⟨.hbm, 255, rfl⟩
abbrev main_v208 : Ref sig .tc := ⟨.hbm, 256, rfl⟩
abbrev main_v209 : Ref sig .tc := ⟨.hbm, 257, rfl⟩
abbrev main_c_15 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_cst_16 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_call9_cst : Ref sig .tc := ⟨.hbm, 281, rfl⟩
abbrev main_call9_v0 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_call10_cst : Ref sig .tc := ⟨.hbm, 293, rfl⟩
abbrev main_call10_v0 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_c_17 : Ref sig .tc := ⟨.hbm, 305, rfl⟩
abbrev main_v251 : Ref sig .tc := ⟨.hbm, 306, rfl⟩
abbrev main_v252 : Ref sig .tc := ⟨.hbm, 307, rfl⟩
abbrev main_c_18 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_cst_19 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_call11_cst : Ref sig .tc := ⟨.hbm, 331, rfl⟩
abbrev main_call11_v0 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_call12_cst : Ref sig .tc := ⟨.hbm, 343, rfl⟩
abbrev main_call12_v0 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_c_20 : Ref sig .tc := ⟨.hbm, 355, rfl⟩
abbrev main_v294 : Ref sig .tc := ⟨.hbm, 356, rfl⟩
abbrev main_v295 : Ref sig .tc := ⟨.hbm, 357, rfl⟩
abbrev main_c_21 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_cst_22 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_v316 : Ref sig .tc := ⟨.hbm, 380, rfl⟩
abbrev main_call13_cst : Ref sig .tc := ⟨.hbm, 381, rfl⟩
abbrev main_call13_v0 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_call14_cst : Ref sig .tc := ⟨.hbm, 393, rfl⟩
abbrev main_call14_v0 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_c_23 : Ref sig .tc := ⟨.hbm, 405, rfl⟩
abbrev main_v337 : Ref sig .tc := ⟨.hbm, 406, rfl⟩
abbrev main_v338 : Ref sig .tc := ⟨.hbm, 407, rfl⟩
abbrev main_c_24 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_cst_25 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_call15_cst : Ref sig .tc := ⟨.hbm, 431, rfl⟩
abbrev main_call15_v0 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_v368 : Ref sig .tc := ⟨.hbm, 441, rfl⟩
abbrev main_v369 : Ref sig .tc := ⟨.hbm, 442, rfl⟩
abbrev main_call16_cst : Ref sig .tc := ⟨.hbm, 443, rfl⟩
abbrev main_call16_v0 : Ref sig .tc := ⟨.hbm, 444, rfl⟩
abbrev main_v370 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_v375 : Ref sig .tc := ⟨.hbm, 450, rfl⟩
abbrev main_v376 : Ref sig .tc := ⟨.hbm, 451, rfl⟩
abbrev main_v377 : Ref sig .tc := ⟨.hbm, 452, rfl⟩
abbrev main_v378 : Ref sig .tc := ⟨.hbm, 453, rfl⟩
abbrev main_v379 : Ref sig .tc := ⟨.hbm, 454, rfl⟩
abbrev main_c_26 : Ref sig .tc := ⟨.hbm, 455, rfl⟩
abbrev main_v380 : Ref sig .tc := ⟨.hbm, 456, rfl⟩
abbrev main_v381 : Ref sig .tc := ⟨.hbm, 457, rfl⟩
abbrev main_c_27 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_v385 : Ref sig .tc := ⟨.hbm, 462, rfl⟩
abbrev main_v386 : Ref sig .tc := ⟨.hbm, 463, rfl⟩
abbrev main_v387 : Ref sig .tc := ⟨.hbm, 464, rfl⟩
abbrev main_cst_28 : Ref sig .tc := ⟨.hbm, 465, rfl⟩
abbrev main_v388 : Ref sig .tc := ⟨.hbm, 466, rfl⟩
abbrev main_v389 : Ref sig .tc := ⟨.hbm, 467, rfl⟩
abbrev main_v390 : Ref sig .tc := ⟨.hbm, 468, rfl⟩
abbrev main_v391 : Ref sig .tc := ⟨.hbm, 469, rfl⟩
abbrev main_v392 : Ref sig .tc := ⟨.hbm, 470, rfl⟩
abbrev main_v393 : Ref sig .tc := ⟨.hbm, 471, rfl⟩
abbrev main_v394 : Ref sig .tc := ⟨.hbm, 472, rfl⟩
abbrev main_v395 : Ref sig .tc := ⟨.hbm, 473, rfl⟩
abbrev main_v396 : Ref sig .tc := ⟨.hbm, 474, rfl⟩
abbrev main_v397 : Ref sig .tc := ⟨.hbm, 475, rfl⟩
abbrev main_v398 : Ref sig .tc := ⟨.hbm, 476, rfl⟩
abbrev main_v399 : Ref sig .tc := ⟨.hbm, 477, rfl⟩
abbrev main_v400 : Ref sig .tc := ⟨.hbm, 478, rfl⟩
abbrev main_v401 : Ref sig .tc := ⟨.hbm, 479, rfl⟩
abbrev main_v402 : Ref sig .tc := ⟨.hbm, 480, rfl⟩
abbrev main_call17_cst : Ref sig .tc := ⟨.hbm, 481, rfl⟩
abbrev main_call17_v0 : Ref sig .tc := ⟨.hbm, 482, rfl⟩
abbrev main_v403 : Ref sig .tc := ⟨.hbm, 483, rfl⟩
abbrev main_v404 : Ref sig .tc := ⟨.hbm, 484, rfl⟩
abbrev main_v405 : Ref sig .tc := ⟨.hbm, 485, rfl⟩
abbrev main_v406 : Ref sig .tc := ⟨.hbm, 486, rfl⟩
abbrev main_v407 : Ref sig .tc := ⟨.hbm, 487, rfl⟩
abbrev main_v408 : Ref sig .tc := ⟨.hbm, 488, rfl⟩
abbrev main_v409 : Ref sig .tc := ⟨.hbm, 489, rfl⟩
abbrev main_v410 : Ref sig .tc := ⟨.hbm, 490, rfl⟩
abbrev main_v411 : Ref sig .tc := ⟨.hbm, 491, rfl⟩
abbrev main_v412 : Ref sig .tc := ⟨.hbm, 492, rfl⟩
abbrev main_call18_cst : Ref sig .tc := ⟨.hbm, 493, rfl⟩
abbrev main_call18_v0 : Ref sig .tc := ⟨.hbm, 494, rfl⟩
abbrev main_v413 : Ref sig .tc := ⟨.hbm, 495, rfl⟩
abbrev main_v414 : Ref sig .tc := ⟨.hbm, 496, rfl⟩
abbrev main_v415 : Ref sig .tc := ⟨.hbm, 497, rfl⟩
abbrev main_v416 : Ref sig .tc := ⟨.hbm, 498, rfl⟩
abbrev main_v417 : Ref sig .tc := ⟨.hbm, 499, rfl⟩
abbrev main_v418 : Ref sig .tc := ⟨.hbm, 500, rfl⟩
abbrev main_v419 : Ref sig .tc := ⟨.hbm, 501, rfl⟩
abbrev main_v420 : Ref sig .tc := ⟨.hbm, 502, rfl⟩
abbrev main_v421 : Ref sig .tc := ⟨.hbm, 503, rfl⟩
abbrev main_v422 : Ref sig .tc := ⟨.hbm, 504, rfl⟩
abbrev main_c_29 : Ref sig .tc := ⟨.hbm, 505, rfl⟩
abbrev main_v423 : Ref sig .tc := ⟨.hbm, 506, rfl⟩
abbrev main_v424 : Ref sig .tc := ⟨.hbm, 507, rfl⟩
abbrev main_c_30 : Ref sig .tc := ⟨.hbm, 508, rfl⟩
abbrev main_v425 : Ref sig .tc := ⟨.hbm, 509, rfl⟩
abbrev main_v426 : Ref sig .tc := ⟨.hbm, 510, rfl⟩
abbrev main_v427 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_cst_31 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_call19_cst : Ref sig .tc := ⟨.hbm, 531, rfl⟩
abbrev main_call19_v0 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_v452 : Ref sig .tc := ⟨.hbm, 539, rfl⟩
abbrev main_v453 : Ref sig .tc := ⟨.hbm, 540, rfl⟩
abbrev main_v454 : Ref sig .tc := ⟨.hbm, 541, rfl⟩
abbrev main_v455 : Ref sig .tc := ⟨.hbm, 542, rfl⟩
abbrev main_call20_cst : Ref sig .tc := ⟨.hbm, 543, rfl⟩
abbrev main_call20_v0 : Ref sig .tc := ⟨.hbm, 544, rfl⟩
abbrev main_v456 : Ref sig .tc := ⟨.hbm, 545, rfl⟩
abbrev main_v457 : Ref sig .tc := ⟨.hbm, 546, rfl⟩
abbrev main_v458 : Ref sig .tc := ⟨.hbm, 547, rfl⟩
abbrev main_v459 : Ref sig .tc := ⟨.hbm, 548, rfl⟩
abbrev main_v460 : Ref sig .tc := ⟨.hbm, 549, rfl⟩
abbrev main_v461 : Ref sig .tc := ⟨.hbm, 550, rfl⟩
abbrev main_v462 : Ref sig .tc := ⟨.hbm, 551, rfl⟩
abbrev main_v463 : Ref sig .tc := ⟨.hbm, 552, rfl⟩
abbrev main_v464 : Ref sig .tc := ⟨.hbm, 553, rfl⟩
abbrev main_v465 : Ref sig .tc := ⟨.hbm, 554, rfl⟩
abbrev main_c_32 : Ref sig .tc := ⟨.hbm, 555, rfl⟩
abbrev main_v466 : Ref sig .tc := ⟨.hbm, 556, rfl⟩
abbrev main_v467 : Ref sig .tc := ⟨.hbm, 557, rfl⟩
abbrev main_c_33 : Ref sig .tc := ⟨.hbm, 558, rfl⟩
abbrev main_v468 : Ref sig .tc := ⟨.hbm, 559, rfl⟩
abbrev main_v469 : Ref sig .tc := ⟨.hbm, 560, rfl⟩
abbrev main_v470 : Ref sig .tc := ⟨.hbm, 561, rfl⟩
abbrev main_v471 : Ref sig .tc := ⟨.hbm, 562, rfl⟩
abbrev main_v472 : Ref sig .tc := ⟨.hbm, 563, rfl⟩
abbrev main_v473 : Ref sig .tc := ⟨.hbm, 564, rfl⟩
abbrev main_cst_34 : Ref sig .tc := ⟨.hbm, 565, rfl⟩
abbrev main_v474 : Ref sig .tc := ⟨.hbm, 566, rfl⟩
abbrev main_v475 : Ref sig .tc := ⟨.hbm, 567, rfl⟩
abbrev main_v476 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_v481 : Ref sig .tc := ⟨.hbm, 573, rfl⟩
abbrev main_v482 : Ref sig .tc := ⟨.hbm, 574, rfl⟩
abbrev main_v483 : Ref sig .tc := ⟨.hbm, 575, rfl⟩
abbrev main_v484 : Ref sig .tc := ⟨.hbm, 576, rfl⟩
abbrev main_v485 : Ref sig .tc := ⟨.hbm, 577, rfl⟩
abbrev main_v486 : Ref sig .tc := ⟨.hbm, 578, rfl⟩
abbrev main_v487 : Ref sig .tc := ⟨.hbm, 579, rfl⟩
abbrev main_v488 : Ref sig .tc := ⟨.hbm, 580, rfl⟩
abbrev main_call21_cst : Ref sig .tc := ⟨.hbm, 581, rfl⟩
abbrev main_call21_v0 : Ref sig .tc := ⟨.hbm, 582, rfl⟩
abbrev main_v489 : Ref sig .tc := ⟨.hbm, 583, rfl⟩
abbrev main_v490 : Ref sig .tc := ⟨.hbm, 584, rfl⟩
abbrev main_v491 : Ref sig .tc := ⟨.hbm, 585, rfl⟩
abbrev main_v492 : Ref sig .tc := ⟨.hbm, 586, rfl⟩
abbrev main_v493 : Ref sig .tc := ⟨.hbm, 587, rfl⟩
abbrev main_v494 : Ref sig .tc := ⟨.hbm, 588, rfl⟩
abbrev main_v495 : Ref sig .tc := ⟨.hbm, 589, rfl⟩
abbrev main_v496 : Ref sig .tc := ⟨.hbm, 590, rfl⟩
abbrev main_v497 : Ref sig .tc := ⟨.hbm, 591, rfl⟩
abbrev main_v498 : Ref sig .tc := ⟨.hbm, 592, rfl⟩
abbrev main_call22_cst : Ref sig .tc := ⟨.hbm, 593, rfl⟩
abbrev main_call22_v0 : Ref sig .tc := ⟨.hbm, 594, rfl⟩
abbrev main_v499 : Ref sig .tc := ⟨.hbm, 595, rfl⟩
abbrev main_v500 : Ref sig .tc := ⟨.hbm, 596, rfl⟩
abbrev main_v501 : Ref sig .tc := ⟨.hbm, 597, rfl⟩
abbrev main_v502 : Ref sig .tc := ⟨.hbm, 598, rfl⟩
abbrev main_v503 : Ref sig .tc := ⟨.hbm, 599, rfl⟩
abbrev main_v504 : Ref sig .tc := ⟨.hbm, 600, rfl⟩
abbrev main_v505 : Ref sig .tc := ⟨.hbm, 601, rfl⟩
abbrev main_v506 : Ref sig .tc := ⟨.hbm, 602, rfl⟩
abbrev main_v507 : Ref sig .tc := ⟨.hbm, 603, rfl⟩
abbrev main_v508 : Ref sig .tc := ⟨.hbm, 604, rfl⟩
abbrev main_c_35 : Ref sig .tc := ⟨.hbm, 605, rfl⟩
abbrev main_v509 : Ref sig .tc := ⟨.hbm, 606, rfl⟩
abbrev main_v510 : Ref sig .tc := ⟨.hbm, 607, rfl⟩
abbrev main_c_36 : Ref sig .tc := ⟨.hbm, 608, rfl⟩
abbrev main_v511 : Ref sig .tc := ⟨.hbm, 609, rfl⟩
abbrev main_v512 : Ref sig .tc := ⟨.hbm, 610, rfl⟩
abbrev main_v513 : Ref sig .tc := ⟨.hbm, 611, rfl⟩
abbrev main_v514 : Ref sig .tc := ⟨.hbm, 612, rfl⟩
abbrev main_v515 : Ref sig .tc := ⟨.hbm, 613, rfl⟩
abbrev main_v516 : Ref sig .tc := ⟨.hbm, 614, rfl⟩
abbrev main_cst_37 : Ref sig .tc := ⟨.hbm, 615, rfl⟩
abbrev main_v517 : Ref sig .tc := ⟨.hbm, 616, rfl⟩
abbrev main_v518 : Ref sig .tc := ⟨.hbm, 617, rfl⟩
abbrev main_v519 : Ref sig .tc := ⟨.hbm, 618, rfl⟩
abbrev main_v520 : Ref sig .tc := ⟨.hbm, 619, rfl⟩
abbrev main_v521 : Ref sig .tc := ⟨.hbm, 620, rfl⟩
abbrev main_v522 : Ref sig .tc := ⟨.hbm, 621, rfl⟩
abbrev main_v523 : Ref sig .tc := ⟨.hbm, 622, rfl⟩
abbrev main_v524 : Ref sig .tc := ⟨.hbm, 623, rfl⟩
abbrev main_v525 : Ref sig .tc := ⟨.hbm, 624, rfl⟩
abbrev main_v526 : Ref sig .tc := ⟨.hbm, 625, rfl⟩
abbrev main_v527 : Ref sig .tc := ⟨.hbm, 626, rfl⟩
abbrev main_v528 : Ref sig .tc := ⟨.hbm, 627, rfl⟩
abbrev main_v529 : Ref sig .tc := ⟨.hbm, 628, rfl⟩
abbrev main_v530 : Ref sig .tc := ⟨.hbm, 629, rfl⟩
abbrev main_v531 : Ref sig .tc := ⟨.hbm, 630, rfl⟩
abbrev main_call23_cst : Ref sig .tc := ⟨.hbm, 631, rfl⟩
abbrev main_call23_v0 : Ref sig .tc := ⟨.hbm, 632, rfl⟩
abbrev main_v532 : Ref sig .tc := ⟨.hbm, 633, rfl⟩
abbrev main_v533 : Ref sig .tc := ⟨.hbm, 634, rfl⟩
abbrev main_v534 : Ref sig .tc := ⟨.hbm, 635, rfl⟩
abbrev main_v535 : Ref sig .tc := ⟨.hbm, 636, rfl⟩
abbrev main_v536 : Ref sig .tc := ⟨.hbm, 637, rfl⟩
abbrev main_v537 : Ref sig .tc := ⟨.hbm, 638, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  transposes_S32x3_S3x32_1_0 : S32x3.Transposes [1, 0] S3x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  slices_S3x8x3_S1x8x3_0_0_0 : S3x8x3.Slices ![0, 0, 0] S1x8x3
  shapeCasts_S1x8x3_S8x3 : S1x8x3.ShapeCasts S8x3
  transposes_S8x3_S3x8_1_0 : S8x3.Transposes [1, 0] S3x8
  slices_S3x8_S1x8_0_0 : S3x8.Slices ![0, 0] S1x8
  shapeCasts_S1x8_S8 : S1x8.ShapeCasts S8
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S_S1600000x8 : S_.BroadcastsInDim S1600000x8 (![] : Fin 0 → Fin S1600000x8.rank)
  slices_S3x32x8_S1x32x8_0_0_0 : S3x32x8.Slices ![0, 0, 0] S1x32x8
  shapeCasts_S1x32x8_S32x8 : S1x32x8.ShapeCasts S32x8
  transposes_S32x8_S8x32_1_0 : S32x8.Transposes [1, 0] S8x32
  slices_S3x32_S1x32_0_0 : S3x32.Slices ![0, 0] S1x32
  shapeCasts_S1x32_S32 : S1x32.ShapeCasts S32
  bcast_S1x32_S1600000x32_0_1 : S1x32.BroadcastsInDim S1600000x32 (![0, 1] : Fin 2 → Fin S1600000x32.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  slices_S3x32x32_S1x32x32_0_0_0 : S3x32x32.Slices ![0, 0, 0] S1x32x32
  shapeCasts_S1x32x32_S32x32 : S1x32x32.ShapeCasts S32x32
  slices_S3x8x3_S1x8x3_1_0_0 : S3x8x3.Slices ![1, 0, 0] S1x8x3
  slices_S3x8_S1x8_1_0 : S3x8.Slices ![1, 0] S1x8
  slices_S3x32x8_S1x32x8_1_0_0 : S3x32x8.Slices ![1, 0, 0] S1x32x8
  slices_S3x32_S1x32_1_0 : S3x32.Slices ![1, 0] S1x32
  slices_S3x32x32_S1x32x32_1_0_0 : S3x32x32.Slices ![1, 0, 0] S1x32x32
  slices_S3x8x3_S1x8x3_2_0_0 : S3x8x3.Slices ![2, 0, 0] S1x8x3
  slices_S3x8_S1x8_2_0 : S3x8.Slices ![2, 0] S1x8
  slices_S3x32x8_S1x32x8_2_0_0 : S3x32x8.Slices ![2, 0, 0] S1x32x8
  slices_S3x32_S1x32_2_0 : S3x32.Slices ![2, 0] S1x32
  slices_S3x32x32_S1x32x32_2_0_0 : S3x32x32.Slices ![2, 0, 0] S1x32x32
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S1600000x1_S1600000_n_0_0_1_wf : ScatterDims.WF S50000 S1600000x1 S1600000 [] [0] [0] 1
  dot_S50000x3_S3x32_S50000x32_1_0_0_1_n_n_wf : DotDims.WF S50000x3 S3x32 S50000x32 [1] [0] [0] [1] [] []
  dot_S1600000x3_S3x8_S1600000x8_1_0_0_1_n_n_wf : DotDims.WF S1600000x3 S3x8 S1600000x8 [1] [0] [0] [1] [] []
  dot_S1600000x8_S8x32_S1600000x32_1_0_0_1_n_n_wf : DotDims.WF S1600000x8 S8x32 S1600000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x32_S50000x32_1_0_0_1_n_n_wf : DotDims.WF S50000x32 S32x32 S50000x32 [1] [0] [0] [1] [] []
  dot_S50000x32_S32x1_S50000x1_1_0_0_1_n_n_wf : DotDims.WF S50000x32 S32x1 S50000x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x3_S3x32_S50000x32_1_0_0_1_n_n : DotDims S50000x3 S3x32 S50000x32 where
  lhsContracting := [1]
  rhsContracting := [0]
  lhsNonContracting := [0]
  rhsNonContracting := [1]
  lhsBatch := []
  rhsBatch := []
  wf := dot_S50000x3_S3x32_S50000x32_1_0_0_1_n_n_wf
def dot_S1600000x3_S3x8_S1600000x8_1_0_0_1_n_n : DotDims S1600000x3 S3x8 S1600000x8 where
  lhsContracting := [1]
  rhsContracting := [0]
  lhsNonContracting := [0]
  rhsNonContracting := [1]
  lhsBatch := []
  rhsBatch := []
  wf := dot_S1600000x3_S3x8_S1600000x8_1_0_0_1_n_n_wf
def dot_S1600000x8_S8x32_S1600000x32_1_0_0_1_n_n : DotDims S1600000x8 S8x32 S1600000x32 where
  lhsContracting := [1]
  rhsContracting := [0]
  lhsNonContracting := [0]
  rhsNonContracting := [1]
  lhsBatch := []
  rhsBatch := []
  wf := dot_S1600000x8_S8x32_S1600000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.RunValue.lean ====
/-
  The idealized kernel's run with its RESULT named. @main is 26 tiled regions among stretches of host operations; the
  contents of every buffer at each boundary between them form a chain, each boundary computed from the one before (a host
  stretch applies its operations; a region leaves its output array at what its grid points wrote back and every other
  buffer as it found it). Every weakly fair execution terminates with every buffer at the LAST boundary's contents: in
  particular the result buffer holds the last boundary's value of it, and each argument is as launched.
-/
import proofs.«163905_j57775900066584_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the last boundary's
    contents and every argument array as launched. -/
theorem run_value : θ_run defs (onTc (τ := τ) (main (F := F))) ⟨m, fun _ => 0, ρ⟩ (fun r => ∀ c : Dev nD,
      r.2.mem ((c.tc : Thread nD τ).loc main_v328) = W52 m ρ c (Proc.devRef .tc main_v328)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W52 m ρ c b)
    (hfin := fun c s' => by
      iintro ⟨⟨Hh, -⟩, HSI⟩
      unfold StableHlo.held
      imodintro
      iapply (pointsTo_read_all (Pipeline.ucRefs τ sig) (fun b => (((c : Thread nD τ)).1, b)) (W52 m ρ c) s')
      isplitl [Hh] <;> iassumption)
    (hQ := fun s h c =>
      ⟨h c _ (mem_uc main_v328 (by decide)),
       (h c _ (mem_uc main_arg0 (by decide))).trans (W52_main_arg0 m ρ c),
       (h c _ (mem_uc main_arg1 (by decide))).trans (W52_main_arg1 m ρ c),
       (h c _ (mem_uc main_arg2 (by decide))).trans (W52_main_arg2 m ρ c),
       (h c _ (mem_uc main_arg3 (by decide))).trans (W52_main_arg3 m ρ c),
       (h c _ (mem_uc main_arg4 (by decide))).trans (W52_main_arg4 m ρ c),
       (h c _ (mem_uc main_arg5 (by decide))).trans (W52_main_arg5 m ρ c),
       (h c _ (mem_uc main_arg6 (by decide))).trans (W52_main_arg6 m ρ c),
       (h c _ (mem_uc main_arg7 (by decide))).trans (W52_main_arg7 m ρ c),
       (h c _ (mem_uc main_arg8 (by decide))).trans (W52_main_arg8 m ρ c),
       (h c _ (mem_uc main_arg9 (by decide))).trans (W52_main_arg9 m ρ c),
       (h c _ (mem_uc main_arg10 (by decide))).trans (W52_main_arg10 m ρ c),
       (h c _ (mem_uc main_arg11 (by decide))).trans (W52_main_arg11 m ρ c),
       (h c _ (mem_uc main_arg12 (by decide))).trans (W52_main_arg12 m ρ c)⟩)

end Cert.KernelIdeal.RunValue

end
-- ==== Proof.Net.lean ====
/-
  The network's four dense stages as whole-array functions over the extended reals, spelt with the host's
  operations: the linear map on node features (3 → 32); the per-edge message (a two-layer perceptron of the edge
  attributes, 3 → 8 → 32 with a rectifier between, multiplied entry by entry into the gathered source features); the
  node update (the aggregated messages scaled row by row by a column of reciprocal in-degrees, plus the node's own
  features times a 32 × 32 matrix, plus a bias, rectified); and the final linear map (32 → 1).
  Every entry of a result row depends on ONE row of each large operand and on the small operands whole, which is why a
  computation tiled by rows and the whole-array one are the same function.
-/
import proofs.«163905_j57775900066584_1_alg».proof.Proof.Gen.ReferenceIdeal
import Idealize.ShloMosaic.PureOps.Ideal

noncomputable section

namespace Cert.Net

open Idealize.ShloMosaic Cert.ReferenceIdeal Cert.ReferenceIdeal.Gen

/-- A float array of shape `S` over the extended reals. -/
abbrev Arr (S : Shape) : Type := FVec Ideal S .f32

/-- Node features `x : [N, 3]` through the first linear map: `x · wT + b`, the bias laid along every row. -/
def linIn (x : Arr S50000x3) (wT : Arr S3x32) (b : Arr S32) : Arr S50000x32 :=
  addf (Host.dotGeneral dot_S50000x3_S3x32_S50000x32_1_0_0_1_n_n none x wT)
    (broadcastInDim S50000x32 ![0, 1] bcast_S1x32_S50000x32_0_1 (broadcastInDim S1x32 ![1] bcast_S32_S1x32_1 b))

/-- The message on every edge: `hs ⊙ (max(ea · kw1T + kb1, 0) · kw2T + kb2)`, `ea : [E, 3]` the edge attributes and
    `hs : [E, 32]` the source node's features gathered per edge. -/
def edge (ea : Arr S1600000x3) (hs : Arr S1600000x32) (kw1T : Arr S3x8) (kb1 : Arr S8) (kw2T : Arr S8x32) (kb2 : Arr S32) :
    Arr S1600000x32 :=
  mulf hs
    (addf
      (Host.dotGeneral dot_S1600000x8_S8x32_S1600000x32_1_0_0_1_n_n none
        (maximumf
          (addf (Host.dotGeneral dot_S1600000x3_S3x8_S1600000x8_1_0_0_1_n_n none ea kw1T)
            (broadcastInDim S1600000x8 ![0, 1] bcast_S1x8_S1600000x8_0_1 (broadcastInDim S1x8 ![1] bcast_S8_S1x8_1 kb1)))
          (broadcastInDim S1600000x8 ![] bcast_S_S1600000x8 (constant (F := Ideal) S_ .f32 0x00000000#32)))
        kw2T)
      (broadcastInDim S1600000x32 ![0, 1] bcast_S1x32_S1600000x32_0_1 (broadcastInDim S1x32 ![1] bcast_S32_S1x32_1 kb2)))

/-- The node update: `max(agg ⊙ col + h · root + cb, 0)`, the column `col : [N, 1]` repeated along each row. -/
def node (agg : Arr S50000x32) (h : Arr S50000x32) (col : Arr S50000x1) (root : Arr S32x32) (cb : Arr S32) : Arr S50000x32 :=
  maximumf
    (addf
      (addf (mulf agg (broadcastInDim S50000x32 ![0, 1] bcast_S50000x1_S50000x32_0_1 col))
        (Host.dotGeneral dot_S50000x32_S32x32_S50000x32_1_0_0_1_n_n none h root))
      (broadcastInDim S50000x32 ![0, 1] bcast_S1x32_S50000x32_0_1 (broadcastInDim S1x32 ![1] bcast_S32_S1x32_1 cb)))
    (broadcastInDim S50000x32 ![] bcast_S_S50000x32 (constant (F := Ideal) S_ .f32 0x00000000#32))

/-- The final linear map `h · wT + b` onto one output feature. -/
def linOut (h : Arr S50000x32) (wT : Arr S32x1) (b : Arr S1) : Arr S50000x1 :=
  addf (Host.dotGeneral dot_S50000x32_S32x1_S50000x1_1_0_0_1_n_n none h wT)
    (broadcastInDim S50000x1 ![0, 1] bcast_S1x1_S50000x1_0_1 (broadcastInDim S1x1 ![1] bcast_S1_S1x1_1 b))

end Cert.Net

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«163905_j57775900066584_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.Rows.lean ====
/-
  Every dense stage of the network computes each result row from ONE row of its large operands. This module writes that
  row formula out once per stage, over the extended reals —

    linear in     (p, q) ↦ Σ_k x(p,k)·wT(k,q) + b(q)
    edge message  (e, q) ↦ hs(e,q) · ( Σ_j max(Σ_k ea(e,k)·kw1T(k,j) + kb1(j), 0) · kw2T(j,q) + kb2(q) )
    node update   (n, q) ↦ max( agg(n,q)·col(n) + Σ_k h(n,k)·root(k,q) + cb(q), 0 )
    linear out    (n, 0) ↦ Σ_k h(n,k)·wT(k,0) + b(0)

  — and proves that BOTH spellings read it at an index: the tile body (a matrix product into a zero accumulator, the
  bias cast to a row and repeated down the tile) on a tile of rows, and the whole-array function (the host's contraction,
  the bias placed on axis 1 and repeated along axis 0) on all rows. A matrix product into zero and the host's
  contraction are the same sum of row-times-column products; the layout operations only re-index.
-/
import proofs.«163905_j57775900066584_1_alg».proof.Proof.Net
import proofs.«163905_j57775900066584_1_alg».proof.Proof.Gen.KernelIdeal.Skeleton
import proofs.«163905_j57775900066584_1_alg».proof.Proof.LibMatmulRows
import proofs.«163905_j57775900066584_1_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Rows

open Idealize.ShloMosaic Idealize.ShloMosaic.ValueIdx Cert.LibMatmulRows Cert.LibColumnLayout

/-! ## The row formulas -/

/-- The rectifier's lower bound: the extended real the zero word encodes. -/
abbrev zeroWord : EReal := Ideal.ofBits .f32 0x00000000#32

/-- One row of a product plus a bias: `Σ_k row(k)·W(k,q) + b(q)`. -/
def affRow {K M : Nat} (row : Fin K → EReal) (W : (⟨2, ![K, M]⟩ : Shape).Idx → EReal) (b : (⟨1, ![M]⟩ : Shape).Idx → EReal)
    (q : Fin M) : EReal :=
  (∑ k : Fin K, row k * W (ix2 k q)) + b (ix1 q)

/-- The edge message's row: the source features' entry times the two-layer perceptron of the edge's attributes. -/
def edgeRow (ea : Fin 3 → EReal) (hs : EReal) (kw1T : (⟨2, ![3, 8]⟩ : Shape).Idx → EReal) (kb1 : (⟨1, ![8]⟩ : Shape).Idx → EReal)
    (kw2T : (⟨2, ![8, 32]⟩ : Shape).Idx → EReal) (kb2 : (⟨1, ![32]⟩ : Shape).Idx → EReal) (q : Fin 32) : EReal :=
  hs * affRow (fun j : Fin 8 => max (affRow ea kw1T kb1 j) zeroWord) kw2T kb2 q

/-- The node update's row: the scaled aggregate plus the node's own features through `root`, plus the bias, rectified. -/
def nodeRow (agg col : EReal) (h : Fin 32 → EReal) (root : (⟨2, ![32, 32]⟩ : Shape).Idx → EReal)
    (cb : (⟨1, ![32]⟩ : Shape).Idx → EReal) (q : Fin 32) : EReal :=
  max (agg * col + (∑ k : Fin 32, h k * root (ix2 k q)) + cb (ix1 q)) zeroWord

/-! ## The tile bodies read at an index -/

section Tile
open Cert.KernelIdeal Cert.KernelIdeal.Gen

/-- A flat bias cast to a row and repeated down a tile reads, at `(p, q)`, the bias at `q`. -/
theorem biasTile_apply {a b : Nat} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The first linear map's tile body at `(p, q)`. -/
theorem linIn_tile (x0 : Vec Ideal S5000x3 .f32) (x1 : Vec Ideal S3x32 .f32) (x2 : Vec Ideal S32 .f32) (p : Fin 5000) (q : Fin 32) :
    k0_pay1 x0 x1 x2 (ix2 p q) = affRow (fun k => x0 (ix2 p k)) x1 x2 q := by
  unfold k0_pay1 affRow
  simp only [shapeCast_self]
  rw [addf_apply, biasTile_apply]
  rw [show dot_S5000x3_S3x32_S5000x32_1_0_0_1_n_n = dotRows 5000 3 32 dot_S5000x3_S3x32_S5000x32_1_0_0_1_n_n_wf from rfl]
  unfold matmul
  rw [matmulRows_eq, mmRows_apply]

/-- The edge message's tile body at `(p, q)`. -/
theorem edge_tile (x0 : Vec Ideal S8000x3 .f32) (x1 : Vec Ideal S8000x32 .f32) (x2 : Vec Ideal S3x8 .f32) (x3 : Vec Ideal S8 .f32)
    (x4 : Vec Ideal S8x32 .f32) (x5 : Vec Ideal S32 .f32) (p : Fin 8000) (q : Fin 32) :
    k1_pay1 x0 x1 x2 x3 x4 x5 (ix2 p q) = edgeRow (fun k => x0 (ix2 p k)) (x1 (ix2 p q)) x2 x3 x4 x5 q := by
  unfold k1_pay1 edgeRow affRow
  simp only [shapeCast_self]
  rw [mulf_apply, addf_apply, biasTile_apply]
  rw [show dot_S8000x8_S8x32_S8000x32_1_0_0_1_n_n = dotRows 8000 8 32 dot_S8000x8_S8x32_S8000x32_1_0_0_1_n_n_wf from rfl]
  unfold matmul
  rw [matmulRows_eq, mmRows_apply]
  congr 2
  refine Finset.sum_congr rfl fun j _ => ?_
  congr 1
  rw [maximumf_apply, addf_apply, biasTile_apply, broadcast_apply]
  rw [show dot_S8000x3_S3x8_S8000x8_1_0_0_1_n_n = dotRows 8000 3 8 dot_S8000x3_S3x8_S8000x8_1_0_0_1_n_n_wf from rfl]
  rw [matmulRows_eq, mmRows_apply]
  rfl

/-- A column `[a, 1]` repeated along the rows of a tile reads, at `(p, q)`, the column at `(p, 0)`. -/
theorem node_tile (x0 : Vec Ideal S5000x32 .f32) (x1 : Vec Ideal S5000x32 .f32) (x2 : Vec Ideal S5000x1 .f32)
    (x3 : Vec Ideal S32x32 .f32) (x4 : Vec Ideal S32 .f32) (p : Fin 5000) (q : Fin 32) :
    k2_pay1 x0 x1 x2 x3 x4 (ix2 p q)
      = nodeRow (x0 (ix2 p q)) (x2 (ix2 p (0 : Fin 1))) (fun k => x1 (ix2 p k)) x3 x4 q := by
  unfold k2_pay1 nodeRow
  simp only [shapeCast_self]
  rw [maximumf_apply, addf_apply, addf_apply, mulf_apply, biasTile_apply, broadcast_apply, broadcastTo_a1_ab_apply]
  rw [show dot_S5000x32_S32x32_S5000x32_1_0_0_1_n_n = dotRows 5000 32 32 dot_S5000x32_S32x32_S5000x32_1_0_0_1_n_n_wf from rfl]
  unfold matmul
  rw [matmulRows_eq, mmRows_apply]
  rfl

/-- The last linear map's tile body at `(p, 0)`. -/
theorem linOut_tile (x0 : Vec Ideal S5000x32 .f32) (x1 : Vec Ideal S32x1 .f32) (x2 : Vec Ideal S1 .f32) (p : Fin 5000) (q : Fin 1) :
    k25_pay1 x0 x1 x2 (ix2 p q) = affRow (fun k => x0 (ix2 p k)) x1 x2 q := by
  unfold k25_pay1 affRow
  simp only [shapeCast_self]
  rw [addf_apply, biasTile_apply]
  rw [show dot_S5000x32_S32x1_S5000x1_1_0_0_1_n_n = dotRows 5000 32 1 dot_S5000x32_S32x1_S5000x1_1_0_0_1_n_n_wf from rfl]
  unfold matmul
  rw [matmulRows_eq, mmRows_apply]

end Tile

/-! ## The whole-array functions read at an index -/

section Whole
open Cert.ReferenceIdeal Cert.ReferenceIdeal.Gen Cert.Net

/-- A flat bias placed on axis 1 of a row and repeated along axis 0 reads, at `(p, q)`, the bias at `q`. -/
theorem biasRows_apply {a b : Nat} (v : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1])
    (p : Fin a) (q : Fin b) :
    broadcastInDim ⟨2, ![a, b]⟩ ![0, 1] h2 (broadcastInDim ⟨2, ![1, b]⟩ ![1] h1 v) (ix2 p q) = v (ix1 q) := by
  rw [broadcastInDim_1b_ab_apply, broadcastInDim_b_1b_apply]

/-- A scalar zero placed everywhere reads the zero word at every index. -/
theorem zeros_apply (S : Shape) (h : S_.BroadcastsInDim S (![] : Fin 0 → Fin S.rank)) (i : S.Idx) :
    broadcastInDim S ![] h (constant (F := Ideal) S_ .f32 0x00000000#32) i = zeroWord := by
  refine broadcastInDim_apply _ h _ i ix0 (fun ax => ax.elim0) |>.trans ?_
  rfl

theorem linIn_apply (x : Arr S50000x3) (wT : Arr S3x32) (b : Arr S32) (p : Fin 50000) (q : Fin 32) :
    linIn x wT b (ix2 p q) = affRow (fun k => x (ix2 p k)) wT b q := by
  unfold linIn affRow
  rw [addf_apply, biasRows_apply]
  rw [show dot_S50000x3_S3x32_S50000x32_1_0_0_1_n_n = dotRows 50000 3 32 dot_S50000x3_S3x32_S50000x32_1_0_0_1_n_n_wf from rfl]
  unfold Host.dotGeneral
  rw [dotGeneralRows_eq, mmRows_apply]

theorem edge_apply (ea : Arr S1600000x3) (hs : Arr S1600000x32) (kw1T : Arr S3x8) (kb1 : Arr S8) (kw2T : Arr S8x32) (kb2 : Arr S32)
    (p : Fin 1600000) (q : Fin 32) :
    edge ea hs kw1T kb1 kw2T kb2 (ix2 p q) = edgeRow (fun k => ea (ix2 p k)) (hs (ix2 p q)) kw1T kb1 kw2T kb2 q := by
  unfold edge edgeRow affRow
  rw [mulf_apply, addf_apply, biasRows_apply]
  rw [show dot_S1600000x8_S8x32_S1600000x32_1_0_0_1_n_n = dotRows 1600000 8 32 dot_S1600000x8_S8x32_S1600000x32_1_0_0_1_n_n_wf from rfl,
    show dot_S1600000x3_S3x8_S1600000x8_1_0_0_1_n_n = dotRows 1600000 3 8 dot_S1600000x3_S3x8_S1600000x8_1_0_0_1_n_n_wf from rfl]
  unfold Host.dotGeneral
  rw [dotGeneralRows_eq, mmRows_apply]
  congr 2
  refine Finset.sum_congr rfl fun j _ => ?_
  congr 1
  rw [maximumf_apply, addf_apply, biasRows_apply, zeros_apply, dotGeneralRows_eq, mmRows_apply]

theorem node_apply (agg h : Arr S50000x32) (col : Arr S50000x1) (root : Arr S32x32) (cb : Arr S32) (p : Fin 50000) (q : Fin 32) :
    node agg h col root cb (ix2 p q)
      = nodeRow (agg (ix2 p q)) (col (ix2 p (0 : Fin 1))) (fun k => h (ix2 p k)) root cb q := by
  unfold node nodeRow
  rw [maximumf_apply, addf_apply, addf_apply, mulf_apply, biasRows_apply, zeros_apply, broadcastInDim_a1_ab_apply]
  rw [show dot_S50000x32_S32x32_S50000x32_1_0_0_1_n_n = dotRows 50000 32 32 dot_S50000x32_S32x32_S50000x32_1_0_0_1_n_n_wf from rfl]
  unfold Host.dotGeneral
  rw [dotGeneralRows_eq, mmRows_apply]

theorem linOut_apply (h : Arr S50000x32) (wT : Arr S32x1) (b : Arr S1) (p : Fin 50000) (q : Fin 1) :
    linOut h wT b (ix2 p q) = affRow (fun k => h (ix2 p k)) wT b q := by
  unfold linOut affRow
  rw [addf_apply, biasRows_apply]
  rw [show dot_S50000x32_S32x1_S50000x1_1_0_0_1_n_n = dotRows 50000 32 1 dot_S50000x32_S32x1_S50000x1_1_0_0_1_n_n_wf from rfl]
  unfold Host.dotGeneral
  rw [dotGeneralRows_eq, mmRows_apply]

end Whole

end Cert.Rows

end
-- ==== Proof.RegionBasics.lean ====
/-
  Two trivial facts about offset vectors shared by the region lemmas: the all-zero offsets of rank 2 and of rank 1 are
  the constant-zero function.
-/
import Mathlib.Data.Fin.VecNotation

namespace Cert.KernelIdeal.Regions

theorem hz2 : (![0, 0] : Fin 2 → Nat) = fun _ => 0 := funext fun a => by
  match a with
  | ⟨0, _⟩ => rfl
  | ⟨1, _⟩ => rfl

theorem hz1 : (![0] : Fin 1 → Nat) = fun _ => 0 := funext fun a => by
  match a with
  | ⟨0, _⟩ => rfl

end Cert.KernelIdeal.Regions
-- ==== Proof.Region0.lean ====
/-
  The first tiled region: ten tiles of 5000 node rows. Tile `t` reads rows 5000·t … 5000·t + 4999 of the node features and
  the whole weight matrix and bias, and writes rows 5000·t … of the result. Each result row is the row formula of the
  first linear map applied to the same row of the features, so what tile `t` writes back is block `t` of the
  whole-array linear map of the region's input arrays; the ten blocks cover all 50000 rows, so the result array IS that
  whole-array function.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the large operand's tile and the result's tile are tile `t`; the small operands
    are taken whole. -/
theorem idx0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- What tile `t` writes back is block `t` of the linear map of the region's input arrays. -/
theorem flushed0 (c : Dev nD) (t : Fin cfg0.N) :
    (dat0 V c).flushed 3 t
      = ((cfg0.win 3).blk t).view.read (Elt Ideal) (Cert.Net.linIn (V c main_arg0) (V c main_v13) (V c main_arg4)) := by
  show (cfg0.win 3).cut (grid0.coords t) ((dat0 V c).after 3 t) = _
  rw [after0_3]
  unfold out0_3
  rw [View.canon_unit_zero hz2]
  simp only [View.ld_unit_zero (S := S5000x3) hz2, View.ld_unit_zero (S := S3x32) hz2, View.ld_unit_zero (S := S32) hz1]
  obtain ⟨e0, e1, e2, e3, e4, e5, e6⟩ := idx0 t
  have htN : t.val < 10 := by have := t.isLt; have hN : cfg0.N = 10 := N_0; omega
  show (k0_pay1 (iblk0 V c 0 t) (iblk0 V c 1 t) (iblk0 V c 2 t) : Vec Ideal S5000x32 .f32)
      = fun j : S5000x32.Idx => Cert.Net.linIn (V c main_arg0) (V c main_v13) (V c main_arg4) (((cfg0.win 3).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw1 : iblk0 V c 1 t = V c main_v13 := by
    funext y
    show V c main_v13 (((cfg0.win 1).blk t).view.emb y) = V c main_v13 y
    refine congrArg (V c main_v13) ?_; funext a; apply Fin.ext
    match a with
    | ⟨0, _⟩ => show win0_1.index t (0 : Fin 2) * 3 + 1 * (y 0).val = (y 0).val; omega
    | ⟨1, _⟩ => show win0_1.index t (1 : Fin 2) * 32 + 1 * (y 1).val = (y 1).val; omega
  have hw2 : iblk0 V c 2 t = V c main_arg4 := by
    funext y
    show V c main_arg4 (((cfg0.win 2).blk t).view.emb y) = V c main_arg4 y
    refine congrArg (V c main_arg4) ?_; funext a; apply Fin.ext
    match a with
    | ⟨0, _⟩ => show win0_2.index t (0 : Fin 1) * 32 + 1 * (y 0).val = (y 0).val; omega
  have hE : ((cfg0.win 3).blk t).view.emb (ix2 p q) = ix2 (n0 := 50000) (n1 := 32) P q := by
    funext a; apply Fin.ext
    match a with
    | ⟨0, _⟩ => show win0_3.index t (0 : Fin 2) * 5000 + 1 * p.val = P.val; omega
    | ⟨1, _⟩ => show win0_3.index t (1 : Fin 2) * 32 + 1 * q.val = q.val; omega
  have hr0 : ∀ k : Fin 3, iblk0 V c 0 t (ix2 p k) = V c main_arg0 (ix2 (n0 := 50000) (n1 := 3) P k) := by
    intro k
    show V c main_arg0 (((cfg0.win 0).blk t).view.emb (ix2 p k)) = _
    refine congrArg (V c main_arg0) ?_; funext a; apply Fin.ext
    match a with
    | ⟨0, _⟩ => show win0_0.index t (0 : Fin 2) * 5000 + 1 * p.val = P.val; omega
    | ⟨1, _⟩ => show win0_0.index t (1 : Fin 2) * 3 + 1 * k.val = k.val; omega
  show k0_pay1 (iblk0 V c 0 t) (iblk0 V c 1 t) (iblk0 V c 2 t) (ix2 p q)
      = Cert.Net.linIn (V c main_arg0) (V c main_v13) (V c main_arg4) (((cfg0.win 3).blk t).view.emb (ix2 p q))
  rw [hE, Cert.Rows.linIn_apply]
  refine (Cert.Rows.linIn_tile (iblk0 V c 0 t) (iblk0 V c 1 t) (iblk0 V c 2 t) p q).trans ?_
  rw [hw1, hw2]
  simp only [hr0]

/-- An index of the result array is in tile `t`'s block iff each coordinate is in the block's range. -/
theorem mem_blk0 (t : Fin cfg0.N) (i : S50000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v14).slice (win0_3.rect t)).set ↔ _
  rw [View.set_slice_whole, Rect.mem_set_unit]
  exact Iff.rfl

/-- Every row of the result is in the block of the tile its row number falls in. -/
theorem cover0 (i : S50000x32.Idx) : ∃ t : Fin cfg0.N, (cfg0.win 3).flush t = true ∧ i ∈ ((cfg0.win 3).blk t).view.set := by
  have hi0 : (i 0).val < 50000 := (i 0).isLt
  have hi1 : (i 1).val < 32 := (i 1).isLt
  have hN : cfg0.N = 10 := N_0
  let t : Fin cfg0.N := ⟨(i 0).val / 5000, by rw [hN]; omega⟩
  obtain ⟨e0, e1, -⟩ := idx0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- THE RESULT ARRAY of the region is the linear map of its input arrays. -/
theorem final0 (c : Dev nD) :
    (dat0 V c).arrAt 3 cfg0.N = Cert.Net.linIn (V c main_arg0) (V c main_v13) (V c main_arg4) :=
  (dat0 V c).arrAt_eq_of_cover 3 _ (fun t _ => flushed0 V c t) (fun i => cover0 i)

end Cert.KernelIdeal.Regions

end
-- ==== Proof.Region1.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx1 : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 ∧ win1_3.index t (0 : Fin 1) = 0
    ∧ win1_4.index t (0 : Fin 2) = 0 ∧ win1_4.index t (1 : Fin 2) = 0 ∧ win1_5.index t (0 : Fin 1) = 0 :=
  (by decide +kernel : ∀ t : Fin grid1.N, _)

/-- What tile `t` writes back is block `t` of the message function of the region's input arrays. -/
theorem flushed1 (c : Dev nD) (t : Fin cfg1.N) :
    (dat1 V c).flushed 6 t
      = ((cfg1.win 6).blk t).view.read (Elt Ideal)
          (Cert.Net.edge (V c main_arg2) (V c main_v21) (V c main_v24) (V c main_v29) (V c main_v27) (V c main_v31)) := by
  show (cfg1.win 6).cut (grid1.coords t) ((dat1 V c).after 6 t) = _
  rw [after1_6]
  unfold out1_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx1 t
  have htN : t.val < 200 := by have := t.isLt; have hN : cfg1.N = 200 := N_1; omega
  show (k1_pay1 (iblk1 V c 0 t) (iblk1 V c 1 t) (iblk1 V c 2 t) (iblk1 V c 3 t) (iblk1 V c 4 t) (iblk1 V c 5 t) : Vec Ideal S8000x32 .f32)
      = fun j : S8000x32.Idx => Cert.Net.edge (V c main_arg2) (V c main_v21) (V c main_v24) (V c main_v29) (V c main_v27) (V c main_v31) (((cfg1.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk1 V c 2 t = V c main_v24 := by
    funext y
    show V c main_v24 (((cfg1.win 2).blk t).view.emb y) = V c main_v24 y
    refine congrArg (V c main_v24) ?_; funext a; apply Fin.ext
    match a with
    | ⟨0, _⟩ => show win1_2.index t (0 : Fin 2) * 3 + 1 * (y 0).val = (y 0).val; omega
    | ⟨1, _⟩ => show win1_2.index t (1 : Fin 2) * 8 + 1 * (y 1).val = (y 1).val; omega
  have hw3 : iblk1 V c 3 t = V c main_v29 := by
    funext y
    show V c main_v29 (((cfg1.win 3).blk t).view.emb y) = V c main_v29 y
    refine congrArg (V c main_v29) ?_; funext a; apply Fin.ext
    match a with
    | ⟨0, _⟩ => show win1_3.index t (0 : Fin 1) * 8 + 1 * (y 0).val = (y 0).val; omega
  have hw4 : iblk1 V c 4 t = V c main_v27 := by
    funext y
    show V c main_v27 (((cfg1.win 4).blk t).view.emb y) = V c main_v27 y
    refine congrArg (V c main_v27) ?_; funext a; apply Fin.ext
    match a with
    | ⟨0, _⟩ => show win1_4.index t (0 : Fin 2) * 8 + 1 * (y 0).val = (y 0).val; omega
    | ⟨1, _⟩ => show win1_4.index t (1 : Fin 2) * 32 + 1 * (y 1).val = (y 1).val; omega
  have hw5 : iblk1 V c 5 t = V c main_v31 := by
    funext y
    show V c main_v31 (((cfg1.win 5).blk t).view.emb y) = V c main_v31 y
    refine congrArg (V c main_v31) ?_; funext a; apply Fin.ext
    match a with
    | ⟨0, _⟩ => show win1_5.index t (0 : Fin 1) * 32 + 1 * (y 0).val = (y 0).val; omega
  have hE : ((cfg1.win 6).blk t).view.emb (ix2 p q) = ix2 (n0 := 1600000) (n1 := 32) P q := by
    funext a; apply Fin.ext
    match a with
    | ⟨0, _⟩ => show win1_6.index t (0 : Fin 2) * 8000 + 1 * p.val = P.val; omega
    | ⟨1, _⟩ => show win1_6.index t (1 : Fin 2) * 32 + 1 * q.val = q.val; omega
  have hr0 : ∀ k : Fin 3, iblk1 V c 0 t (ix2 p k) = V c main_arg2 (ix2 (n0 := 1600000) (n1 := 3) P k) := by
    intro k
    show V c main_arg2 (((cfg1.win 0).blk t).view.emb (ix2 p k)) = _
    refine congrArg (V c main_arg2) ?_; funext a; apply Fin.ext
    match a with
    | ⟨0, _⟩ => show win1_0.index t (0 : Fin 2) * 8000 + 1 * p.val = P.val; omega
    | ⟨1, _⟩ => show win1_0.index t (1 : Fin 2) * 3 + 1 * k.val = k.val; omega
  have hr1 : iblk1 V c 1 t (ix2 p q) = V c main_v21 (ix2 (n0 := 1600000) (n1 := 32) P q) := by
    show V c main_v21 (((cfg1.win 1).blk t).view.emb (ix2 p q)) = _
    refine congrArg (V c main_v21) ?_; funext a; apply Fin.ext
    match a with
    | ⟨0, _⟩ => show win1_1.index t (0 : Fin 2) * 8000 + 1 * p.val = P.val; omega
    | ⟨1, _⟩ => show win1_1.index t (1 : Fin 2) * 32 + 1 * q.val = q.val; omega
  show k1_pay1 (iblk1 V c 0 t) (iblk1 V c 1 t) (iblk1 V c 2 t) (iblk1 V c 3 t) (iblk1 V c 4 t) (iblk1 V c 5 t) (ix2 p q)
      = Cert.Net.edge (V c main_arg2) (V c main_v21) (V c main_v24) (V c main_v29) (V c main_v27) (V c main_v31)
          (((cfg1.win 6).blk t).view.emb (ix2 p q))
  rw [hE, Cert.Rows.edge_apply]
  refine (Cert.Rows.edge_tile (iblk1 V c 0 t) (iblk1 V c 1 t) (iblk1 V c 2 t) (iblk1 V c 3 t) (iblk1 V c 4 t) (iblk1 V c 5 t) p q).trans ?_
  rw [hw2, hw3, hw4, hw5, hr1]
  simp only [hr0]

/-- An index of the message array is in tile `t`'s block iff each coordinate is in the block's range. -/
theorem mem_blk1 (t : Fin cfg1.N) (i : S1600000x32.Idx) :
    i ∈ ((cfg1.win 6).blk t).view.set ↔ ∀ a : Fin 2, win1_6.index t a * S8000x32.size a ≤ (i a).val ∧ (i a).val < win1_6.index t a * S8000x32.size a + S8000x32.size a := by
  show i ∈ ((View.whole main_v32).slice (win1_6.rect t)).set ↔ _
  rw [View.set_slice_whole, Rect.mem_set_unit]
  exact Iff.rfl

/-- Every row of the messages is in the block of the tile its row number falls in. -/
theorem cover1 (i : S1600000x32.Idx) : ∃ t : Fin cfg1.N, (cfg1.win 6).flush t = true ∧ i ∈ ((cfg1.win 6).blk t).view.set := by
  have hi0 : (i 0).val < 1600000 := (i 0).isLt
  have hi1 : (i 1).val < 32 := (i 1).isLt
  have hN : cfg1.N = 200 := N_1
  let t : Fin cfg1.N := ⟨(i 0).val / 8000, by rw [hN]; omega⟩
  obtain ⟨e0, e1, -⟩ := idx1 t
  have ht : t.val = (i 0).val / 8000 := rfl
  refine ⟨t, flush1_6 t, ?_⟩
  rw [mem_blk1]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 32 ≤ (i 1).val ∧ (i 1).val < win1_6.index t (1 : Fin 2) * 32 + 32; omega

/-- THE MESSAGE ARRAY of the region is the message function of its input arrays. -/
theorem final1 (c : Dev nD) :
    (dat1 V c).arrAt 6 cfg1.N
      = Cert.Net.edge (V c main_arg2) (V c main_v21) (V c main_v24) (V c main_v29) (V c main_v27) (V c main_v31) :=
  (dat1 V c).arrAt_eq_of_cover 6 _ (fun t _ => flushed1 V c t) (fun i => cover1 i)

end Cert.KernelIdeal.Regions

end
-- ==== Proof.Region2.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx2 : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 ∧ win2_4.index t (0 : Fin 1) = 0 :=
  (by decide +kernel : ∀ t : Fin grid2.N, _)

/-- What tile `t` writes back is block `t` of the update of the region's input arrays. -/
theorem flushed2 (c : Dev nD) (t : Fin cfg2.N) :
    (dat2 V c).flushed 5 t
      = ((cfg2.win 5).blk t).view.read (Elt Ideal)
          (Cert.Net.node (V c main_v35) (V c main_v14) (V c main_v12) (V c main_v37) (V c main_v39)) := by
  show (cfg2.win 5).cut (grid2.coords t) ((dat2 V c).after 5 t) = _
  rw [after2_5]
  unfold out2_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx2 t
  have htN : t.val < 10 := by have := t.isLt; have hN : cfg2.N = 10 := N_2; omega
  show (k2_pay1 (iblk2 V c 0 t) (iblk2 V c 1 t) (iblk2 V c 2 t) (iblk2 V c 3 t) (iblk2 V c 4 t) : Vec Ideal S5000x32 .f32)
      = fun j : S5000x32.Idx => Cert.Net.node (V c main_v35) (V c main_v14) (V c main_v12) (V c main_v37) (V c main_v39) (((cfg2.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk2 V c 3 t = V c main_v37 := by
    funext y
    show V c main_v37 (((cfg2.win 3).blk t).view.emb y) = V c main_v37 y
    refine congrArg (V c main_v37) ?_; funext a; apply Fin.ext
    match a with
    | ⟨0, _⟩ => show win2_3.index t (0 : Fin 2) * 32 + 1 * (y 0).val = (y 0).val; omega
    | ⟨1, _⟩ => show win2_3.index t (1 : Fin 2) * 32 + 1 * (y 1).val = (y 1).val; omega
  have hw4 : iblk2 V c 4 t = V c main_v39 := by
    funext y
    show V c main_v39 (((cfg2.win 4).blk t).view.emb y) = V c main_v39 y
    refine congrArg (V c main_v39) ?_; funext a; apply Fin.ext
    match a with
    | ⟨0, _⟩ => show win2_4.index t (0 : Fin 1) * 32 + 1 * (y 0).val = (y 0).val; omega
  have hE : ((cfg2.win 5).blk t).view.emb (ix2 p q) = ix2 (n0 := 50000) (n1 := 32) P q := by
    funext a; apply Fin.ext
    match a with
    | ⟨0, _⟩ => show win2_5.index t (0 : Fin 2) * 5000 + 1 * p.val = P.val; omega
    | ⟨1, _⟩ => show win2_5.index t (1 : Fin 2) * 32 + 1 * q.val = q.val; omega
  have hr0 : iblk2 V c 0 t (ix2 p q) = V c main_v35 (ix2 (n0 := 50000) (n1 := 32) P q) := by
    show V c main_v35 (((cfg2.win 0).blk t).view.emb (ix2 p q)) = _
    refine congrArg (V c main_v35) ?_; funext a; apply Fin.ext
    match a with
    | ⟨0, _⟩ => show win2_0.index t (0 : Fin 2) * 5000 + 1 * p.val = P.val; omega
    | ⟨1, _⟩ => show win2_0.index t (1 : Fin 2) * 32 + 1 * q.val = q.val; omega
  have hr1 : ∀ k : Fin 32, iblk2 V c 1 t (ix2 p k) = V c main_v14 (ix2 (n0 := 50000) (n1 := 32) P k) := by
    intro k
    show V c main_v14 (((cfg2.win 1).blk t).view.emb (ix2 p k)) = _
    refine congrArg (V c main_v14) ?_; funext a; apply Fin.ext
    match a with
    | ⟨0, _⟩ => show win2_1.index t (0 : Fin 2) * 5000 + 1 * p.val = P.val; omega
    | ⟨1, _⟩ => show win2_1.index t (1 : Fin 2) * 32 + 1 * k.val = k.val; omega
  have hr2 : iblk2 V c 2 t (ix2 p (0 : Fin 1)) = V c main_v12 (ix2 (n0 := 50000) (n1 := 1) P (0 : Fin 1)) := by
    show V c main_v12 (((cfg2.win 2).blk t).view.emb (ix2 p (0 : Fin 1))) = _
    refine congrArg (V c main_v12) ?_; funext a; apply Fin.ext
    match a with
    | ⟨0, _⟩ => show win2_2.index t (0 : Fin 2) * 5000 + 1 * p.val = P.val; omega
    | ⟨1, _⟩ => show win2_2.index t (1 : Fin 2) * 1 + 1 * 0 = 0; omega
  show k2_pay1 (iblk2 V c 0 t) (iblk2 V c 1 t) (iblk2 V c 2 t) (iblk2 V c 3 t) (iblk2 V c 4 t) (ix2 p q)
      = Cert.Net.node (V c main_v35) (V c main_v14) (V c main_v12) (V c main_v37) (V c main_v39)
          (((cfg2.win 5).blk t).view.emb (ix2 p q))
  rw [hE, Cert.Rows.node_apply]
  refine (Cert.Rows.node_tile (iblk2 V c 0 t) (iblk2 V c 1 t) (iblk2 V c 2 t) (iblk2 V c 3 t) (iblk2 V c 4 t) p q).trans ?_
  rw [hw3, hw4, hr0, hr2]
  simp only [hr1]

/-- An index of the result array is in tile `t`'s block iff each coordinate is in the block's range. -/
theorem mem_blk2 (t : Fin cfg2.N) (i : S50000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v40).slice (win2_5.rect t)).set ↔ _
  rw [View.set_slice_whole, Rect.mem_set_unit]
  exact Iff.rfl

/-- Every row of the result is in the block of the tile its row number falls in. -/
theorem cover2 (i : S50000x32.Idx) : ∃ t : Fin cfg2.N, (cfg2.win 5).flush t = true ∧ i ∈ ((cfg2.win 5).blk t).view.set := by
  have hi0 : (i 0).val < 50000 := (i 0).isLt
  have hi1 : (i 1).val < 32 := (i 1).isLt
  have hN : cfg2.N = 10 := N_2
  let t : Fin cfg2.N := ⟨(i 0).val / 5000, by rw [hN]; omega⟩
  obtain ⟨e0, e1, -⟩ := idx2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-- THE NEW NODE FEATURES of the region are the update of its input arrays. -/
theorem final2 (c : Dev nD) :
    (dat2 V c).arrAt 5 cfg2.N
      = Cert.Net.node (V c main_v35) (V c main_v14) (V c main_v12) (V c main_v37) (V c main_v39) :=
  (dat2 V c).arrAt_eq_of_cover 5 _ (fun t _ => flushed2 V c t) (fun i => cover2 i)

end Cert.KernelIdeal.Regions

end
-- ==== Proof.Region3.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx3 : ∀ t : Fin cfg3.N, win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 ∧ win3_3.index t (0 : Fin 1) = 0
    ∧ win3_4.index t (0 : Fin 2) = 0 ∧ win3_4.index t (1 : Fin 2) = 0 ∧ win3_5.index t (0 : Fin 1) = 0 :=
  (by decide +kernel : ∀ t : Fin grid3.N, _)

/-- What tile `t` writes back is block `t` of the message function of the region's input arrays. -/
theorem flushed3 (c : Dev nD) (t : Fin cfg3.N) :
    (dat3 V c).flushed 6 t
      = ((cfg3.win 6).blk t).view.read (Elt Ideal)
          (Cert.Net.edge (V c main_arg2) (V c main_v47) (V c main_v50) (V c main_v55) (V c main_v53) (V c main_v57)) := by
  show (cfg3.win 6).cut (grid3.coords t) ((dat3 V c).after 6 t) = _
  rw [after3_6]
  unfold out3_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx3 t
  have htN : t.val < 200 := by have := t.isLt; have hN : cfg3.N = 200 := N_3; omega
  show (k3_pay1 (iblk3 V c 0 t) (iblk3 V c 1 t) (iblk3 V c 2 t) (iblk3 V c 3 t) (iblk3 V c 4 t) (iblk3 V c 5 t) : Vec Ideal S8000x32 .f32)
      = fun j : S8000x32.Idx => Cert.Net.edge (V c main_arg2) (V c main_v47) (V c main_v50) (V c main_v55) (V c main_v53) (V c main_v57) (((cfg3.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk3 V c 2 t = V c main_v50 := by
    funext y
    show V c main_v50 (((cfg3.win 2).blk t).view.emb y) = V c main_v50 y
    refine congrArg (V c main_v50) ?_; funext a; apply Fin.ext
    match a with
    | ⟨0, _⟩ => show win3_2.index t (0 : Fin 2) * 3 + 1 * (y 0).val = (y 0).val; omega
    | ⟨1, _⟩ => show win3_2.index t (1 : Fin 2) * 8 + 1 * (y 1).val = (y 1).val; omega
  have hw3 : iblk3 V c 3 t = V c main_v55 := by
    funext y
    show V c main_v55 (((cfg3.win 3).blk t).view.emb y) = V c main_v55 y
    refine congrArg (V c main_v55) ?_; funext a; apply Fin.ext
    match a with
    | ⟨0, _⟩ => show win3_3.index t (0 : Fin 1) * 8 + 1 * (y 0).val = (y 0).val; omega
  have hw4 : iblk3 V c 4 t = V c main_v53 := by
    funext y
    show V c main_v53 (((cfg3.win 4).blk t).view.emb y) = V c main_v53 y
    refine congrArg (V c main_v53) ?_; funext a; apply Fin.ext
    match a with
    | ⟨0, _⟩ => show win3_4.index t (0 : Fin 2) * 8 + 1 * (y 0).val = (y 0).val; omega
    | ⟨1, _⟩ => show win3_4.index t (1 : Fin 2) * 32 + 1 * (y 1).val = (y 1).val; omega
  have hw5 : iblk3 V c 5 t = V c main_v57 := by
    funext y
    show V c main_v57 (((cfg3.win 5).blk t).view.emb y) = V c main_v57 y
    refine congrArg (V c main_v57) ?_; funext a; apply Fin.ext
    match a with
    | ⟨0, _⟩ => show win3_5.index t (0 : Fin 1) * 32 + 1 * (y 0).val = (y 0).val; omega
  have hE : ((cfg3.win 6).blk t).view.emb (ix2 p q) = ix2 (n0 := 1600000) (n1 := 32) P q := by
    funext a; apply Fin.ext
    match a with
    | ⟨0, _⟩ => show win3_6.index t (0 : Fin 2) * 8000 + 1 * p.val = P.val; omega
    | ⟨1, _⟩ => show win3_6.index t (1 : Fin 2) * 32 + 1 * q.val = q.val; omega
  have hr0 : ∀ k : Fin 3, iblk3 V c 0 t (ix2 p k) = V c main_arg2 (ix2 (n0 := 1600000) (n1 := 3) P k) := by
    intro k
    show V c main_arg2 (((cfg3.win 0).blk t).view.emb (ix2 p k)) = _
    refine congrArg (V c main_arg2) ?_; funext a; apply Fin.ext
    match a with
    | ⟨0, _⟩ => show win3_0.index t (0 : Fin 2) * 8000 + 1 * p.val = P.val; omega
    | ⟨1, _⟩ => show win3_0.index t (1 : Fin 2) * 3 + 1 * k.val = k.val; omega
  have hr1 : iblk3 V c 1 t (ix2 p q) = V c main_v47 (ix2 (n0 := 1600000) (n1 := 32) P q) := by
    show V c main_v47 (((cfg3.win 1).blk t).view.emb (ix2 p q)) = _
    refine congrArg (V c main_v47) ?_; funext a; apply Fin.ext
    match a with
    | ⟨0, _⟩ => show win3_1.index t (0 : Fin 2) * 8000 + 1 * p.val = P.val; omega
    | ⟨1, _⟩ => show win3_1.index t (1 : Fin 2) * 32 + 1 * q.val = q.val; omega
  show k3_pay1 (iblk3 V c 0 t) (iblk3 V c 1 t) (iblk3 V c 2 t) (iblk3 V c 3 t) (iblk3 V c 4 t) (iblk3 V c 5 t) (ix2 p q)
      = Cert.Net.edge (V c main_arg2) (V c main_v47) (V c main_v50) (V c main_v55) (V c main_v53) (V c main_v57)
          (((cfg3.win 6).blk t).view.emb (ix2 p q))
  rw [hE, Cert.Rows.edge_apply]
  refine (Cert.Rows.edge_tile (iblk3 V c 0 t) (iblk3 V c 1 t) (iblk3 V c 2 t) (iblk3 V c 3 t) (iblk3 V c 4 t) (iblk3 V c 5 t) p q).trans ?_
  rw [hw2, hw3, hw4, hw5, hr1]
  simp only [hr0]

/-- An index of the message array is in tile `t`'s block iff each coordinate is in the block's range. -/
theorem mem_blk3 (t : Fin cfg3.N) (i : S1600000x32.Idx) :
    i ∈ ((cfg3.win 6).blk t).view.set ↔ ∀ a : Fin 2, win3_6.index t a * S8000x32.size a ≤ (i a).val ∧ (i a).val < win3_6.index t a * S8000x32.size a + S8000x32.size a := by
  show i ∈ ((View.whole main_v58).slice (win3_6.rect t)).set ↔ _
  rw [View.set_slice_whole, Rect.mem_set_unit]
  exact Iff.rfl

/-- Every row of the messages is in the block of the tile its row number falls in. -/
theorem cover3 (i : S1600000x32.Idx) : ∃ t : Fin cfg3.N, (cfg3.win 6).flush t = true ∧ i ∈ ((cfg3.win 6).blk t).view.set := by
  have hi0 : (i 0).val < 1600000 := (i 0).isLt
  have hi1 : (i 1).val < 32 := (i 1).isLt
  have hN : cfg3.N = 200 := N_3
  let t : Fin cfg3.N := ⟨(i 0).val / 8000, by rw [hN]; omega⟩
  obtain ⟨e0, e1, -⟩ := idx3 t
  have ht : t.val = (i 0).val / 8000 := rfl
  refine ⟨t, flush3_6 t, ?_⟩
  rw [mem_blk3]
  intro a
  match a with
  | ⟨0, _⟩ => show win3_6.index t (0 : Fin 2) * 8000 ≤ (i 0).val ∧ (i 0).val < win3_6.index t (0 : Fin 2) * 8000 + 8000; omega
  | ⟨1, _⟩ => show win3_6.index t (1 : Fin 2) * 32 ≤ (i 1).val ∧ (i 1).val < win3_6.index t (1 : Fin 2) * 32 + 32; omega

/-- THE MESSAGE ARRAY of the region is the message function of its input arrays. -/
theorem final3 (c : Dev nD) :
    (dat3 V c).arrAt 6 cfg3.N
      = Cert.Net.edge (V c main_arg2) (V c main_v47) (V c main_v50) (V c main_v55) (V c main_v53) (V c main_v57) :=
  (dat3 V c).arrAt_eq_of_cover 6 _ (fun t _ => flushed3 V c t) (fun i => cover3 i)

end Cert.KernelIdeal.Regions

end
-- ==== Proof.Region4.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx4 : ∀ t : Fin cfg4.N, win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0 ∧ win4_4.index t (0 : Fin 1) = 0 :=
  (by decide +kernel : ∀ t : Fin grid4.N, _)

/-- What tile `t` writes back is block `t` of the update of the region's input arrays. -/
theorem flushed4 (c : Dev nD) (t : Fin cfg4.N) :
    (dat4 V c).flushed 5 t
      = ((cfg4.win 5).blk t).view.read (Elt Ideal)
          (Cert.Net.node (V c main_v61) (V c main_v40) (V c main_v12) (V c main_v63) (V c main_v65)) := by
  show (cfg4.win 5).cut (grid4.coords t) ((dat4 V c).after 5 t) = _
  rw [after4_5]
  unfold out4_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx4 t
  have htN : t.val < 10 := by have := t.isLt; have hN : cfg4.N = 10 := N_4; omega
  show (k4_pay1 (iblk4 V c 0 t) (iblk4 V c 1 t) (iblk4 V c 2 t) (iblk4 V c 3 t) (iblk4 V c 4 t) : Vec Ideal S5000x32 .f32)
      = fun j : S5000x32.Idx => Cert.Net.node (V c main_v61) (V c main_v40) (V c main_v12) (V c main_v63) (V c main_v65) (((cfg4.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk4 V c 3 t = V c main_v63 := by
    funext y
    show V c main_v63 (((cfg4.win 3).blk t).view.emb y) = V c main_v63 y
    refine congrArg (V c main_v63) ?_; funext a; apply Fin.ext
    match a with
    | ⟨0, _⟩ => show win4_3.index t (0 : Fin 2) * 32 + 1 * (y 0).val = (y 0).val; omega
    | ⟨1, _⟩ => show win4_3.index t (1 : Fin 2) * 32 + 1 * (y 1).val = (y 1).val; omega
  have hw4 : iblk4 V c 4 t = V c main_v65 := by
    funext y
    show V c main_v65 (((cfg4.win 4).blk t).view.emb y) = V c main_v65 y
    refine congrArg (V c main_v65) ?_; funext a; apply Fin.ext
    match a with
    | ⟨0, _⟩ => show win4_4.index t (0 : Fin 1) * 32 + 1 * (y 0).val = (y 0).val; omega
  have hE : ((cfg4.win 5).blk t).view.emb (ix2 p q) = ix2 (n0 := 50000) (n1 := 32) P q := by
    funext a; apply Fin.ext
    match a with
    | ⟨0, _⟩ => show win4_5.index t (0 : Fin 2) * 5000 + 1 * p.val = P.val; omega
    | ⟨1, _⟩ => show win4_5.index t (1 : Fin 2) * 32 + 1 * q.val = q.val; omega
  have hr0 : iblk4 V c 0 t (ix2 p q) = V c main_v61 (ix2 (n0 := 50000) (n1 := 32) P q) := by
    show V c main_v61 (((cfg4.win 0).blk t).view.emb (ix2 p q)) = _
    refine congrArg (V c main_v61) ?_; funext a; apply Fin.ext
    match a with
    | ⟨0, _⟩ => show win4_0.index t (0 : Fin 2) * 5000 + 1 * p.val = P.val; omega
    | ⟨1, _⟩ => show win4_0.index t (1 : Fin 2) * 32 + 1 * q.val = q.val; omega
  have hr1 : ∀ k : Fin 32, iblk4 V c 1 t (ix2 p k) = V c main_v40 (ix2 (n0 := 50000) (n1 := 32) P k) := by
    intro k
    show V c main_v40 (((cfg4.win 1).blk t).view.emb (ix2 p k)) = _
    refine congrArg (V c main_v40) ?_; funext a; apply Fin.ext
    match a with
    | ⟨0, _⟩ => show win4_1.index t (0 : Fin 2) * 5000 + 1 * p.val = P.val; omega
    | ⟨1, _⟩ => show win4_1.index t (1 : Fin 2) * 32 + 1 * k.val = k.val; omega
  have hr2 : iblk4 V c 2 t (ix2 p (0 : Fin 1)) = V c main_v12 (ix2 (n0 := 50000) (n1 := 1) P (0 : Fin 1)) := by
    show V c main_v12 (((cfg4.win 2).blk t).view.emb (ix2 p (0 : Fin 1))) = _
    refine congrArg (V c main_v12) ?_; funext a; apply Fin.ext
    match a with
    | ⟨0, _⟩ => show win4_2.index t (0 : Fin 2) * 5000 + 1 * p.val = P.val; omega
    | ⟨1, _⟩ => show win4_2.index t (1 : Fin 2) * 1 + 1 * 0 = 0; omega
  show k4_pay1 (iblk4 V c 0 t) (iblk4 V c 1 t) (iblk4 V c 2 t) (iblk4 V c 3 t) (iblk4 V c 4 t) (ix2 p q)
      = Cert.Net.node (V c main_v61) (V c main_v40) (V c main_v12) (V c main_v63) (V c main_v65)
          (((cfg4.win 5).blk t).view.emb (ix2 p q))
  rw [hE, Cert.Rows.node_apply]
  refine (Cert.Rows.node_tile (iblk4 V c 0 t) (iblk4 V c 1 t) (iblk4 V c 2 t) (iblk4 V c 3 t) (iblk4 V c 4 t) p q).trans ?_
  rw [hw3, hw4, hr0, hr2]
  simp only [hr1]

/-- An index of the result array is in tile `t`'s block iff each coordinate is in the block's range. -/
theorem mem_blk4 (t : Fin cfg4.N) (i : S50000x32.Idx) :
    i ∈ ((cfg4.win 5).blk t).view.set ↔ ∀ a : Fin 2, win4_5.index t a * S5000x32.size a ≤ (i a).val ∧ (i a).val < win4_5.index t a * S5000x32.size a + S5000x32.size a := by
  show i ∈ ((View.whole main_v66).slice (win4_5.rect t)).set ↔ _
  rw [View.set_slice_whole, Rect.mem_set_unit]
  exact Iff.rfl

/-- Every row of the result is in the block of the tile its row number falls in. -/
theorem cover4 (i : S50000x32.Idx) : ∃ t : Fin cfg4.N, (cfg4.win 5).flush t = true ∧ i ∈ ((cfg4.win 5).blk t).view.set := by
  have hi0 : (i 0).val < 50000 := (i 0).isLt
  have hi1 : (i 1).val < 32 := (i 1).isLt
  have hN : cfg4.N = 10 := N_4
  let t : Fin cfg4.N := ⟨(i 0).val / 5000, by rw [hN]; omega⟩
  obtain ⟨e0, e1, -⟩ := idx4 t
  have ht : t.val = (i 0).val / 5000 := rfl
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 32 ≤ (i 1).val ∧ (i 1).val < win4_5.index t (1 : Fin 2) * 32 + 32; omega

/-- THE NEW NODE FEATURES of the region are the update of its input arrays. -/
theorem final4 (c : Dev nD) :
    (dat4 V c).arrAt 5 cfg4.N
      = Cert.Net.node (V c main_v61) (V c main_v40) (V c main_v12) (V c main_v63) (V c main_v65) :=
  (dat4 V c).arrAt_eq_of_cover 5 _ (fun t _ => flushed4 V c t) (fun i => cover4 i)

end Cert.KernelIdeal.Regions

end
-- ==== Proof.Region5.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx5 : ∀ t : Fin cfg5.N, win5_6.index t (0 : Fin 2) = t.val ∧ win5_6.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 ∧ win5_3.index t (0 : Fin 1) = 0
    ∧ win5_4.index t (0 : Fin 2) = 0 ∧ win5_4.index t (1 : Fin 2) = 0 ∧ win5_5.index t (0 : Fin 1) = 0 :=
  (by decide +kernel : ∀ t : Fin grid5.N, _)

/-- What tile `t` writes back is block `t` of the message function of the region's input arrays. -/
theorem flushed5 (c : Dev nD) (t : Fin cfg5.N) :
    (dat5 V c).flushed 6 t
      = ((cfg5.win 6).blk t).view.read (Elt Ideal)
          (Cert.Net.edge (V c main_arg2) (V c main_v73) (V c main_v76) (V c main_v81) (V c main_v79) (V c main_v83)) := by
  show (cfg5.win 6).cut (grid5.coords t) ((dat5 V c).after 6 t) = _
  rw [after5_6]
  unfold out5_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx5 t
  have htN : t.val < 200 := by have := t.isLt; have hN : cfg5.N = 200 := N_5; omega
  show (k5_pay1 (iblk5 V c 0 t) (iblk5 V c 1 t) (iblk5 V c 2 t) (iblk5 V c 3 t) (iblk5 V c 4 t) (iblk5 V c 5 t) : Vec Ideal S8000x32 .f32)
      = fun j : S8000x32.Idx => Cert.Net.edge (V c main_arg2) (V c main_v73) (V c main_v76) (V c main_v81) (V c main_v79) (V c main_v83) (((cfg5.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk5 V c 2 t = V c main_v76 := by
    funext y
    show V c main_v76 (((cfg5.win 2).blk t).view.emb y) = V c main_v76 y
    refine congrArg (V c main_v76) ?_; funext a; apply Fin.ext
    match a with
    | ⟨0, _⟩ => show win5_2.index t (0 : Fin 2) * 3 + 1 * (y 0).val = (y 0).val; omega
    | ⟨1, _⟩ => show win5_2.index t (1 : Fin 2) * 8 + 1 * (y 1).val = (y 1).val; omega
  have hw3 : iblk5 V c 3 t = V c main_v81 := by
    funext y
    show V c main_v81 (((cfg5.win 3).blk t).view.emb y) = V c main_v81 y
    refine congrArg (V c main_v81) ?_; funext a; apply Fin.ext
    match a with
    | ⟨0, _⟩ => show win5_3.index t (0 : Fin 1) * 8 + 1 * (y 0).val = (y 0).val; omega
  have hw4 : iblk5 V c 4 t = V c main_v79 := by
    funext y
    show V c main_v79 (((cfg5.win 4).blk t).view.emb y) = V c main_v79 y
    refine congrArg (V c main_v79) ?_; funext a; apply Fin.ext
    match a with
    | ⟨0, _⟩ => show win5_4.index t (0 : Fin 2) * 8 + 1 * (y 0).val = (y 0).val; omega
    | ⟨1, _⟩ => show win5_4.index t (1 : Fin 2) * 32 + 1 * (y 1).val = (y 1).val; omega
  have hw5 : iblk5 V c 5 t = V c main_v83 := by
    funext y
    show V c main_v83 (((cfg5.win 5).blk t).view.emb y) = V c main_v83 y
    refine congrArg (V c main_v83) ?_; funext a; apply Fin.ext
    match a with
    | ⟨0, _⟩ => show win5_5.index t (0 : Fin 1) * 32 + 1 * (y 0).val = (y 0).val; omega
  have hE : ((cfg5.win 6).blk t).view.emb (ix2 p q) = ix2 (n0 := 1600000) (n1 := 32) P q := by
    funext a; apply Fin.ext
    match a with
    | ⟨0, _⟩ => show win5_6.index t (0 : Fin 2) * 8000 + 1 * p.val = P.val; omega
    | ⟨1, _⟩ => show win5_6.index t (1 : Fin 2) * 32 + 1 * q.val = q.val; omega
  have hr0 : ∀ k : Fin 3, iblk5 V c 0 t (ix2 p k) = V c main_arg2 (ix2 (n0 := 1600000) (n1 := 3) P k) := by
    intro k
    show V c main_arg2 (((cfg5.win 0).blk t).view.emb (ix2 p k)) = _
    refine congrArg (V c main_arg2) ?_; funext a; apply Fin.ext
    match a with
    | ⟨0, _⟩ => show win5_0.index t (0 : Fin 2) * 8000 + 1 * p.val = P.val; omega
    | ⟨1, _⟩ => show win5_0.index t (1 : Fin 2) * 3 + 1 * k.val = k.val; omega
  have hr1 : iblk5 V c 1 t (ix2 p q) = V c main_v73 (ix2 (n0 := 1600000) (n1 := 32) P q) := by
    show V c main_v73 (((cfg5.win 1).blk t).view.emb (ix2 p q)) = _
    refine congrArg (V c main_v73) ?_; funext a; apply Fin.ext
    match a with
    | ⟨0, _⟩ => show win5_1.index t (0 : Fin 2) * 8000 + 1 * p.val = P.val; omega
    | ⟨1, _⟩ => show win5_1.index t (1 : Fin 2) * 32 + 1 * q.val = q.val; omega
  show k5_pay1 (iblk5 V c 0 t) (iblk5 V c 1 t) (iblk5 V c 2 t) (iblk5 V c 3 t) (iblk5 V c 4 t) (iblk5 V c 5 t) (ix2 p q)
      = Cert.Net.edge (V c main_arg2) (V c main_v73) (V c main_v76) (V c main_v81) (V c main_v79) (V c main_v83)
          (((cfg5.win 6).blk t).view.emb (ix2 p q))
  rw [hE, Cert.Rows.edge_apply]
  refine (Cert.Rows.edge_tile (iblk5 V c 0 t) (iblk5 V c 1 t) (iblk5 V c 2 t) (iblk5 V c 3 t) (iblk5 V c 4 t) (iblk5 V c 5 t) p q).trans ?_
  rw [hw2, hw3, hw4, hw5, hr1]
  simp only [hr0]

/-- An index of the message array is in tile `t`'s block iff each coordinate is in the block's range. -/
theorem mem_blk5 (t : Fin cfg5.N) (i : S1600000x32.Idx) :
    i ∈ ((cfg5.win 6).blk t).view.set ↔ ∀ a : Fin 2, win5_6.index t a * S8000x32.size a ≤ (i a).val ∧ (i a).val < win5_6.index t a * S8000x32.size a + S8000x32.size a := by
  show i ∈ ((View.whole main_v84).slice (win5_6.rect t)).set ↔ _
  rw [View.set_slice_whole, Rect.mem_set_unit]
  exact Iff.rfl

/-- Every row of the messages is in the block of the tile its row number falls in. -/
theorem cover5 (i : S1600000x32.Idx) : ∃ t : Fin cfg5.N, (cfg5.win 6).flush t = true ∧ i ∈ ((cfg5.win 6).blk t).view.set := by
  have hi0 : (i 0).val < 1600000 := (i 0).isLt
  have hi1 : (i 1).val < 32 := (i 1).isLt
  have hN : cfg5.N = 200 := N_5
  let t : Fin cfg5.N := ⟨(i 0).val / 8000, by rw [hN]; omega⟩
  obtain ⟨e0, e1, -⟩ := idx5 t
  have ht : t.val = (i 0).val / 8000 := rfl
  refine ⟨t, flush5_6 t, ?_⟩
  rw [mem_blk5]
  intro a
  match a with
  | ⟨0, _⟩ => show win5_6.index t (0 : Fin 2) * 8000 ≤ (i 0).val ∧ (i 0).val < win5_6.index t (0 : Fin 2) * 8000 + 8000; omega
  | ⟨1, _⟩ => show win5_6.index t (1 : Fin 2) * 32 ≤ (i 1).val ∧ (i 1).val < win5_6.index t (1 : Fin 2) * 32 + 32; omega

/-- THE MESSAGE ARRAY of the region is the message function of its input arrays. -/
theorem final5 (c : Dev nD) :
    (dat5 V c).arrAt 6 cfg5.N
      = Cert.Net.edge (V c main_arg2) (V c main_v73) (V c main_v76) (V c main_v81) (V c main_v79) (V c main_v83) :=
  (dat5 V c).arrAt_eq_of_cover 6 _ (fun t _ => flushed5 V c t) (fun i => cover5 i)

end Cert.KernelIdeal.Regions

end
-- ==== Proof.Region6.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx6 : ∀ t : Fin cfg6.N, win6_5.index t (0 : Fin 2) = t.val ∧ win6_5.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0 ∧ win6_4.index t (0 : Fin 1) = 0 :=
  (by decide +kernel : ∀ t : Fin grid6.N, _)

/-- What tile `t` writes back is block `t` of the update of the region's input arrays. -/
theorem flushed6 (c : Dev nD) (t : Fin cfg6.N) :
    (dat6 V c).flushed 5 t
      = ((cfg6.win 5).blk t).view.read (Elt Ideal)
          (Cert.Net.node (V c main_v87) (V c main_v66) (V c main_v12) (V c main_v89) (V c main_v91)) := by
  show (cfg6.win 5).cut (grid6.coords t) ((dat6 V c).after 5 t) = _
  rw [after6_5]
  unfold out6_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx6 t
  have htN : t.val < 10 := by have := t.isLt; have hN : cfg6.N = 10 := N_6; omega
  show (k6_pay1 (iblk6 V c 0 t) (iblk6 V c 1 t) (iblk6 V c 2 t) (iblk6 V c 3 t) (iblk6 V c 4 t) : Vec Ideal S5000x32 .f32)
      = fun j : S5000x32.Idx => Cert.Net.node (V c main_v87) (V c main_v66) (V c main_v12) (V c main_v89) (V c main_v91) (((cfg6.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk6 V c 3 t = V c main_v89 := by
    funext y
    show V c main_v89 (((cfg6.win 3).blk t).view.emb y) = V c main_v89 y
    refine congrArg (V c main_v89) ?_; funext a; apply Fin.ext
    match a with
    | ⟨0, _⟩ => show win6_3.index t (0 : Fin 2) * 32 + 1 * (y 0).val = (y 0).val; omega
    | ⟨1, _⟩ => show win6_3.index t (1 : Fin 2) * 32 + 1 * (y 1).val = (y 1).val; omega
  have hw4 : iblk6 V c 4 t = V c main_v91 := by
    funext y
    show V c main_v91 (((cfg6.win 4).blk t).view.emb y) = V c main_v91 y
    refine congrArg (V c main_v91) ?_; funext a; apply Fin.ext
    match a with
    | ⟨0, _⟩ => show win6_4.index t (0 : Fin 1) * 32 + 1 * (y 0).val = (y 0).val; omega
  have hE : ((cfg6.win 5).blk t).view.emb (ix2 p q) = ix2 (n0 := 50000) (n1 := 32) P q := by
    funext a; apply Fin.ext
    match a with
    | ⟨0, _⟩ => show win6_5.index t (0 : Fin 2) * 5000 + 1 * p.val = P.val; omega
    | ⟨1, _⟩ => show win6_5.index t (1 : Fin 2) * 32 + 1 * q.val = q.val; omega
  have hr0 : iblk6 V c 0 t (ix2 p q) = V c main_v87 (ix2 (n0 := 50000) (n1 := 32) P q) := by
    show V c main_v87 (((cfg6.win 0).blk t).view.emb (ix2 p q)) = _
    refine congrArg (V c main_v87) ?_; funext a; apply Fin.ext
    match a with
    | ⟨0, _⟩ => show win6_0.index t (0 : Fin 2) * 5000 + 1 * p.val = P.val; omega
    | ⟨1, _⟩ => show win6_0.index t (1 : Fin 2) * 32 + 1 * q.val = q.val; omega
  have hr1 : ∀ k : Fin 32, iblk6 V c 1 t (ix2 p k) = V c main_v66 (ix2 (n0 := 50000) (n1 := 32) P k) := by
    intro k
    show V c main_v66 (((cfg6.win 1).blk t).view.emb (ix2 p k)) = _
    refine congrArg (V c main_v66) ?_; funext a; apply Fin.ext
    match a with
    | ⟨0, _⟩ => show win6_1.index t (0 : Fin 2) * 5000 + 1 * p.val = P.val; omega
    | ⟨1, _⟩ => show win6_1.index t (1 : Fin 2) * 32 + 1 * k.val = k.val; omega
  have hr2 : iblk6 V c 2 t (ix2 p (0 : Fin 1)) = V c main_v12 (ix2 (n0 := 50000) (n1 := 1) P (0 : Fin 1)) := by
    show V c main_v12 (((cfg6.win 2).blk t).view.emb (ix2 p (0 : Fin 1))) = _
    refine congrArg (V c main_v12) ?_; funext a; apply Fin.ext
    match a with
    | ⟨0, _⟩ => show win6_2.index t (0 : Fin 2) * 5000 + 1 * p.val = P.val; omega
    | ⟨1, _⟩ => show win6_2.index t (1 : Fin 2) * 1 + 1 * 0 = 0; omega
  show k6_pay1 (iblk6 V c 0 t) (iblk6 V c 1 t) (iblk6 V c 2 t) (iblk6 V c 3 t) (iblk6 V c 4 t) (ix2 p q)
      = Cert.Net.node (V c main_v87) (V c main_v66) (V c main_v12) (V c main_v89) (V c main_v91)
          (((cfg6.win 5).blk t).view.emb (ix2 p q))
  rw [hE, Cert.Rows.node_apply]
  refine (Cert.Rows.node_tile (iblk6 V c 0 t) (iblk6 V c 1 t) (iblk6 V c 2 t) (iblk6 V c 3 t) (iblk6 V c 4 t) p q).trans ?_
  rw [hw3, hw4, hr0, hr2]
  simp only [hr1]

/-- An index of the result array is in tile `t`'s block iff each coordinate is in the block's range. -/
theorem mem_blk6 (t : Fin cfg6.N) (i : S50000x32.Idx) :
    i ∈ ((cfg6.win 5).blk t).view.set ↔ ∀ a : Fin 2, win6_5.index t a * S5000x32.size a ≤ (i a).val ∧ (i a).val < win6_5.index t a * S5000x32.size a + S5000x32.size a := by
  show i ∈ ((View.whole main_v92).slice (win6_5.rect t)).set ↔ _
  rw [View.set_slice_whole, Rect.mem_set_unit]
  exact Iff.rfl

/-- Every row of the result is in the block of the tile its row number falls in. -/
theorem cover6 (i : S50000x32.Idx) : ∃ t : Fin cfg6.N, (cfg6.win 5).flush t = true ∧ i ∈ ((cfg6.win 5).blk t).view.set := by
  have hi0 : (i 0).val < 50000 := (i 0).isLt
  have hi1 : (i 1).val < 32 := (i 1).isLt
  have hN : cfg6.N = 10 := N_6
  let t : Fin cfg6.N := ⟨(i 0).val / 5000, by rw [hN]; omega⟩
  obtain ⟨e0, e1, -⟩ := idx6 t
  have ht : t.val = (i 0).val / 5000 := rfl
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 32 ≤ (i 1).val ∧ (i 1).val < win6_5.index t (1 : Fin 2) * 32 + 32; omega

/-- THE NEW NODE FEATURES of the region are the update of its input arrays. -/
theorem final6 (c : Dev nD) :
    (dat6 V c).arrAt 5 cfg6.N
      = Cert.Net.node (V c main_v87) (V c main_v66) (V c main_v12) (V c main_v89) (V c main_v91) :=
  (dat6 V c).arrAt_eq_of_cover 5 _ (fun t _ => flushed6 V c t) (fun i => cover6 i)

end Cert.KernelIdeal.Regions

end
-- ==== Proof.Region7.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx7 : ∀ t : Fin cfg7.N, win7_6.index t (0 : Fin 2) = t.val ∧ win7_6.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0 ∧ win7_3.index t (0 : Fin 1) = 0
    ∧ win7_4.index t (0 : Fin 2) = 0 ∧ win7_4.index t (1 : Fin 2) = 0 ∧ win7_5.index t (0 : Fin 1) = 0 :=
  (by decide +kernel : ∀ t : Fin grid7.N, _)

/-- What tile `t` writes back is block `t` of the message function of the region's input arrays. -/
theorem flushed7 (c : Dev nD) (t : Fin cfg7.N) :
    (dat7 V c).flushed 6 t
      = ((cfg7.win 6).blk t).view.read (Elt Ideal)
          (Cert.Net.edge (V c main_arg2) (V c main_v99) (V c main_v102) (V c main_v107) (V c main_v105) (V c main_v109)) := by
  show (cfg7.win 6).cut (grid7.coords t) ((dat7 V c).after 6 t) = _
  rw [after7_6]
  unfold out7_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx7 t
  have htN : t.val < 200 := by have := t.isLt; have hN : cfg7.N = 200 := N_7; omega
  show (k7_pay1 (iblk7 V c 0 t) (iblk7 V c 1 t) (iblk7 V c 2 t) (iblk7 V c 3 t) (iblk7 V c 4 t) (iblk7 V c 5 t) : Vec Ideal S8000x32 .f32)
      = fun j : S8000x32.Idx => Cert.Net.edge (V c main_arg2) (V c main_v99) (V c main_v102) (V c main_v107) (V c main_v105) (V c main_v109) (((cfg7.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk7 V c 2 t = V c main_v102 := by
    funext y
    show V c main_v102 (((cfg7.win 2).blk t).view.emb y) = V c main_v102 y
    refine congrArg (V c main_v102) ?_; funext a; apply Fin.ext
    match a with
    | ⟨0, _⟩ => show win7_2.index t (0 : Fin 2) * 3 + 1 * (y 0).val = (y 0).val; omega
    | ⟨1, _⟩ => show win7_2.index t (1 : Fin 2) * 8 + 1 * (y 1).val = (y 1).val; omega
  have hw3 : iblk7 V c 3 t = V c main_v107 := by
    funext y
    show V c main_v107 (((cfg7.win 3).blk t).view.emb y) = V c main_v107 y
    refine congrArg (V c main_v107) ?_; funext a; apply Fin.ext
    match a with
    | ⟨0, _⟩ => show win7_3.index t (0 : Fin 1) * 8 + 1 * (y 0).val = (y 0).val; omega
  have hw4 : iblk7 V c 4 t = V c main_v105 := by
    funext y
    show V c main_v105 (((cfg7.win 4).blk t).view.emb y) = V c main_v105 y
    refine congrArg (V c main_v105) ?_; funext a; apply Fin.ext
    match a with
    | ⟨0, _⟩ => show win7_4.index t (0 : Fin 2) * 8 + 1 * (y 0).val = (y 0).val; omega
    | ⟨1, _⟩ => show win7_4.index t (1 : Fin 2) * 32 + 1 * (y 1).val = (y 1).val; omega
  have hw5 : iblk7 V c 5 t = V c main_v109 := by
    funext y
    show V c main_v109 (((cfg7.win 5).blk t).view.emb y) = V c main_v109 y
    refine congrArg (V c main_v109) ?_; funext a; apply Fin.ext
    match a with
    | ⟨0, _⟩ => show win7_5.index t (0 : Fin 1) * 32 + 1 * (y 0).val = (y 0).val; omega
  have hE : ((cfg7.win 6).blk t).view.emb (ix2 p q) = ix2 (n0 := 1600000) (n1 := 32) P q := by
    funext a; apply Fin.ext
    match a with
    | ⟨0, _⟩ => show win7_6.index t (0 : Fin 2) * 8000 + 1 * p.val = P.val; omega
    | ⟨1, _⟩ => show win7_6.index t (1 : Fin 2) * 32 + 1 * q.val = q.val; omega
  have hr0 : ∀ k : Fin 3, iblk7 V c 0 t (ix2 p k) = V c main_arg2 (ix2 (n0 := 1600000) (n1 := 3) P k) := by
    intro k
    show V c main_arg2 (((cfg7.win 0).blk t).view.emb (ix2 p k)) = _
    refine congrArg (V c main_arg2) ?_; funext a; apply Fin.ext
    match a with
    | ⟨0, _⟩ => show win7_0.index t (0 : Fin 2) * 8000 + 1 * p.val = P.val; omega
    | ⟨1, _⟩ => show win7_0.index t (1 : Fin 2) * 3 + 1 * k.val = k.val; omega
  have hr1 : iblk7 V c 1 t (ix2 p q) = V c main_v99 (ix2 (n0 := 1600000) (n1 := 32) P q) := by
    show V c main_v99 (((cfg7.win 1).blk t).view.emb (ix2 p q)) = _
    refine congrArg (V c main_v99) ?_; funext a; apply Fin.ext
    match a with
    | ⟨0, _⟩ => show win7_1.index t (0 : Fin 2) * 8000 + 1 * p.val = P.val; omega
    | ⟨1, _⟩ => show win7_1.index t (1 : Fin 2) * 32 + 1 * q.val = q.val; omega
  show k7_pay1 (iblk7 V c 0 t) (iblk7 V c 1 t) (iblk7 V c 2 t) (iblk7 V c 3 t) (iblk7 V c 4 t) (iblk7 V c 5 t) (ix2 p q)
      = Cert.Net.edge (V c main_arg2) (V c main_v99) (V c main_v102) (V c main_v107) (V c main_v105) (V c main_v109)
          (((cfg7.win 6).blk t).view.emb (ix2 p q))
  rw [hE, Cert.Rows.edge_apply]
  refine (Cert.Rows.edge_tile (iblk7 V c 0 t) (iblk7 V c 1 t) (iblk7 V c 2 t) (iblk7 V c 3 t) (iblk7 V c 4 t) (iblk7 V c 5 t) p q).trans ?_
  rw [hw2, hw3, hw4, hw5, hr1]
  simp only [hr0]

/-- An index of the message array is in tile `t`'s block iff each coordinate is in the block's range. -/
theorem mem_blk7 (t : Fin cfg7.N) (i : S1600000x32.Idx) :
    i ∈ ((cfg7.win 6).blk t).view.set ↔ ∀ a : Fin 2, win7_6.index t a * S8000x32.size a ≤ (i a).val ∧ (i a).val < win7_6.index t a * S8000x32.size a + S8000x32.size a := by
  show i ∈ ((View.whole main_v110).slice (win7_6.rect t)).set ↔ _
  rw [View.set_slice_whole, Rect.mem_set_unit]
  exact Iff.rfl

/-- Every row of the messages is in the block of the tile its row number falls in. -/
theorem cover7 (i : S1600000x32.Idx) : ∃ t : Fin cfg7.N, (cfg7.win 6).flush t = true ∧ i ∈ ((cfg7.win 6).blk t).view.set := by
  have hi0 : (i 0).val < 1600000 := (i 0).isLt
  have hi1 : (i 1).val < 32 := (i 1).isLt
  have hN : cfg7.N = 200 := N_7
  let t : Fin cfg7.N := ⟨(i 0).val / 8000, by rw [hN]; omega⟩
  obtain ⟨e0, e1, -⟩ := idx7 t
  have ht : t.val = (i 0).val / 8000 := rfl
  refine ⟨t, flush7_6 t, ?_⟩
  rw [mem_blk7]
  intro a
  match a with
  | ⟨0, _⟩ => show win7_6.index t (0 : Fin 2) * 8000 ≤ (i 0).val ∧ (i 0).val < win7_6.index t (0 : Fin 2) * 8000 + 8000; omega
  | ⟨1, _⟩ => show win7_6.index t (1 : Fin 2) * 32 ≤ (i 1).val ∧ (i 1).val < win7_6.index t (1 : Fin 2) * 32 + 32; omega

/-- THE MESSAGE ARRAY of the region is the message function of its input arrays. -/
theorem final7 (c : Dev nD) :
    (dat7 V c).arrAt 6 cfg7.N
      = Cert.Net.edge (V c main_arg2) (V c main_v99) (V c main_v102) (V c main_v107) (V c main_v105) (V c main_v109) :=
  (dat7 V c).arrAt_eq_of_cover 6 _ (fun t _ => flushed7 V c t) (fun i => cover7 i)

end Cert.KernelIdeal.Regions

end
-- ==== Proof.Region8.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx8 : ∀ t : Fin cfg8.N, win8_5.index t (0 : Fin 2) = t.val ∧ win8_5.index t (1 : Fin 2) = 0
    ∧ win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0 ∧ win8_4.index t (0 : Fin 1) = 0 :=
  (by decide +kernel : ∀ t : Fin grid8.N, _)

/-- What tile `t` writes back is block `t` of the update of the region's input arrays. -/
theorem flushed8 (c : Dev nD) (t : Fin cfg8.N) :
    (dat8 V c).flushed 5 t
      = ((cfg8.win 5).blk t).view.read (Elt Ideal)
          (Cert.Net.node (V c main_v113) (V c main_v92) (V c main_v12) (V c main_v115) (V c main_v117)) := by
  show (cfg8.win 5).cut (grid8.coords t) ((dat8 V c).after 5 t) = _
  rw [after8_5]
  unfold out8_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx8 t
  have htN : t.val < 10 := by have := t.isLt; have hN : cfg8.N = 10 := N_8; omega
  show (k8_pay1 (iblk8 V c 0 t) (iblk8 V c 1 t) (iblk8 V c 2 t) (iblk8 V c 3 t) (iblk8 V c 4 t) : Vec Ideal S5000x32 .f32)
      = fun j : S5000x32.Idx => Cert.Net.node (V c main_v113) (V c main_v92) (V c main_v12) (V c main_v115) (V c main_v117) (((cfg8.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk8 V c 3 t = V c main_v115 := by
    funext y
    show V c main_v115 (((cfg8.win 3).blk t).view.emb y) = V c main_v115 y
    refine congrArg (V c main_v115) ?_; funext a; apply Fin.ext
    match a with
    | ⟨0, _⟩ => show win8_3.index t (0 : Fin 2) * 32 + 1 * (y 0).val = (y 0).val; omega
    | ⟨1, _⟩ => show win8_3.index t (1 : Fin 2) * 32 + 1 * (y 1).val = (y 1).val; omega
  have hw4 : iblk8 V c 4 t = V c main_v117 := by
    funext y
    show V c main_v117 (((cfg8.win 4).blk t).view.emb y) = V c main_v117 y
    refine congrArg (V c main_v117) ?_; funext a; apply Fin.ext
    match a with
    | ⟨0, _⟩ => show win8_4.index t (0 : Fin 1) * 32 + 1 * (y 0).val = (y 0).val; omega
  have hE : ((cfg8.win 5).blk t).view.emb (ix2 p q) = ix2 (n0 := 50000) (n1 := 32) P q := by
    funext a; apply Fin.ext
    match a with
    | ⟨0, _⟩ => show win8_5.index t (0 : Fin 2) * 5000 + 1 * p.val = P.val; omega
    | ⟨1, _⟩ => show win8_5.index t (1 : Fin 2) * 32 + 1 * q.val = q.val; omega
  have hr0 : iblk8 V c 0 t (ix2 p q) = V c main_v113 (ix2 (n0 := 50000) (n1 := 32) P q) := by
    show V c main_v113 (((cfg8.win 0).blk t).view.emb (ix2 p q)) = _
    refine congrArg (V c main_v113) ?_; funext a; apply Fin.ext
    match a with
    | ⟨0, _⟩ => show win8_0.index t (0 : Fin 2) * 5000 + 1 * p.val = P.val; omega
    | ⟨1, _⟩ => show win8_0.index t (1 : Fin 2) * 32 + 1 * q.val = q.val; omega
  have hr1 : ∀ k : Fin 32, iblk8 V c 1 t (ix2 p k) = V c main_v92 (ix2 (n0 := 50000) (n1 := 32) P k) := by
    intro k
    show V c main_v92 (((cfg8.win 1).blk t).view.emb (ix2 p k)) = _
    refine congrArg (V c main_v92) ?_; funext a; apply Fin.ext
    match a with
    | ⟨0, _⟩ => show win8_1.index t (0 : Fin 2) * 5000 + 1 * p.val = P.val; omega
    | ⟨1, _⟩ => show win8_1.index t (1 : Fin 2) * 32 + 1 * k.val = k.val; omega
  have hr2 : iblk8 V c 2 t (ix2 p (0 : Fin 1)) = V c main_v12 (ix2 (n0 := 50000) (n1 := 1) P (0 : Fin 1)) := by
    show V c main_v12 (((cfg8.win 2).blk t).view.emb (ix2 p (0 : Fin 1))) = _
    refine congrArg (V c main_v12) ?_; funext a; apply Fin.ext
    match a with
    | ⟨0, _⟩ => show win8_2.index t (0 : Fin 2) * 5000 + 1 * p.val = P.val; omega
    | ⟨1, _⟩ => show win8_2.index t (1 : Fin 2) * 1 + 1 * 0 = 0; omega
  show k8_pay1 (iblk8 V c 0 t) (iblk8 V c 1 t) (iblk8 V c 2 t) (iblk8 V c 3 t) (iblk8 V c 4 t) (ix2 p q)
      = Cert.Net.node (V c main_v113) (V c main_v92) (V c main_v12) (V c main_v115) (V c main_v117)
          (((cfg8.win 5).blk t).view.emb (ix2 p q))
  rw [hE, Cert.Rows.node_apply]
  refine (Cert.Rows.node_tile (iblk8 V c 0 t) (iblk8 V c 1 t) (iblk8 V c 2 t) (iblk8 V c 3 t) (iblk8 V c 4 t) p q).trans ?_
  rw [hw3, hw4, hr0, hr2]
  simp only [hr1]

/-- An index of the result array is in tile `t`'s block iff each coordinate is in the block's range. -/
theorem mem_blk8 (t : Fin cfg8.N) (i : S50000x32.Idx) :
    i ∈ ((cfg8.win 5).blk t).view.set ↔ ∀ a : Fin 2, win8_5.index t a * S5000x32.size a ≤ (i a).val ∧ (i a).val < win8_5.index t a * S5000x32.size a + S5000x32.size a := by
  show i ∈ ((View.whole main_v118).slice (win8_5.rect t)).set ↔ _
  rw [View.set_slice_whole, Rect.mem_set_unit]
  exact Iff.rfl

/-- Every row of the result is in the block of the tile its row number falls in. -/
theorem cover8 (i : S50000x32.Idx) : ∃ t : Fin cfg8.N, (cfg8.win 5).flush t = true ∧ i ∈ ((cfg8.win 5).blk t).view.set := by
  have hi0 : (i 0).val < 50000 := (i 0).isLt
  have hi1 : (i 1).val < 32 := (i 1).isLt
  have hN : cfg8.N = 10 := N_8
  let t : Fin cfg8.N := ⟨(i 0).val / 5000, by rw [hN]; omega⟩
  obtain ⟨e0, e1, -⟩ := idx8 t
  have ht : t.val = (i 0).val / 5000 := rfl
  refine ⟨t, flush8_5 t, ?_⟩
  rw [mem_blk8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 32 ≤ (i 1).val ∧ (i 1).val < win8_5.index t (1 : Fin 2) * 32 + 32; omega

/-- THE NEW NODE FEATURES of the region are the update of its input arrays. -/
theorem final8 (c : Dev nD) :
    (dat8 V c).arrAt 5 cfg8.N
      = Cert.Net.node (V c main_v113) (V c main_v92) (V c main_v12) (V c main_v115) (V c main_v117) :=
  (dat8 V c).arrAt_eq_of_cover 5 _ (fun t _ => flushed8 V c t) (fun i => cover8 i)

end Cert.KernelIdeal.Regions

end
-- ==== Proof.Region9.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx9 : ∀ t : Fin cfg9.N, win9_6.index t (0 : Fin 2) = t.val ∧ win9_6.index t (1 : Fin 2) = 0
    ∧ win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0 ∧ win9_3.index t (0 : Fin 1) = 0
    ∧ win9_4.index t (0 : Fin 2) = 0 ∧ win9_4.index t (1 : Fin 2) = 0 ∧ win9_5.index t (0 : Fin 1) = 0 :=
  (by decide +kernel : ∀ t : Fin grid9.N, _)

/-- What tile `t` writes back is block `t` of the message function of the region's input arrays. -/
theorem flushed9 (c : Dev nD) (t : Fin cfg9.N) :
    (dat9 V c).flushed 6 t
      = ((cfg9.win 6).blk t).view.read (Elt Ideal)
          (Cert.Net.edge (V c main_arg2) (V c main_v125) (V c main_v128) (V c main_v133) (V c main_v131) (V c main_v135)) := by
  show (cfg9.win 6).cut (grid9.coords t) ((dat9 V c).after 6 t) = _
  rw [after9_6]
  unfold out9_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx9 t
  have htN : t.val < 200 := by have := t.isLt; have hN : cfg9.N = 200 := N_9; omega
  show (k9_pay1 (iblk9 V c 0 t) (iblk9 V c 1 t) (iblk9 V c 2 t) (iblk9 V c 3 t) (iblk9 V c 4 t) (iblk9 V c 5 t) : Vec Ideal S8000x32 .f32)
      = fun j : S8000x32.Idx => Cert.Net.edge (V c main_arg2) (V c main_v125) (V c main_v128) (V c main_v133) (V c main_v131) (V c main_v135) (((cfg9.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk9 V c 2 t = V c main_v128 := by
    funext y
    show V c main_v128 (((cfg9.win 2).blk t).view.emb y) = V c main_v128 y
    refine congrArg (V c main_v128) ?_; funext a; apply Fin.ext
    match a with
    | ⟨0, _⟩ => show win9_2.index t (0 : Fin 2) * 3 + 1 * (y 0).val = (y 0).val; omega
    | ⟨1, _⟩ => show win9_2.index t (1 : Fin 2) * 8 + 1 * (y 1).val = (y 1).val; omega
  have hw3 : iblk9 V c 3 t = V c main_v133 := by
    funext y
    show V c main_v133 (((cfg9.win 3).blk t).view.emb y) = V c main_v133 y
    refine congrArg (V c main_v133) ?_; funext a; apply Fin.ext
    match a with
    | ⟨0, _⟩ => show win9_3.index t (0 : Fin 1) * 8 + 1 * (y 0).val = (y 0).val; omega
  have hw4 : iblk9 V c 4 t = V c main_v131 := by
    funext y
    show V c main_v131 (((cfg9.win 4).blk t).view.emb y) = V c main_v131 y
    refine congrArg (V c main_v131) ?_; funext a; apply Fin.ext
    match a with
    | ⟨0, _⟩ => show win9_4.index t (0 : Fin 2) * 8 + 1 * (y 0).val = (y 0).val; omega
    | ⟨1, _⟩ => show win9_4.index t (1 : Fin 2) * 32 + 1 * (y 1).val = (y 1).val; omega
  have hw5 : iblk9 V c 5 t = V c main_v135 := by
    funext y
    show V c main_v135 (((cfg9.win 5).blk t).view.emb y) = V c main_v135 y
    refine congrArg (V c main_v135) ?_; funext a; apply Fin.ext
    match a with
    | ⟨0, _⟩ => show win9_5.index t (0 : Fin 1) * 32 + 1 * (y 0).val = (y 0).val; omega
  have hE : ((cfg9.win 6).blk t).view.emb (ix2 p q) = ix2 (n0 := 1600000) (n1 := 32) P q := by
    funext a; apply Fin.ext
    match a with
    | ⟨0, _⟩ => show win9_6.index t (0 : Fin 2) * 8000 + 1 * p.val = P.val; omega
    | ⟨1, _⟩ => show win9_6.index t (1 : Fin 2) * 32 + 1 * q.val = q.val; omega
  have hr0 : ∀ k : Fin 3, iblk9 V c 0 t (ix2 p k) = V c main_arg2 (ix2 (n0 := 1600000) (n1 := 3) P k) := by
    intro k
    show V c main_arg2 (((cfg9.win 0).blk t).view.emb (ix2 p k)) = _
    refine congrArg (V c main_arg2) ?_; funext a; apply Fin.ext
    match a with
    | ⟨0, _⟩ => show win9_0.index t (0 : Fin 2) * 8000 + 1 * p.val = P.val; omega
    | ⟨1, _⟩ => show win9_0.index t (1 : Fin 2) * 3 + 1 * k.val = k.val; omega
  have hr1 : iblk9 V c 1 t (ix2 p q) = V c main_v125 (ix2 (n0 := 1600000) (n1 := 32) P q) := by
    show V c main_v125 (((cfg9.win 1).blk t).view.emb (ix2 p q)) = _
    refine congrArg (V c main_v125) ?_; funext a; apply Fin.ext
    match a with
    | ⟨0, _⟩ => show win9_1.index t (0 : Fin 2) * 8000 + 1 * p.val = P.val; omega
    | ⟨1, _⟩ => show win9_1.index t (1 : Fin 2) * 32 + 1 * q.val = q.val; omega
  show k9_pay1 (iblk9 V c 0 t) (iblk9 V c 1 t) (iblk9 V c 2 t) (iblk9 V c 3 t) (iblk9 V c 4 t) (iblk9 V c 5 t) (ix2 p q)
      = Cert.Net.edge (V c main_arg2) (V c main_v125) (V c main_v128) (V c main_v133) (V c main_v131) (V c main_v135)
          (((cfg9.win 6).blk t).view.emb (ix2 p q))
  rw [hE, Cert.Rows.edge_apply]
  refine (Cert.Rows.edge_tile (iblk9 V c 0 t) (iblk9 V c 1 t) (iblk9 V c 2 t) (iblk9 V c 3 t) (iblk9 V c 4 t) (iblk9 V c 5 t) p q).trans ?_
  rw [hw2, hw3, hw4, hw5, hr1]
  simp only [hr0]

/-- An index of the message array is in tile `t`'s block iff each coordinate is in the block's range. -/
theorem mem_blk9 (t : Fin cfg9.N) (i : S1600000x32.Idx) :
    i ∈ ((cfg9.win 6).blk t).view.set ↔ ∀ a : Fin 2, win9_6.index t a * S8000x32.size a ≤ (i a).val ∧ (i a).val < win9_6.index t a * S8000x32.size a + S8000x32.size a := by
  show i ∈ ((View.whole main_v136).slice (win9_6.rect t)).set ↔ _
  rw [View.set_slice_whole, Rect.mem_set_unit]
  exact Iff.rfl

/-- Every row of the messages is in the block of the tile its row number falls in. -/
theorem cover9 (i : S1600000x32.Idx) : ∃ t : Fin cfg9.N, (cfg9.win 6).flush t = true ∧ i ∈ ((cfg9.win 6).blk t).view.set := by
  have hi0 : (i 0).val < 1600000 := (i 0).isLt
  have hi1 : (i 1).val < 32 := (i 1).isLt
  have hN : cfg9.N = 200 := N_9
  let t : Fin cfg9.N := ⟨(i 0).val / 8000, by rw [hN]; omega⟩
  obtain ⟨e0, e1, -⟩ := idx9 t
  have ht : t.val = (i 0).val / 8000 := rfl
  refine ⟨t, flush9_6 t, ?_⟩
  rw [mem_blk9]
  intro a
  match a with
  | ⟨0, _⟩ => show win9_6.index t (0 : Fin 2) * 8000 ≤ (i 0).val ∧ (i 0).val < win9_6.index t (0 : Fin 2) * 8000 + 8000; omega
  | ⟨1, _⟩ => show win9_6.index t (1 : Fin 2) * 32 ≤ (i 1).val ∧ (i 1).val < win9_6.index t (1 : Fin 2) * 32 + 32; omega

/-- THE MESSAGE ARRAY of the region is the message function of its input arrays. -/
theorem final9 (c : Dev nD) :
    (dat9 V c).arrAt 6 cfg9.N
      = Cert.Net.edge (V c main_arg2) (V c main_v125) (V c main_v128) (V c main_v133) (V c main_v131) (V c main_v135) :=
  (dat9 V c).arrAt_eq_of_cover 6 _ (fun t _ => flushed9 V c t) (fun i => cover9 i)

end Cert.KernelIdeal.Regions

end
-- ==== Proof.Region10.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx10 : ∀ t : Fin cfg10.N, win10_5.index t (0 : Fin 2) = t.val ∧ win10_5.index t (1 : Fin 2) = 0
    ∧ win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0 ∧ win10_4.index t (0 : Fin 1) = 0 :=
  (by decide +kernel : ∀ t : Fin grid10.N, _)

/-- What tile `t` writes back is block `t` of the update of the region's input arrays. -/
theorem flushed10 (c : Dev nD) (t : Fin cfg10.N) :
    (dat10 V c).flushed 5 t
      = ((cfg10.win 5).blk t).view.read (Elt Ideal)
          (Cert.Net.node (V c main_v139) (V c main_v118) (V c main_v12) (V c main_v141) (V c main_v143)) := by
  show (cfg10.win 5).cut (grid10.coords t) ((dat10 V c).after 5 t) = _
  rw [after10_5]
  unfold out10_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx10 t
  have htN : t.val < 10 := by have := t.isLt; have hN : cfg10.N = 10 := N_10; omega
  show (k10_pay1 (iblk10 V c 0 t) (iblk10 V c 1 t) (iblk10 V c 2 t) (iblk10 V c 3 t) (iblk10 V c 4 t) : Vec Ideal S5000x32 .f32)
      = fun j : S5000x32.Idx => Cert.Net.node (V c main_v139) (V c main_v118) (V c main_v12) (V c main_v141) (V c main_v143) (((cfg10.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk10 V c 3 t = V c main_v141 := by
    funext y
    show V c main_v141 (((cfg10.win 3).blk t).view.emb y) = V c main_v141 y
    refine congrArg (V c main_v141) ?_; funext a; apply Fin.ext
    match a with
    | ⟨0, _⟩ => show win10_3.index t (0 : Fin 2) * 32 + 1 * (y 0).val = (y 0).val; omega
    | ⟨1, _⟩ => show win10_3.index t (1 : Fin 2) * 32 + 1 * (y 1).val = (y 1).val; omega
  have hw4 : iblk10 V c 4 t = V c main_v143 := by
    funext y
    show V c main_v143 (((cfg10.win 4).blk t).view.emb y) = V c main_v143 y
    refine congrArg (V c main_v143) ?_; funext a; apply Fin.ext
    match a with
    | ⟨0, _⟩ => show win10_4.index t (0 : Fin 1) * 32 + 1 * (y 0).val = (y 0).val; omega
  have hE : ((cfg10.win 5).blk t).view.emb (ix2 p q) = ix2 (n0 := 50000) (n1 := 32) P q := by
    funext a; apply Fin.ext
    match a with
    | ⟨0, _⟩ => show win10_5.index t (0 : Fin 2) * 5000 + 1 * p.val = P.val; omega
    | ⟨1, _⟩ => show win10_5.index t (1 : Fin 2) * 32 + 1 * q.val = q.val; omega
  have hr0 : iblk10 V c 0 t (ix2 p q) = V c main_v139 (ix2 (n0 := 50000) (n1 := 32) P q) := by
    show V c main_v139 (((cfg10.win 0).blk t).view.emb (ix2 p q)) = _
    refine congrArg (V c main_v139) ?_; funext a; apply Fin.ext
    match a with
    | ⟨0, _⟩ => show win10_0.index t (0 : Fin 2) * 5000 + 1 * p.val = P.val; omega
    | ⟨1, _⟩ => show win10_0.index t (1 : Fin 2) * 32 + 1 * q.val = q.val; omega
  have hr1 : ∀ k : Fin 32, iblk10 V c 1 t (ix2 p k) = V c main_v118 (ix2 (n0 := 50000) (n1 := 32) P k) := by
    intro k
    show V c main_v118 (((cfg10.win 1).blk t).view.emb (ix2 p k)) = _
    refine congrArg (V c main_v118) ?_; funext a; apply Fin.ext
    match a with
    | ⟨0, _⟩ => show win10_1.index t (0 : Fin 2) * 5000 + 1 * p.val = P.val; omega
    | ⟨1, _⟩ => show win10_1.index t (1 : Fin 2) * 32 + 1 * k.val = k.val; omega
  have hr2 : iblk10 V c 2 t (ix2 p (0 : Fin 1)) = V c main_v12 (ix2 (n0 := 50000) (n1 := 1) P (0 : Fin 1)) := by
    show V c main_v12 (((cfg10.win 2).blk t).view.emb (ix2 p (0 : Fin 1))) = _
    refine congrArg (V c main_v12) ?_; funext a; apply Fin.ext
    match a with
    | ⟨0, _⟩ => show win10_2.index t (0 : Fin 2) * 5000 + 1 * p.val = P.val; omega
    | ⟨1, _⟩ => show win10_2.index t (1 : Fin 2) * 1 + 1 * 0 = 0; omega
  show k10_pay1 (iblk10 V c 0 t) (iblk10 V c 1 t) (iblk10 V c 2 t) (iblk10 V c 3 t) (iblk10 V c 4 t) (ix2 p q)
      = Cert.Net.node (V c main_v139) (V c main_v118) (V c main_v12) (V c main_v141) (V c main_v143)
          (((cfg10.win 5).blk t).view.emb (ix2 p q))
  rw [hE, Cert.Rows.node_apply]
  refine (Cert.Rows.node_tile (iblk10 V c 0 t) (iblk10 V c 1 t) (iblk10 V c 2 t) (iblk10 V c 3 t) (iblk10 V c 4 t) p q).trans ?_
  rw [hw3, hw4, hr0, hr2]
  simp only [hr1]

/-- An index of the result array is in tile `t`'s block iff each coordinate is in the block's range. -/
theorem mem_blk10 (t : Fin cfg10.N) (i : S50000x32.Idx) :
    i ∈ ((cfg10.win 5).blk t).view.set ↔ ∀ a : Fin 2, win10_5.index t a * S5000x32.size a ≤ (i a).val ∧ (i a).val < win10_5.index t a * S5000x32.size a + S5000x32.size a := by
  show i ∈ ((View.whole main_v144).slice (win10_5.rect t)).set ↔ _
  rw [View.set_slice_whole, Rect.mem_set_unit]
  exact Iff.rfl

/-- Every row of the result is in the block of the tile its row number falls in. -/
theorem cover10 (i : S50000x32.Idx) : ∃ t : Fin cfg10.N, (cfg10.win 5).flush t = true ∧ i ∈ ((cfg10.win 5).blk t).view.set := by
  have hi0 : (i 0).val < 50000 := (i 0).isLt
  have hi1 : (i 1).val < 32 := (i 1).isLt
  have hN : cfg10.N = 10 := N_10
  let t : Fin cfg10.N := ⟨(i 0).val / 5000, by rw [hN]; omega⟩
  obtain ⟨e0, e1, -⟩ := idx10 t
  have ht : t.val = (i 0).val / 5000 := rfl
  refine ⟨t, flush10_5 t, ?_⟩
  rw [mem_blk10]
  intro a
  match a with
  | ⟨0, _⟩ => show win10_5.index t (0 : Fin 2) * 5000 ≤ (i 0).val ∧ (i 0).val < win10_5.index t (0 : Fin 2) * 5000 + 5000; omega
  | ⟨1, _⟩ => show win10_5.index t (1 : Fin 2) * 32 ≤ (i 1).val ∧ (i 1).val < win10_5.index t (1 : Fin 2) * 32 + 32; omega

/-- THE NEW NODE FEATURES of the region are the update of its input arrays. -/
theorem final10 (c : Dev nD) :
    (dat10 V c).arrAt 5 cfg10.N
      = Cert.Net.node (V c main_v139) (V c main_v118) (V c main_v12) (V c main_v141) (V c main_v143) :=
  (dat10 V c).arrAt_eq_of_cover 5 _ (fun t _ => flushed10 V c t) (fun i => cover10 i)

end Cert.KernelIdeal.Regions

end
-- ==== Proof.Region11.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx11 : ∀ t : Fin cfg11.N, win11_6.index t (0 : Fin 2) = t.val ∧ win11_6.index t (1 : Fin 2) = 0
    ∧ win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0 ∧ win11_3.index t (0 : Fin 1) = 0
    ∧ win11_4.index t (0 : Fin 2) = 0 ∧ win11_4.index t (1 : Fin 2) = 0 ∧ win11_5.index t (0 : Fin 1) = 0 :=
  (by decide +kernel : ∀ t : Fin grid11.N, _)

/-- What tile `t` writes back is block `t` of the message function of the region's input arrays. -/
theorem flushed11 (c : Dev nD) (t : Fin cfg11.N) :
    (dat11 V c).flushed 6 t
      = ((cfg11.win 6).blk t).view.read (Elt Ideal)
          (Cert.Net.edge (V c main_arg2) (V c main_v151) (V c main_v154) (V c main_v159) (V c main_v157) (V c main_v161)) := by
  show (cfg11.win 6).cut (grid11.coords t) ((dat11 V c).after 6 t) = _
  rw [after11_6]
  unfold out11_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx11 t
  have htN : t.val < 200 := by have := t.isLt; have hN : cfg11.N = 200 := N_11; omega
  show (k11_pay1 (iblk11 V c 0 t) (iblk11 V c 1 t) (iblk11 V c 2 t) (iblk11 V c 3 t) (iblk11 V c 4 t) (iblk11 V c 5 t) : Vec Ideal S8000x32 .f32)
      = fun j : S8000x32.Idx => Cert.Net.edge (V c main_arg2) (V c main_v151) (V c main_v154) (V c main_v159) (V c main_v157) (V c main_v161) (((cfg11.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk11 V c 2 t = V c main_v154 := by
    funext y
    show V c main_v154 (((cfg11.win 2).blk t).view.emb y) = V c main_v154 y
    refine congrArg (V c main_v154) ?_; funext a; apply Fin.ext
    match a with
    | ⟨0, _⟩ => show win11_2.index t (0 : Fin 2) * 3 + 1 * (y 0).val = (y 0).val; omega
    | ⟨1, _⟩ => show win11_2.index t (1 : Fin 2) * 8 + 1 * (y 1).val = (y 1).val; omega
  have hw3 : iblk11 V c 3 t = V c main_v159 := by
    funext y
    show V c main_v159 (((cfg11.win 3).blk t).view.emb y) = V c main_v159 y
    refine congrArg (V c main_v159) ?_; funext a; apply Fin.ext
    match a with
    | ⟨0, _⟩ => show win11_3.index t (0 : Fin 1) * 8 + 1 * (y 0).val = (y 0).val; omega
  have hw4 : iblk11 V c 4 t = V c main_v157 := by
    funext y
    show V c main_v157 (((cfg11.win 4).blk t).view.emb y) = V c main_v157 y
    refine congrArg (V c main_v157) ?_; funext a; apply Fin.ext
    match a with
    | ⟨0, _⟩ => show win11_4.index t (0 : Fin 2) * 8 + 1 * (y 0).val = (y 0).val; omega
    | ⟨1, _⟩ => show win11_4.index t (1 : Fin 2) * 32 + 1 * (y 1).val = (y 1).val; omega
  have hw5 : iblk11 V c 5 t = V c main_v161 := by
    funext y
    show V c main_v161 (((cfg11.win 5).blk t).view.emb y) = V c main_v161 y
    refine congrArg (V c main_v161) ?_; funext a; apply Fin.ext
    match a with
    | ⟨0, _⟩ => show win11_5.index t (0 : Fin 1) * 32 + 1 * (y 0).val = (y 0).val; omega
  have hE : ((cfg11.win 6).blk t).view.emb (ix2 p q) = ix2 (n0 := 1600000) (n1 := 32) P q := by
    funext a; apply Fin.ext
    match a with
    | ⟨0, _⟩ => show win11_6.index t (0 : Fin 2) * 8000 + 1 * p.val = P.val; omega
    | ⟨1, _⟩ => show win11_6.index t (1 : Fin 2) * 32 + 1 * q.val = q.val; omega
  have hr0 : ∀ k : Fin 3, iblk11 V c 0 t (ix2 p k) = V c main_arg2 (ix2 (n0 := 1600000) (n1 := 3) P k) := by
    intro k
    show V c main_arg2 (((cfg11.win 0).blk t).view.emb (ix2 p k)) = _
    refine congrArg (V c main_arg2) ?_; funext a; apply Fin.ext
    match a with
    | ⟨0, _⟩ => show win11_0.index t (0 : Fin 2) * 8000 + 1 * p.val = P.val; omega
    | ⟨1, _⟩ => show win11_0.index t (1 : Fin 2) * 3 + 1 * k.val = k.val; omega
  have hr1 : iblk11 V c 1 t (ix2 p q) = V c main_v151 (ix2 (n0 := 1600000) (n1 := 32) P q) := by
    show V c main_v151 (((cfg11.win 1).blk t).view.emb (ix2 p q)) = _
    refine congrArg (V c main_v151) ?_; funext a; apply Fin.ext
    match a with
    | ⟨0, _⟩ => show win11_1.index t (0 : Fin 2) * 8000 + 1 * p.val = P.val; omega
    | ⟨1, _⟩ => show win11_1.index t (1 : Fin 2) * 32 + 1 * q.val = q.val; omega
  show k11_pay1 (iblk11 V c 0 t) (iblk11 V c 1 t) (iblk11 V c 2 t) (iblk11 V c 3 t) (iblk11 V c 4 t) (iblk11 V c 5 t) (ix2 p q)
      = Cert.Net.edge (V c main_arg2) (V c main_v151) (V c main_v154) (V c main_v159) (V c main_v157) (V c main_v161)
          (((cfg11.win 6).blk t).view.emb (ix2 p q))
  rw [hE, Cert.Rows.edge_apply]
  refine (Cert.Rows.edge_tile (iblk11 V c 0 t) (iblk11 V c 1 t) (iblk11 V c 2 t) (iblk11 V c 3 t) (iblk11 V c 4 t) (iblk11 V c 5 t) p q).trans ?_
  rw [hw2, hw3, hw4, hw5, hr1]
  simp only [hr0]

/-- An index of the message array is in tile `t`'s block iff each coordinate is in the block's range. -/
theorem mem_blk11 (t : Fin cfg11.N) (i : S1600000x32.Idx) :
    i ∈ ((cfg11.win 6).blk t).view.set ↔ ∀ a : Fin 2, win11_6.index t a * S8000x32.size a ≤ (i a).val ∧ (i a).val < win11_6.index t a * S8000x32.size a + S8000x32.size a := by
  show i ∈ ((View.whole main_v162).slice (win11_6.rect t)).set ↔ _
  rw [View.set_slice_whole, Rect.mem_set_unit]
  exact Iff.rfl

/-- Every row of the messages is in the block of the tile its row number falls in. -/
theorem cover11 (i : S1600000x32.Idx) : ∃ t : Fin cfg11.N, (cfg11.win 6).flush t = true ∧ i ∈ ((cfg11.win 6).blk t).view.set := by
  have hi0 : (i 0).val < 1600000 := (i 0).isLt
  have hi1 : (i 1).val < 32 := (i 1).isLt
  have hN : cfg11.N = 200 := N_11
  let t : Fin cfg11.N := ⟨(i 0).val / 8000, by rw [hN]; omega⟩
  obtain ⟨e0, e1, -⟩ := idx11 t
  have ht : t.val = (i 0).val / 8000 := rfl
  refine ⟨t, flush11_6 t, ?_⟩
  rw [mem_blk11]
  intro a
  match a with
  | ⟨0, _⟩ => show win11_6.index t (0 : Fin 2) * 8000 ≤ (i 0).val ∧ (i 0).val < win11_6.index t (0 : Fin 2) * 8000 + 8000; omega
  | ⟨1, _⟩ => show win11_6.index t (1 : Fin 2) * 32 ≤ (i 1).val ∧ (i 1).val < win11_6.index t (1 : Fin 2) * 32 + 32; omega

/-- THE MESSAGE ARRAY of the region is the message function of its input arrays. -/
theorem final11 (c : Dev nD) :
    (dat11 V c).arrAt 6 cfg11.N
      = Cert.Net.edge (V c main_arg2) (V c main_v151) (V c main_v154) (V c main_v159) (V c main_v157) (V c main_v161) :=
  (dat11 V c).arrAt_eq_of_cover 6 _ (fun t _ => flushed11 V c t) (fun i => cover11 i)

end Cert.KernelIdeal.Regions

end
-- ==== Proof.Region12.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx12 : ∀ t : Fin cfg12.N, win12_5.index t (0 : Fin 2) = t.val ∧ win12_5.index t (1 : Fin 2) = 0
    ∧ win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0 ∧ win12_4.index t (0 : Fin 1) = 0 :=
  (by decide +kernel : ∀ t : Fin grid12.N, _)

/-- What tile `t` writes back is block `t` of the update of the region's input arrays. -/
theorem flushed12 (c : Dev nD) (t : Fin cfg12.N) :
    (dat12 V c).flushed 5 t
      = ((cfg12.win 5).blk t).view.read (Elt Ideal)
          (Cert.Net.node (V c main_v165) (V c main_v144) (V c main_v12) (V c main_v167) (V c main_v169)) := by
  show (cfg12.win 5).cut (grid12.coords t) ((dat12 V c).after 5 t) = _
  rw [after12_5]
  unfold out12_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx12 t
  have htN : t.val < 10 := by have := t.isLt; have hN : cfg12.N = 10 := N_12; omega
  show (k12_pay1 (iblk12 V c 0 t) (iblk12 V c 1 t) (iblk12 V c 2 t) (iblk12 V c 3 t) (iblk12 V c 4 t) : Vec Ideal S5000x32 .f32)
      = fun j : S5000x32.Idx => Cert.Net.node (V c main_v165) (V c main_v144) (V c main_v12) (V c main_v167) (V c main_v169) (((cfg12.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk12 V c 3 t = V c main_v167 := by
    funext y
    show V c main_v167 (((cfg12.win 3).blk t).view.emb y) = V c main_v167 y
    refine congrArg (V c main_v167) ?_; funext a; apply Fin.ext
    match a with
    | ⟨0, _⟩ => show win12_3.index t (0 : Fin 2) * 32 + 1 * (y 0).val = (y 0).val; omega
    | ⟨1, _⟩ => show win12_3.index t (1 : Fin 2) * 32 + 1 * (y 1).val = (y 1).val; omega
  have hw4 : iblk12 V c 4 t = V c main_v169 := by
    funext y
    show V c main_v169 (((cfg12.win 4).blk t).view.emb y) = V c main_v169 y
    refine congrArg (V c main_v169) ?_; funext a; apply Fin.ext
    match a with
    | ⟨0, _⟩ => show win12_4.index t (0 : Fin 1) * 32 + 1 * (y 0).val = (y 0).val; omega
  have hE : ((cfg12.win 5).blk t).view.emb (ix2 p q) = ix2 (n0 := 50000) (n1 := 32) P q := by
    funext a; apply Fin.ext
    match a with
    | ⟨0, _⟩ => show win12_5.index t (0 : Fin 2) * 5000 + 1 * p.val = P.val; omega
    | ⟨1, _⟩ => show win12_5.index t (1 : Fin 2) * 32 + 1 * q.val = q.val; omega
  have hr0 : iblk12 V c 0 t (ix2 p q) = V c main_v165 (ix2 (n0 := 50000) (n1 := 32) P q) := by
    show V c main_v165 (((cfg12.win 0).blk t).view.emb (ix2 p q)) = _
    refine congrArg (V c main_v165) ?_; funext a; apply Fin.ext
    match a with
    | ⟨0, _⟩ => show win12_0.index t (0 : Fin 2) * 5000 + 1 * p.val = P.val; omega
    | ⟨1, _⟩ => show win12_0.index t (1 : Fin 2) * 32 + 1 * q.val = q.val; omega
  have hr1 : ∀ k : Fin 32, iblk12 V c 1 t (ix2 p k) = V c main_v144 (ix2 (n0 := 50000) (n1 := 32) P k) := by
    intro k
    show V c main_v144 (((cfg12.win 1).blk t).view.emb (ix2 p k)) = _
    refine congrArg (V c main_v144) ?_; funext a; apply Fin.ext
    match a with
    | ⟨0, _⟩ => show win12_1.index t (0 : Fin 2) * 5000 + 1 * p.val = P.val; omega
    | ⟨1, _⟩ => show win12_1.index t (1 : Fin 2) * 32 + 1 * k.val = k.val; omega
  have hr2 : iblk12 V c 2 t (ix2 p (0 : Fin 1)) = V c main_v12 (ix2 (n0 := 50000) (n1 := 1) P (0 : Fin 1)) := by
    show V c main_v12 (((cfg12.win 2).blk t).view.emb (ix2 p (0 : Fin 1))) = _
    refine congrArg (V c main_v12) ?_; funext a; apply Fin.ext
    match a with
    | ⟨0, _⟩ => show win12_2.index t (0 : Fin 2) * 5000 + 1 * p.val = P.val; omega
    | ⟨1, _⟩ => show win12_2.index t (1 : Fin 2) * 1 + 1 * 0 = 0; omega
  show k12_pay1 (iblk12 V c 0 t) (iblk12 V c 1 t) (iblk12 V c 2 t) (iblk12 V c 3 t) (iblk12 V c 4 t) (ix2 p q)
      = Cert.Net.node (V c main_v165) (V c main_v144) (V c main_v12) (V c main_v167) (V c main_v169)
          (((cfg12.win 5).blk t).view.emb (ix2 p q))
  rw [hE, Cert.Rows.node_apply]
  refine (Cert.Rows.node_tile (iblk12 V c 0 t) (iblk12 V c 1 t) (iblk12 V c 2 t) (iblk12 V c 3 t) (iblk12 V c 4 t) p q).trans ?_
  rw [hw3, hw4, hr0, hr2]
  simp only [hr1]

/-- An index of the result array is in tile `t`'s block iff each coordinate is in the block's range. -/
theorem mem_blk12 (t : Fin cfg12.N) (i : S50000x32.Idx) :
    i ∈ ((cfg12.win 5).blk t).view.set ↔ ∀ a : Fin 2, win12_5.index t a * S5000x32.size a ≤ (i a).val ∧ (i a).val < win12_5.index t a * S5000x32.size a + S5000x32.size a := by
  show i ∈ ((View.whole main_v170).slice (win12_5.rect t)).set ↔ _
  rw [View.set_slice_whole, Rect.mem_set_unit]
  exact Iff.rfl

/-- Every row of the result is in the block of the tile its row number falls in. -/
theorem cover12 (i : S50000x32.Idx) : ∃ t : Fin cfg12.N, (cfg12.win 5).flush t = true ∧ i ∈ ((cfg12.win 5).blk t).view.set := by
  have hi0 : (i 0).val < 50000 := (i 0).isLt
  have hi1 : (i 1).val < 32 := (i 1).isLt
  have hN : cfg12.N = 10 := N_12
  let t : Fin cfg12.N := ⟨(i 0).val / 5000, by rw [hN]; omega⟩
  obtain ⟨e0, e1, -⟩ := idx12 t
  have ht : t.val = (i 0).val / 5000 := rfl
  refine ⟨t, flush12_5 t, ?_⟩
  rw [mem_blk12]
  intro a
  match a with
  | ⟨0, _⟩ => show win12_5.index t (0 : Fin 2) * 5000 ≤ (i 0).val ∧ (i 0).val < win12_5.index t (0 : Fin 2) * 5000 + 5000; omega
  | ⟨1, _⟩ => show win12_5.index t (1 : Fin 2) * 32 ≤ (i 1).val ∧ (i 1).val < win12_5.index t (1 : Fin 2) * 32 + 32; omega

/-- THE NEW NODE FEATURES of the region are the update of its input arrays. -/
theorem final12 (c : Dev nD) :
    (dat12 V c).arrAt 5 cfg12.N
      = Cert.Net.node (V c main_v165) (V c main_v144) (V c main_v12) (V c main_v167) (V c main_v169) :=
  (dat12 V c).arrAt_eq_of_cover 5 _ (fun t _ => flushed12 V c t) (fun i => cover12 i)

end Cert.KernelIdeal.Regions

end
-- ==== Proof.Region13.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx13 : ∀ t : Fin cfg13.N, win13_6.index t (0 : Fin 2) = t.val ∧ win13_6.index t (1 : Fin 2) = 0
    ∧ win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0 ∧ win13_3.index t (0 : Fin 1) = 0
    ∧ win13_4.index t (0 : Fin 2) = 0 ∧ win13_4.index t (1 : Fin 2) = 0 ∧ win13_5.index t (0 : Fin 1) = 0 :=
  (by decide +kernel : ∀ t : Fin grid13.N, _)

/-- What tile `t` writes back is block `t` of the message function of the region's input arrays. -/
theorem flushed13 (c : Dev nD) (t : Fin cfg13.N) :
    (dat13 V c).flushed 6 t
      = ((cfg13.win 6).blk t).view.read (Elt Ideal)
          (Cert.Net.edge (V c main_arg2) (V c main_v177) (V c main_v180) (V c main_v185) (V c main_v183) (V c main_v187)) := by
  show (cfg13.win 6).cut (grid13.coords t) ((dat13 V c).after 6 t) = _
  rw [after13_6]
  unfold out13_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx13 t
  have htN : t.val < 200 := by have := t.isLt; have hN : cfg13.N = 200 := N_13; omega
  show (k13_pay1 (iblk13 V c 0 t) (iblk13 V c 1 t) (iblk13 V c 2 t) (iblk13 V c 3 t) (iblk13 V c 4 t) (iblk13 V c 5 t) : Vec Ideal S8000x32 .f32)
      = fun j : S8000x32.Idx => Cert.Net.edge (V c main_arg2) (V c main_v177) (V c main_v180) (V c main_v185) (V c main_v183) (V c main_v187) (((cfg13.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk13 V c 2 t = V c main_v180 := by
    funext y
    show V c main_v180 (((cfg13.win 2).blk t).view.emb y) = V c main_v180 y
    refine congrArg (V c main_v180) ?_; funext a; apply Fin.ext
    match a with
    | ⟨0, _⟩ => show win13_2.index t (0 : Fin 2) * 3 + 1 * (y 0).val = (y 0).val; omega
    | ⟨1, _⟩ => show win13_2.index t (1 : Fin 2) * 8 + 1 * (y 1).val = (y 1).val; omega
  have hw3 : iblk13 V c 3 t = V c main_v185 := by
    funext y
    show V c main_v185 (((cfg13.win 3).blk t).view.emb y) = V c main_v185 y
    refine congrArg (V c main_v185) ?_; funext a; apply Fin.ext
    match a with
    | ⟨0, _⟩ => show win13_3.index t (0 : Fin 1) * 8 + 1 * (y 0).val = (y 0).val; omega
  have hw4 : iblk13 V c 4 t = V c main_v183 := by
    funext y
    show V c main_v183 (((cfg13.win 4).blk t).view.emb y) = V c main_v183 y
    refine congrArg (V c main_v183) ?_; funext a; apply Fin.ext
    match a with
    | ⟨0, _⟩ => show win13_4.index t (0 : Fin 2) * 8 + 1 * (y 0).val = (y 0).val; omega
    | ⟨1, _⟩ => show win13_4.index t (1 : Fin 2) * 32 + 1 * (y 1).val = (y 1).val; omega
  have hw5 : iblk13 V c 5 t = V c main_v187 := by
    funext y
    show V c main_v187 (((cfg13.win 5).blk t).view.emb y) = V c main_v187 y
    refine congrArg (V c main_v187) ?_; funext a; apply Fin.ext
    match a with
    | ⟨0, _⟩ => show win13_5.index t (0 : Fin 1) * 32 + 1 * (y 0).val = (y 0).val; omega
  have hE : ((cfg13.win 6).blk t).view.emb (ix2 p q) = ix2 (n0 := 1600000) (n1 := 32) P q := by
    funext a; apply Fin.ext
    match a with
    | ⟨0, _⟩ => show win13_6.index t (0 : Fin 2) * 8000 + 1 * p.val = P.val; omega
    | ⟨1, _⟩ => show win13_6.index t (1 : Fin 2) * 32 + 1 * q.val = q.val; omega
  have hr0 : ∀ k : Fin 3, iblk13 V c 0 t (ix2 p k) = V c main_arg2 (ix2 (n0 := 1600000) (n1 := 3) P k) := by
    intro k
    show V c main_arg2 (((cfg13.win 0).blk t).view.emb (ix2 p k)) = _
    refine congrArg (V c main_arg2) ?_; funext a; apply Fin.ext
    match a with
    | ⟨0, _⟩ => show win13_0.index t (0 : Fin 2) * 8000 + 1 * p.val = P.val; omega
    | ⟨1, _⟩ => show win13_0.index t (1 : Fin 2) * 3 + 1 * k.val = k.val; omega
  have hr1 : iblk13 V c 1 t (ix2 p q) = V c main_v177 (ix2 (n0 := 1600000) (n1 := 32) P q) := by
    show V c main_v177 (((cfg13.win 1).blk t).view.emb (ix2 p q)) = _
    refine congrArg (V c main_v177) ?_; funext a; apply Fin.ext
    match a with
    | ⟨0, _⟩ => show win13_1.index t (0 : Fin 2) * 8000 + 1 * p.val = P.val; omega
    | ⟨1, _⟩ => show win13_1.index t (1 : Fin 2) * 32 + 1 * q.val = q.val; omega
  show k13_pay1 (iblk13 V c 0 t) (iblk13 V c 1 t) (iblk13 V c 2 t) (iblk13 V c 3 t) (iblk13 V c 4 t) (iblk13 V c 5 t) (ix2 p q)
      = Cert.Net.edge (V c main_arg2) (V c main_v177) (V c main_v180) (V c main_v185) (V c main_v183) (V c main_v187)
          (((cfg13.win 6).blk t).view.emb (ix2 p q))
  rw [hE, Cert.Rows.edge_apply]
  refine (Cert.Rows.edge_tile (iblk13 V c 0 t) (iblk13 V c 1 t) (iblk13 V c 2 t) (iblk13 V c 3 t) (iblk13 V c 4 t) (iblk13 V c 5 t) p q).trans ?_
  rw [hw2, hw3, hw4, hw5, hr1]
  simp only [hr0]

/-- An index of the message array is in tile `t`'s block iff each coordinate is in the block's range. -/
theorem mem_blk13 (t : Fin cfg13.N) (i : S1600000x32.Idx) :
    i ∈ ((cfg13.win 6).blk t).view.set ↔ ∀ a : Fin 2, win13_6.index t a * S8000x32.size a ≤ (i a).val ∧ (i a).val < win13_6.index t a * S8000x32.size a + S8000x32.size a := by
  show i ∈ ((View.whole main_v188).slice (win13_6.rect t)).set ↔ _
  rw [View.set_slice_whole, Rect.mem_set_unit]
  exact Iff.rfl

/-- Every row of the messages is in the block of the tile its row number falls in. -/
theorem cover13 (i : S1600000x32.Idx) : ∃ t : Fin cfg13.N, (cfg13.win 6).flush t = true ∧ i ∈ ((cfg13.win 6).blk t).view.set := by
  have hi0 : (i 0).val < 1600000 := (i 0).isLt
  have hi1 : (i 1).val < 32 := (i 1).isLt
  have hN : cfg13.N = 200 := N_13
  let t : Fin cfg13.N := ⟨(i 0).val / 8000, by rw [hN]; omega⟩
  obtain ⟨e0, e1, -⟩ := idx13 t
  have ht : t.val = (i 0).val / 8000 := rfl
  refine ⟨t, flush13_6 t, ?_⟩
  rw [mem_blk13]
  intro a
  match a with
  | ⟨0, _⟩ => show win13_6.index t (0 : Fin 2) * 8000 ≤ (i 0).val ∧ (i 0).val < win13_6.index t (0 : Fin 2) * 8000 + 8000; omega
  | ⟨1, _⟩ => show win13_6.index t (1 : Fin 2) * 32 ≤ (i 1).val ∧ (i 1).val < win13_6.index t (1 : Fin 2) * 32 + 32; omega

/-- THE MESSAGE ARRAY of the region is the message function of its input arrays. -/
theorem final13 (c : Dev nD) :
    (dat13 V c).arrAt 6 cfg13.N
      = Cert.Net.edge (V c main_arg2) (V c main_v177) (V c main_v180) (V c main_v185) (V c main_v183) (V c main_v187) :=
  (dat13 V c).arrAt_eq_of_cover 6 _ (fun t _ => flushed13 V c t) (fun i => cover13 i)

end Cert.KernelIdeal.Regions

end
-- ==== Proof.Region14.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx14 : ∀ t : Fin cfg14.N, win14_5.index t (0 : Fin 2) = t.val ∧ win14_5.index t (1 : Fin 2) = 0
    ∧ win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0 ∧ win14_4.index t (0 : Fin 1) = 0 :=
  (by decide +kernel : ∀ t : Fin grid14.N, _)

/-- What tile `t` writes back is block `t` of the update of the region's input arrays. -/
theorem flushed14 (c : Dev nD) (t : Fin cfg14.N) :
    (dat14 V c).flushed 5 t
      = ((cfg14.win 5).blk t).view.read (Elt Ideal)
          (Cert.Net.node (V c main_v191) (V c main_v170) (V c main_v12) (V c main_v193) (V c main_v195)) := by
  show (cfg14.win 5).cut (grid14.coords t) ((dat14 V c).after 5 t) = _
  rw [after14_5]
  unfold out14_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx14 t
  have htN : t.val < 10 := by have := t.isLt; have hN : cfg14.N = 10 := N_14; omega
  show (k14_pay1 (iblk14 V c 0 t) (iblk14 V c 1 t) (iblk14 V c 2 t) (iblk14 V c 3 t) (iblk14 V c 4 t) : Vec Ideal S5000x32 .f32)
      = fun j : S5000x32.Idx => Cert.Net.node (V c main_v191) (V c main_v170) (V c main_v12) (V c main_v193) (V c main_v195) (((cfg14.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk14 V c 3 t = V c main_v193 := by
    funext y
    show V c main_v193 (((cfg14.win 3).blk t).view.emb y) = V c main_v193 y
    refine congrArg (V c main_v193) ?_; funext a; apply Fin.ext
    match a with
    | ⟨0, _⟩ => show win14_3.index t (0 : Fin 2) * 32 + 1 * (y 0).val = (y 0).val; omega
    | ⟨1, _⟩ => show win14_3.index t (1 : Fin 2) * 32 + 1 * (y 1).val = (y 1).val; omega
  have hw4 : iblk14 V c 4 t = V c main_v195 := by
    funext y
    show V c main_v195 (((cfg14.win 4).blk t).view.emb y) = V c main_v195 y
    refine congrArg (V c main_v195) ?_; funext a; apply Fin.ext
    match a with
    | ⟨0, _⟩ => show win14_4.index t (0 : Fin 1) * 32 + 1 * (y 0).val = (y 0).val; omega
  have hE : ((cfg14.win 5).blk t).view.emb (ix2 p q) = ix2 (n0 := 50000) (n1 := 32) P q := by
    funext a; apply Fin.ext
    match a with
    | ⟨0, _⟩ => show win14_5.index t (0 : Fin 2) * 5000 + 1 * p.val = P.val; omega
    | ⟨1, _⟩ => show win14_5.index t (1 : Fin 2) * 32 + 1 * q.val = q.val; omega
  have hr0 : iblk14 V c 0 t (ix2 p q) = V c main_v191 (ix2 (n0 := 50000) (n1 := 32) P q) := by
    show V c main_v191 (((cfg14.win 0).blk t).view.emb (ix2 p q)) = _
    refine congrArg (V c main_v191) ?_; funext a; apply Fin.ext
    match a with
    | ⟨0, _⟩ => show win14_0.index t (0 : Fin 2) * 5000 + 1 * p.val = P.val; omega
    | ⟨1, _⟩ => show win14_0.index t (1 : Fin 2) * 32 + 1 * q.val = q.val; omega
  have hr1 : ∀ k : Fin 32, iblk14 V c 1 t (ix2 p k) = V c main_v170 (ix2 (n0 := 50000) (n1 := 32) P k) := by
    intro k
    show V c main_v170 (((cfg14.win 1).blk t).view.emb (ix2 p k)) = _
    refine congrArg (V c main_v170) ?_; funext a; apply Fin.ext
    match a with
    | ⟨0, _⟩ => show win14_1.index t (0 : Fin 2) * 5000 + 1 * p.val = P.val; omega
    | ⟨1, _⟩ => show win14_1.index t (1 : Fin 2) * 32 + 1 * k.val = k.val; omega
  have hr2 : iblk14 V c 2 t (ix2 p (0 : Fin 1)) = V c main_v12 (ix2 (n0 := 50000) (n1 := 1) P (0 : Fin 1)) := by
    show V c main_v12 (((cfg14.win 2).blk t).view.emb (ix2 p (0 : Fin 1))) = _
    refine congrArg (V c main_v12) ?_; funext a; apply Fin.ext
    match a with
    | ⟨0, _⟩ => show win14_2.index t (0 : Fin 2) * 5000 + 1 * p.val = P.val; omega
    | ⟨1, _⟩ => show win14_2.index t (1 : Fin 2) * 1 + 1 * 0 = 0; omega
  show k14_pay1 (iblk14 V c 0 t) (iblk14 V c 1 t) (iblk14 V c 2 t) (iblk14 V c 3 t) (iblk14 V c 4 t) (ix2 p q)
      = Cert.Net.node (V c main_v191) (V c main_v170) (V c main_v12) (V c main_v193) (V c main_v195)
          (((cfg14.win 5).blk t).view.emb (ix2 p q))
  rw [hE, Cert.Rows.node_apply]
  refine (Cert.Rows.node_tile (iblk14 V c 0 t) (iblk14 V c 1 t) (iblk14 V c 2 t) (iblk14 V c 3 t) (iblk14 V c 4 t) p q).trans ?_
  rw [hw3, hw4, hr0, hr2]
  simp only [hr1]

/-- An index of the result array is in tile `t`'s block iff each coordinate is in the block's range. -/
theorem mem_blk14 (t : Fin cfg14.N) (i : S50000x32.Idx) :
    i ∈ ((cfg14.win 5).blk t).view.set ↔ ∀ a : Fin 2, win14_5.index t a * S5000x32.size a ≤ (i a).val ∧ (i a).val < win14_5.index t a * S5000x32.size a + S5000x32.size a := by
  show i ∈ ((View.whole main_v196).slice (win14_5.rect t)).set ↔ _
  rw [View.set_slice_whole, Rect.mem_set_unit]
  exact Iff.rfl

/-- Every row of the result is in the block of the tile its row number falls in. -/
theorem cover14 (i : S50000x32.Idx) : ∃ t : Fin cfg14.N, (cfg14.win 5).flush t = true ∧ i ∈ ((cfg14.win 5).blk t).view.set := by
  have hi0 : (i 0).val < 50000 := (i 0).isLt
  have hi1 : (i 1).val < 32 := (i 1).isLt
  have hN : cfg14.N = 10 := N_14
  let t : Fin cfg14.N := ⟨(i 0).val / 5000, by rw [hN]; omega⟩
  obtain ⟨e0, e1, -⟩ := idx14 t
  have ht : t.val = (i 0).val / 5000 := rfl
  refine ⟨t, flush14_5 t, ?_⟩
  rw [mem_blk14]
  intro a
  match a with
  | ⟨0, _⟩ => show win14_5.index t (0 : Fin 2) * 5000 ≤ (i 0).val ∧ (i 0).val < win14_5.index t (0 : Fin 2) * 5000 + 5000; omega
  | ⟨1, _⟩ => show win14_5.index t (1 : Fin 2) * 32 ≤ (i 1).val ∧ (i 1).val < win14_5.index t (1 : Fin 2) * 32 + 32; omega

/-- THE NEW NODE FEATURES of the region are the update of its input arrays. -/
theorem final14 (c : Dev nD) :
    (dat14 V c).arrAt 5 cfg14.N
      = Cert.Net.node (V c main_v191) (V c main_v170) (V c main_v12) (V c main_v193) (V c main_v195) :=
  (dat14 V c).arrAt_eq_of_cover 5 _ (fun t _ => flushed14 V c t) (fun i => cover14 i)

end Cert.KernelIdeal.Regions

end
-- ==== Proof.Region15.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx15 : ∀ t : Fin cfg15.N, win15_6.index t (0 : Fin 2) = t.val ∧ win15_6.index t (1 : Fin 2) = 0
    ∧ win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0 ∧ win15_3.index t (0 : Fin 1) = 0
    ∧ win15_4.index t (0 : Fin 2) = 0 ∧ win15_4.index t (1 : Fin 2) = 0 ∧ win15_5.index t (0 : Fin 1) = 0 :=
  (by decide +kernel : ∀ t : Fin grid15.N, _)

/-- What tile `t` writes back is block `t` of the message function of the region's input arrays. -/
theorem flushed15 (c : Dev nD) (t : Fin cfg15.N) :
    (dat15 V c).flushed 6 t
      = ((cfg15.win 6).blk t).view.read (Elt Ideal)
          (Cert.Net.edge (V c main_arg2) (V c main_v203) (V c main_v206) (V c main_v211) (V c main_v209) (V c main_v213)) := by
  show (cfg15.win 6).cut (grid15.coords t) ((dat15 V c).after 6 t) = _
  rw [after15_6]
  unfold out15_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx15 t
  have htN : t.val < 200 := by have := t.isLt; have hN : cfg15.N = 200 := N_15; omega
  show (k15_pay1 (iblk15 V c 0 t) (iblk15 V c 1 t) (iblk15 V c 2 t) (iblk15 V c 3 t) (iblk15 V c 4 t) (iblk15 V c 5 t) : Vec Ideal S8000x32 .f32)
      = fun j : S8000x32.Idx => Cert.Net.edge (V c main_arg2) (V c main_v203) (V c main_v206) (V c main_v211) (V c main_v209) (V c main_v213) (((cfg15.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk15 V c 2 t = V c main_v206 := by
    funext y
    show V c main_v206 (((cfg15.win 2).blk t).view.emb y) = V c main_v206 y
    refine congrArg (V c main_v206) ?_; funext a; apply Fin.ext
    match a with
    | ⟨0, _⟩ => show win15_2.index t (0 : Fin 2) * 3 + 1 * (y 0).val = (y 0).val; omega
    | ⟨1, _⟩ => show win15_2.index t (1 : Fin 2) * 8 + 1 * (y 1).val = (y 1).val; omega
  have hw3 : iblk15 V c 3 t = V c main_v211 := by
    funext y
    show V c main_v211 (((cfg15.win 3).blk t).view.emb y) = V c main_v211 y
    refine congrArg (V c main_v211) ?_; funext a; apply Fin.ext
    match a with
    | ⟨0, _⟩ => show win15_3.index t (0 : Fin 1) * 8 + 1 * (y 0).val = (y 0).val; omega
  have hw4 : iblk15 V c 4 t = V c main_v209 := by
    funext y
    show V c main_v209 (((cfg15.win 4).blk t).view.emb y) = V c main_v209 y
    refine congrArg (V c main_v209) ?_; funext a; apply Fin.ext
    match a with
    | ⟨0, _⟩ => show win15_4.index t (0 : Fin 2) * 8 + 1 * (y 0).val = (y 0).val; omega
    | ⟨1, _⟩ => show win15_4.index t (1 : Fin 2) * 32 + 1 * (y 1).val = (y 1).val; omega
  have hw5 : iblk15 V c 5 t = V c main_v213 := by
    funext y
    show V c main_v213 (((cfg15.win 5).blk t).view.emb y) = V c main_v213 y
    refine congrArg (V c main_v213) ?_; funext a; apply Fin.ext
    match a with
    | ⟨0, _⟩ => show win15_5.index t (0 : Fin 1) * 32 + 1 * (y 0).val = (y 0).val; omega
  have hE : ((cfg15.win 6).blk t).view.emb (ix2 p q) = ix2 (n0 := 1600000) (n1 := 32) P q := by
    funext a; apply Fin.ext
    match a with
    | ⟨0, _⟩ => show win15_6.index t (0 : Fin 2) * 8000 + 1 * p.val = P.val; omega
    | ⟨1, _⟩ => show win15_6.index t (1 : Fin 2) * 32 + 1 * q.val = q.val; omega
  have hr0 : ∀ k : Fin 3, iblk15 V c 0 t (ix2 p k) = V c main_arg2 (ix2 (n0 := 1600000) (n1 := 3) P k) := by
    intro k
    show V c main_arg2 (((cfg15.win 0).blk t).view.emb (ix2 p k)) = _
    refine congrArg (V c main_arg2) ?_; funext a; apply Fin.ext
    match a with
    | ⟨0, _⟩ => show win15_0.index t (0 : Fin 2) * 8000 + 1 * p.val = P.val; omega
    | ⟨1, _⟩ => show win15_0.index t (1 : Fin 2) * 3 + 1 * k.val = k.val; omega
  have hr1 : iblk15 V c 1 t (ix2 p q) = V c main_v203 (ix2 (n0 := 1600000) (n1 := 32) P q) := by
    show V c main_v203 (((cfg15.win 1).blk t).view.emb (ix2 p q)) = _
    refine congrArg (V c main_v203) ?_; funext a; apply Fin.ext
    match a with
    | ⟨0, _⟩ => show win15_1.index t (0 : Fin 2) * 8000 + 1 * p.val = P.val; omega
    | ⟨1, _⟩ => show win15_1.index t (1 : Fin 2) * 32 + 1 * q.val = q.val; omega
  show k15_pay1 (iblk15 V c 0 t) (iblk15 V c 1 t) (iblk15 V c 2 t) (iblk15 V c 3 t) (iblk15 V c 4 t) (iblk15 V c 5 t) (ix2 p q)
      = Cert.Net.edge (V c main_arg2) (V c main_v203) (V c main_v206) (V c main_v211) (V c main_v209) (V c main_v213)
          (((cfg15.win 6).blk t).view.emb (ix2 p q))
  rw [hE, Cert.Rows.edge_apply]
  refine (Cert.Rows.edge_tile (iblk15 V c 0 t) (iblk15 V c 1 t) (iblk15 V c 2 t) (iblk15 V c 3 t) (iblk15 V c 4 t) (iblk15 V c 5 t) p q).trans ?_
  rw [hw2, hw3, hw4, hw5, hr1]
  simp only [hr0]

/-- An index of the message array is in tile `t`'s block iff each coordinate is in the block's range. -/
theorem mem_blk15 (t : Fin cfg15.N) (i : S1600000x32.Idx) :
    i ∈ ((cfg15.win 6).blk t).view.set ↔ ∀ a : Fin 2, win15_6.index t a * S8000x32.size a ≤ (i a).val ∧ (i a).val < win15_6.index t a * S8000x32.size a + S8000x32.size a := by
  show i ∈ ((View.whole main_v214).slice (win15_6.rect t)).set ↔ _
  rw [View.set_slice_whole, Rect.mem_set_unit]
  exact Iff.rfl

/-- Every row of the messages is in the block of the tile its row number falls in. -/
theorem cover15 (i : S1600000x32.Idx) : ∃ t : Fin cfg15.N, (cfg15.win 6).flush t = true ∧ i ∈ ((cfg15.win 6).blk t).view.set := by
  have hi0 : (i 0).val < 1600000 := (i 0).isLt
  have hi1 : (i 1).val < 32 := (i 1).isLt
  have hN : cfg15.N = 200 := N_15
  let t : Fin cfg15.N := ⟨(i 0).val / 8000, by rw [hN]; omega⟩
  obtain ⟨e0, e1, -⟩ := idx15 t
  have ht : t.val = (i 0).val / 8000 := rfl
  refine ⟨t, flush15_6 t, ?_⟩
  rw [mem_blk15]
  intro a
  match a with
  | ⟨0, _⟩ => show win15_6.index t (0 : Fin 2) * 8000 ≤ (i 0).val ∧ (i 0).val < win15_6.index t (0 : Fin 2) * 8000 + 8000; omega
  | ⟨1, _⟩ => show win15_6.index t (1 : Fin 2) * 32 ≤ (i 1).val ∧ (i 1).val < win15_6.index t (1 : Fin 2) * 32 + 32; omega

/-- THE MESSAGE ARRAY of the region is the message function of its input arrays. -/
theorem final15 (c : Dev nD) :
    (dat15 V c).arrAt 6 cfg15.N
      = Cert.Net.edge (V c main_arg2) (V c main_v203) (V c main_v206) (V c main_v211) (V c main_v209) (V c main_v213) :=
  (dat15 V c).arrAt_eq_of_cover 6 _ (fun t _ => flushed15 V c t) (fun i => cover15 i)

end Cert.KernelIdeal.Regions

end
-- ==== Proof.Region16.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx16 : ∀ t : Fin cfg16.N, win16_5.index t (0 : Fin 2) = t.val ∧ win16_5.index t (1 : Fin 2) = 0
    ∧ win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0 ∧ win16_4.index t (0 : Fin 1) = 0 :=
  (by decide +kernel : ∀ t : Fin grid16.N, _)

/-- What tile `t` writes back is block `t` of the update of the region's input arrays. -/
theorem flushed16 (c : Dev nD) (t : Fin cfg16.N) :
    (dat16 V c).flushed 5 t
      = ((cfg16.win 5).blk t).view.read (Elt Ideal)
          (Cert.Net.node (V c main_v217) (V c main_v196) (V c main_v12) (V c main_v219) (V c main_v221)) := by
  show (cfg16.win 5).cut (grid16.coords t) ((dat16 V c).after 5 t) = _
  rw [after16_5]
  unfold out16_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx16 t
  have htN : t.val < 10 := by have := t.isLt; have hN : cfg16.N = 10 := N_16; omega
  show (k16_pay1 (iblk16 V c 0 t) (iblk16 V c 1 t) (iblk16 V c 2 t) (iblk16 V c 3 t) (iblk16 V c 4 t) : Vec Ideal S5000x32 .f32)
      = fun j : S5000x32.Idx => Cert.Net.node (V c main_v217) (V c main_v196) (V c main_v12) (V c main_v219) (V c main_v221) (((cfg16.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk16 V c 3 t = V c main_v219 := by
    funext y
    show V c main_v219 (((cfg16.win 3).blk t).view.emb y) = V c main_v219 y
    refine congrArg (V c main_v219) ?_; funext a; apply Fin.ext
    match a with
    | ⟨0, _⟩ => show win16_3.index t (0 : Fin 2) * 32 + 1 * (y 0).val = (y 0).val; omega
    | ⟨1, _⟩ => show win16_3.index t (1 : Fin 2) * 32 + 1 * (y 1).val = (y 1).val; omega
  have hw4 : iblk16 V c 4 t = V c main_v221 := by
    funext y
    show V c main_v221 (((cfg16.win 4).blk t).view.emb y) = V c main_v221 y
    refine congrArg (V c main_v221) ?_; funext a; apply Fin.ext
    match a with
    | ⟨0, _⟩ => show win16_4.index t (0 : Fin 1) * 32 + 1 * (y 0).val = (y 0).val; omega
  have hE : ((cfg16.win 5).blk t).view.emb (ix2 p q) = ix2 (n0 := 50000) (n1 := 32) P q := by
    funext a; apply Fin.ext
    match a with
    | ⟨0, _⟩ => show win16_5.index t (0 : Fin 2) * 5000 + 1 * p.val = P.val; omega
    | ⟨1, _⟩ => show win16_5.index t (1 : Fin 2) * 32 + 1 * q.val = q.val; omega
  have hr0 : iblk16 V c 0 t (ix2 p q) = V c main_v217 (ix2 (n0 := 50000) (n1 := 32) P q) := by
    show V c main_v217 (((cfg16.win 0).blk t).view.emb (ix2 p q)) = _
    refine congrArg (V c main_v217) ?_; funext a; apply Fin.ext
    match a with
    | ⟨0, _⟩ => show win16_0.index t (0 : Fin 2) * 5000 + 1 * p.val = P.val; omega
    | ⟨1, _⟩ => show win16_0.index t (1 : Fin 2) * 32 + 1 * q.val = q.val; omega
  have hr1 : ∀ k : Fin 32, iblk16 V c 1 t (ix2 p k) = V c main_v196 (ix2 (n0 := 50000) (n1 := 32) P k) := by
    intro k
    show V c main_v196 (((cfg16.win 1).blk t).view.emb (ix2 p k)) = _
    refine congrArg (V c main_v196) ?_; funext a; apply Fin.ext
    match a with
    | ⟨0, _⟩ => show win16_1.index t (0 : Fin 2) * 5000 + 1 * p.val = P.val; omega
    | ⟨1, _⟩ => show win16_1.index t (1 : Fin 2) * 32 + 1 * k.val = k.val; omega
  have hr2 : iblk16 V c 2 t (ix2 p (0 : Fin 1)) = V c main_v12 (ix2 (n0 := 50000) (n1 := 1) P (0 : Fin 1)) := by
    show V c main_v12 (((cfg16.win 2).blk t).view.emb (ix2 p (0 : Fin 1))) = _
    refine congrArg (V c main_v12) ?_; funext a; apply Fin.ext
    match a with
    | ⟨0, _⟩ => show win16_2.index t (0 : Fin 2) * 5000 + 1 * p.val = P.val; omega
    | ⟨1, _⟩ => show win16_2.index t (1 : Fin 2) * 1 + 1 * 0 = 0; omega
  show k16_pay1 (iblk16 V c 0 t) (iblk16 V c 1 t) (iblk16 V c 2 t) (iblk16 V c 3 t) (iblk16 V c 4 t) (ix2 p q)
      = Cert.Net.node (V c main_v217) (V c main_v196) (V c main_v12) (V c main_v219) (V c main_v221)
          (((cfg16.win 5).blk t).view.emb (ix2 p q))
  rw [hE, Cert.Rows.node_apply]
  refine (Cert.Rows.node_tile (iblk16 V c 0 t) (iblk16 V c 1 t) (iblk16 V c 2 t) (iblk16 V c 3 t) (iblk16 V c 4 t) p q).trans ?_
  rw [hw3, hw4, hr0, hr2]
  simp only [hr1]

/-- An index of the result array is in tile `t`'s block iff each coordinate is in the block's range. -/
theorem mem_blk16 (t : Fin cfg16.N) (i : S50000x32.Idx) :
    i ∈ ((cfg16.win 5).blk t).view.set ↔ ∀ a : Fin 2, win16_5.index t a * S5000x32.size a ≤ (i a).val ∧ (i a).val < win16_5.index t a * S5000x32.size a + S5000x32.size a := by
  show i ∈ ((View.whole main_v222).slice (win16_5.rect t)).set ↔ _
  rw [View.set_slice_whole, Rect.mem_set_unit]
  exact Iff.rfl

/-- Every row of the result is in the block of the tile its row number falls in. -/
theorem cover16 (i : S50000x32.Idx) : ∃ t : Fin cfg16.N, (cfg16.win 5).flush t = true ∧ i ∈ ((cfg16.win 5).blk t).view.set := by
  have hi0 : (i 0).val < 50000 := (i 0).isLt
  have hi1 : (i 1).val < 32 := (i 1).isLt
  have hN : cfg16.N = 10 := N_16
  let t : Fin cfg16.N := ⟨(i 0).val / 5000, by rw [hN]; omega⟩
  obtain ⟨e0, e1, -⟩ := idx16 t
  have ht : t.val = (i 0).val / 5000 := rfl
  refine ⟨t, flush16_5 t, ?_⟩
  rw [mem_blk16]
  intro a
  match a with
  | ⟨0, _⟩ => show win16_5.index t (0 : Fin 2) * 5000 ≤ (i 0).val ∧ (i 0).val < win16_5.index t (0 : Fin 2) * 5000 + 5000; omega
  | ⟨1, _⟩ => show win16_5.index t (1 : Fin 2) * 32 ≤ (i 1).val ∧ (i 1).val < win16_5.index t (1 : Fin 2) * 32 + 32; omega

/-- THE NEW NODE FEATURES of the region are the update of its input arrays. -/
theorem final16 (c : Dev nD) :
    (dat16 V c).arrAt 5 cfg16.N
      = Cert.Net.node (V c main_v217) (V c main_v196) (V c main_v12) (V c main_v219) (V c main_v221) :=
  (dat16 V c).arrAt_eq_of_cover 5 _ (fun t _ => flushed16 V c t) (fun i => cover16 i)

end Cert.KernelIdeal.Regions

end
-- ==== Proof.Region17.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx17 : ∀ t : Fin cfg17.N, win17_6.index t (0 : Fin 2) = t.val ∧ win17_6.index t (1 : Fin 2) = 0
    ∧ win17_0.index t (0 : Fin 2) = t.val ∧ win17_0.index t (1 : Fin 2) = 0
    ∧ win17_1.index t (0 : Fin 2) = t.val ∧ win17_1.index t (1 : Fin 2) = 0
    ∧ win17_2.index t (0 : Fin 2) = 0 ∧ win17_2.index t (1 : Fin 2) = 0 ∧ win17_3.index t (0 : Fin 1) = 0
    ∧ win17_4.index t (0 : Fin 2) = 0 ∧ win17_4.index t (1 : Fin 2) = 0 ∧ win17_5.index t (0 : Fin 1) = 0 :=
  (by decide +kernel : ∀ t : Fin grid17.N, _)

/-- What tile `t` writes back is block `t` of the message function of the region's input arrays. -/
theorem flushed17 (c : Dev nD) (t : Fin cfg17.N) :
    (dat17 V c).flushed 6 t
      = ((cfg17.win 6).blk t).view.read (Elt Ideal)
          (Cert.Net.edge (V c main_arg2) (V c main_v229) (V c main_v232) (V c main_v237) (V c main_v235) (V c main_v239)) := by
  show (cfg17.win 6).cut (grid17.coords t) ((dat17 V c).after 6 t) = _
  rw [after17_6]
  unfold out17_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx17 t
  have htN : t.val < 200 := by have := t.isLt; have hN : cfg17.N = 200 := N_17; omega
  show (k17_pay1 (iblk17 V c 0 t) (iblk17 V c 1 t) (iblk17 V c 2 t) (iblk17 V c 3 t) (iblk17 V c 4 t) (iblk17 V c 5 t) : Vec Ideal S8000x32 .f32)
      = fun j : S8000x32.Idx => Cert.Net.edge (V c main_arg2) (V c main_v229) (V c main_v232) (V c main_v237) (V c main_v235) (V c main_v239) (((cfg17.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk17 V c 2 t = V c main_v232 := by
    funext y
    show V c main_v232 (((cfg17.win 2).blk t).view.emb y) = V c main_v232 y
    refine congrArg (V c main_v232) ?_; funext a; apply Fin.ext
    match a with
    | ⟨0, _⟩ => show win17_2.index t (0 : Fin 2) * 3 + 1 * (y 0).val = (y 0).val; omega
    | ⟨1, _⟩ => show win17_2.index t (1 : Fin 2) * 8 + 1 * (y 1).val = (y 1).val; omega
  have hw3 : iblk17 V c 3 t = V c main_v237 := by
    funext y
    show V c main_v237 (((cfg17.win 3).blk t).view.emb y) = V c main_v237 y
    refine congrArg (V c main_v237) ?_; funext a; apply Fin.ext
    match a with
    | ⟨0, _⟩ => show win17_3.index t (0 : Fin 1) * 8 + 1 * (y 0).val = (y 0).val; omega
  have hw4 : iblk17 V c 4 t = V c main_v235 := by
    funext y
    show V c main_v235 (((cfg17.win 4).blk t).view.emb y) = V c main_v235 y
    refine congrArg (V c main_v235) ?_; funext a; apply Fin.ext
    match a with
    | ⟨0, _⟩ => show win17_4.index t (0 : Fin 2) * 8 + 1 * (y 0).val = (y 0).val; omega
    | ⟨1, _⟩ => show win17_4.index t (1 : Fin 2) * 32 + 1 * (y 1).val = (y 1).val; omega
  have hw5 : iblk17 V c 5 t = V c main_v239 := by
    funext y
    show V c main_v239 (((cfg17.win 5).blk t).view.emb y) = V c main_v239 y
    refine congrArg (V c main_v239) ?_; funext a; apply Fin.ext
    match a with
    | ⟨0, _⟩ => show win17_5.index t (0 : Fin 1) * 32 + 1 * (y 0).val = (y 0).val; omega
  have hE : ((cfg17.win 6).blk t).view.emb (ix2 p q) = ix2 (n0 := 1600000) (n1 := 32) P q := by
    funext a; apply Fin.ext
    match a with
    | ⟨0, _⟩ => show win17_6.index t (0 : Fin 2) * 8000 + 1 * p.val = P.val; omega
    | ⟨1, _⟩ => show win17_6.index t (1 : Fin 2) * 32 + 1 * q.val = q.val; omega
  have hr0 : ∀ k : Fin 3, iblk17 V c 0 t (ix2 p k) = V c main_arg2 (ix2 (n0 := 1600000) (n1 := 3) P k) := by
    intro k
    show V c main_arg2 (((cfg17.win 0).blk t).view.emb (ix2 p k)) = _
    refine congrArg (V c main_arg2) ?_; funext a; apply Fin.ext
    match a with
    | ⟨0, _⟩ => show win17_0.index t (0 : Fin 2) * 8000 + 1 * p.val = P.val; omega
    | ⟨1, _⟩ => show win17_0.index t (1 : Fin 2) * 3 + 1 * k.val = k.val; omega
  have hr1 : iblk17 V c 1 t (ix2 p q) = V c main_v229 (ix2 (n0 := 1600000) (n1 := 32) P q) := by
    show V c main_v229 (((cfg17.win 1).blk t).view.emb (ix2 p q)) = _
    refine congrArg (V c main_v229) ?_; funext a; apply Fin.ext
    match a with
    | ⟨0, _⟩ => show win17_1.index t (0 : Fin 2) * 8000 + 1 * p.val = P.val; omega
    | ⟨1, _⟩ => show win17_1.index t (1 : Fin 2) * 32 + 1 * q.val = q.val; omega
  show k17_pay1 (iblk17 V c 0 t) (iblk17 V c 1 t) (iblk17 V c 2 t) (iblk17 V c 3 t) (iblk17 V c 4 t) (iblk17 V c 5 t) (ix2 p q)
      = Cert.Net.edge (V c main_arg2) (V c main_v229) (V c main_v232) (V c main_v237) (V c main_v235) (V c main_v239)
          (((cfg17.win 6).blk t).view.emb (ix2 p q))
  rw [hE, Cert.Rows.edge_apply]
  refine (Cert.Rows.edge_tile (iblk17 V c 0 t) (iblk17 V c 1 t) (iblk17 V c 2 t) (iblk17 V c 3 t) (iblk17 V c 4 t) (iblk17 V c 5 t) p q).trans ?_
  rw [hw2, hw3, hw4, hw5, hr1]
  simp only [hr0]

/-- An index of the message array is in tile `t`'s block iff each coordinate is in the block's range. -/
theorem mem_blk17 (t : Fin cfg17.N) (i : S1600000x32.Idx) :
    i ∈ ((cfg17.win 6).blk t).view.set ↔ ∀ a : Fin 2, win17_6.index t a * S8000x32.size a ≤ (i a).val ∧ (i a).val < win17_6.index t a * S8000x32.size a + S8000x32.size a := by
  show i ∈ ((View.whole main_v240).slice (win17_6.rect t)).set ↔ _
  rw [View.set_slice_whole, Rect.mem_set_unit]
  exact Iff.rfl

/-- Every row of the messages is in the block of the tile its row number falls in. -/
theorem cover17 (i : S1600000x32.Idx) : ∃ t : Fin cfg17.N, (cfg17.win 6).flush t = true ∧ i ∈ ((cfg17.win 6).blk t).view.set := by
  have hi0 : (i 0).val < 1600000 := (i 0).isLt
  have hi1 : (i 1).val < 32 := (i 1).isLt
  have hN : cfg17.N = 200 := N_17
  let t : Fin cfg17.N := ⟨(i 0).val / 8000, by rw [hN]; omega⟩
  obtain ⟨e0, e1, -⟩ := idx17 t
  have ht : t.val = (i 0).val / 8000 := rfl
  refine ⟨t, flush17_6 t, ?_⟩
  rw [mem_blk17]
  intro a
  match a with
  | ⟨0, _⟩ => show win17_6.index t (0 : Fin 2) * 8000 ≤ (i 0).val ∧ (i 0).val < win17_6.index t (0 : Fin 2) * 8000 + 8000; omega
  | ⟨1, _⟩ => show win17_6.index t (1 : Fin 2) * 32 ≤ (i 1).val ∧ (i 1).val < win17_6.index t (1 : Fin 2) * 32 + 32; omega

/-- THE MESSAGE ARRAY of the region is the message function of its input arrays. -/
theorem final17 (c : Dev nD) :
    (dat17 V c).arrAt 6 cfg17.N
      = Cert.Net.edge (V c main_arg2) (V c main_v229) (V c main_v232) (V c main_v237) (V c main_v235) (V c main_v239) :=
  (dat17 V c).arrAt_eq_of_cover 6 _ (fun t _ => flushed17 V c t) (fun i => cover17 i)

end Cert.KernelIdeal.Regions

end
-- ==== Proof.Region18.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx18 : ∀ t : Fin cfg18.N, win18_5.index t (0 : Fin 2) = t.val ∧ win18_5.index t (1 : Fin 2) = 0
    ∧ win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0 ∧ win18_4.index t (0 : Fin 1) = 0 :=
  (by decide +kernel : ∀ t : Fin grid18.N, _)

/-- What tile `t` writes back is block `t` of the update of the region's input arrays. -/
theorem flushed18 (c : Dev nD) (t : Fin cfg18.N) :
    (dat18 V c).flushed 5 t
      = ((cfg18.win 5).blk t).view.read (Elt Ideal)
          (Cert.Net.node (V c main_v243) (V c main_v222) (V c main_v12) (V c main_v245) (V c main_v247)) := by
  show (cfg18.win 5).cut (grid18.coords t) ((dat18 V c).after 5 t) = _
  rw [after18_5]
  unfold out18_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx18 t
  have htN : t.val < 10 := by have := t.isLt; have hN : cfg18.N = 10 := N_18; omega
  show (k18_pay1 (iblk18 V c 0 t) (iblk18 V c 1 t) (iblk18 V c 2 t) (iblk18 V c 3 t) (iblk18 V c 4 t) : Vec Ideal S5000x32 .f32)
      = fun j : S5000x32.Idx => Cert.Net.node (V c main_v243) (V c main_v222) (V c main_v12) (V c main_v245) (V c main_v247) (((cfg18.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk18 V c 3 t = V c main_v245 := by
    funext y
    show V c main_v245 (((cfg18.win 3).blk t).view.emb y) = V c main_v245 y
    refine congrArg (V c main_v245) ?_; funext a; apply Fin.ext
    match a with
    | ⟨0, _⟩ => show win18_3.index t (0 : Fin 2) * 32 + 1 * (y 0).val = (y 0).val; omega
    | ⟨1, _⟩ => show win18_3.index t (1 : Fin 2) * 32 + 1 * (y 1).val = (y 1).val; omega
  have hw4 : iblk18 V c 4 t = V c main_v247 := by
    funext y
    show V c main_v247 (((cfg18.win 4).blk t).view.emb y) = V c main_v247 y
    refine congrArg (V c main_v247) ?_; funext a; apply Fin.ext
    match a with
    | ⟨0, _⟩ => show win18_4.index t (0 : Fin 1) * 32 + 1 * (y 0).val = (y 0).val; omega
  have hE : ((cfg18.win 5).blk t).view.emb (ix2 p q) = ix2 (n0 := 50000) (n1 := 32) P q := by
    funext a; apply Fin.ext
    match a with
    | ⟨0, _⟩ => show win18_5.index t (0 : Fin 2) * 5000 + 1 * p.val = P.val; omega
    | ⟨1, _⟩ => show win18_5.index t (1 : Fin 2) * 32 + 1 * q.val = q.val; omega
  have hr0 : iblk18 V c 0 t (ix2 p q) = V c main_v243 (ix2 (n0 := 50000) (n1 := 32) P q) := by
    show V c main_v243 (((cfg18.win 0).blk t).view.emb (ix2 p q)) = _
    refine congrArg (V c main_v243) ?_; funext a; apply Fin.ext
    match a with
    | ⟨0, _⟩ => show win18_0.index t (0 : Fin 2) * 5000 + 1 * p.val = P.val; omega
    | ⟨1, _⟩ => show win18_0.index t (1 : Fin 2) * 32 + 1 * q.val = q.val; omega
  have hr1 : ∀ k : Fin 32, iblk18 V c 1 t (ix2 p k) = V c main_v222 (ix2 (n0 := 50000) (n1 := 32) P k) := by
    intro k
    show V c main_v222 (((cfg18.win 1).blk t).view.emb (ix2 p k)) = _
    refine congrArg (V c main_v222) ?_; funext a; apply Fin.ext
    match a with
    | ⟨0, _⟩ => show win18_1.index t (0 : Fin 2) * 5000 + 1 * p.val = P.val; omega
    | ⟨1, _⟩ => show win18_1.index t (1 : Fin 2) * 32 + 1 * k.val = k.val; omega
  have hr2 : iblk18 V c 2 t (ix2 p (0 : Fin 1)) = V c main_v12 (ix2 (n0 := 50000) (n1 := 1) P (0 : Fin 1)) := by
    show V c main_v12 (((cfg18.win 2).blk t).view.emb (ix2 p (0 : Fin 1))) = _
    refine congrArg (V c main_v12) ?_; funext a; apply Fin.ext
    match a with
    | ⟨0, _⟩ => show win18_2.index t (0 : Fin 2) * 5000 + 1 * p.val = P.val; omega
    | ⟨1, _⟩ => show win18_2.index t (1 : Fin 2) * 1 + 1 * 0 = 0; omega
  show k18_pay1 (iblk18 V c 0 t) (iblk18 V c 1 t) (iblk18 V c 2 t) (iblk18 V c 3 t) (iblk18 V c 4 t) (ix2 p q)
      = Cert.Net.node (V c main_v243) (V c main_v222) (V c main_v12) (V c main_v245) (V c main_v247)
          (((cfg18.win 5).blk t).view.emb (ix2 p q))
  rw [hE, Cert.Rows.node_apply]
  refine (Cert.Rows.node_tile (iblk18 V c 0 t) (iblk18 V c 1 t) (iblk18 V c 2 t) (iblk18 V c 3 t) (iblk18 V c 4 t) p q).trans ?_
  rw [hw3, hw4, hr0, hr2]
  simp only [hr1]

/-- An index of the result array is in tile `t`'s block iff each coordinate is in the block's range. -/
theorem mem_blk18 (t : Fin cfg18.N) (i : S50000x32.Idx) :
    i ∈ ((cfg18.win 5).blk t).view.set ↔ ∀ a : Fin 2, win18_5.index t a * S5000x32.size a ≤ (i a).val ∧ (i a).val < win18_5.index t a * S5000x32.size a + S5000x32.size a := by
  show i ∈ ((View.whole main_v248).slice (win18_5.rect t)).set ↔ _
  rw [View.set_slice_whole, Rect.mem_set_unit]
  exact Iff.rfl

/-- Every row of the result is in the block of the tile its row number falls in. -/
theorem cover18 (i : S50000x32.Idx) : ∃ t : Fin cfg18.N, (cfg18.win 5).flush t = true ∧ i ∈ ((cfg18.win 5).blk t).view.set := by
  have hi0 : (i 0).val < 50000 := (i 0).isLt
  have hi1 : (i 1).val < 32 := (i 1).isLt
  have hN : cfg18.N = 10 := N_18
  let t : Fin cfg18.N := ⟨(i 0).val / 5000, by rw [hN]; omega⟩
  obtain ⟨e0, e1, -⟩ := idx18 t
  have ht : t.val = (i 0).val / 5000 := rfl
  refine ⟨t, flush18_5 t, ?_⟩
  rw [mem_blk18]
  intro a
  match a with
  | ⟨0, _⟩ => show win18_5.index t (0 : Fin 2) * 5000 ≤ (i 0).val ∧ (i 0).val < win18_5.index t (0 : Fin 2) * 5000 + 5000; omega
  | ⟨1, _⟩ => show win18_5.index t (1 : Fin 2) * 32 ≤ (i 1).val ∧ (i 1).val < win18_5.index t (1 : Fin 2) * 32 + 32; omega

/-- THE NEW NODE FEATURES of the region are the update of its input arrays. -/
theorem final18 (c : Dev nD) :
    (dat18 V c).arrAt 5 cfg18.N
      = Cert.Net.node (V c main_v243) (V c main_v222) (V c main_v12) (V c main_v245) (V c main_v247) :=
  (dat18 V c).arrAt_eq_of_cover 5 _ (fun t _ => flushed18 V c t) (fun i => cover18 i)

end Cert.KernelIdeal.Regions

end
-- ==== Proof.Region19.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx19 : ∀ t : Fin cfg19.N, win19_6.index t (0 : Fin 2) = t.val ∧ win19_6.index t (1 : Fin 2) = 0
    ∧ win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0 ∧ win19_3.index t (0 : Fin 1) = 0
    ∧ win19_4.index t (0 : Fin 2) = 0 ∧ win19_4.index t (1 : Fin 2) = 0 ∧ win19_5.index t (0 : Fin 1) = 0 :=
  (by decide +kernel : ∀ t : Fin grid19.N, _)

/-- What tile `t` writes back is block `t` of the message function of the region's input arrays. -/
theorem flushed19 (c : Dev nD) (t : Fin cfg19.N) :
    (dat19 V c).flushed 6 t
      = ((cfg19.win 6).blk t).view.read (Elt Ideal)
          (Cert.Net.edge (V c main_arg2) (V c main_v255) (V c main_v258) (V c main_v263) (V c main_v261) (V c main_v265)) := by
  show (cfg19.win 6).cut (grid19.coords t) ((dat19 V c).after 6 t) = _
  rw [after19_6]
  unfold out19_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx19 t
  have htN : t.val < 200 := by have := t.isLt; have hN : cfg19.N = 200 := N_19; omega
  show (k19_pay1 (iblk19 V c 0 t) (iblk19 V c 1 t) (iblk19 V c 2 t) (iblk19 V c 3 t) (iblk19 V c 4 t) (iblk19 V c 5 t) : Vec Ideal S8000x32 .f32)
      = fun j : S8000x32.Idx => Cert.Net.edge (V c main_arg2) (V c main_v255) (V c main_v258) (V c main_v263) (V c main_v261) (V c main_v265) (((cfg19.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk19 V c 2 t = V c main_v258 := by
    funext y
    show V c main_v258 (((cfg19.win 2).blk t).view.emb y) = V c main_v258 y
    refine congrArg (V c main_v258) ?_; funext a; apply Fin.ext
    match a with
    | ⟨0, _⟩ => show win19_2.index t (0 : Fin 2) * 3 + 1 * (y 0).val = (y 0).val; omega
    | ⟨1, _⟩ => show win19_2.index t (1 : Fin 2) * 8 + 1 * (y 1).val = (y 1).val; omega
  have hw3 : iblk19 V c 3 t = V c main_v263 := by
    funext y
    show V c main_v263 (((cfg19.win 3).blk t).view.emb y) = V c main_v263 y
    refine congrArg (V c main_v263) ?_; funext a; apply Fin.ext
    match a with
    | ⟨0, _⟩ => show win19_3.index t (0 : Fin 1) * 8 + 1 * (y 0).val = (y 0).val; omega
  have hw4 : iblk19 V c 4 t = V c main_v261 := by
    funext y
    show V c main_v261 (((cfg19.win 4).blk t).view.emb y) = V c main_v261 y
    refine congrArg (V c main_v261) ?_; funext a; apply Fin.ext
    match a with
    | ⟨0, _⟩ => show win19_4.index t (0 : Fin 2) * 8 + 1 * (y 0).val = (y 0).val; omega
    | ⟨1, _⟩ => show win19_4.index t (1 : Fin 2) * 32 + 1 * (y 1).val = (y 1).val; omega
  have hw5 : iblk19 V c 5 t = V c main_v265 := by
    funext y
    show V c main_v265 (((cfg19.win 5).blk t).view.emb y) = V c main_v265 y
    refine congrArg (V c main_v265) ?_; funext a; apply Fin.ext
    match a with
    | ⟨0, _⟩ => show win19_5.index t (0 : Fin 1) * 32 + 1 * (y 0).val = (y 0).val; omega
  have hE : ((cfg19.win 6).blk t).view.emb (ix2 p q) = ix2 (n0 := 1600000) (n1 := 32) P q := by
    funext a; apply Fin.ext
    match a with
    | ⟨0, _⟩ => show win19_6.index t (0 : Fin 2) * 8000 + 1 * p.val = P.val; omega
    | ⟨1, _⟩ => show win19_6.index t (1 : Fin 2) * 32 + 1 * q.val = q.val; omega
  have hr0 : ∀ k : Fin 3, iblk19 V c 0 t (ix2 p k) = V c main_arg2 (ix2 (n0 := 1600000) (n1 := 3) P k) := by
    intro k
    show V c main_arg2 (((cfg19.win 0).blk t).view.emb (ix2 p k)) = _
    refine congrArg (V c main_arg2) ?_; funext a; apply Fin.ext
    match a with
    | ⟨0, _⟩ => show win19_0.index t (0 : Fin 2) * 8000 + 1 * p.val = P.val; omega
    | ⟨1, _⟩ => show win19_0.index t (1 : Fin 2) * 3 + 1 * k.val = k.val; omega
  have hr1 : iblk19 V c 1 t (ix2 p q) = V c main_v255 (ix2 (n0 := 1600000) (n1 := 32) P q) := by
    show V c main_v255 (((cfg19.win 1).blk t).view.emb (ix2 p q)) = _
    refine congrArg (V c main_v255) ?_; funext a; apply Fin.ext
    match a with
    | ⟨0, _⟩ => show win19_1.index t (0 : Fin 2) * 8000 + 1 * p.val = P.val; omega
    | ⟨1, _⟩ => show win19_1.index t (1 : Fin 2) * 32 + 1 * q.val = q.val; omega
  show k19_pay1 (iblk19 V c 0 t) (iblk19 V c 1 t) (iblk19 V c 2 t) (iblk19 V c 3 t) (iblk19 V c 4 t) (iblk19 V c 5 t) (ix2 p q)
      = Cert.Net.edge (V c main_arg2) (V c main_v255) (V c main_v258) (V c main_v263) (V c main_v261) (V c main_v265)
          (((cfg19.win 6).blk t).view.emb (ix2 p q))
  rw [hE, Cert.Rows.edge_apply]
  refine (Cert.Rows.edge_tile (iblk19 V c 0 t) (iblk19 V c 1 t) (iblk19 V c 2 t) (iblk19 V c 3 t) (iblk19 V c 4 t) (iblk19 V c 5 t) p q).trans ?_
  rw [hw2, hw3, hw4, hw5, hr1]
  simp only [hr0]

/-- An index of the message array is in tile `t`'s block iff each coordinate is in the block's range. -/
theorem mem_blk19 (t : Fin cfg19.N) (i : S1600000x32.Idx) :
    i ∈ ((cfg19.win 6).blk t).view.set ↔ ∀ a : Fin 2, win19_6.index t a * S8000x32.size a ≤ (i a).val ∧ (i a).val < win19_6.index t a * S8000x32.size a + S8000x32.size a := by
  show i ∈ ((View.whole main_v266).slice (win19_6.rect t)).set ↔ _
  rw [View.set_slice_whole, Rect.mem_set_unit]
  exact Iff.rfl

/-- Every row of the messages is in the block of the tile its row number falls in. -/
theorem cover19 (i : S1600000x32.Idx) : ∃ t : Fin cfg19.N, (cfg19.win 6).flush t = true ∧ i ∈ ((cfg19.win 6).blk t).view.set := by
  have hi0 : (i 0).val < 1600000 := (i 0).isLt
  have hi1 : (i 1).val < 32 := (i 1).isLt
  have hN : cfg19.N = 200 := N_19
  let t : Fin cfg19.N := ⟨(i 0).val / 8000, by rw [hN]; omega⟩
  obtain ⟨e0, e1, -⟩ := idx19 t
  have ht : t.val = (i 0).val / 8000 := rfl
  refine ⟨t, flush19_6 t, ?_⟩
  rw [mem_blk19]
  intro a
  match a with
  | ⟨0, _⟩ => show win19_6.index t (0 : Fin 2) * 8000 ≤ (i 0).val ∧ (i 0).val < win19_6.index t (0 : Fin 2) * 8000 + 8000; omega
  | ⟨1, _⟩ => show win19_6.index t (1 : Fin 2) * 32 ≤ (i 1).val ∧ (i 1).val < win19_6.index t (1 : Fin 2) * 32 + 32; omega

/-- THE MESSAGE ARRAY of the region is the message function of its input arrays. -/
theorem final19 (c : Dev nD) :
    (dat19 V c).arrAt 6 cfg19.N
      = Cert.Net.edge (V c main_arg2) (V c main_v255) (V c main_v258) (V c main_v263) (V c main_v261) (V c main_v265) :=
  (dat19 V c).arrAt_eq_of_cover 6 _ (fun t _ => flushed19 V c t) (fun i => cover19 i)

end Cert.KernelIdeal.Regions

end
-- ==== Proof.Region20.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx20 : ∀ t : Fin cfg20.N, win20_5.index t (0 : Fin 2) = t.val ∧ win20_5.index t (1 : Fin 2) = 0
    ∧ win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0
    ∧ win20_3.index t (0 : Fin 2) = 0 ∧ win20_3.index t (1 : Fin 2) = 0 ∧ win20_4.index t (0 : Fin 1) = 0 :=
  (by decide +kernel : ∀ t : Fin grid20.N, _)

/-- What tile `t` writes back is block `t` of the update of the region's input arrays. -/
theorem flushed20 (c : Dev nD) (t : Fin cfg20.N) :
    (dat20 V c).flushed 5 t
      = ((cfg20.win 5).blk t).view.read (Elt Ideal)
          (Cert.Net.node (V c main_v269) (V c main_v248) (V c main_v12) (V c main_v271) (V c main_v273)) := by
  show (cfg20.win 5).cut (grid20.coords t) ((dat20 V c).after 5 t) = _
  rw [after20_5]
  unfold out20_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx20 t
  have htN : t.val < 10 := by have := t.isLt; have hN : cfg20.N = 10 := N_20; omega
  show (k20_pay1 (iblk20 V c 0 t) (iblk20 V c 1 t) (iblk20 V c 2 t) (iblk20 V c 3 t) (iblk20 V c 4 t) : Vec Ideal S5000x32 .f32)
      = fun j : S5000x32.Idx => Cert.Net.node (V c main_v269) (V c main_v248) (V c main_v12) (V c main_v271) (V c main_v273) (((cfg20.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk20 V c 3 t = V c main_v271 := by
    funext y
    show V c main_v271 (((cfg20.win 3).blk t).view.emb y) = V c main_v271 y
    refine congrArg (V c main_v271) ?_; funext a; apply Fin.ext
    match a with
    | ⟨0, _⟩ => show win20_3.index t (0 : Fin 2) * 32 + 1 * (y 0).val = (y 0).val; omega
    | ⟨1, _⟩ => show win20_3.index t (1 : Fin 2) * 32 + 1 * (y 1).val = (y 1).val; omega
  have hw4 : iblk20 V c 4 t = V c main_v273 := by
    funext y
    show V c main_v273 (((cfg20.win 4).blk t).view.emb y) = V c main_v273 y
    refine congrArg (V c main_v273) ?_; funext a; apply Fin.ext
    match a with
    | ⟨0, _⟩ => show win20_4.index t (0 : Fin 1) * 32 + 1 * (y 0).val = (y 0).val; omega
  have hE : ((cfg20.win 5).blk t).view.emb (ix2 p q) = ix2 (n0 := 50000) (n1 := 32) P q := by
    funext a; apply Fin.ext
    match a with
    | ⟨0, _⟩ => show win20_5.index t (0 : Fin 2) * 5000 + 1 * p.val = P.val; omega
    | ⟨1, _⟩ => show win20_5.index t (1 : Fin 2) * 32 + 1 * q.val = q.val; omega
  have hr0 : iblk20 V c 0 t (ix2 p q) = V c main_v269 (ix2 (n0 := 50000) (n1 := 32) P q) := by
    show V c main_v269 (((cfg20.win 0).blk t).view.emb (ix2 p q)) = _
    refine congrArg (V c main_v269) ?_; funext a; apply Fin.ext
    match a with
    | ⟨0, _⟩ => show win20_0.index t (0 : Fin 2) * 5000 + 1 * p.val = P.val; omega
    | ⟨1, _⟩ => show win20_0.index t (1 : Fin 2) * 32 + 1 * q.val = q.val; omega
  have hr1 : ∀ k : Fin 32, iblk20 V c 1 t (ix2 p k) = V c main_v248 (ix2 (n0 := 50000) (n1 := 32) P k) := by
    intro k
    show V c main_v248 (((cfg20.win 1).blk t).view.emb (ix2 p k)) = _
    refine congrArg (V c main_v248) ?_; funext a; apply Fin.ext
    match a with
    | ⟨0, _⟩ => show win20_1.index t (0 : Fin 2) * 5000 + 1 * p.val = P.val; omega
    | ⟨1, _⟩ => show win20_1.index t (1 : Fin 2) * 32 + 1 * k.val = k.val; omega
  have hr2 : iblk20 V c 2 t (ix2 p (0 : Fin 1)) = V c main_v12 (ix2 (n0 := 50000) (n1 := 1) P (0 : Fin 1)) := by
    show V c main_v12 (((cfg20.win 2).blk t).view.emb (ix2 p (0 : Fin 1))) = _
    refine congrArg (V c main_v12) ?_; funext a; apply Fin.ext
    match a with
    | ⟨0, _⟩ => show win20_2.index t (0 : Fin 2) * 5000 + 1 * p.val = P.val; omega
    | ⟨1, _⟩ => show win20_2.index t (1 : Fin 2) * 1 + 1 * 0 = 0; omega
  show k20_pay1 (iblk20 V c 0 t) (iblk20 V c 1 t) (iblk20 V c 2 t) (iblk20 V c 3 t) (iblk20 V c 4 t) (ix2 p q)
      = Cert.Net.node (V c main_v269) (V c main_v248) (V c main_v12) (V c main_v271) (V c main_v273)
          (((cfg20.win 5).blk t).view.emb (ix2 p q))
  rw [hE, Cert.Rows.node_apply]
  refine (Cert.Rows.node_tile (iblk20 V c 0 t) (iblk20 V c 1 t) (iblk20 V c 2 t) (iblk20 V c 3 t) (iblk20 V c 4 t) p q).trans ?_
  rw [hw3, hw4, hr0, hr2]
  simp only [hr1]

/-- An index of the result array is in tile `t`'s block iff each coordinate is in the block's range. -/
theorem mem_blk20 (t : Fin cfg20.N) (i : S50000x32.Idx) :
    i ∈ ((cfg20.win 5).blk t).view.set ↔ ∀ a : Fin 2, win20_5.index t a * S5000x32.size a ≤ (i a).val ∧ (i a).val < win20_5.index t a * S5000x32.size a + S5000x32.size a := by
  show i ∈ ((View.whole main_v274).slice (win20_5.rect t)).set ↔ _
  rw [View.set_slice_whole, Rect.mem_set_unit]
  exact Iff.rfl

/-- Every row of the result is in the block of the tile its row number falls in. -/
theorem cover20 (i : S50000x32.Idx) : ∃ t : Fin cfg20.N, (cfg20.win 5).flush t = true ∧ i ∈ ((cfg20.win 5).blk t).view.set := by
  have hi0 : (i 0).val < 50000 := (i 0).isLt
  have hi1 : (i 1).val < 32 := (i 1).isLt
  have hN : cfg20.N = 10 := N_20
  let t : Fin cfg20.N := ⟨(i 0).val / 5000, by rw [hN]; omega⟩
  obtain ⟨e0, e1, -⟩ := idx20 t
  have ht : t.val = (i 0).val / 5000 := rfl
  refine ⟨t, flush20_5 t, ?_⟩
  rw [mem_blk20]
  intro a
  match a with
  | ⟨0, _⟩ => show win20_5.index t (0 : Fin 2) * 5000 ≤ (i 0).val ∧ (i 0).val < win20_5.index t (0 : Fin 2) * 5000 + 5000; omega
  | ⟨1, _⟩ => show win20_5.index t (1 : Fin 2) * 32 ≤ (i 1).val ∧ (i 1).val < win20_5.index t (1 : Fin 2) * 32 + 32; omega

/-- THE NEW NODE FEATURES of the region are the update of its input arrays. -/
theorem final20 (c : Dev nD) :
    (dat20 V c).arrAt 5 cfg20.N
      = Cert.Net.node (V c main_v269) (V c main_v248) (V c main_v12) (V c main_v271) (V c main_v273) :=
  (dat20 V c).arrAt_eq_of_cover 5 _ (fun t _ => flushed20 V c t) (fun i => cover20 i)

end Cert.KernelIdeal.Regions

end
-- ==== Proof.Region21.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx21 : ∀ t : Fin cfg21.N, win21_6.index t (0 : Fin 2) = t.val ∧ win21_6.index t (1 : Fin 2) = 0
    ∧ win21_0.index t (0 : Fin 2) = t.val ∧ win21_0.index t (1 : Fin 2) = 0
    ∧ win21_1.index t (0 : Fin 2) = t.val ∧ win21_1.index t (1 : Fin 2) = 0
    ∧ win21_2.index t (0 : Fin 2) = 0 ∧ win21_2.index t (1 : Fin 2) = 0 ∧ win21_3.index t (0 : Fin 1) = 0
    ∧ win21_4.index t (0 : Fin 2) = 0 ∧ win21_4.index t (1 : Fin 2) = 0 ∧ win21_5.index t (0 : Fin 1) = 0 :=
  (by decide +kernel : ∀ t : Fin grid21.N, _)

/-- What tile `t` writes back is block `t` of the message function of the region's input arrays. -/
theorem flushed21 (c : Dev nD) (t : Fin cfg21.N) :
    (dat21 V c).flushed 6 t
      = ((cfg21.win 6).blk t).view.read (Elt Ideal)
          (Cert.Net.edge (V c main_arg2) (V c main_v281) (V c main_v284) (V c main_v289) (V c main_v287) (V c main_v291)) := by
  show (cfg21.win 6).cut (grid21.coords t) ((dat21 V c).after 6 t) = _
  rw [after21_6]
  unfold out21_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx21 t
  have htN : t.val < 200 := by have := t.isLt; have hN : cfg21.N = 200 := N_21; omega
  show (k21_pay1 (iblk21 V c 0 t) (iblk21 V c 1 t) (iblk21 V c 2 t) (iblk21 V c 3 t) (iblk21 V c 4 t) (iblk21 V c 5 t) : Vec Ideal S8000x32 .f32)
      = fun j : S8000x32.Idx => Cert.Net.edge (V c main_arg2) (V c main_v281) (V c main_v284) (V c main_v289) (V c main_v287) (V c main_v291) (((cfg21.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk21 V c 2 t = V c main_v284 := by
    funext y
    show V c main_v284 (((cfg21.win 2).blk t).view.emb y) = V c main_v284 y
    refine congrArg (V c main_v284) ?_; funext a; apply Fin.ext
    match a with
    | ⟨0, _⟩ => show win21_2.index t (0 : Fin 2) * 3 + 1 * (y 0).val = (y 0).val; omega
    | ⟨1, _⟩ => show win21_2.index t (1 : Fin 2) * 8 + 1 * (y 1).val = (y 1).val; omega
  have hw3 : iblk21 V c 3 t = V c main_v289 := by
    funext y
    show V c main_v289 (((cfg21.win 3).blk t).view.emb y) = V c main_v289 y
    refine congrArg (V c main_v289) ?_; funext a; apply Fin.ext
    match a with
    | ⟨0, _⟩ => show win21_3.index t (0 : Fin 1) * 8 + 1 * (y 0).val = (y 0).val; omega
  have hw4 : iblk21 V c 4 t = V c main_v287 := by
    funext y
    show V c main_v287 (((cfg21.win 4).blk t).view.emb y) = V c main_v287 y
    refine congrArg (V c main_v287) ?_; funext a; apply Fin.ext
    match a with
    | ⟨0, _⟩ => show win21_4.index t (0 : Fin 2) * 8 + 1 * (y 0).val = (y 0).val; omega
    | ⟨1, _⟩ => show win21_4.index t (1 : Fin 2) * 32 + 1 * (y 1).val = (y 1).val; omega
  have hw5 : iblk21 V c 5 t = V c main_v291 := by
    funext y
    show V c main_v291 (((cfg21.win 5).blk t).view.emb y) = V c main_v291 y
    refine congrArg (V c main_v291) ?_; funext a; apply Fin.ext
    match a with
    | ⟨0, _⟩ => show win21_5.index t (0 : Fin 1) * 32 + 1 * (y 0).val = (y 0).val; omega
  have hE : ((cfg21.win 6).blk t).view.emb (ix2 p q) = ix2 (n0 := 1600000) (n1 := 32) P q := by
    funext a; apply Fin.ext
    match a with
    | ⟨0, _⟩ => show win21_6.index t (0 : Fin 2) * 8000 + 1 * p.val = P.val; omega
    | ⟨1, _⟩ => show win21_6.index t (1 : Fin 2) * 32 + 1 * q.val = q.val; omega
  have hr0 : ∀ k : Fin 3, iblk21 V c 0 t (ix2 p k) = V c main_arg2 (ix2 (n0 := 1600000) (n1 := 3) P k) := by
    intro k
    show V c main_arg2 (((cfg21.win 0).blk t).view.emb (ix2 p k)) = _
    refine congrArg (V c main_arg2) ?_; funext a; apply Fin.ext
    match a with
    | ⟨0, _⟩ => show win21_0.index t (0 : Fin 2) * 8000 + 1 * p.val = P.val; omega
    | ⟨1, _⟩ => show win21_0.index t (1 : Fin 2) * 3 + 1 * k.val = k.val; omega
  have hr1 : iblk21 V c 1 t (ix2 p q) = V c main_v281 (ix2 (n0 := 1600000) (n1 := 32) P q) := by
    show V c main_v281 (((cfg21.win 1).blk t).view.emb (ix2 p q)) = _
    refine congrArg (V c main_v281) ?_; funext a; apply Fin.ext
    match a with
    | ⟨0, _⟩ => show win21_1.index t (0 : Fin 2) * 8000 + 1 * p.val = P.val; omega
    | ⟨1, _⟩ => show win21_1.index t (1 : Fin 2) * 32 + 1 * q.val = q.val; omega
  show k21_pay1 (iblk21 V c 0 t) (iblk21 V c 1 t) (iblk21 V c 2 t) (iblk21 V c 3 t) (iblk21 V c 4 t) (iblk21 V c 5 t) (ix2 p q)
      = Cert.Net.edge (V c main_arg2) (V c main_v281) (V c main_v284) (V c main_v289) (V c main_v287) (V c main_v291)
          (((cfg21.win 6).blk t).view.emb (ix2 p q))
  rw [hE, Cert.Rows.edge_apply]
  refine (Cert.Rows.edge_tile (iblk21 V c 0 t) (iblk21 V c 1 t) (iblk21 V c 2 t) (iblk21 V c 3 t) (iblk21 V c 4 t) (iblk21 V c 5 t) p q).trans ?_
  rw [hw2, hw3, hw4, hw5, hr1]
  simp only [hr0]

/-- An index of the message array is in tile `t`'s block iff each coordinate is in the block's range. -/
theorem mem_blk21 (t : Fin cfg21.N) (i : S1600000x32.Idx) :
    i ∈ ((cfg21.win 6).blk t).view.set ↔ ∀ a : Fin 2, win21_6.index t a * S8000x32.size a ≤ (i a).val ∧ (i a).val < win21_6.index t a * S8000x32.size a + S8000x32.size a := by
  show i ∈ ((View.whole main_v292).slice (win21_6.rect t)).set ↔ _
  rw [View.set_slice_whole, Rect.mem_set_unit]
  exact Iff.rfl

/-- Every row of the messages is in the block of the tile its row number falls in. -/
theorem cover21 (i : S1600000x32.Idx) : ∃ t : Fin cfg21.N, (cfg21.win 6).flush t = true ∧ i ∈ ((cfg21.win 6).blk t).view.set := by
  have hi0 : (i 0).val < 1600000 := (i 0).isLt
  have hi1 : (i 1).val < 32 := (i 1).isLt
  have hN : cfg21.N = 200 := N_21
  let t : Fin cfg21.N := ⟨(i 0).val / 8000, by rw [hN]; omega⟩
  obtain ⟨e0, e1, -⟩ := idx21 t
  have ht : t.val = (i 0).val / 8000 := rfl
  refine ⟨t, flush21_6 t, ?_⟩
  rw [mem_blk21]
  intro a
  match a with
  | ⟨0, _⟩ => show win21_6.index t (0 : Fin 2) * 8000 ≤ (i 0).val ∧ (i 0).val < win21_6.index t (0 : Fin 2) * 8000 + 8000; omega
  | ⟨1, _⟩ => show win21_6.index t (1 : Fin 2) * 32 ≤ (i 1).val ∧ (i 1).val < win21_6.index t (1 : Fin 2) * 32 + 32; omega

/-- THE MESSAGE ARRAY of the region is the message function of its input arrays. -/
theorem final21 (c : Dev nD) :
    (dat21 V c).arrAt 6 cfg21.N
      = Cert.Net.edge (V c main_arg2) (V c main_v281) (V c main_v284) (V c main_v289) (V c main_v287) (V c main_v291) :=
  (dat21 V c).arrAt_eq_of_cover 6 _ (fun t _ => flushed21 V c t) (fun i => cover21 i)

end Cert.KernelIdeal.Regions

end
-- ==== Proof.Region22.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx22 : ∀ t : Fin cfg22.N, win22_5.index t (0 : Fin 2) = t.val ∧ win22_5.index t (1 : Fin 2) = 0
    ∧ win22_0.index t (0 : Fin 2) = t.val ∧ win22_0.index t (1 : Fin 2) = 0
    ∧ win22_1.index t (0 : Fin 2) = t.val ∧ win22_1.index t (1 : Fin 2) = 0
    ∧ win22_2.index t (0 : Fin 2) = t.val ∧ win22_2.index t (1 : Fin 2) = 0
    ∧ win22_3.index t (0 : Fin 2) = 0 ∧ win22_3.index t (1 : Fin 2) = 0 ∧ win22_4.index t (0 : Fin 1) = 0 :=
  (by decide +kernel : ∀ t : Fin grid22.N, _)

/-- What tile `t` writes back is block `t` of the update of the region's input arrays. -/
theorem flushed22 (c : Dev nD) (t : Fin cfg22.N) :
    (dat22 V c).flushed 5 t
      = ((cfg22.win 5).blk t).view.read (Elt Ideal)
          (Cert.Net.node (V c main_v295) (V c main_v274) (V c main_v12) (V c main_v297) (V c main_v299)) := by
  show (cfg22.win 5).cut (grid22.coords t) ((dat22 V c).after 5 t) = _
  rw [after22_5]
  unfold out22_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx22 t
  have htN : t.val < 10 := by have := t.isLt; have hN : cfg22.N = 10 := N_22; omega
  show (k22_pay1 (iblk22 V c 0 t) (iblk22 V c 1 t) (iblk22 V c 2 t) (iblk22 V c 3 t) (iblk22 V c 4 t) : Vec Ideal S5000x32 .f32)
      = fun j : S5000x32.Idx => Cert.Net.node (V c main_v295) (V c main_v274) (V c main_v12) (V c main_v297) (V c main_v299) (((cfg22.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk22 V c 3 t = V c main_v297 := by
    funext y
    show V c main_v297 (((cfg22.win 3).blk t).view.emb y) = V c main_v297 y
    refine congrArg (V c main_v297) ?_; funext a; apply Fin.ext
    match a with
    | ⟨0, _⟩ => show win22_3.index t (0 : Fin 2) * 32 + 1 * (y 0).val = (y 0).val; omega
    | ⟨1, _⟩ => show win22_3.index t (1 : Fin 2) * 32 + 1 * (y 1).val = (y 1).val; omega
  have hw4 : iblk22 V c 4 t = V c main_v299 := by
    funext y
    show V c main_v299 (((cfg22.win 4).blk t).view.emb y) = V c main_v299 y
    refine congrArg (V c main_v299) ?_; funext a; apply Fin.ext
    match a with
    | ⟨0, _⟩ => show win22_4.index t (0 : Fin 1) * 32 + 1 * (y 0).val = (y 0).val; omega
  have hE : ((cfg22.win 5).blk t).view.emb (ix2 p q) = ix2 (n0 := 50000) (n1 := 32) P q := by
    funext a; apply Fin.ext
    match a with
    | ⟨0, _⟩ => show win22_5.index t (0 : Fin 2) * 5000 + 1 * p.val = P.val; omega
    | ⟨1, _⟩ => show win22_5.index t (1 : Fin 2) * 32 + 1 * q.val = q.val; omega
  have hr0 : iblk22 V c 0 t (ix2 p q) = V c main_v295 (ix2 (n0 := 50000) (n1 := 32) P q) := by
    show V c main_v295 (((cfg22.win 0).blk t).view.emb (ix2 p q)) = _
    refine congrArg (V c main_v295) ?_; funext a; apply Fin.ext
    match a with
    | ⟨0, _⟩ => show win22_0.index t (0 : Fin 2) * 5000 + 1 * p.val = P.val; omega
    | ⟨1, _⟩ => show win22_0.index t (1 : Fin 2) * 32 + 1 * q.val = q.val; omega
  have hr1 : ∀ k : Fin 32, iblk22 V c 1 t (ix2 p k) = V c main_v274 (ix2 (n0 := 50000) (n1 := 32) P k) := by
    intro k
    show V c main_v274 (((cfg22.win 1).blk t).view.emb (ix2 p k)) = _
    refine congrArg (V c main_v274) ?_; funext a; apply Fin.ext
    match a with
    | ⟨0, _⟩ => show win22_1.index t (0 : Fin 2) * 5000 + 1 * p.val = P.val; omega
    | ⟨1, _⟩ => show win22_1.index t (1 : Fin 2) * 32 + 1 * k.val = k.val; omega
  have hr2 : iblk22 V c 2 t (ix2 p (0 : Fin 1)) = V c main_v12 (ix2 (n0 := 50000) (n1 := 1) P (0 : Fin 1)) := by
    show V c main_v12 (((cfg22.win 2).blk t).view.emb (ix2 p (0 : Fin 1))) = _
    refine congrArg (V c main_v12) ?_; funext a; apply Fin.ext
    match a with
    | ⟨0, _⟩ => show win22_2.index t (0 : Fin 2) * 5000 + 1 * p.val = P.val; omega
    | ⟨1, _⟩ => show win22_2.index t (1 : Fin 2) * 1 + 1 * 0 = 0; omega
  show k22_pay1 (iblk22 V c 0 t) (iblk22 V c 1 t) (iblk22 V c 2 t) (iblk22 V c 3 t) (iblk22 V c 4 t) (ix2 p q)
      = Cert.Net.node (V c main_v295) (V c main_v274) (V c main_v12) (V c main_v297) (V c main_v299)
          (((cfg22.win 5).blk t).view.emb (ix2 p q))
  rw [hE, Cert.Rows.node_apply]
  refine (Cert.Rows.node_tile (iblk22 V c 0 t) (iblk22 V c 1 t) (iblk22 V c 2 t) (iblk22 V c 3 t) (iblk22 V c 4 t) p q).trans ?_
  rw [hw3, hw4, hr0, hr2]
  simp only [hr1]

/-- An index of the result array is in tile `t`'s block iff each coordinate is in the block's range. -/
theorem mem_blk22 (t : Fin cfg22.N) (i : S50000x32.Idx) :
    i ∈ ((cfg22.win 5).blk t).view.set ↔ ∀ a : Fin 2, win22_5.index t a * S5000x32.size a ≤ (i a).val ∧ (i a).val < win22_5.index t a * S5000x32.size a + S5000x32.size a := by
  show i ∈ ((View.whole main_v300).slice (win22_5.rect t)).set ↔ _
  rw [View.set_slice_whole, Rect.mem_set_unit]
  exact Iff.rfl

/-- Every row of the result is in the block of the tile its row number falls in. -/
theorem cover22 (i : S50000x32.Idx) : ∃ t : Fin cfg22.N, (cfg22.win 5).flush t = true ∧ i ∈ ((cfg22.win 5).blk t).view.set := by
  have hi0 : (i 0).val < 50000 := (i 0).isLt
  have hi1 : (i 1).val < 32 := (i 1).isLt
  have hN : cfg22.N = 10 := N_22
  let t : Fin cfg22.N := ⟨(i 0).val / 5000, by rw [hN]; omega⟩
  obtain ⟨e0, e1, -⟩ := idx22 t
  have ht : t.val = (i 0).val / 5000 := rfl
  refine ⟨t, flush22_5 t, ?_⟩
  rw [mem_blk22]
  intro a
  match a with
  | ⟨0, _⟩ => show win22_5.index t (0 : Fin 2) * 5000 ≤ (i 0).val ∧ (i 0).val < win22_5.index t (0 : Fin 2) * 5000 + 5000; omega
  | ⟨1, _⟩ => show win22_5.index t (1 : Fin 2) * 32 ≤ (i 1).val ∧ (i 1).val < win22_5.index t (1 : Fin 2) * 32 + 32; omega

/-- THE NEW NODE FEATURES of the region are the update of its input arrays. -/
theorem final22 (c : Dev nD) :
    (dat22 V c).arrAt 5 cfg22.N
      = Cert.Net.node (V c main_v295) (V c main_v274) (V c main_v12) (V c main_v297) (V c main_v299) :=
  (dat22 V c).arrAt_eq_of_cover 5 _ (fun t _ => flushed22 V c t) (fun i => cover22 i)

end Cert.KernelIdeal.Regions

end
-- ==== Proof.Region23.lean ====
/-
  A message region: two hundred tiles of 8000 edges. Tile `t` reads rows 8000·t … of the edge attributes and of the
  gathered source features, and the perceptron's two matrices and two biases whole, and writes rows 8000·t … of the
  messages. Each message row is the edge row formula of the same row of the two large operands, so what tile `t` writes
  back is block `t` of the whole-array message function of the region's input arrays; the blocks cover all 1600000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the two large operands' tiles and the result's tile are tile `t`; the small
    operands are taken whole. -/
theorem idx23 : ∀ t : Fin cfg23.N, win23_6.index t (0 : Fin 2) = t.val ∧ win23_6.index t (1 : Fin 2) = 0
    ∧ win23_0.index t (0 : Fin 2) = t.val ∧ win23_0.index t (1 : Fin 2) = 0
    ∧ win23_1.index t (0 : Fin 2) = t.val ∧ win23_1.index t (1 : Fin 2) = 0
    ∧ win23_2.index t (0 : Fin 2) = 0 ∧ win23_2.index t (1 : Fin 2) = 0 ∧ win23_3.index t (0 : Fin 1) = 0
    ∧ win23_4.index t (0 : Fin 2) = 0 ∧ win23_4.index t (1 : Fin 2) = 0 ∧ win23_5.index t (0 : Fin 1) = 0 :=
  (by decide +kernel : ∀ t : Fin grid23.N, _)

/-- What tile `t` writes back is block `t` of the message function of the region's input arrays. -/
theorem flushed23 (c : Dev nD) (t : Fin cfg23.N) :
    (dat23 V c).flushed 6 t
      = ((cfg23.win 6).blk t).view.read (Elt Ideal)
          (Cert.Net.edge (V c main_arg2) (V c main_v307) (V c main_v310) (V c main_v315) (V c main_v313) (V c main_v317)) := by
  show (cfg23.win 6).cut (grid23.coords t) ((dat23 V c).after 6 t) = _
  rw [after23_6]
  unfold out23_6
  rw [View.canon_unit_zero hz2]
  simp only [View.ld_unit_zero (S := S8000x3) hz2, View.ld_unit_zero (S := S8000x32) hz2, View.ld_unit_zero (S := S3x8) hz2,
    View.ld_unit_zero (S := S8) hz1, View.ld_unit_zero (S := S8x32) hz2, View.ld_unit_zero (S := S32) hz1]
  obtain ⟨e0, e1, e2, e3, e4, e5, e6, e7, e8, e9, e10, e11⟩ := idx23 t
  have htN : t.val < 200 := by have := t.isLt; have hN : cfg23.N = 200 := N_23; omega
  show (k23_pay1 (iblk23 V c 0 t) (iblk23 V c 1 t) (iblk23 V c 2 t) (iblk23 V c 3 t) (iblk23 V c 4 t) (iblk23 V c 5 t) : Vec Ideal S8000x32 .f32)
      = fun j : S8000x32.Idx => Cert.Net.edge (V c main_arg2) (V c main_v307) (V c main_v310) (V c main_v315) (V c main_v313) (V c main_v317) (((cfg23.win 6).blk t).view.emb j)
  funext j
  obtain ⟨p, q, rfl⟩ : ∃ (p : Fin 8000) (q : Fin 32), j = ix2 p q := ⟨j 0, j 1, eq_ix2 j⟩
  let P : Fin 1600000 := ⟨t.val * 8000 + p.val, by have := p.isLt; omega⟩
  have hP : P.val = t.val * 8000 + p.val := rfl
  have hw2 : iblk23 V c 2 t = V c main_v310 := by
    funext y
    show V c main_v310 (((cfg23.win 2).blk t).view.emb y) = V c main_v310 y
    refine congrArg (V c main_v310) ?_; funext a; apply Fin.ext
    match a with
    | ⟨0, _⟩ => show win23_2.index t (0 : Fin 2) * 3 + 1 * (y 0).val = (y 0).val; omega
    | ⟨1, _⟩ => show win23_2.index t (1 : Fin 2) * 8 + 1 * (y 1).val = (y 1).val; omega
  have hw3 : iblk23 V c 3 t = V c main_v315 := by
    funext y
    show V c main_v315 (((cfg23.win 3).blk t).view.emb y) = V c main_v315 y
    refine congrArg (V c main_v315) ?_; funext a; apply Fin.ext
    match a with
    | ⟨0, _⟩ => show win23_3.index t (0 : Fin 1) * 8 + 1 * (y 0).val = (y 0).val; omega
  have hw4 : iblk23 V c 4 t = V c main_v313 := by
    funext y
    show V c main_v313 (((cfg23.win 4).blk t).view.emb y) = V c main_v313 y
    refine congrArg (V c main_v313) ?_; funext a; apply Fin.ext
    match a with
    | ⟨0, _⟩ => show win23_4.index t (0 : Fin 2) * 8 + 1 * (y 0).val = (y 0).val; omega
    | ⟨1, _⟩ => show win23_4.index t (1 : Fin 2) * 32 + 1 * (y 1).val = (y 1).val; omega
  have hw5 : iblk23 V c 5 t = V c main_v317 := by
    funext y
    show V c main_v317 (((cfg23.win 5).blk t).view.emb y) = V c main_v317 y
    refine congrArg (V c main_v317) ?_; funext a; apply Fin.ext
    match a with
    | ⟨0, _⟩ => show win23_5.index t (0 : Fin 1) * 32 + 1 * (y 0).val = (y 0).val; omega
  have hE : ((cfg23.win 6).blk t).view.emb (ix2 p q) = ix2 (n0 := 1600000) (n1 := 32) P q := by
    funext a; apply Fin.ext
    match a with
    | ⟨0, _⟩ => show win23_6.index t (0 : Fin 2) * 8000 + 1 * p.val = P.val; omega
    | ⟨1, _⟩ => show win23_6.index t (1 : Fin 2) * 32 + 1 * q.val = q.val; omega
  have hr0 : ∀ k : Fin 3, iblk23 V c 0 t (ix2 p k) = V c main_arg2 (ix2 (n0 := 1600000) (n1 := 3) P k) := by
    intro k
    show V c main_arg2 (((cfg23.win 0).blk t).view.emb (ix2 p k)) = _
    refine congrArg (V c main_arg2) ?_; funext a; apply Fin.ext
    match a with
    | ⟨0, _⟩ => show win23_0.index t (0 : Fin 2) * 8000 + 1 * p.val = P.val; omega
    | ⟨1, _⟩ => show win23_0.index t (1 : Fin 2) * 3 + 1 * k.val = k.val; omega
  have hr1 : iblk23 V c 1 t (ix2 p q) = V c main_v307 (ix2 (n0 := 1600000) (n1 := 32) P q) := by
    show V c main_v307 (((cfg23.win 1).blk t).view.emb (ix2 p q)) = _
    refine congrArg (V c main_v307) ?_; funext a; apply Fin.ext
    match a with
    | ⟨0, _⟩ => show win23_1.index t (0 : Fin 2) * 8000 + 1 * p.val = P.val; omega
    | ⟨1, _⟩ => show win23_1.index t (1 : Fin 2) * 32 + 1 * q.val = q.val; omega
  show k23_pay1 (iblk23 V c 0 t) (iblk23 V c 1 t) (iblk23 V c 2 t) (iblk23 V c 3 t) (iblk23 V c 4 t) (iblk23 V c 5 t) (ix2 p q)
      = Cert.Net.edge (V c main_arg2) (V c main_v307) (V c main_v310) (V c main_v315) (V c main_v313) (V c main_v317)
          (((cfg23.win 6).blk t).view.emb (ix2 p q))
  rw [hE, Cert.Rows.edge_apply]
  refine (Cert.Rows.edge_tile (iblk23 V c 0 t) (iblk23 V c 1 t) (iblk23 V c 2 t) (iblk23 V c 3 t) (iblk23 V c 4 t) (iblk23 V c 5 t) p q).trans ?_
  rw [hw2, hw3, hw4, hw5, hr1]
  simp only [hr0]

/-- An index of the message array is in tile `t`'s block iff each coordinate is in the block's range. -/
theorem mem_blk23 (t : Fin cfg23.N) (i : S1600000x32.Idx) :
    i ∈ ((cfg23.win 6).blk t).view.set ↔ ∀ a : Fin 2, win23_6.index t a * S8000x32.size a ≤ (i a).val ∧ (i a).val < win23_6.index t a * S8000x32.size a + S8000x32.size a := by
  show i ∈ ((View.whole main_v318).slice (win23_6.rect t)).set ↔ _
  rw [View.set_slice_whole, Rect.mem_set_unit]
  exact Iff.rfl

/-- Every row of the messages is in the block of the tile its row number falls in. -/
theorem cover23 (i : S1600000x32.Idx) : ∃ t : Fin cfg23.N, (cfg23.win 6).flush t = true ∧ i ∈ ((cfg23.win 6).blk t).view.set := by
  have hi0 : (i 0).val < 1600000 := (i 0).isLt
  have hi1 : (i 1).val < 32 := (i 1).isLt
  have hN : cfg23.N = 200 := N_23
  let t : Fin cfg23.N := ⟨(i 0).val / 8000, by rw [hN]; omega⟩
  obtain ⟨e0, e1, -⟩ := idx23 t
  have ht : t.val = (i 0).val / 8000 := rfl
  refine ⟨t, flush23_6 t, ?_⟩
  rw [mem_blk23]
  intro a
  match a with
  | ⟨0, _⟩ => show win23_6.index t (0 : Fin 2) * 8000 ≤ (i 0).val ∧ (i 0).val < win23_6.index t (0 : Fin 2) * 8000 + 8000; omega
  | ⟨1, _⟩ => show win23_6.index t (1 : Fin 2) * 32 ≤ (i 1).val ∧ (i 1).val < win23_6.index t (1 : Fin 2) * 32 + 32; omega

/-- THE MESSAGE ARRAY of the region is the message function of its input arrays. -/
theorem final23 (c : Dev nD) :
    (dat23 V c).arrAt 6 cfg23.N
      = Cert.Net.edge (V c main_arg2) (V c main_v307) (V c main_v310) (V c main_v315) (V c main_v313) (V c main_v317) :=
  (dat23 V c).arrAt_eq_of_cover 6 _ (fun t _ => flushed23 V c t) (fun i => cover23 i)

end Cert.KernelIdeal.Regions

end
-- ==== Proof.Region24.lean ====
/-
  An update region: ten tiles of 5000 node rows. Tile `t` reads rows 5000·t … of the aggregated messages, of the node
  features and of the in-degree column, and the 32 × 32 matrix and the bias whole, and writes rows 5000·t … of the new
  node features. Each new row is the node row formula of the same row of the three large operands, so what tile `t`
  writes back is block `t` of the whole-array update of the region's input arrays; the ten blocks cover all rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the three large operands' tiles and the result's tile are tile `t`; the small
    operands are taken whole. -/
theorem idx24 : ∀ t : Fin cfg24.N, win24_5.index t (0 : Fin 2) = t.val ∧ win24_5.index t (1 : Fin 2) = 0
    ∧ win24_0.index t (0 : Fin 2) = t.val ∧ win24_0.index t (1 : Fin 2) = 0
    ∧ win24_1.index t (0 : Fin 2) = t.val ∧ win24_1.index t (1 : Fin 2) = 0
    ∧ win24_2.index t (0 : Fin 2) = t.val ∧ win24_2.index t (1 : Fin 2) = 0
    ∧ win24_3.index t (0 : Fin 2) = 0 ∧ win24_3.index t (1 : Fin 2) = 0 ∧ win24_4.index t (0 : Fin 1) = 0 :=
  (by decide +kernel : ∀ t : Fin grid24.N, _)

/-- What tile `t` writes back is block `t` of the update of the region's input arrays. -/
theorem flushed24 (c : Dev nD) (t : Fin cfg24.N) :
    (dat24 V c).flushed 5 t
      = ((cfg24.win 5).blk t).view.read (Elt Ideal)
          (Cert.Net.node (V c main_v321) (V c main_v300) (V c main_v12) (V c main_v323) (V c main_v325)) := by
  show (cfg24.win 5).cut (grid24.coords t) ((dat24 V c).after 5 t) = _
  rw [after24_5]
  unfold out24_5
  rw [View.canon_unit_zero hz2]
  simp only [View.ld_unit_zero (S := S5000x32) hz2, View.ld_unit_zero (S := S5000x1) hz2, View.ld_unit_zero (S := S32x32) hz2,
    View.ld_unit_zero (S := S32) hz1]
  obtain ⟨e0, e1, e2, e3, e4, e5, e6, e7, e8, e9, e10⟩ := idx24 t
  have htN : t.val < 10 := by have := t.isLt; have hN : cfg24.N = 10 := N_24; omega
  show (k24_pay1 (iblk24 V c 0 t) (iblk24 V c 1 t) (iblk24 V c 2 t) (iblk24 V c 3 t) (iblk24 V c 4 t) : Vec Ideal S5000x32 .f32)
      = fun j : S5000x32.Idx => Cert.Net.node (V c main_v321) (V c main_v300) (V c main_v12) (V c main_v323) (V c main_v325) (((cfg24.win 5).blk t).view.emb j)
  funext j
  obtain ⟨p, q, rfl⟩ : ∃ (p : Fin 5000) (q : Fin 32), j = ix2 p q := ⟨j 0, j 1, eq_ix2 j⟩
  let P : Fin 50000 := ⟨t.val * 5000 + p.val, by have := p.isLt; omega⟩
  have hP : P.val = t.val * 5000 + p.val := rfl
  have hw3 : iblk24 V c 3 t = V c main_v323 := by
    funext y
    show V c main_v323 (((cfg24.win 3).blk t).view.emb y) = V c main_v323 y
    refine congrArg (V c main_v323) ?_; funext a; apply Fin.ext
    match a with
    | ⟨0, _⟩ => show win24_3.index t (0 : Fin 2) * 32 + 1 * (y 0).val = (y 0).val; omega
    | ⟨1, _⟩ => show win24_3.index t (1 : Fin 2) * 32 + 1 * (y 1).val = (y 1).val; omega
  have hw4 : iblk24 V c 4 t = V c main_v325 := by
    funext y
    show V c main_v325 (((cfg24.win 4).blk t).view.emb y) = V c main_v325 y
    refine congrArg (V c main_v325) ?_; funext a; apply Fin.ext
    match a with
    | ⟨0, _⟩ => show win24_4.index t (0 : Fin 1) * 32 + 1 * (y 0).val = (y 0).val; omega
  have hE : ((cfg24.win 5).blk t).view.emb (ix2 p q) = ix2 (n0 := 50000) (n1 := 32) P q := by
    funext a; apply Fin.ext
    match a with
    | ⟨0, _⟩ => show win24_5.index t (0 : Fin 2) * 5000 + 1 * p.val = P.val; omega
    | ⟨1, _⟩ => show win24_5.index t (1 : Fin 2) * 32 + 1 * q.val = q.val; omega
  have hr0 : iblk24 V c 0 t (ix2 p q) = V c main_v321 (ix2 (n0 := 50000) (n1 := 32) P q) := by
    show V c main_v321 (((cfg24.win 0).blk t).view.emb (ix2 p q)) = _
    refine congrArg (V c main_v321) ?_; funext a; apply Fin.ext
    match a with
    | ⟨0, _⟩ => show win24_0.index t (0 : Fin 2) * 5000 + 1 * p.val = P.val; omega
    | ⟨1, _⟩ => show win24_0.index t (1 : Fin 2) * 32 + 1 * q.val = q.val; omega
  have hr1 : ∀ k : Fin 32, iblk24 V c 1 t (ix2 p k) = V c main_v300 (ix2 (n0 := 50000) (n1 := 32) P k) := by
    intro k
    show V c main_v300 (((cfg24.win 1).blk t).view.emb (ix2 p k)) = _
    refine congrArg (V c main_v300) ?_; funext a; apply Fin.ext
    match a with
    | ⟨0, _⟩ => show win24_1.index t (0 : Fin 2) * 5000 + 1 * p.val = P.val; omega
    | ⟨1, _⟩ => show win24_1.index t (1 : Fin 2) * 32 + 1 * k.val = k.val; omega
  have hr2 : iblk24 V c 2 t (ix2 p (0 : Fin 1)) = V c main_v12 (ix2 (n0 := 50000) (n1 := 1) P (0 : Fin 1)) := by
    show V c main_v12 (((cfg24.win 2).blk t).view.emb (ix2 p (0 : Fin 1))) = _
    refine congrArg (V c main_v12) ?_; funext a; apply Fin.ext
    match a with
    | ⟨0, _⟩ => show win24_2.index t (0 : Fin 2) * 5000 + 1 * p.val = P.val; omega
    | ⟨1, _⟩ => show win24_2.index t (1 : Fin 2) * 1 + 1 * 0 = 0; omega
  show k24_pay1 (iblk24 V c 0 t) (iblk24 V c 1 t) (iblk24 V c 2 t) (iblk24 V c 3 t) (iblk24 V c 4 t) (ix2 p q)
      = Cert.Net.node (V c main_v321) (V c main_v300) (V c main_v12) (V c main_v323) (V c main_v325)
          (((cfg24.win 5).blk t).view.emb (ix2 p q))
  rw [hE, Cert.Rows.node_apply]
  refine (Cert.Rows.node_tile (iblk24 V c 0 t) (iblk24 V c 1 t) (iblk24 V c 2 t) (iblk24 V c 3 t) (iblk24 V c 4 t) p q).trans ?_
  rw [hw3, hw4, hr0, hr2]
  simp only [hr1]

/-- An index of the result array is in tile `t`'s block iff each coordinate is in the block's range. -/
theorem mem_blk24 (t : Fin cfg24.N) (i : S50000x32.Idx) :
    i ∈ ((cfg24.win 5).blk t).view.set ↔ ∀ a : Fin 2, win24_5.index t a * S5000x32.size a ≤ (i a).val ∧ (i a).val < win24_5.index t a * S5000x32.size a + S5000x32.size a := by
  show i ∈ ((View.whole main_v326).slice (win24_5.rect t)).set ↔ _
  rw [View.set_slice_whole, Rect.mem_set_unit]
  exact Iff.rfl

/-- Every row of the result is in the block of the tile its row number falls in. -/
theorem cover24 (i : S50000x32.Idx) : ∃ t : Fin cfg24.N, (cfg24.win 5).flush t = true ∧ i ∈ ((cfg24.win 5).blk t).view.set := by
  have hi0 : (i 0).val < 50000 := (i 0).isLt
  have hi1 : (i 1).val < 32 := (i 1).isLt
  have hN : cfg24.N = 10 := N_24
  let t : Fin cfg24.N := ⟨(i 0).val / 5000, by rw [hN]; omega⟩
  obtain ⟨e0, e1, -⟩ := idx24 t
  have ht : t.val = (i 0).val / 5000 := rfl
  refine ⟨t, flush24_5 t, ?_⟩
  rw [mem_blk24]
  intro a
  match a with
  | ⟨0, _⟩ => show win24_5.index t (0 : Fin 2) * 5000 ≤ (i 0).val ∧ (i 0).val < win24_5.index t (0 : Fin 2) * 5000 + 5000; omega
  | ⟨1, _⟩ => show win24_5.index t (1 : Fin 2) * 32 ≤ (i 1).val ∧ (i 1).val < win24_5.index t (1 : Fin 2) * 32 + 32; omega

/-- THE NEW NODE FEATURES of the region are the update of its input arrays. -/
theorem final24 (c : Dev nD) :
    (dat24 V c).arrAt 5 cfg24.N
      = Cert.Net.node (V c main_v321) (V c main_v300) (V c main_v12) (V c main_v323) (V c main_v325) :=
  (dat24 V c).arrAt_eq_of_cover 5 _ (fun t _ => flushed24 V c t) (fun i => cover24 i)

end Cert.KernelIdeal.Regions

end
-- ==== Proof.Region25.lean ====
/-
  The last tiled region: ten tiles of 5000 node rows. Tile `t` reads rows 5000·t … of the final node features and the
  whole 32 × 1 weight column and the bias, and writes rows 5000·t … of the one-column result. Each result row is the row
  formula of the last linear map applied to the same row of the features, so what tile `t` writes back is block `t` of
  the whole-array linear map of the region's input arrays; the ten blocks cover all 50000 rows.
-/
import proofs.«163905_j57775900066584_1_alg».proof.Proof.Gen.KernelIdeal.Frame
import proofs.«163905_j57775900066584_1_alg».proof.Proof.Rows
import proofs.«163905_j57775900066584_1_alg».proof.Proof.RegionBasics

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the large operand's tile and the result's tile are tile `t`; the small operands
    are taken whole. -/
theorem idx25 : ∀ t : Fin cfg25.N, win25_3.index t (0 : Fin 2) = t.val ∧ win25_3.index t (1 : Fin 2) = 0
    ∧ win25_0.index t (0 : Fin 2) = t.val ∧ win25_0.index t (1 : Fin 2) = 0
    ∧ win25_1.index t (0 : Fin 2) = 0 ∧ win25_1.index t (1 : Fin 2) = 0 ∧ win25_2.index t (0 : Fin 1) = 0 :=
  (by decide +kernel : ∀ t : Fin grid25.N, _)

/-- What tile `t` writes back is block `t` of the linear map of the region's input arrays. -/
theorem flushed25 (c : Dev nD) (t : Fin cfg25.N) :
    (dat25 V c).flushed 3 t
      = ((cfg25.win 3).blk t).view.read (Elt Ideal) (Cert.Net.linOut (V c main_v326) (V c main_v327) (V c main_arg6)) := by
  show (cfg25.win 3).cut (grid25.coords t) ((dat25 V c).after 3 t) = _
  rw [after25_3]
  unfold out25_3
  rw [View.canon_unit_zero hz2]
  simp only [View.ld_unit_zero (S := S5000x32) hz2, View.ld_unit_zero (S := S32x1) hz2, View.ld_unit_zero (S := S1) hz1]
  obtain ⟨e0, e1, e2, e3, e4, e5, e6⟩ := idx25 t
  have htN : t.val < 10 := by have := t.isLt; have hN : cfg25.N = 10 := N_25; omega
  show (k25_pay1 (iblk25 V c 0 t) (iblk25 V c 1 t) (iblk25 V c 2 t) : Vec Ideal S5000x1 .f32)
      = fun j : S5000x1.Idx => Cert.Net.linOut (V c main_v326) (V c main_v327) (V c main_arg6) (((cfg25.win 3).blk t).view.emb j)
  funext j
  obtain ⟨p, q, rfl⟩ : ∃ (p : Fin 5000) (q : Fin 1), j = ix2 p q := ⟨j 0, j 1, eq_ix2 j⟩
  let P : Fin 50000 := ⟨t.val * 5000 + p.val, by have := p.isLt; omega⟩
  have hP : P.val = t.val * 5000 + p.val := rfl
  have hw1 : iblk25 V c 1 t = V c main_v327 := by
    funext y
    show V c main_v327 (((cfg25.win 1).blk t).view.emb y) = V c main_v327 y
    refine congrArg (V c main_v327) ?_; funext a; apply Fin.ext
    match a with
    | ⟨0, _⟩ => show win25_1.index t (0 : Fin 2) * 32 + 1 * (y 0).val = (y 0).val; omega
    | ⟨1, _⟩ => show win25_1.index t (1 : Fin 2) * 1 + 1 * (y 1).val = (y 1).val; omega
  have hw2 : iblk25 V c 2 t = V c main_arg6 := by
    funext y
    show V c main_arg6 (((cfg25.win 2).blk t).view.emb y) = V c main_arg6 y
    refine congrArg (V c main_arg6) ?_; funext a; apply Fin.ext
    match a with
    | ⟨0, _⟩ => show win25_2.index t (0 : Fin 1) * 1 + 1 * (y 0).val = (y 0).val; omega
  have hE : ((cfg25.win 3).blk t).view.emb (ix2 p q) = ix2 (n0 := 50000) (n1 := 1) P q := by
    funext a; apply Fin.ext
    match a with
    | ⟨0, _⟩ => show win25_3.index t (0 : Fin 2) * 5000 + 1 * p.val = P.val; omega
    | ⟨1, _⟩ => show win25_3.index t (1 : Fin 2) * 1 + 1 * q.val = q.val; omega
  have hr0 : ∀ k : Fin 32, iblk25 V c 0 t (ix2 p k) = V c main_v326 (ix2 (n0 := 50000) (n1 := 32) P k) := by
    intro k
    show V c main_v326 (((cfg25.win 0).blk t).view.emb (ix2 p k)) = _
    refine congrArg (V c main_v326) ?_; funext a; apply Fin.ext
    match a with
    | ⟨0, _⟩ => show win25_0.index t (0 : Fin 2) * 5000 + 1 * p.val = P.val; omega
    | ⟨1, _⟩ => show win25_0.index t (1 : Fin 2) * 32 + 1 * k.val = k.val; omega
  show k25_pay1 (iblk25 V c 0 t) (iblk25 V c 1 t) (iblk25 V c 2 t) (ix2 p q)
      = Cert.Net.linOut (V c main_v326) (V c main_v327) (V c main_arg6) (((cfg25.win 3).blk t).view.emb (ix2 p q))
  rw [hE, Cert.Rows.linOut_apply]
  refine (Cert.Rows.linOut_tile (iblk25 V c 0 t) (iblk25 V c 1 t) (iblk25 V c 2 t) p q).trans ?_
  rw [hw1, hw2]
  simp only [hr0]

/-- An index of the result array is in tile `t`'s block iff each coordinate is in the block's range. -/
theorem mem_blk25 (t : Fin cfg25.N) (i : S50000x1.Idx) :
    i ∈ ((cfg25.win 3).blk t).view.set ↔ ∀ a : Fin 2, win25_3.index t a * S5000x1.size a ≤ (i a).val ∧ (i a).val < win25_3.index t a * S5000x1.size a + S5000x1.size a := by
  show i ∈ ((View.whole main_v328).slice (win25_3.rect t)).set ↔ _
  rw [View.set_slice_whole, Rect.mem_set_unit]
  exact Iff.rfl

/-- Every row of the result is in the block of the tile its row number falls in. -/
theorem cover25 (i : S50000x1.Idx) : ∃ t : Fin cfg25.N, (cfg25.win 3).flush t = true ∧ i ∈ ((cfg25.win 3).blk t).view.set := by
  have hi0 : (i 0).val < 50000 := (i 0).isLt
  have hi1 : (i 1).val < 1 := (i 1).isLt
  have hN : cfg25.N = 10 := N_25
  let t : Fin cfg25.N := ⟨(i 0).val / 5000, by rw [hN]; omega⟩
  obtain ⟨e0, e1, -⟩ := idx25 t
  have ht : t.val = (i 0).val / 5000 := rfl
  refine ⟨t, flush25_3 t, ?_⟩
  rw [mem_blk25]
  intro a
  match a with
  | ⟨0, _⟩ => show win25_3.index t (0 : Fin 2) * 5000 ≤ (i 0).val ∧ (i 0).val < win25_3.index t (0 : Fin 2) * 5000 + 5000; omega
  | ⟨1, _⟩ => show win25_3.index t (1 : Fin 2) * 1 ≤ (i 1).val ∧ (i 1).val < win25_3.index t (1 : Fin 2) * 1 + 1; omega

/-- THE RESULT ARRAY of the region is the linear map of its input arrays. -/
theorem final25 (c : Dev nD) :
    (dat25 V c).arrAt 3 cfg25.N = Cert.Net.linOut (V c main_v326) (V c main_v327) (V c main_arg6) :=
  (dat25 V c).arrAt_eq_of_cover 3 _ (fun t _ => flushed25 V c t) (fun i => cover25 i)

end Cert.KernelIdeal.Regions

end
-- ==== Proof.NetOut.lean ====
/-
  The whole network as ONE function of the thirteen argument arrays, over the extended reals, in the host's spelling.
  From the edge list: the source and destination node of every edge (rows 0 and 1), a negative source index wrapped
  by the number of nodes before it is used to gather, and the reciprocal of each node's in-degree clamped below by one
  (ones scattered onto the destinations, the maximum with one, one divided by it). Node features enter through the first
  linear map; twelve message-passing layers follow, cycling through the three stacked parameter sets (slice `c` of each
  stack, the perceptron's matrices transposed); the last linear map gives one output per node.
  One layer: gather the source features per edge, multiply by the edge perceptron's output (`Net.edge`), add the messages
  up per destination node (scatter-add into zeros), and update (`Net.node`) with the in-degree reciprocals as a column.
-/
import proofs.«163905_j57775900066584_1_alg».proof.Proof.Net

noncomputable section

namespace Cert.Net

open Idealize.ShloMosaic Cert.ReferenceIdeal Cert.ReferenceIdeal.Gen

/-- A 32-bit integer array of shape `S`. -/
abbrev Ints (S : Shape) : Type := (⟨S, .i32⟩ : BufTy).Contents (Elt Ideal)

/-- Row 0 of the edge list: every edge's source node. -/
def srcOf (ei : Ints S2x1600000) : Ints S1600000 :=
  shapeCast S1600000 (extractStridedSlice S1x1600000 ![0, 0] ei slices_S2x1600000_S1x1600000_0_0) shapeCasts_S1x1600000_S1600000

/-- Row 1 of the edge list: every edge's destination node. -/
def dstOf (ei : Ints S2x1600000) : Ints S1600000 :=
  shapeCast S1600000 (extractStridedSlice S1x1600000 ![1, 0] ei slices_S2x1600000_S1x1600000_1_0) shapeCasts_S1x1600000_S1600000

/-- The gather's index column: a negative source index has the node count added first. -/
def gatherIdx (s : Ints S1600000) : Ints S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The scatter's index column: the destinations as they are. -/
def scatterIdx (d : Ints S1600000) : Ints S1600000x1 :=
  broadcastInDim S1600000x1 ![0] bcast_S1600000_S1600000x1_0 d

/-- One over each node's in-degree, the in-degree clamped below by one. -/
def invDeg (d : Ints S1600000) : Arr S50000 :=
  Host.divf (broadcastInDim S50000 ![] bcast_S_S50000 (constant (F := Ideal) S_ .f32 0x3F800000#32))
    (maximumf
      (Host.scatterAdd scatter_S50000_S1600000x1_S1600000_n_0_0_1
        (broadcastInDim S50000 ![] bcast_S_S50000 (constant (F := Ideal) S_ .f32 0x00000000#32)) (scatterIdx d)
        (broadcastInDim S1600000 ![] bcast_S_S1600000 (constant (F := Ideal) S_ .f32 0x3F800000#32)))
      (broadcastInDim S50000 ![] bcast_S_S50000 (constant (F := Ideal) S_ .f32 0x3F800000#32)))

/-- One message-passing layer on node features `H`, with that layer's (already sliced) parameters. -/
def layer (ea : Arr S1600000x3) (s d : Ints S1600000) (kw1T : Arr S3x8) (kb1 : Arr S8) (kw2T : Arr S8x32) (kb2 : Arr S32)
    (root : Arr S32x32) (cb : Arr S32) (H : Arr S50000x32) : Arr S50000x32 :=
  node
    (Host.scatterAdd scatter_S50000x32_S1600000x1_S1600000x32_1_0_0_1
      (broadcastInDim S50000x32 ![] bcast_S_S50000x32 (constant (F := Ideal) S_ .f32 0x00000000#32)) (scatterIdx d)
      (edge ea (Host.gather gather_S50000x32_S1600000x1_S1600000x32_1_0_n_n_0_1_132 H (gatherIdx s)) kw1T kb1 kw2T kb2))
    H (broadcastInDim S50000x1 ![0] bcast_S50000_S50000x1_0 (invDeg d)) root cb

/-- The layer that uses parameter set 0 of each stack. -/
def layer0 (ea : Arr S1600000x3) (s d : Ints S1600000) (a7 : Arr S3x8x3) (a8 : Arr S3x8) (a9 : Arr S3x32x8) (a10 : Arr S3x32)
    (a11 : Arr S3x32x32) (a12 : Arr S3x32) (H : Arr S50000x32) : Arr S50000x32 :=
  layer ea s d
    (transpose S3x8 [1, 0] (shapeCast S8x3 (extractStridedSlice S1x8x3 ![0, 0, 0] a7 slices_S3x8x3_S1x8x3_0_0_0) shapeCasts_S1x8x3_S8x3) transposes_S8x3_S3x8_1_0)
    (shapeCast S8 (extractStridedSlice S1x8 ![0, 0] a8 slices_S3x8_S1x8_0_0) shapeCasts_S1x8_S8)
    (transpose S8x32 [1, 0] (shapeCast S32x8 (extractStridedSlice S1x32x8 ![0, 0, 0] a9 slices_S3x32x8_S1x32x8_0_0_0) shapeCasts_S1x32x8_S32x8) transposes_S32x8_S8x32_1_0)
    (shapeCast S32 (extractStridedSlice S1x32 ![0, 0] a10 slices_S3x32_S1x32_0_0) shapeCasts_S1x32_S32)
    (shapeCast S32x32 (extractStridedSlice S1x32x32 ![0, 0, 0] a11 slices_S3x32x32_S1x32x32_0_0_0) shapeCasts_S1x32x32_S32x32)
    (shapeCast S32 (extractStridedSlice S1x32 ![0, 0] a12 slices_S3x32_S1x32_0_0) shapeCasts_S1x32_S32) H

/-- The layer that uses parameter set 1 of each stack. -/
def layer1 (ea : Arr S1600000x3) (s d : Ints S1600000) (a7 : Arr S3x8x3) (a8 : Arr S3x8) (a9 : Arr S3x32x8) (a10 : Arr S3x32)
    (a11 : Arr S3x32x32) (a12 : Arr S3x32) (H : Arr S50000x32) : Arr S50000x32 :=
  layer ea s d
    (transpose S3x8 [1, 0] (shapeCast S8x3 (extractStridedSlice S1x8x3 ![1, 0, 0] a7 slices_S3x8x3_S1x8x3_1_0_0) shapeCasts_S1x8x3_S8x3) transposes_S8x3_S3x8_1_0)
    (shapeCast S8 (extractStridedSlice S1x8 ![1, 0] a8 slices_S3x8_S1x8_1_0) shapeCasts_S1x8_S8)
    (transpose S8x32 [1, 0] (shapeCast S32x8 (extractStridedSlice S1x32x8 ![1, 0, 0] a9 slices_S3x32x8_S1x32x8_1_0_0) shapeCasts_S1x32x8_S32x8) transposes_S32x8_S8x32_1_0)
    (shapeCast S32 (extractStridedSlice S1x32 ![1, 0] a10 slices_S3x32_S1x32_1_0) shapeCasts_S1x32_S32)
    (shapeCast S32x32 (extractStridedSlice S1x32x32 ![1, 0, 0] a11 slices_S3x32x32_S1x32x32_1_0_0) shapeCasts_S1x32x32_S32x32)
    (shapeCast S32 (extractStridedSlice S1x32 ![1, 0] a12 slices_S3x32_S1x32_1_0) shapeCasts_S1x32_S32) H

/-- The layer that uses parameter set 2 of each stack. -/
def layer2 (ea : Arr S1600000x3) (s d : Ints S1600000) (a7 : Arr S3x8x3) (a8 : Arr S3x8) (a9 : Arr S3x32x8) (a10 : Arr S3x32)
    (a11 : Arr S3x32x32) (a12 : Arr S3x32) (H : Arr S50000x32) : Arr S50000x32 :=
  layer ea s d
    (transpose S3x8 [1, 0] (shapeCast S8x3 (extractStridedSlice S1x8x3 ![2, 0, 0] a7 slices_S3x8x3_S1x8x3_2_0_0) shapeCasts_S1x8x3_S8x3) transposes_S8x3_S3x8_1_0)
    (shapeCast S8 (extractStridedSlice S1x8 ![2, 0] a8 slices_S3x8_S1x8_2_0) shapeCasts_S1x8_S8)
    (transpose S8x32 [1, 0] (shapeCast S32x8 (extractStridedSlice S1x32x8 ![2, 0, 0] a9 slices_S3x32x8_S1x32x8_2_0_0) shapeCasts_S1x32x8_S32x8) transposes_S32x8_S8x32_1_0)
    (shapeCast S32 (extractStridedSlice S1x32 ![2, 0] a10 slices_S3x32_S1x32_2_0) shapeCasts_S1x32_S32)
    (shapeCast S32x32 (extractStridedSlice S1x32x32 ![2, 0, 0] a11 slices_S3x32x32_S1x32x32_2_0_0) shapeCasts_S1x32x32_S32x32)
    (shapeCast S32 (extractStridedSlice S1x32 ![2, 0] a12 slices_S3x32_S1x32_2_0) shapeCasts_S1x32_S32) H

/-- Three layers in a row, one per parameter set: one round of the network's depth. -/
def round (ea : Arr S1600000x3) (s d : Ints S1600000) (a7 : Arr S3x8x3) (a8 : Arr S3x8) (a9 : Arr S3x32x8) (a10 : Arr S3x32)
    (a11 : Arr S3x32x32) (a12 : Arr S3x32) (H : Arr S50000x32) : Arr S50000x32 :=
  layer2 ea s d a7 a8 a9 a10 a11 a12 (layer1 ea s d a7 a8 a9 a10 a11 a12 (layer0 ea s d a7 a8 a9 a10 a11 a12 H))

/-- THE NETWORK: the first linear map, four rounds, the last linear map. -/
def out (a0 : Arr S50000x3) (a1 : Ints S2x1600000) (a2 : Arr S1600000x3) (a3 : Arr S32x3) (a4 : Arr S32) (a5 : Arr S1x32)
    (a6 : Arr S1) (a7 : Arr S3x8x3) (a8 : Arr S3x8) (a9 : Arr S3x32x8) (a10 : Arr S3x32) (a11 : Arr S3x32x32) (a12 : Arr S3x32) :
    Arr S50000x1 :=
  linOut
    (round a2 (srcOf a1) (dstOf a1) a7 a8 a9 a10 a11 a12
      (round a2 (srcOf a1) (dstOf a1) a7 a8 a9 a10 a11 a12
        (round a2 (srcOf a1) (dstOf a1) a7 a8 a9 a10 a11 a12
          (round a2 (srcOf a1) (dstOf a1) a7 a8 a9 a10 a11 a12
            (linIn a0 (transpose S3x32 [1, 0] a3 transposes_S32x3_S3x32_1_0) a4)))))
    (transpose S32x1 [1, 0] a5 transposes_S1x32_S32x1_1_0) a6

end Cert.Net

end
-- ==== Proof.Cols.lean ====
/-
  A flat array `[a]` made into a column `[a, 1]` two ways — by a reshape, and by placing it on axis 0 — is the same
  column: at `(p, u)` both read the array at `p`.
-/
import proofs.«163905_j57775900066584_1_alg».proof.Proof.LibColumnLayout

namespace Cert.Cols

open Idealize.ShloMosaic Idealize.ShloMosaic.ValueIdx Cert.LibColumnLayout

theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.Cols
-- ==== Proof.KernelPers.lean ====
/-
  The buffers that outlive a layer. Between the first tiled region and the last, twelve buffers are read again and again
  and never written: nine argument arrays (the edge attributes, the stacked parameters, the last linear map's weights
  and bias), the source and destination rows of the edge list, and the column of reciprocal in-degrees. A tiled region
  leaves every buffer that is not its result as it found it — an array it does not touch, and equally an input array of
  its own —, and a stretch of host operations leaves every buffer it does not write. So at each layer boundary each of
  the twelve holds what it held at the previous one; at the first boundary they are the launch contents, the two rows
  cut out of the edge list, and the column (made there by a reshape of the flat reciprocals: the same column as placing
  them on axis 0).
-/
import proofs.«163905_j57775900066584_1_alg».proof.Proof.Gen.KernelIdeal.Frame
import proofs.«163905_j57775900066584_1_alg».proof.Proof.NetOut
import proofs.«163905_j57775900066584_1_alg».proof.Proof.Cols

set_option maxRecDepth 16384
set_option pp.deepTerms false
set_option pp.maxSteps 5000

noncomputable section

namespace Cert.KernelIdeal.KernelPers

open Cert.KernelIdeal Cert.KernelIdeal.Gen
open Idealize.ShloMosaic Idealize.ShloMosaic.TcCoe
open Idealize.SL Idealize.SL.Sem
open Idealize.ShloMosaic.StableHlo

variable (m : (ℓ : Loc nD τ sig) → Buf (Elt Ideal) ℓ) (ρ : Dev nD → PrngReg)

/-! ## A region leaves every buffer other than its result as it found it -/

theorem keep0 (c : Dev nD) (b : Ref sig .tc) (hb : ∀ w, Pipeline.arrRef spec0 w ≠ b) :
    W2 m ρ c (no_index (Proc.devRef .tc b)) = W1 m ρ c (Proc.devRef .tc b) := W2_of_ne m ρ c b hb

theorem keep1 (c : Dev nD) (b : Ref sig .tc) (hb : ∀ w, Pipeline.arrRef spec1 w ≠ b) :
    W4 m ρ c (no_index (Proc.devRef .tc b)) = W3 m ρ c (Proc.devRef .tc b) := W4_of_ne m ρ c b hb
theorem keepIn1 (c : Dev nD) : W4 m ρ c (Proc.devRef .tc main_arg2) = W3 m ρ c (Proc.devRef .tc main_arg2) :=
  (W4_arr m ρ c 0).trans (((dat1 (V3 m ρ) c).arrAt_in 0 rfl _).trans (A_eq1 (V3 m ρ) c 0))

theorem keep2 (c : Dev nD) (b : Ref sig .tc) (hb : ∀ w, Pipeline.arrRef spec2 w ≠ b) :
    W6 m ρ c (no_index (Proc.devRef .tc b)) = W5 m ρ c (Proc.devRef .tc b) := W6_of_ne m ρ c b hb
theorem keepIn2 (c : Dev nD) : W6 m ρ c (Proc.devRef .tc main_v12) = W5 m ρ c (Proc.devRef .tc main_v12) :=
  (W6_arr m ρ c 2).trans (((dat2 (V5 m ρ) c).arrAt_in 2 rfl _).trans (A_eq2 (V5 m ρ) c 2))

theorem keep3 (c : Dev nD) (b : Ref sig .tc) (hb : ∀ w, Pipeline.arrRef spec3 w ≠ b) :
    W8 m ρ c (no_index (Proc.devRef .tc b)) = W7 m ρ c (Proc.devRef .tc b) := W8_of_ne m ρ c b hb
theorem keepIn3 (c : Dev nD) : W8 m ρ c (Proc.devRef .tc main_arg2) = W7 m ρ c (Proc.devRef .tc main_arg2) :=
  (W8_arr m ρ c 0).trans (((dat3 (V7 m ρ) c).arrAt_in 0 rfl _).trans (A_eq3 (V7 m ρ) c 0))

theorem keep4 (c : Dev nD) (b : Ref sig .tc) (hb : ∀ w, Pipeline.arrRef spec4 w ≠ b) :
    W10 m ρ c (no_index (Proc.devRef .tc b)) = W9 m ρ c (Proc.devRef .tc b) := W10_of_ne m ρ c b hb
theorem keepIn4 (c : Dev nD) : W10 m ρ c (Proc.devRef .tc main_v12) = W9 m ρ c (Proc.devRef .tc main_v12) :=
  (W10_arr m ρ c 2).trans (((dat4 (V9 m ρ) c).arrAt_in 2 rfl _).trans (A_eq4 (V9 m ρ) c 2))

theorem keep5 (c : Dev nD) (b : Ref sig .tc) (hb : ∀ w, Pipeline.arrRef spec5 w ≠ b) :
    W12 m ρ c (no_index (Proc.devRef .tc b)) = W11 m ρ c (Proc.devRef .tc b) := W12_of_ne m ρ c b hb
theorem keepIn5 (c : Dev nD) : W12 m ρ c (Proc.devRef .tc main_arg2) = W11 m ρ c (Proc.devRef .tc main_arg2) :=
  (W12_arr m ρ c 0).trans (((dat5 (V11 m ρ) c).arrAt_in 0 rfl _).trans (A_eq5 (V11 m ρ) c 0))

theorem keep6 (c : Dev nD) (b : Ref sig .tc) (hb : ∀ w, Pipeline.arrRef spec6 w ≠ b) :
    W14 m ρ c (no_index (Proc.devRef .tc b)) = W13 m ρ c (Proc.devRef .tc b) := W14_of_ne m ρ c b hb
theorem keepIn6 (c : Dev nD) : W14 m ρ c (Proc.devRef .tc main_v12) = W13 m ρ c (Proc.devRef .tc main_v12) :=
  (W14_arr m ρ c 2).trans (((dat6 (V13 m ρ) c).arrAt_in 2 rfl _).trans (A_eq6 (V13 m ρ) c 2))

theorem keep7 (c : Dev nD) (b : Ref sig .tc) (hb : ∀ w, Pipeline.arrRef spec7 w ≠ b) :
    W16 m ρ c (no_index (Proc.devRef .tc b)) = W15 m ρ c (Proc.devRef .tc b) := W16_of_ne m ρ c b hb
theorem keepIn7 (c : Dev nD) : W16 m ρ c (Proc.devRef .tc main_arg2) = W15 m ρ c (Proc.devRef .tc main_arg2) :=
  (W16_arr m ρ c 0).trans (((dat7 (V15 m ρ) c).arrAt_in 0 rfl _).trans (A_eq7 (V15 m ρ) c 0))

theorem keep8 (c : Dev nD) (b : Ref sig .tc) (hb : ∀ w, Pipeline.arrRef spec8 w ≠ b) :
    W18 m ρ c (no_index (Proc.devRef .tc b)) = W17 m ρ c (Proc.devRef .tc b) := W18_of_ne m ρ c b hb
theorem keepIn8 (c : Dev nD) : W18 m ρ c (Proc.devRef .tc main_v12) = W17 m ρ c (Proc.devRef .tc main_v12) :=
  (W18_arr m ρ c 2).trans (((dat8 (V17 m ρ) c).arrAt_in 2 rfl _).trans (A_eq8 (V17 m ρ) c 2))

theorem keep9 (c : Dev nD) (b : Ref sig .tc) (hb : ∀ w, Pipeline.arrRef spec9 w ≠ b) :
    W20 m ρ c (no_index (Proc.devRef .tc b)) = W19 m ρ c (Proc.devRef .tc b) := W20_of_ne m ρ c b hb
theorem keepIn9 (c : Dev nD) : W20 m ρ c (Proc.devRef .tc main_arg2) = W19 m ρ c (Proc.devRef .tc main_arg2) :=
  (W20_arr m ρ c 0).trans (((dat9 (V19 m ρ) c).arrAt_in 0 rfl _).trans (A_eq9 (V19 m ρ) c 0))

theorem keep10 (c : Dev nD) (b : Ref sig .tc) (hb : ∀ w, Pipeline.arrRef spec10 w ≠ b) :
    W22 m ρ c (no_index (Proc.devRef .tc b)) = W21 m ρ c (Proc.devRef .tc b) := W22_of_ne m ρ c b hb
theorem keepIn10 (c : Dev nD) : W22 m ρ c (Proc.devRef .tc main_v12) = W21 m ρ c (Proc.devRef .tc main_v12) :=
  (W22_arr m ρ c 2).trans (((dat10 (V21 m ρ) c).arrAt_in 2 rfl _).trans (A_eq10 (V21 m ρ) c 2))

theorem keep11 (c : Dev nD) (b : Ref sig .tc) (hb : ∀ w, Pipeline.arrRef spec11 w ≠ b) :
    W24 m ρ c (no_index (Proc.devRef .tc b)) = W23 m ρ c (Proc.devRef .tc b) := W24_of_ne m ρ c b hb
theorem keepIn11 (c : Dev nD) : W24 m ρ c (Proc.devRef .tc main_arg2) = W23 m ρ c (Proc.devRef .tc main_arg2) :=
  (W24_arr m ρ c 0).trans (((dat11 (V23 m ρ) c).arrAt_in 0 rfl _).trans (A_eq11 (V23 m ρ) c 0))

theorem keep12 (c : Dev nD) (b : Ref sig .tc) (hb : ∀ w, Pipeline.arrRef spec12 w ≠ b) :
    W26 m ρ c (no_index (Proc.devRef .tc b)) = W25 m ρ c (Proc.devRef .tc b) := W26_of_ne m ρ c b hb
theorem keepIn12 (c : Dev nD) : W26 m ρ c (Proc.devRef .tc main_v12) = W25 m ρ c (Proc.devRef .tc main_v12) :=
  (W26_arr m ρ c 2).trans (((dat12 (V25 m ρ) c).arrAt_in 2 rfl _).trans (A_eq12 (V25 m ρ) c 2))

theorem keep13 (c : Dev nD) (b : Ref sig .tc) (hb : ∀ w, Pipeline.arrRef spec13 w ≠ b) :
    W28 m ρ c (no_index (Proc.devRef .tc b)) = W27 m ρ c (Proc.devRef .tc b) := W28_of_ne m ρ c b hb
theorem keepIn13 (c : Dev nD) : W28 m ρ c (Proc.devRef .tc main_arg2) = W27 m ρ c (Proc.devRef .tc main_arg2) :=
  (W28_arr m ρ c 0).trans (((dat13 (V27 m ρ) c).arrAt_in 0 rfl _).trans (A_eq13 (V27 m ρ) c 0))

theorem keep14 (c : Dev nD) (b : Ref sig .tc) (hb : ∀ w, Pipeline.arrRef spec14 w ≠ b) :
    W30 m ρ c (no_index (Proc.devRef .tc b)) = W29 m ρ c (Proc.devRef .tc b) := W30_of_ne m ρ c b hb
theorem keepIn14 (c : Dev nD) : W30 m ρ c (Proc.devRef .tc main_v12) = W29 m ρ c (Proc.devRef .tc main_v12) :=
  (W30_arr m ρ c 2).trans (((dat14 (V29 m ρ) c).arrAt_in 2 rfl _).trans (A_eq14 (V29 m ρ) c 2))

theorem keep15 (c : Dev nD) (b : Ref sig .tc) (hb : ∀ w, Pipeline.arrRef spec15 w ≠ b) :
    W32 m ρ c (no_index (Proc.devRef .tc b)) = W31 m ρ c (Proc.devRef .tc b) := W32_of_ne m ρ c b hb
theorem keepIn15 (c : Dev nD) : W32 m ρ c (Proc.devRef .tc main_arg2) = W31 m ρ c (Proc.devRef .tc main_arg2) :=
  (W32_arr m ρ c 0).trans (((dat15 (V31 m ρ) c).arrAt_in 0 rfl _).trans (A_eq15 (V31 m ρ) c 0))

theorem keep16 (c : Dev nD) (b : Ref sig .tc) (hb : ∀ w, Pipeline.arrRef spec16 w ≠ b) :
    W34 m ρ c (no_index (Proc.devRef .tc b)) = W33 m ρ c (Proc.devRef .tc b) := W34_of_ne m ρ c b hb
theorem keepIn16 (c : Dev nD) : W34 m ρ c (Proc.devRef .tc main_v12) = W33 m ρ c (Proc.devRef .tc main_v12) :=
  (W34_arr m ρ c 2).trans (((dat16 (V33 m ρ) c).arrAt_in 2 rfl _).trans (A_eq16 (V33 m ρ) c 2))

theorem keep17 (c : Dev nD) (b : Ref sig .tc) (hb : ∀ w, Pipeline.arrRef spec17 w ≠ b) :
    W36 m ρ c (no_index (Proc.devRef .tc b)) = W35 m ρ c (Proc.devRef .tc b) := W36_of_ne m ρ c b hb
theorem keepIn17 (c : Dev nD) : W36 m ρ c (Proc.devRef .tc main_arg2) = W35 m ρ c (Proc.devRef .tc main_arg2) :=
  (W36_arr m ρ c 0).trans (((dat17 (V35 m ρ) c).arrAt_in 0 rfl _).trans (A_eq17 (V35 m ρ) c 0))

theorem keep18 (c : Dev nD) (b : Ref sig .tc) (hb : ∀ w, Pipeline.arrRef spec18 w ≠ b) :
    W38 m ρ c (no_index (Proc.devRef .tc b)) = W37 m ρ c (Proc.devRef .tc b) := W38_of_ne m ρ c b hb
theorem keepIn18 (c : Dev nD) : W38 m ρ c (Proc.devRef .tc main_v12) = W37 m ρ c (Proc.devRef .tc main_v12) :=
  (W38_arr m ρ c 2).trans (((dat18 (V37 m ρ) c).arrAt_in 2 rfl _).trans (A_eq18 (V37 m ρ) c 2))

theorem keep19 (c : Dev nD) (b : Ref sig .tc) (hb : ∀ w, Pipeline.arrRef spec19 w ≠ b) :
    W40 m ρ c (no_index (Proc.devRef .tc b)) = W39 m ρ c (Proc.devRef .tc b) := W40_of_ne m ρ c b hb
theorem keepIn19 (c : Dev nD) : W40 m ρ c (Proc.devRef .tc main_arg2) = W39 m ρ c (Proc.devRef .tc main_arg2) :=
  (W40_arr m ρ c 0).trans (((dat19 (V39 m ρ) c).arrAt_in 0 rfl _).trans (A_eq19 (V39 m ρ) c 0))

theorem keep20 (c : Dev nD) (b : Ref sig .tc) (hb : ∀ w, Pipeline.arrRef spec20 w ≠ b) :
    W42 m ρ c (no_index (Proc.devRef .tc b)) = W41 m ρ c (Proc.devRef .tc b) := W42_of_ne m ρ c b hb
theorem keepIn20 (c : Dev nD) : W42 m ρ c (Proc.devRef .tc main_v12) = W41 m ρ c (Proc.devRef .tc main_v12) :=
  (W42_arr m ρ c 2).trans (((dat20 (V41 m ρ) c).arrAt_in 2 rfl _).trans (A_eq20 (V41 m ρ) c 2))

theorem keep21 (c : Dev nD) (b : Ref sig .tc) (hb : ∀ w, Pipeline.arrRef spec21 w ≠ b) :
    W44 m ρ c (no_index (Proc.devRef .tc b)) = W43 m ρ c (Proc.devRef .tc b) := W44_of_ne m ρ c b hb
theorem keepIn21 (c : Dev nD) : W44 m ρ c (Proc.devRef .tc main_arg2) = W43 m ρ c (Proc.devRef .tc main_arg2) :=
  (W44_arr m ρ c 0).trans (((dat21 (V43 m ρ) c).arrAt_in 0 rfl _).trans (A_eq21 (V43 m ρ) c 0))

theorem keep22 (c : Dev nD) (b : Ref sig .tc) (hb : ∀ w, Pipeline.arrRef spec22 w ≠ b) :
    W46 m ρ c (no_index (Proc.devRef .tc b)) = W45 m ρ c (Proc.devRef .tc b) := W46_of_ne m ρ c b hb
theorem keepIn22 (c : Dev nD) : W46 m ρ c (Proc.devRef .tc main_v12) = W45 m ρ c (Proc.devRef .tc main_v12) :=
  (W46_arr m ρ c 2).trans (((dat22 (V45 m ρ) c).arrAt_in 2 rfl _).trans (A_eq22 (V45 m ρ) c 2))

theorem keep23 (c : Dev nD) (b : Ref sig .tc) (hb : ∀ w, Pipeline.arrRef spec23 w ≠ b) :
    W48 m ρ c (no_index (Proc.devRef .tc b)) = W47 m ρ c (Proc.devRef .tc b) := W48_of_ne m ρ c b hb
theorem keepIn23 (c : Dev nD) : W48 m ρ c (Proc.devRef .tc main_arg2) = W47 m ρ c (Proc.devRef .tc main_arg2) :=
  (W48_arr m ρ c 0).trans (((dat23 (V47 m ρ) c).arrAt_in 0 rfl _).trans (A_eq23 (V47 m ρ) c 0))

theorem keep24 (c : Dev nD) (b : Ref sig .tc) (hb : ∀ w, Pipeline.arrRef spec24 w ≠ b) :
    W50 m ρ c (no_index (Proc.devRef .tc b)) = W49 m ρ c (Proc.devRef .tc b) := W50_of_ne m ρ c b hb
theorem keepIn24 (c : Dev nD) : W50 m ρ c (Proc.devRef .tc main_v12) = W49 m ρ c (Proc.devRef .tc main_v12) :=
  (W50_arr m ρ c 2).trans (((dat24 (V49 m ρ) c).arrAt_in 2 rfl _).trans (A_eq24 (V49 m ρ) c 2))

theorem keep25 (c : Dev nD) (b : Ref sig .tc) (hb : ∀ w, Pipeline.arrRef spec25 w ≠ b) :
    W52 m ρ c (no_index (Proc.devRef .tc b)) = W51 m ρ c (Proc.devRef .tc b) := W52_of_ne m ρ c b hb

/-! ## The twelve buffers at each layer boundary -/

set_option maxHeartbeats 4000000 in
/-- After the first region: the launch contents, the edge list's two rows, the in-degree column. -/
theorem pers0 (c : Dev nD) :
    W2 m ρ c (Proc.devRef .tc main_arg2) = (m ((c : Thread nD τ).loc main_arg2))
    ∧ W2 m ρ c (Proc.devRef .tc main_arg5) = (m ((c : Thread nD τ).loc main_arg5))
    ∧ W2 m ρ c (Proc.devRef .tc main_arg6) = (m ((c : Thread nD τ).loc main_arg6))
    ∧ W2 m ρ c (Proc.devRef .tc main_arg7) = (m ((c : Thread nD τ).loc main_arg7))
    ∧ W2 m ρ c (Proc.devRef .tc main_arg8) = (m ((c : Thread nD τ).loc main_arg8))
    ∧ W2 m ρ c (Proc.devRef .tc main_arg9) = (m ((c : Thread nD τ).loc main_arg9))
    ∧ W2 m ρ c (Proc.devRef .tc main_arg10) = (m ((c : Thread nD τ).loc main_arg10))
    ∧ W2 m ρ c (Proc.devRef .tc main_arg11) = (m ((c : Thread nD τ).loc main_arg11))
    ∧ W2 m ρ c (Proc.devRef .tc main_arg12) = (m ((c : Thread nD τ).loc main_arg12))
    ∧ W2 m ρ c (Proc.devRef .tc main_v1) = (Cert.Net.srcOf (m ((c : Thread nD τ).loc main_arg1)))
    ∧ W2 m ρ c (Proc.devRef .tc main_v3) = (Cert.Net.dstOf (m ((c : Thread nD τ).loc main_arg1)))
    ∧ W2 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  refine ⟨?_, ?_, ?_, ?_, ?_, ?_, ?_, ?_, ?_, ?_, ?_, ?_⟩
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    rfl
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    rfl
  · simp (disch := decide) only [keep0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    exact Cert.Cols.shapeCast_eq_broadcastInDim _ _ _

set_option maxHeartbeats 4000000 in
/-- After layer 1: what they held after layer 0. -/
theorem pers1 (c : Dev nD) :
    W6 m ρ c (Proc.devRef .tc main_arg2) = (m ((c : Thread nD τ).loc main_arg2))
    ∧ W6 m ρ c (Proc.devRef .tc main_arg5) = (m ((c : Thread nD τ).loc main_arg5))
    ∧ W6 m ρ c (Proc.devRef .tc main_arg6) = (m ((c : Thread nD τ).loc main_arg6))
    ∧ W6 m ρ c (Proc.devRef .tc main_arg7) = (m ((c : Thread nD τ).loc main_arg7))
    ∧ W6 m ρ c (Proc.devRef .tc main_arg8) = (m ((c : Thread nD τ).loc main_arg8))
    ∧ W6 m ρ c (Proc.devRef .tc main_arg9) = (m ((c : Thread nD τ).loc main_arg9))
    ∧ W6 m ρ c (Proc.devRef .tc main_arg10) = (m ((c : Thread nD τ).loc main_arg10))
    ∧ W6 m ρ c (Proc.devRef .tc main_arg11) = (m ((c : Thread nD τ).loc main_arg11))
    ∧ W6 m ρ c (Proc.devRef .tc main_arg12) = (m ((c : Thread nD τ).loc main_arg12))
    ∧ W6 m ρ c (Proc.devRef .tc main_v1) = (Cert.Net.srcOf (m ((c : Thread nD τ).loc main_arg1)))
    ∧ W6 m ρ c (Proc.devRef .tc main_v3) = (Cert.Net.dstOf (m ((c : Thread nD τ).loc main_arg1)))
    ∧ W6 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers0 m ρ c
  refine ⟨?_, ?_, ?_, ?_, ?_, ?_, ?_, ?_, ?_, ?_, ?_, ?_⟩ <;>
  simp (disch := decide) only [keep1 m ρ c, keep2 m ρ c, keepIn1 m ρ c, keepIn2 m ρ c, W3, W5, hostOps1, hostOps2,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 2: what they held after layer 1. -/
theorem pers2 (c : Dev nD) :
    W10 m ρ c (Proc.devRef .tc main_arg2) = (m ((c : Thread nD τ).loc main_arg2))
    ∧ W10 m ρ c (Proc.devRef .tc main_arg5) = (m ((c : Thread nD τ).loc main_arg5))
    ∧ W10 m ρ c (Proc.devRef .tc main_arg6) = (m ((c : Thread nD τ).loc main_arg6))
    ∧ W10 m ρ c (Proc.devRef .tc main_arg7) = (m ((c : Thread nD τ).loc main_arg7))
    ∧ W10 m ρ c (Proc.devRef .tc main_arg8) = (m ((c : Thread nD τ).loc main_arg8))
    ∧ W10 m ρ c (Proc.devRef .tc main_arg9) = (m ((c : Thread nD τ).loc main_arg9))
    ∧ W10 m ρ c (Proc.devRef .tc main_arg10) = (m ((c : Thread nD τ).loc main_arg10))
    ∧ W10 m ρ c (Proc.devRef .tc main_arg11) = (m ((c : Thread nD τ).loc main_arg11))
    ∧ W10 m ρ c (Proc.devRef .tc main_arg12) = (m ((c : Thread nD τ).loc main_arg12))
    ∧ W10 m ρ c (Proc.devRef .tc main_v1) = (Cert.Net.srcOf (m ((c : Thread nD τ).loc main_arg1)))
    ∧ W10 m ρ c (Proc.devRef .tc main_v3) = (Cert.Net.dstOf (m ((c : Thread nD τ).loc main_arg1)))
    ∧ W10 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers1 m ρ c
  refine ⟨?_, ?_, ?_, ?_, ?_, ?_, ?_, ?_, ?_, ?_, ?_, ?_⟩ <;>
  simp (disch := decide) only [keep3 m ρ c, keep4 m ρ c, keepIn3 m ρ c, keepIn4 m ρ c, W7, W9, hostOps3, hostOps4,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 3: what they held after layer 2. -/
theorem pers3 (c : Dev nD) :
    W14 m ρ c (Proc.devRef .tc main_arg2) = (m ((c : Thread nD τ).loc main_arg2))
    ∧ W14 m ρ c (Proc.devRef .tc main_arg5) = (m ((c : Thread nD τ).loc main_arg5))
    ∧ W14 m ρ c (Proc.devRef .tc main_arg6) = (m ((c : Thread nD τ).loc main_arg6))
    ∧ W14 m ρ c (Proc.devRef .tc main_arg7) = (m ((c : Thread nD τ).loc main_arg7))
    ∧ W14 m ρ c (Proc.devRef .tc main_arg8) = (m ((c : Thread nD τ).loc main_arg8))
    ∧ W14 m ρ c (Proc.devRef .tc main_arg9) = (m ((c : Thread nD τ).loc main_arg9))
    ∧ W14 m ρ c (Proc.devRef .tc main_arg10) = (m ((c : Thread nD τ).loc main_arg10))
    ∧ W14 m ρ c (Proc.devRef .tc main_arg11) = (m ((c : Thread nD τ).loc main_arg11))
    ∧ W14 m ρ c (Proc.devRef .tc main_arg12) = (m ((c : Thread nD τ).loc main_arg12))
    ∧ W14 m ρ c (Proc.devRef .tc main_v1) = (Cert.Net.srcOf (m ((c : Thread nD τ).loc main_arg1)))
    ∧ W14 m ρ c (Proc.devRef .tc main_v3) = (Cert.Net.dstOf (m ((c : Thread nD τ).loc main_arg1)))
    ∧ W14 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers2 m ρ c
  refine ⟨?_, ?_, ?_, ?_, ?_, ?_, ?_, ?_, ?_, ?_, ?_, ?_⟩ <;>
  simp (disch := decide) only [keep5 m ρ c, keep6 m ρ c, keepIn5 m ρ c, keepIn6 m ρ c, W11, W13, hostOps5, hostOps6,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 4: what they held after layer 3. -/
theorem pers4 (c : Dev nD) :
    W18 m ρ c (Proc.devRef .tc main_arg2) = (m ((c : Thread nD τ).loc main_arg2))
    ∧ W18 m ρ c (Proc.devRef .tc main_arg5) = (m ((c : Thread nD τ).loc main_arg5))
    ∧ W18 m ρ c (Proc.devRef .tc main_arg6) = (m ((c : Thread nD τ).loc main_arg6))
    ∧ W18 m ρ c (Proc.devRef .tc main_arg7) = (m ((c : Thread nD τ).loc main_arg7))
    ∧ W18 m ρ c (Proc.devRef .tc main_arg8) = (m ((c : Thread nD τ).loc main_arg8))
    ∧ W18 m ρ c (Proc.devRef .tc main_arg9) = (m ((c : Thread nD τ).loc main_arg9))
    ∧ W18 m ρ c (Proc.devRef .tc main_arg10) = (m ((c : Thread nD τ).loc main_arg10))
    ∧ W18 m ρ c (Proc.devRef .tc main_arg11) = (m ((c : Thread nD τ).loc main_arg11))
    ∧ W18 m ρ c (Proc.devRef .tc main_arg12) = (m ((c : Thread nD τ).loc main_arg12))
    ∧ W18 m ρ c (Proc.devRef .tc main_v1) = (Cert.Net.srcOf (m ((c : Thread nD τ).loc main_arg1)))
    ∧ W18 m ρ c (Proc.devRef .tc main_v3) = (Cert.Net.dstOf (m ((c : Thread nD τ).loc main_arg1)))
    ∧ W18 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers3 m ρ c
  refine ⟨?_, ?_, ?_, ?_, ?_, ?_, ?_, ?_, ?_, ?_, ?_, ?_⟩ <;>
  simp (disch := decide) only [keep7 m ρ c, keep8 m ρ c, keepIn7 m ρ c, keepIn8 m ρ c, W15, W17, hostOps7, hostOps8,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 5: what they held after layer 4. -/
theorem pers5 (c : Dev nD) :
    W22 m ρ c (Proc.devRef .tc main_arg2) = (m ((c : Thread nD τ).loc main_arg2))
    ∧ W22 m ρ c (Proc.devRef .tc main_arg5) = (m ((c : Thread nD τ).loc main_arg5))
    ∧ W22 m ρ c (Proc.devRef .tc main_arg6) = (m ((c : Thread nD τ).loc main_arg6))
    ∧ W22 m ρ c (Proc.devRef .tc main_arg7) = (m ((c : Thread nD τ).loc main_arg7))
    ∧ W22 m ρ c (Proc.devRef .tc main_arg8) = (m ((c : Thread nD τ).loc main_arg8))
    ∧ W22 m ρ c (Proc.devRef .tc main_arg9) = (m ((c : Thread nD τ).loc main_arg9))
    ∧ W22 m ρ c (Proc.devRef .tc main_arg10) = (m ((c : Thread nD τ).loc main_arg10))
    ∧ W22 m ρ c (Proc.devRef .tc main_arg11) = (m ((c : Thread nD τ).loc main_arg11))
    ∧ W22 m ρ c (Proc.devRef .tc main_arg12) = (m ((c : Thread nD τ).loc main_arg12))
    ∧ W22 m ρ c (Proc.devRef .tc main_v1) = (Cert.Net.srcOf (m ((c : Thread nD τ).loc main_arg1)))
    ∧ W22 m ρ c (Proc.devRef .tc main_v3) = (Cert.Net.dstOf (m ((c : Thread nD τ).loc main_arg1)))
    ∧ W22 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers4 m ρ c
  refine ⟨?_, ?_, ?_, ?_, ?_, ?_, ?_, ?_, ?_, ?_, ?_, ?_⟩ <;>
  simp (disch := decide) only [keep9 m ρ c, keep10 m ρ c, keepIn9 m ρ c, keepIn10 m ρ c, W19, W21, hostOps9, hostOps10,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 6: what they held after layer 5. -/
theorem pers6 (c : Dev nD) :
    W26 m ρ c (Proc.devRef .tc main_arg2) = (m ((c : Thread nD τ).loc main_arg2))
    ∧ W26 m ρ c (Proc.devRef .tc main_arg5) = (m ((c : Thread nD τ).loc main_arg5))
    ∧ W26 m ρ c (Proc.devRef .tc main_arg6) = (m ((c : Thread nD τ).loc main_arg6))
    ∧ W26 m ρ c (Proc.devRef .tc main_arg7) = (m ((c : Thread nD τ).loc main_arg7))
    ∧ W26 m ρ c (Proc.devRef .tc main_arg8) = (m ((c : Thread nD τ).loc main_arg8))
    ∧ W26 m ρ c (Proc.devRef .tc main_arg9) = (m ((c : Thread nD τ).loc main_arg9))
    ∧ W26 m ρ c (Proc.devRef .tc main_arg10) = (m ((c : Thread nD τ).loc main_arg10))
    ∧ W26 m ρ c (Proc.devRef .tc main_arg11) = (m ((c : Thread nD τ).loc main_arg11))
    ∧ W26 m ρ c (Proc.devRef .tc main_arg12) = (m ((c : Thread nD τ).loc main_arg12))
    ∧ W26 m ρ c (Proc.devRef .tc main_v1) = (Cert.Net.srcOf (m ((c : Thread nD τ).loc main_arg1)))
    ∧ W26 m ρ c (Proc.devRef .tc main_v3) = (Cert.Net.dstOf (m ((c : Thread nD τ).loc main_arg1)))
    ∧ W26 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers5 m ρ c
  refine ⟨?_, ?_, ?_, ?_, ?_, ?_, ?_, ?_, ?_, ?_, ?_, ?_⟩ <;>
  simp (disch := decide) only [keep11 m ρ c, keep12 m ρ c, keepIn11 m ρ c, keepIn12 m ρ c, W23, W25, hostOps11, hostOps12,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 7: what they held after layer 6. -/
theorem pers7 (c : Dev nD) :
    W30 m ρ c (Proc.devRef .tc main_arg2) = (m ((c : Thread nD τ).loc main_arg2))
    ∧ W30 m ρ c (Proc.devRef .tc main_arg5) = (m ((c : Thread nD τ).loc main_arg5))
    ∧ W30 m ρ c (Proc.devRef .tc main_arg6) = (m ((c : Thread nD τ).loc main_arg6))
    ∧ W30 m ρ c (Proc.devRef .tc main_arg7) = (m ((c : Thread nD τ).loc main_arg7))
    ∧ W30 m ρ c (Proc.devRef .tc main_arg8) = (m ((c : Thread nD τ).loc main_arg8))
    ∧ W30 m ρ c (Proc.devRef .tc main_arg9) = (m ((c : Thread nD τ).loc main_arg9))
    ∧ W30 m ρ c (Proc.devRef .tc main_arg10) = (m ((c : Thread nD τ).loc main_arg10))
    ∧ W30 m ρ c (Proc.devRef .tc main_arg11) = (m ((c : Thread nD τ).loc main_arg11))
    ∧ W30 m ρ c (Proc.devRef .tc main_arg12) = (m ((c : Thread nD τ).loc main_arg12))
    ∧ W30 m ρ c (Proc.devRef .tc main_v1) = (Cert.Net.srcOf (m ((c : Thread nD τ).loc main_arg1)))
    ∧ W30 m ρ c (Proc.devRef .tc main_v3) = (Cert.Net.dstOf (m ((c : Thread nD τ).loc main_arg1)))
    ∧ W30 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers6 m ρ c
  refine ⟨?_, ?_, ?_, ?_, ?_, ?_, ?_, ?_, ?_, ?_, ?_, ?_⟩ <;>
  simp (disch := decide) only [keep13 m ρ c, keep14 m ρ c, keepIn13 m ρ c, keepIn14 m ρ c, W27, W29, hostOps13, hostOps14,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 8: what they held after layer 7. -/
theorem pers8 (c : Dev nD) :
    W34 m ρ c (Proc.devRef .tc main_arg2) = (m ((c : Thread nD τ).loc main_arg2))
    ∧ W34 m ρ c (Proc.devRef .tc main_arg5) = (m ((c : Thread nD τ).loc main_arg5))
    ∧ W34 m ρ c (Proc.devRef .tc main_arg6) = (m ((c : Thread nD τ).loc main_arg6))
    ∧ W34 m ρ c (Proc.devRef .tc main_arg7) = (m ((c : Thread nD τ).loc main_arg7))
    ∧ W34 m ρ c (Proc.devRef .tc main_arg8) = (m ((c : Thread nD τ).loc main_arg8))
    ∧ W34 m ρ c (Proc.devRef .tc main_arg9) = (m ((c : Thread nD τ).loc main_arg9))
    ∧ W34 m ρ c (Proc.devRef .tc main_arg10) = (m ((c : Thread nD τ).loc main_arg10))
    ∧ W34 m ρ c (Proc.devRef .tc main_arg11) = (m ((c : Thread nD τ).loc main_arg11))
    ∧ W34 m ρ c (Proc.devRef .tc main_arg12) = (m ((c : Thread nD τ).loc main_arg12))
    ∧ W34 m ρ c (Proc.devRef .tc main_v1) = (Cert.Net.srcOf (m ((c : Thread nD τ).loc main_arg1)))
    ∧ W34 m ρ c (Proc.devRef .tc main_v3) = (Cert.Net.dstOf (m ((c : Thread nD τ).loc main_arg1)))
    ∧ W34 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers7 m ρ c
  refine ⟨?_, ?_, ?_, ?_, ?_, ?_, ?_, ?_, ?_, ?_, ?_, ?_⟩ <;>
  simp (disch := decide) only [keep15 m ρ c, keep16 m ρ c, keepIn15 m ρ c, keepIn16 m ρ c, W31, W33, hostOps15, hostOps16,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 9: what they held after layer 8. -/
theorem pers9 (c : Dev nD) :
    W38 m ρ c (Proc.devRef .tc main_arg2) = (m ((c : Thread nD τ).loc main_arg2))
    ∧ W38 m ρ c (Proc.devRef .tc main_arg5) = (m ((c : Thread nD τ).loc main_arg5))
    ∧ W38 m ρ c (Proc.devRef .tc main_arg6) = (m ((c : Thread nD τ).loc main_arg6))
    ∧ W38 m ρ c (Proc.devRef .tc main_arg7) = (m ((c : Thread nD τ).loc main_arg7))
    ∧ W38 m ρ c (Proc.devRef .tc main_arg8) = (m ((c : Thread nD τ).loc main_arg8))
    ∧ W38 m ρ c (Proc.devRef .tc main_arg9) = (m ((c : Thread nD τ).loc main_arg9))
    ∧ W38 m ρ c (Proc.devRef .tc main_arg10) = (m ((c : Thread nD τ).loc main_arg10))
    ∧ W38 m ρ c (Proc.devRef .tc main_arg11) = (m ((c : Thread nD τ).loc main_arg11))
    ∧ W38 m ρ c (Proc.devRef .tc main_arg12) = (m ((c : Thread nD τ).loc main_arg12))
    ∧ W38 m ρ c (Proc.devRef .tc main_v1) = (Cert.Net.srcOf (m ((c : Thread nD τ).loc main_arg1)))
    ∧ W38 m ρ c (Proc.devRef .tc main_v3) = (Cert.Net.dstOf (m ((c : Thread nD τ).loc main_arg1)))
    ∧ W38 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers8 m ρ c
  refine ⟨?_, ?_, ?_, ?_, ?_, ?_, ?_, ?_, ?_, ?_, ?_, ?_⟩ <;>
  simp (disch := decide) only [keep17 m ρ c, keep18 m ρ c, keepIn17 m ρ c, keepIn18 m ρ c, W35, W37, hostOps17, hostOps18,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 10: what they held after layer 9. -/
theorem pers10 (c : Dev nD) :
    W42 m ρ c (Proc.devRef .tc main_arg2) = (m ((c : Thread nD τ).loc main_arg2))
    ∧ W42 m ρ c (Proc.devRef .tc main_arg5) = (m ((c : Thread nD τ).loc main_arg5))
    ∧ W42 m ρ c (Proc.devRef .tc main_arg6) = (m ((c : Thread nD τ).loc main_arg6))
    ∧ W42 m ρ c (Proc.devRef .tc main_arg7) = (m ((c : Thread nD τ).loc main_arg7))
    ∧ W42 m ρ c (Proc.devRef .tc main_arg8) = (m ((c : Thread nD τ).loc main_arg8))
    ∧ W42 m ρ c (Proc.devRef .tc main_arg9) = (m ((c : Thread nD τ).loc main_arg9))
    ∧ W42 m ρ c (Proc.devRef .tc main_arg10) = (m ((c : Thread nD τ).loc main_arg10))
    ∧ W42 m ρ c (Proc.devRef .tc main_arg11) = (m ((c : Thread nD τ).loc main_arg11))
    ∧ W42 m ρ c (Proc.devRef .tc main_arg12) = (m ((c : Thread nD τ).loc main_arg12))
    ∧ W42 m ρ c (Proc.devRef .tc main_v1) = (Cert.Net.srcOf (m ((c : Thread nD τ).loc main_arg1)))
    ∧ W42 m ρ c (Proc.devRef .tc main_v3) = (Cert.Net.dstOf (m ((c : Thread nD τ).loc main_arg1)))
    ∧ W42 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers9 m ρ c
  refine ⟨?_, ?_, ?_, ?_, ?_, ?_, ?_, ?_, ?_, ?_, ?_, ?_⟩ <;>
  simp (disch := decide) only [keep19 m ρ c, keep20 m ρ c, keepIn19 m ρ c, keepIn20 m ρ c, W39, W41, hostOps19, hostOps20,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 11: what they held after layer 10. -/
theorem pers11 (c : Dev nD) :
    W46 m ρ c (Proc.devRef .tc main_arg2) = (m ((c : Thread nD τ).loc main_arg2))
    ∧ W46 m ρ c (Proc.devRef .tc main_arg5) = (m ((c : Thread nD τ).loc main_arg5))
    ∧ W46 m ρ c (Proc.devRef .tc main_arg6) = (m ((c : Thread nD τ).loc main_arg6))
    ∧ W46 m ρ c (Proc.devRef .tc main_arg7) = (m ((c : Thread nD τ).loc main_arg7))
    ∧ W46 m ρ c (Proc.devRef .tc main_arg8) = (m ((c : Thread nD τ).loc main_arg8))
    ∧ W46 m ρ c (Proc.devRef .tc main_arg9) = (m ((c : Thread nD τ).loc main_arg9))
    ∧ W46 m ρ c (Proc.devRef .tc main_arg10) = (m ((c : Thread nD τ).loc main_arg10))
    ∧ W46 m ρ c (Proc.devRef .tc main_arg11) = (m ((c : Thread nD τ).loc main_arg11))
    ∧ W46 m ρ c (Proc.devRef .tc main_arg12) = (m ((c : Thread nD τ).loc main_arg12))
    ∧ W46 m ρ c (Proc.devRef .tc main_v1) = (Cert.Net.srcOf (m ((c : Thread nD τ).loc main_arg1)))
    ∧ W46 m ρ c (Proc.devRef .tc main_v3) = (Cert.Net.dstOf (m ((c : Thread nD τ).loc main_arg1)))
    ∧ W46 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers10 m ρ c
  refine ⟨?_, ?_, ?_, ?_, ?_, ?_, ?_, ?_, ?_, ?_, ?_, ?_⟩ <;>
  simp (disch := decide) only [keep21 m ρ c, keep22 m ρ c, keepIn21 m ρ c, keepIn22 m ρ c, W43, W45, hostOps21, hostOps22,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

set_option maxHeartbeats 4000000 in
/-- After layer 12: what they held after layer 11. -/
theorem pers12 (c : Dev nD) :
    W50 m ρ c (Proc.devRef .tc main_arg2) = (m ((c : Thread nD τ).loc main_arg2))
    ∧ W50 m ρ c (Proc.devRef .tc main_arg5) = (m ((c : Thread nD τ).loc main_arg5))
    ∧ W50 m ρ c (Proc.devRef .tc main_arg6) = (m ((c : Thread nD τ).loc main_arg6))
    ∧ W50 m ρ c (Proc.devRef .tc main_arg7) = (m ((c : Thread nD τ).loc main_arg7))
    ∧ W50 m ρ c (Proc.devRef .tc main_arg8) = (m ((c : Thread nD τ).loc main_arg8))
    ∧ W50 m ρ c (Proc.devRef .tc main_arg9) = (m ((c : Thread nD τ).loc main_arg9))
    ∧ W50 m ρ c (Proc.devRef .tc main_arg10) = (m ((c : Thread nD τ).loc main_arg10))
    ∧ W50 m ρ c (Proc.devRef .tc main_arg11) = (m ((c : Thread nD τ).loc main_arg11))
    ∧ W50 m ρ c (Proc.devRef .tc main_arg12) = (m ((c : Thread nD τ).loc main_arg12))
    ∧ W50 m ρ c (Proc.devRef .tc main_v1) = (Cert.Net.srcOf (m ((c : Thread nD τ).loc main_arg1)))
    ∧ W50 m ρ c (Proc.devRef .tc main_v3) = (Cert.Net.dstOf (m ((c : Thread nD τ).loc main_arg1)))
    ∧ W50 m ρ c (Proc.devRef .tc main_v12) = (broadcastInDim Cert.ReferenceIdeal.S50000x1 ![0] Cert.ReferenceIdeal.Gen.bcast_S50000_S50000x1_0 (Cert.Net.invDeg (Cert.Net.dstOf (m ((c : Thread nD τ).loc main_arg1))))) := by
  obtain ⟨h_arg2, h_arg5, h_arg6, h_arg7, h_arg8, h_arg9, h_arg10, h_arg11, h_arg12, h_v1, h_v3, h_v12⟩ := pers11 m ρ c
  refine ⟨?_, ?_, ?_, ?_, ?_, ?_, ?_, ?_, ?_, ?_, ?_, ?_⟩ <;>
  simp (disch := decide) only [keep23 m ρ c, keep24 m ρ c, keepIn23 m ρ c, keepIn24 m ρ c, W47, W49, hostOps23, hostOps24,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

end Cert.KernelIdeal.KernelPers

end
-- ==== Proof.KernelValue.lean ====
/-
  The idealized kernel's result as a function of its arguments. The buffer contents at the boundaries between @main's
  segments form a chain: a stretch of host operations applies its operations to the contents before it; a tiled region
  leaves its result array at the whole-array function of its input arrays as it found them (the region lemmas) and every
  other buffer untouched. One layer is two stretches and two regions: reading the new node features at the layer's end
  and walking back to its start — the update region's result through the update, the scatter-add, the message region's
  result through the message function, the gather, the parameter slices — gives the layer function `Net.layer_c` of the
  node features at the layer's start, the twelve long-lived buffers holding what Proof/KernelPers.lean says. The first
  region gives the first linear map of the arguments, the last region the last linear map of the twelfth layer's
  features; chaining the thirteen equations gives the network `Net.out` of the launch contents of the arguments.
-/
import proofs.«163905_j57775900066584_1_alg».proof.Proof.Gen.KernelIdeal.Frame
import proofs.«163905_j57775900066584_1_alg».proof.Proof.Region0
import proofs.«163905_j57775900066584_1_alg».proof.Proof.Region1
import proofs.«163905_j57775900066584_1_alg».proof.Proof.Region2
import proofs.«163905_j57775900066584_1_alg».proof.Proof.Region3
import proofs.«163905_j57775900066584_1_alg».proof.Proof.Region4
import proofs.«163905_j57775900066584_1_alg».proof.Proof.Region5
import proofs.«163905_j57775900066584_1_alg».proof.Proof.Region6
import proofs.«163905_j57775900066584_1_alg».proof.Proof.Region7
import proofs.«163905_j57775900066584_1_alg».proof.Proof.Region8
import proofs.«163905_j57775900066584_1_alg».proof.Proof.Region9
import proofs.«163905_j57775900066584_1_alg».proof.Proof.Region10
import proofs.«163905_j57775900066584_1_alg».proof.Proof.Region11
import proofs.«163905_j57775900066584_1_alg».proof.Proof.Region12
import proofs.«163905_j57775900066584_1_alg».proof.Proof.Region13
import proofs.«163905_j57775900066584_1_alg».proof.Proof.Region14
import proofs.«163905_j57775900066584_1_alg».proof.Proof.Region15
import proofs.«163905_j57775900066584_1_alg».proof.Proof.Region16
import proofs.«163905_j57775900066584_1_alg».proof.Proof.Region17
import proofs.«163905_j57775900066584_1_alg».proof.Proof.Region18
import proofs.«163905_j57775900066584_1_alg».proof.Proof.Region19
import proofs.«163905_j57775900066584_1_alg».proof.Proof.Region20
import proofs.«163905_j57775900066584_1_alg».proof.Proof.Region21
import proofs.«163905_j57775900066584_1_alg».proof.Proof.Region22
import proofs.«163905_j57775900066584_1_alg».proof.Proof.Region23
import proofs.«163905_j57775900066584_1_alg».proof.Proof.Region24
import proofs.«163905_j57775900066584_1_alg».proof.Proof.Region25
import proofs.«163905_j57775900066584_1_alg».proof.Proof.NetOut
import proofs.«163905_j57775900066584_1_alg».proof.Proof.KernelPers

set_option maxRecDepth 16384
set_option pp.deepTerms false
set_option pp.maxSteps 5000

noncomputable section

namespace Cert.KernelIdeal.KernelValue

open Cert.KernelIdeal Cert.KernelIdeal.Gen
open Idealize.ShloMosaic Idealize.ShloMosaic.TcCoe
open Idealize.SL Idealize.SL.Sem
open Idealize.ShloMosaic.StableHlo

variable (m : (ℓ : Loc nD τ sig) → Buf (Elt Ideal) ℓ) (ρ : Dev nD → PrngReg)
open Cert.KernelIdeal.KernelPers

/-! ## A region's result array at its exit -/

theorem out0 (c : Dev nD) : W2 m ρ c (Proc.devRef .tc main_v14) = Cert.Net.linIn (W1 m ρ c (Proc.devRef .tc main_arg0)) (W1 m ρ c (Proc.devRef .tc main_v13)) (W1 m ρ c (Proc.devRef .tc main_arg4)) :=
  (W2_arr m ρ c 3).trans (Regions.final0 (V1 m ρ) c)

theorem out1 (c : Dev nD) : W4 m ρ c (Proc.devRef .tc main_v32) = Cert.Net.edge (W3 m ρ c (Proc.devRef .tc main_arg2)) (W3 m ρ c (Proc.devRef .tc main_v21)) (W3 m ρ c (Proc.devRef .tc main_v24)) (W3 m ρ c (Proc.devRef .tc main_v29)) (W3 m ρ c (Proc.devRef .tc main_v27)) (W3 m ρ c (Proc.devRef .tc main_v31)) :=
  (W4_arr m ρ c 6).trans (Regions.final1 (V3 m ρ) c)

theorem out2 (c : Dev nD) : W6 m ρ c (Proc.devRef .tc main_v40) = Cert.Net.node (W5 m ρ c (Proc.devRef .tc main_v35)) (W5 m ρ c (Proc.devRef .tc main_v14)) (W5 m ρ c (Proc.devRef .tc main_v12)) (W5 m ρ c (Proc.devRef .tc main_v37)) (W5 m ρ c (Proc.devRef .tc main_v39)) :=
  (W6_arr m ρ c 5).trans (Regions.final2 (V5 m ρ) c)

theorem out3 (c : Dev nD) : W8 m ρ c (Proc.devRef .tc main_v58) = Cert.Net.edge (W7 m ρ c (Proc.devRef .tc main_arg2)) (W7 m ρ c (Proc.devRef .tc main_v47)) (W7 m ρ c (Proc.devRef .tc main_v50)) (W7 m ρ c (Proc.devRef .tc main_v55)) (W7 m ρ c (Proc.devRef .tc main_v53)) (W7 m ρ c (Proc.devRef .tc main_v57)) :=
  (W8_arr m ρ c 6).trans (Regions.final3 (V7 m ρ) c)

theorem out4 (c : Dev nD) : W10 m ρ c (Proc.devRef .tc main_v66) = Cert.Net.node (W9 m ρ c (Proc.devRef .tc main_v61)) (W9 m ρ c (Proc.devRef .tc main_v40)) (W9 m ρ c (Proc.devRef .tc main_v12)) (W9 m ρ c (Proc.devRef .tc main_v63)) (W9 m ρ c (Proc.devRef .tc main_v65)) :=
  (W10_arr m ρ c 5).trans (Regions.final4 (V9 m ρ) c)

theorem out5 (c : Dev nD) : W12 m ρ c (Proc.devRef .tc main_v84) = Cert.Net.edge (W11 m ρ c (Proc.devRef .tc main_arg2)) (W11 m ρ c (Proc.devRef .tc main_v73)) (W11 m ρ c (Proc.devRef .tc main_v76)) (W11 m ρ c (Proc.devRef .tc main_v81)) (W11 m ρ c (Proc.devRef .tc main_v79)) (W11 m ρ c (Proc.devRef .tc main_v83)) :=
  (W12_arr m ρ c 6).trans (Regions.final5 (V11 m ρ) c)

theorem out6 (c : Dev nD) : W14 m ρ c (Proc.devRef .tc main_v92) = Cert.Net.node (W13 m ρ c (Proc.devRef .tc main_v87)) (W13 m ρ c (Proc.devRef .tc main_v66)) (W13 m ρ c (Proc.devRef .tc main_v12)) (W13 m ρ c (Proc.devRef .tc main_v89)) (W13 m ρ c (Proc.devRef .tc main_v91)) :=
  (W14_arr m ρ c 5).trans (Regions.final6 (V13 m ρ) c)

theorem out7 (c : Dev nD) : W16 m ρ c (Proc.devRef .tc main_v110) = Cert.Net.edge (W15 m ρ c (Proc.devRef .tc main_arg2)) (W15 m ρ c (Proc.devRef .tc main_v99)) (W15 m ρ c (Proc.devRef .tc main_v102)) (W15 m ρ c (Proc.devRef .tc main_v107)) (W15 m ρ c (Proc.devRef .tc main_v105)) (W15 m ρ c (Proc.devRef .tc main_v109)) :=
  (W16_arr m ρ c 6).trans (Regions.final7 (V15 m ρ) c)

theorem out8 (c : Dev nD) : W18 m ρ c (Proc.devRef .tc main_v118) = Cert.Net.node (W17 m ρ c (Proc.devRef .tc main_v113)) (W17 m ρ c (Proc.devRef .tc main_v92)) (W17 m ρ c (Proc.devRef .tc main_v12)) (W17 m ρ c (Proc.devRef .tc main_v115)) (W17 m ρ c (Proc.devRef .tc main_v117)) :=
  (W18_arr m ρ c 5).trans (Regions.final8 (V17 m ρ) c)

theorem out9 (c : Dev nD) : W20 m ρ c (Proc.devRef .tc main_v136) = Cert.Net.edge (W19 m ρ c (Proc.devRef .tc main_arg2)) (W19 m ρ c (Proc.devRef .tc main_v125)) (W19 m ρ c (Proc.devRef .tc main_v128)) (W19 m ρ c (Proc.devRef .tc main_v133)) (W19 m ρ c (Proc.devRef .tc main_v131)) (W19 m ρ c (Proc.devRef .tc main_v135)) :=
  (W20_arr m ρ c 6).trans (Regions.final9 (V19 m ρ) c)

theorem out10 (c : Dev nD) : W22 m ρ c (Proc.devRef .tc main_v144) = Cert.Net.node (W21 m ρ c (Proc.devRef .tc main_v139)) (W21 m ρ c (Proc.devRef .tc main_v118)) (W21 m ρ c (Proc.devRef .tc main_v12)) (W21 m ρ c (Proc.devRef .tc main_v141)) (W21 m ρ c (Proc.devRef .tc main_v143)) :=
  (W22_arr m ρ c 5).trans (Regions.final10 (V21 m ρ) c)

theorem out11 (c : Dev nD) : W24 m ρ c (Proc.devRef .tc main_v162) = Cert.Net.edge (W23 m ρ c (Proc.devRef .tc main_arg2)) (W23 m ρ c (Proc.devRef .tc main_v151)) (W23 m ρ c (Proc.devRef .tc main_v154)) (W23 m ρ c (Proc.devRef .tc main_v159)) (W23 m ρ c (Proc.devRef .tc main_v157)) (W23 m ρ c (Proc.devRef .tc main_v161)) :=
  (W24_arr m ρ c 6).trans (Regions.final11 (V23 m ρ) c)

theorem out12 (c : Dev nD) : W26 m ρ c (Proc.devRef .tc main_v170) = Cert.Net.node (W25 m ρ c (Proc.devRef .tc main_v165)) (W25 m ρ c (Proc.devRef .tc main_v144)) (W25 m ρ c (Proc.devRef .tc main_v12)) (W25 m ρ c (Proc.devRef .tc main_v167)) (W25 m ρ c (Proc.devRef .tc main_v169)) :=
  (W26_arr m ρ c 5).trans (Regions.final12 (V25 m ρ) c)

theorem out13 (c : Dev nD) : W28 m ρ c (Proc.devRef .tc main_v188) = Cert.Net.edge (W27 m ρ c (Proc.devRef .tc main_arg2)) (W27 m ρ c (Proc.devRef .tc main_v177)) (W27 m ρ c (Proc.devRef .tc main_v180)) (W27 m ρ c (Proc.devRef .tc main_v185)) (W27 m ρ c (Proc.devRef .tc main_v183)) (W27 m ρ c (Proc.devRef .tc main_v187)) :=
  (W28_arr m ρ c 6).trans (Regions.final13 (V27 m ρ) c)

theorem out14 (c : Dev nD) : W30 m ρ c (Proc.devRef .tc main_v196) = Cert.Net.node (W29 m ρ c (Proc.devRef .tc main_v191)) (W29 m ρ c (Proc.devRef .tc main_v170)) (W29 m ρ c (Proc.devRef .tc main_v12)) (W29 m ρ c (Proc.devRef .tc main_v193)) (W29 m ρ c (Proc.devRef .tc main_v195)) :=
  (W30_arr m ρ c 5).trans (Regions.final14 (V29 m ρ) c)

theorem out15 (c : Dev nD) : W32 m ρ c (Proc.devRef .tc main_v214) = Cert.Net.edge (W31 m ρ c (Proc.devRef .tc main_arg2)) (W31 m ρ c (Proc.devRef .tc main_v203)) (W31 m ρ c (Proc.devRef .tc main_v206)) (W31 m ρ c (Proc.devRef .tc main_v211)) (W31 m ρ c (Proc.devRef .tc main_v209)) (W31 m ρ c (Proc.devRef .tc main_v213)) :=
  (W32_arr m ρ c 6).trans (Regions.final15 (V31 m ρ) c)

theorem out16 (c : Dev nD) : W34 m ρ c (Proc.devRef .tc main_v222) = Cert.Net.node (W33 m ρ c (Proc.devRef .tc main_v217)) (W33 m ρ c (Proc.devRef .tc main_v196)) (W33 m ρ c (Proc.devRef .tc main_v12)) (W33 m ρ c (Proc.devRef .tc main_v219)) (W33 m ρ c (Proc.devRef .tc main_v221)) :=
  (W34_arr m ρ c 5).trans (Regions.final16 (V33 m ρ) c)

theorem out17 (c : Dev nD) : W36 m ρ c (Proc.devRef .tc main_v240) = Cert.Net.edge (W35 m ρ c (Proc.devRef .tc main_arg2)) (W35 m ρ c (Proc.devRef .tc main_v229)) (W35 m ρ c (Proc.devRef .tc main_v232)) (W35 m ρ c (Proc.devRef .tc main_v237)) (W35 m ρ c (Proc.devRef .tc main_v235)) (W35 m ρ c (Proc.devRef .tc main_v239)) :=
  (W36_arr m ρ c 6).trans (Regions.final17 (V35 m ρ) c)

theorem out18 (c : Dev nD) : W38 m ρ c (Proc.devRef .tc main_v248) = Cert.Net.node (W37 m ρ c (Proc.devRef .tc main_v243)) (W37 m ρ c (Proc.devRef .tc main_v222)) (W37 m ρ c (Proc.devRef .tc main_v12)) (W37 m ρ c (Proc.devRef .tc main_v245)) (W37 m ρ c (Proc.devRef .tc main_v247)) :=
  (W38_arr m ρ c 5).trans (Regions.final18 (V37 m ρ) c)

theorem out19 (c : Dev nD) : W40 m ρ c (Proc.devRef .tc main_v266) = Cert.Net.edge (W39 m ρ c (Proc.devRef .tc main_arg2)) (W39 m ρ c (Proc.devRef .tc main_v255)) (W39 m ρ c (Proc.devRef .tc main_v258)) (W39 m ρ c (Proc.devRef .tc main_v263)) (W39 m ρ c (Proc.devRef .tc main_v261)) (W39 m ρ c (Proc.devRef .tc main_v265)) :=
  (W40_arr m ρ c 6).trans (Regions.final19 (V39 m ρ) c)

theorem out20 (c : Dev nD) : W42 m ρ c (Proc.devRef .tc main_v274) = Cert.Net.node (W41 m ρ c (Proc.devRef .tc main_v269)) (W41 m ρ c (Proc.devRef .tc main_v248)) (W41 m ρ c (Proc.devRef .tc main_v12)) (W41 m ρ c (Proc.devRef .tc main_v271)) (W41 m ρ c (Proc.devRef .tc main_v273)) :=
  (W42_arr m ρ c 5).trans (Regions.final20 (V41 m ρ) c)

theorem out21 (c : Dev nD) : W44 m ρ c (Proc.devRef .tc main_v292) = Cert.Net.edge (W43 m ρ c (Proc.devRef .tc main_arg2)) (W43 m ρ c (Proc.devRef .tc main_v281)) (W43 m ρ c (Proc.devRef .tc main_v284)) (W43 m ρ c (Proc.devRef .tc main_v289)) (W43 m ρ c (Proc.devRef .tc main_v287)) (W43 m ρ c (Proc.devRef .tc main_v291)) :=
  (W44_arr m ρ c 6).trans (Regions.final21 (V43 m ρ) c)

theorem out22 (c : Dev nD) : W46 m ρ c (Proc.devRef .tc main_v300) = Cert.Net.node (W45 m ρ c (Proc.devRef .tc main_v295)) (W45 m ρ c (Proc.devRef .tc main_v274)) (W45 m ρ c (Proc.devRef .tc main_v12)) (W45 m ρ c (Proc.devRef .tc main_v297)) (W45 m ρ c (Proc.devRef .tc main_v299)) :=
  (W46_arr m ρ c 5).trans (Regions.final22 (V45 m ρ) c)

theorem out23 (c : Dev nD) : W48 m ρ c (Proc.devRef .tc main_v318) = Cert.Net.edge (W47 m ρ c (Proc.devRef .tc main_arg2)) (W47 m ρ c (Proc.devRef .tc main_v307)) (W47 m ρ c (Proc.devRef .tc main_v310)) (W47 m ρ c (Proc.devRef .tc main_v315)) (W47 m ρ c (Proc.devRef .tc main_v313)) (W47 m ρ c (Proc.devRef .tc main_v317)) :=
  (W48_arr m ρ c 6).trans (Regions.final23 (V47 m ρ) c)

theorem out24 (c : Dev nD) : W50 m ρ c (Proc.devRef .tc main_v326) = Cert.Net.node (W49 m ρ c (Proc.devRef .tc main_v321)) (W49 m ρ c (Proc.devRef .tc main_v300)) (W49 m ρ c (Proc.devRef .tc main_v12)) (W49 m ρ c (Proc.devRef .tc main_v323)) (W49 m ρ c (Proc.devRef .tc main_v325)) :=
  (W50_arr m ρ c 5).trans (Regions.final24 (V49 m ρ) c)

theorem out25 (c : Dev nD) : W52 m ρ c (Proc.devRef .tc main_v328) = Cert.Net.linOut (W51 m ρ c (Proc.devRef .tc main_v326)) (W51 m ρ c (Proc.devRef .tc main_v327)) (W51 m ρ c (Proc.devRef .tc main_arg6)) :=
  (W52_arr m ρ c 3).trans (Regions.final25 (V51 m ρ) c)

/-! ## The first linear map, the twelve layers, the last linear map -/

set_option maxHeartbeats 4000000 in
/-- The first region's result is the first linear map of the launch contents. -/
theorem first (c : Dev nD) :
    W2 m ρ c (Proc.devRef .tc main_v14) = Cert.Net.linIn (m ((c : Thread nD τ).loc main_arg0))
      (transpose Cert.ReferenceIdeal.S3x32 [1, 0] (m ((c : Thread nD τ).loc main_arg3)) Cert.ReferenceIdeal.Gen.transposes_S32x3_S3x32_1_0) (m ((c : Thread nD τ).loc main_arg4)) := by
  simp (disch := decide) only [out0 m ρ c, W1, hostOps0, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
/-- Layer 1: the node features after it are the layer function (parameter set 0) of the node features before it. -/
theorem layer0 (c : Dev nD) :
    W6 m ρ c (Proc.devRef .tc main_v40) = Cert.Net.layer0
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W2 m ρ c (Proc.devRef .tc main_v14)) := by
  obtain ⟨h_arg2, h_arg5, h_arg6, h_arg7, h_arg8, h_arg9, h_arg10, h_arg11, h_arg12, h_v1, h_v3, h_v12⟩ := pers0 m ρ c
  simp (disch := decide) only [out1 m ρ c, out2 m ρ c, keep1 m ρ c, W3, W5, hostOps1, hostOps2,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 2: the node features after it are the layer function (parameter set 1) of the node features before it. -/
theorem layer1 (c : Dev nD) :
    W10 m ρ c (Proc.devRef .tc main_v66) = Cert.Net.layer1
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W6 m ρ c (Proc.devRef .tc main_v40)) := by
  obtain ⟨h_arg2, h_arg5, h_arg6, h_arg7, h_arg8, h_arg9, h_arg10, h_arg11, h_arg12, h_v1, h_v3, h_v12⟩ := pers1 m ρ c
  simp (disch := decide) only [out3 m ρ c, out4 m ρ c, keep3 m ρ c, W7, W9, hostOps3, hostOps4,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 3: the node features after it are the layer function (parameter set 2) of the node features before it. -/
theorem layer2 (c : Dev nD) :
    W14 m ρ c (Proc.devRef .tc main_v92) = Cert.Net.layer2
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W10 m ρ c (Proc.devRef .tc main_v66)) := by
  obtain ⟨h_arg2, h_arg5, h_arg6, h_arg7, h_arg8, h_arg9, h_arg10, h_arg11, h_arg12, h_v1, h_v3, h_v12⟩ := pers2 m ρ c
  simp (disch := decide) only [out5 m ρ c, out6 m ρ c, keep5 m ρ c, W11, W13, hostOps5, hostOps6,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 4: the node features after it are the layer function (parameter set 0) of the node features before it. -/
theorem layer3 (c : Dev nD) :
    W18 m ρ c (Proc.devRef .tc main_v118) = Cert.Net.layer0
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W14 m ρ c (Proc.devRef .tc main_v92)) := by
  obtain ⟨h_arg2, h_arg5, h_arg6, h_arg7, h_arg8, h_arg9, h_arg10, h_arg11, h_arg12, h_v1, h_v3, h_v12⟩ := pers3 m ρ c
  simp (disch := decide) only [out7 m ρ c, out8 m ρ c, keep7 m ρ c, W15, W17, hostOps7, hostOps8,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 5: the node features after it are the layer function (parameter set 1) of the node features before it. -/
theorem layer4 (c : Dev nD) :
    W22 m ρ c (Proc.devRef .tc main_v144) = Cert.Net.layer1
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W18 m ρ c (Proc.devRef .tc main_v118)) := by
  obtain ⟨h_arg2, h_arg5, h_arg6, h_arg7, h_arg8, h_arg9, h_arg10, h_arg11, h_arg12, h_v1, h_v3, h_v12⟩ := pers4 m ρ c
  simp (disch := decide) only [out9 m ρ c, out10 m ρ c, keep9 m ρ c, W19, W21, hostOps9, hostOps10,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 6: the node features after it are the layer function (parameter set 2) of the node features before it. -/
theorem layer5 (c : Dev nD) :
    W26 m ρ c (Proc.devRef .tc main_v170) = Cert.Net.layer2
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W22 m ρ c (Proc.devRef .tc main_v144)) := by
  obtain ⟨h_arg2, h_arg5, h_arg6, h_arg7, h_arg8, h_arg9, h_arg10, h_arg11, h_arg12, h_v1, h_v3, h_v12⟩ := pers5 m ρ c
  simp (disch := decide) only [out11 m ρ c, out12 m ρ c, keep11 m ρ c, W23, W25, hostOps11, hostOps12,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 7: the node features after it are the layer function (parameter set 0) of the node features before it. -/
theorem layer6 (c : Dev nD) :
    W30 m ρ c (Proc.devRef .tc main_v196) = Cert.Net.layer0
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W26 m ρ c (Proc.devRef .tc main_v170)) := by
  obtain ⟨h_arg2, h_arg5, h_arg6, h_arg7, h_arg8, h_arg9, h_arg10, h_arg11, h_arg12, h_v1, h_v3, h_v12⟩ := pers6 m ρ c
  simp (disch := decide) only [out13 m ρ c, out14 m ρ c, keep13 m ρ c, W27, W29, hostOps13, hostOps14,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 8: the node features after it are the layer function (parameter set 1) of the node features before it. -/
theorem layer7 (c : Dev nD) :
    W34 m ρ c (Proc.devRef .tc main_v222) = Cert.Net.layer1
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W30 m ρ c (Proc.devRef .tc main_v196)) := by
  obtain ⟨h_arg2, h_arg5, h_arg6, h_arg7, h_arg8, h_arg9, h_arg10, h_arg11, h_arg12, h_v1, h_v3, h_v12⟩ := pers7 m ρ c
  simp (disch := decide) only [out15 m ρ c, out16 m ρ c, keep15 m ρ c, W31, W33, hostOps15, hostOps16,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 9: the node features after it are the layer function (parameter set 2) of the node features before it. -/
theorem layer8 (c : Dev nD) :
    W38 m ρ c (Proc.devRef .tc main_v248) = Cert.Net.layer2
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W34 m ρ c (Proc.devRef .tc main_v222)) := by
  obtain ⟨h_arg2, h_arg5, h_arg6, h_arg7, h_arg8, h_arg9, h_arg10, h_arg11, h_arg12, h_v1, h_v3, h_v12⟩ := pers8 m ρ c
  simp (disch := decide) only [out17 m ρ c, out18 m ρ c, keep17 m ρ c, W35, W37, hostOps17, hostOps18,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 10: the node features after it are the layer function (parameter set 0) of the node features before it. -/
theorem layer9 (c : Dev nD) :
    W42 m ρ c (Proc.devRef .tc main_v274) = Cert.Net.layer0
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W38 m ρ c (Proc.devRef .tc main_v248)) := by
  obtain ⟨h_arg2, h_arg5, h_arg6, h_arg7, h_arg8, h_arg9, h_arg10, h_arg11, h_arg12, h_v1, h_v3, h_v12⟩ := pers9 m ρ c
  simp (disch := decide) only [out19 m ρ c, out20 m ρ c, keep19 m ρ c, W39, W41, hostOps19, hostOps20,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 11: the node features after it are the layer function (parameter set 1) of the node features before it. -/
theorem layer10 (c : Dev nD) :
    W46 m ρ c (Proc.devRef .tc main_v300) = Cert.Net.layer1
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W42 m ρ c (Proc.devRef .tc main_v274)) := by
  obtain ⟨h_arg2, h_arg5, h_arg6, h_arg7, h_arg8, h_arg9, h_arg10, h_arg11, h_arg12, h_v1, h_v3, h_v12⟩ := pers10 m ρ c
  simp (disch := decide) only [out21 m ρ c, out22 m ρ c, keep21 m ρ c, W43, W45, hostOps21, hostOps22,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- Layer 12: the node features after it are the layer function (parameter set 2) of the node features before it. -/
theorem layer11 (c : Dev nD) :
    W50 m ρ c (Proc.devRef .tc main_v326) = Cert.Net.layer2
      (m ((c : Thread nD τ).loc main_arg2)) (Cert.Net.srcOf (m ((c : Thread nD τ).loc main_arg1))) (Cert.Net.dstOf (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (W46 m ρ c (Proc.devRef .tc main_v300)) := by
  obtain ⟨h_arg2, h_arg5, h_arg6, h_arg7, h_arg8, h_arg9, h_arg10, h_arg11, h_arg12, h_v1, h_v3, h_v12⟩ := pers11 m ρ c
  simp (disch := decide) only [out23 m ρ c, out24 m ρ c, keep23 m ρ c, W47, W49, hostOps23, hostOps24,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]
  rfl

set_option maxHeartbeats 4000000 in
/-- The last region's result is the last linear map of the twelfth layer's node features. -/
theorem last (c : Dev nD) :
    W52 m ρ c (Proc.devRef .tc main_v328) = Cert.Net.linOut (W50 m ρ c (Proc.devRef .tc main_v326))
      (transpose Cert.ReferenceIdeal.S32x1 [1, 0] (m ((c : Thread nD τ).loc main_arg5)) Cert.ReferenceIdeal.Gen.transposes_S1x32_S32x1_1_0) (m ((c : Thread nD τ).loc main_arg6)) := by
  obtain ⟨h_arg2, h_arg5, h_arg6, h_arg7, h_arg8, h_arg9, h_arg10, h_arg11, h_arg12, h_v1, h_v3, h_v12⟩ := pers12 m ρ c
  simp (disch := decide) only [out25 m ρ c, W51, hostOps25, List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    h_arg2, h_arg5, h_arg6, h_arg7, h_arg8, h_arg9, h_arg10, h_arg11, h_arg12, h_v1, h_v3, h_v12]

/-- THE RESULT: the result buffer at the last boundary is the network of the launch contents of the arguments. -/
theorem value (c : Dev nD) :
    W52 m ρ c (Proc.devRef .tc main_v328) = Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [last, layer11, layer10, layer9, layer8, layer7, layer6, layer5, layer4, layer3, layer2, layer1, layer0, first]
  rfl

end Cert.KernelIdeal.KernelValue

end
-- ==== Proof.RefRunWin0.lean ====
/-
  The reference's @main runs its statements 1 … 60 as the straight line of the operations 1 … 62: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps0

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 1 … 60 of @main, on any device, are the line of the operations 1 … 62. -/
theorem part0_eq (c : Dev nD) : main_part0 (F := F) c = seq ops0 := rfl

set_option maxRecDepth 8192 in
/-- Each of the operations 1 … 62 determines its results. -/
theorem ops0_fresh : ∀ op ∈ (ops0 : List (HloOp τ sig (Elt F))), op.fresh = ∅ := by
  intro _ h; (repeat (cases h with | head => rfl | tail _ h => ?_)); exact nomatch h

end Cert.ReferenceIdeal.OpsList

end
-- ==== Proof.RefRunWin1.lean ====
/-
  The reference's @main runs its statements 61 … 120 as the straight line of the operations 63 … 128: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps1

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 61 … 120 of @main, on any device, are the line of the operations 63 … 128. -/
theorem part1_eq (c : Dev nD) : main_part1 (F := F) c = seq ops1 := rfl

set_option maxRecDepth 8192 in
/-- Each of the operations 63 … 128 determines its results. -/
theorem ops1_fresh : ∀ op ∈ (ops1 : List (HloOp τ sig (Elt F))), op.fresh = ∅ := by
  intro _ h; (repeat (cases h with | head => rfl | tail _ h => ?_)); exact nomatch h

end Cert.ReferenceIdeal.OpsList

end
-- ==== Proof.RefRunWin2.lean ====
/-
  The reference's @main runs its statements 121 … 180 as the straight line of the operations 129 … 194: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps2

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 121 … 180 of @main, on any device, are the line of the operations 129 … 194. -/
theorem part2_eq (c : Dev nD) : main_part2 (F := F) c = seq ops2 := rfl

set_option maxRecDepth 8192 in
/-- Each of the operations 129 … 194 determines its results. -/
theorem ops2_fresh : ∀ op ∈ (ops2 : List (HloOp τ sig (Elt F))), op.fresh = ∅ := by
  intro _ h; (repeat (cases h with | head => rfl | tail _ h => ?_)); exact nomatch h

end Cert.ReferenceIdeal.OpsList

end
-- ==== Proof.RefRunWin3.lean ====
/-
  The reference's @main runs its statements 181 … 240 as the straight line of the operations 195 … 258: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps3

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 181 … 240 of @main, on any device, are the line of the operations 195 … 258. -/
theorem part3_eq (c : Dev nD) : main_part3 (F := F) c = seq ops3 := rfl

set_option maxRecDepth 8192 in
/-- Each of the operations 195 … 258 determines its results. -/
theorem ops3_fresh : ∀ op ∈ (ops3 : List (HloOp τ sig (Elt F))), op.fresh = ∅ := by
  intro _ h; (repeat (cases h with | head => rfl | tail _ h => ?_)); exact nomatch h

end Cert.ReferenceIdeal.OpsList

end
-- ==== Proof.RefRunWin4.lean ====
/-
  The reference's @main runs its statements 241 … 300 as the straight line of the operations 259 … 324: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps4

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 241 … 300 of @main, on any device, are the line of the operations 259 … 324. -/
theorem part4_eq (c : Dev nD) : main_part4 (F := F) c = seq ops4 := rfl

set_option maxRecDepth 8192 in
/-- Each of the operations 259 … 324 determines its results. -/
theorem ops4_fresh : ∀ op ∈ (ops4 : List (HloOp τ sig (Elt F))), op.fresh = ∅ := by
  intro _ h; (repeat (cases h with | head => rfl | tail _ h => ?_)); exact nomatch h

end Cert.ReferenceIdeal.OpsList

end
-- ==== Proof.RefRunWin5.lean ====
/-
  The reference's @main runs its statements 301 … 360 as the straight line of the operations 325 … 390: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps5

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 301 … 360 of @main, on any device, are the line of the operations 325 … 390. -/
theorem part5_eq (c : Dev nD) : main_part5 (F := F) c = seq ops5 := rfl

set_option maxRecDepth 8192 in
/-- Each of the operations 325 … 390 determines its results. -/
theorem ops5_fresh : ∀ op ∈ (ops5 : List (HloOp τ sig (Elt F))), op.fresh = ∅ := by
  intro _ h; (repeat (cases h with | head => rfl | tail _ h => ?_)); exact nomatch h

end Cert.ReferenceIdeal.OpsList

end
-- ==== Proof.RefRunWin6.lean ====
/-
  The reference's @main runs its statements 361 … 420 as the straight line of the operations 391 … 454: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps6

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 361 … 420 of @main, on any device, are the line of the operations 391 … 454. -/
theorem part6_eq (c : Dev nD) : main_part6 (F := F) c = seq ops6 := rfl

set_option maxRecDepth 8192 in
/-- Each of the operations 391 … 454 determines its results. -/
theorem ops6_fresh : ∀ op ∈ (ops6 : List (HloOp τ sig (Elt F))), op.fresh = ∅ := by
  intro _ h; (repeat (cases h with | head => rfl | tail _ h => ?_)); exact nomatch h

end Cert.ReferenceIdeal.OpsList

end
-- ==== Proof.RefRunWin7.lean ====
/-
  The reference's @main runs its statements 421 … 480 as the straight line of the operations 455 … 518: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps7

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 421 … 480 of @main, on any device, are the line of the operations 455 … 518. -/
theorem part7_eq (c : Dev nD) : main_part7 (F := F) c = seq ops7 := rfl

set_option maxRecDepth 8192 in
/-- Each of the operations 455 … 518 determines its results. -/
theorem ops7_fresh : ∀ op ∈ (ops7 : List (HloOp τ sig (Elt F))), op.fresh = ∅ := by
  intro _ h; (repeat (cases h with | head => rfl | tail _ h => ?_)); exact nomatch h

end Cert.ReferenceIdeal.OpsList

end
-- ==== Proof.RefRunWin8.lean ====
/-
  The reference's @main runs its statements 481 … 540 as the straight line of the operations 519 … 586: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps8

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 481 … 540 of @main, on any device, are the line of the operations 519 … 586. -/
theorem part8_eq (c : Dev nD) : main_part8 (F := F) c = seq ops8 := rfl

set_option maxRecDepth 8192 in
/-- Each of the operations 519 … 586 determines its results. -/
theorem ops8_fresh : ∀ op ∈ (ops8 : List (HloOp τ sig (Elt F))), op.fresh = ∅ := by
  intro _ h; (repeat (cases h with | head => rfl | tail _ h => ?_)); exact nomatch h

end Cert.ReferenceIdeal.OpsList

end
-- ==== Proof.RefRunWin9.lean ====
/-
  The reference's @main runs its statements 541 … 579 as the straight line of the operations 587 … 626: a statement
  that is one host operation is that operation continued by nothing, and a call of the outlined rectifier is its body's
  three operations (the zero constant, its broadcast, the maximum) over the call's own buffers. Both sides unfold to the
  same chain of `hlo` steps, the return after the last one absorbed by the bind's unit law on constructors. None of the
  operations allocates: each determines its results.
-/
import proofs.«163905_j57775900066584_1_alg».proof.Proof.RefOps9

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Statements 541 … 579 of @main, on any device, are the line of the operations 587 … 626. -/
theorem part9_eq (c : Dev nD) : main_part9 (F := F) c = seq ops9 := rfl

set_option maxRecDepth 8192 in
/-- Each of the operations 587 … 626 determines its results. -/
theorem ops9_fresh : ∀ op ∈ (ops9 : List (HloOp τ sig (Elt F))), op.fresh = ∅ := by
  intro _ h; (repeat (cases h with | head => rfl | tail _ h => ?_)); exact nomatch h

end Cert.ReferenceIdeal.OpsList

end
-- ==== Proof.RefRunSeq.lean ====
/-
  The reference's @main as ONE straight line of its 626 host operations, and its run. @main runs its ten windows in
  order, and each window is the line of its own operations; two lines run one after the other are their concatenation run
  as one, so @main is the line of the ten lists joined. Every operation touches TensorCore references only and determines
  its results — both hold list by list, hence for the join —, and the signature scopes no buffer and no semaphore: so
  every weakly fair execution terminates with each TensorCore buffer at the fold of the operations' results over the
  launch contents.
-/
import proofs.«163905_j57775900066584_1_alg».proof.Proof.RefRunWin0
import proofs.«163905_j57775900066584_1_alg».proof.Proof.RefRunWin1
import proofs.«163905_j57775900066584_1_alg».proof.Proof.RefRunWin2
import proofs.«163905_j57775900066584_1_alg».proof.Proof.RefRunWin3
import proofs.«163905_j57775900066584_1_alg».proof.Proof.RefRunWin4
import proofs.«163905_j57775900066584_1_alg».proof.Proof.RefRunWin5
import proofs.«163905_j57775900066584_1_alg».proof.Proof.RefRunWin6
import proofs.«163905_j57775900066584_1_alg».proof.Proof.RefRunWin7
import proofs.«163905_j57775900066584_1_alg».proof.Proof.RefRunWin8
import proofs.«163905_j57775900066584_1_alg».proof.Proof.RefRunWin9

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

/-- @main's 626 operations, in order: the ten windows' lists joined. -/
def allOps : List (HloOp τ sig (Elt F)) :=
  ops0 ++ (ops1 ++ (ops2 ++ (ops3 ++ (ops4 ++ (ops5 ++ (ops6 ++ (ops7 ++ (ops8 ++ (ops9)))))))))

/-- @main, on any device, is the line of all its operations. -/
theorem main_eq (c : Dev nD) : main (F := F) c = seq allOps := by
  unfold allOps
  simp only [seq_append]
  rw [← part0_eq c, ← part1_eq c, ← part2_eq c, ← part3_eq c, ← part4_eq c, ← part5_eq c, ← part6_eq c, ← part7_eq c,
    ← part8_eq c, ← part9_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of @main touches TensorCore references only. -/
theorem allOps_sub : (allOps : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, List.forall_append.2 ⟨ops5_sub, List.forall_append.2 ⟨ops6_sub, List.forall_append.2 ⟨ops7_sub, List.forall_append.2 ⟨ops8_sub, ops9_sub⟩⟩⟩⟩⟩⟩⟩⟩⟩

/-- Every operation of @main determines its results. -/
theorem allOps_fresh : ∀ op ∈ (allOps : List (HloOp τ sig (Elt F))), op.fresh = ∅ := by
  intro op h
  simp only [allOps, List.mem_append] at h
  rcases h with h | h | h | h | h | h | h | h | h | h
  exacts [ops0_fresh op h, ops1_fresh op h, ops2_fresh op h, ops3_fresh op h, ops4_fresh op h, ops5_fresh op h,
    ops6_fresh op h, ops7_fresh op h, ops8_fresh op h, ops9_fresh op h]

/-- On every device, for any float values, from any memory with zero counters: every weakly fair execution of @main
    terminates with each TensorCore buffer at the fold of the 626 operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after allOps (launchContents m d) (Proc.devRef .tc b) :=
  run_seq scopedRefs_eq scopedSems_eq defs main (fun _ => allOps) main_eq (fun _ => allOps_sub) m ρ
    (fun _ => allOps_fresh)

end Cert.ReferenceIdeal.OpsList

end
-- ==== Proof.RefRunLays.lean ====
/-
  @main's operations grouped by what they compute: the operations 1 … 21 (the edge list's two rows, the reciprocal
  in-degrees, the first linear map), twelve groups of fifty (one message-passing layer each: the gather index, the gather,
  the edge perceptron, the product, the scatter-add, the update), and the last five (the final linear map). The fold of a join of two lists over given contents is the fold
  of the second list, started from the fold of the first.
-/
import proofs.«163905_j57775900066584_1_alg».proof.Proof.RefOpsCut0
import proofs.«163905_j57775900066584_1_alg».proof.Proof.RefOpsCut1
import proofs.«163905_j57775900066584_1_alg».proof.Proof.RefOpsCut2
import proofs.«163905_j57775900066584_1_alg».proof.Proof.RefOpsCut3
import proofs.«163905_j57775900066584_1_alg».proof.Proof.RefOpsCut4
import proofs.«163905_j57775900066584_1_alg».proof.Proof.RefOpsCut5
import proofs.«163905_j57775900066584_1_alg».proof.Proof.RefOpsCut6
import proofs.«163905_j57775900066584_1_alg».proof.Proof.RefOpsCut7
import proofs.«163905_j57775900066584_1_alg».proof.Proof.RefOpsCut8
import proofs.«163905_j57775900066584_1_alg».proof.Proof.RefOpsCut9

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

/-- The contents after a join of two lines: the second line's fold, from the first line's. -/
theorem after_append (a b : List (HloOp τ sig (Elt F))) (V : Valuation τ sig (Elt F)) :
    after (a ++ b) V = after b (after a V) := by
  induction a generalizing V with
  | nil => rfl
  | cons op a ih => simp only [List.cons_append, after_cons, ih]

/-- Operations 1 … 21: the index rows, the reciprocal in-degrees, the first linear map. -/
def lay0 : List (HloOp τ sig (Elt F)) := pc0

/-- Operations 22 … 71: message-passing layer 1. -/
def lay1 : List (HloOp τ sig (Elt F)) := pc21 ++ (pc62)

/-- Operations 72 … 121: message-passing layer 2. -/
def lay2 : List (HloOp τ sig (Elt F)) := pc71

/-- Operations 122 … 171: message-passing layer 3. -/
def lay3 : List (HloOp τ sig (Elt F)) := pc121 ++ (pc128)

/-- Operations 172 … 221: message-passing layer 4. -/
def lay4 : List (HloOp τ sig (Elt F)) := pc171 ++ (pc194)

/-- Operations 222 … 271: message-passing layer 5. -/
def lay5 : List (HloOp τ sig (Elt F)) := pc221 ++ (pc258)

/-- Operations 272 … 321: message-passing layer 6. -/
def lay6 : List (HloOp τ sig (Elt F)) := pc271

/-- Operations 322 … 371: message-passing layer 7. -/
def lay7 : List (HloOp τ sig (Elt F)) := pc321 ++ (pc324)

/-- Operations 372 … 421: message-passing layer 8. -/
def lay8 : List (HloOp τ sig (Elt F)) := pc371 ++ (pc390)

/-- Operations 422 … 471: message-passing layer 9. -/
def lay9 : List (HloOp τ sig (Elt F)) := pc421 ++ (pc454)

/-- Operations 472 … 521: message-passing layer 10. -/
def lay10 : List (HloOp τ sig (Elt F)) := pc471 ++ (pc518)

/-- Operations 522 … 571: message-passing layer 11. -/
def lay11 : List (HloOp τ sig (Elt F)) := pc521

/-- Operations 572 … 621: message-passing layer 12. -/
def lay12 : List (HloOp τ sig (Elt F)) := pc571 ++ (pc586)

/-- Operations 622 … 626: the last linear map. -/
def lay13 : List (HloOp τ sig (Elt F)) := pc621

end Cert.ReferenceIdeal.OpsList

end
-- ==== Proof.RefRunCut.lean ====
/-
  The ten windows' lists joined are the fourteen groups' lists joined: each window's list is, entry for entry, its own
  pieces in order, and both joins are then the same pieces in the same order — joining lists is associative.
-/
import proofs.«163905_j57775900066584_1_alg».proof.Proof.RefRunSeq
import proofs.«163905_j57775900066584_1_alg».proof.Proof.RefRunLays

noncomputable section

namespace Cert.ReferenceIdeal.OpsList

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The list of @main's statements 1 … 60 is its pieces, in order. -/
theorem ops0_cut : (ops0 : List (HloOp τ sig (Elt F))) = pc0 ++ (pc21) := rfl

set_option maxRecDepth 8192 in
/-- The list of @main's statements 61 … 120 is its pieces, in order. -/
theorem ops1_cut : (ops1 : List (HloOp τ sig (Elt F))) = pc62 ++ (pc71 ++ (pc121)) := rfl

set_option maxRecDepth 8192 in
/-- The list of @main's statements 121 … 180 is its pieces, in order. -/
theorem ops2_cut : (ops2 : List (HloOp τ sig (Elt F))) = pc128 ++ (pc171) := rfl

set_option maxRecDepth 8192 in
/-- The list of @main's statements 181 … 240 is its pieces, in order. -/
theorem ops3_cut : (ops3 : List (HloOp τ sig (Elt F))) = pc194 ++ (pc221) := rfl

set_option maxRecDepth 8192 in
/-- The list of @main's statements 241 … 300 is its pieces, in order. -/
theorem ops4_cut : (ops4 : List (HloOp τ sig (Elt F))) = pc258 ++ (pc271 ++ (pc321)) := rfl

set_option maxRecDepth 8192 in
/-- The list of @main's statements 301 … 360 is its pieces, in order. -/
theorem ops5_cut : (ops5 : List (HloOp τ sig (Elt F))) = pc324 ++ (pc371) := rfl

set_option maxRecDepth 8192 in
/-- The list of @main's statements 361 … 420 is its pieces, in order. -/
theorem ops6_cut : (ops6 : List (HloOp τ sig (Elt F))) = pc390 ++ (pc421) := rfl

set_option maxRecDepth 8192 in
/-- The list of @main's statements 421 … 480 is its pieces, in order. -/
theorem ops7_cut : (ops7 : List (HloOp τ sig (Elt F))) = pc454 ++ (pc471) := rfl

set_option maxRecDepth 8192 in
/-- The list of @main's statements 481 … 540 is its pieces, in order. -/
theorem ops8_cut : (ops8 : List (HloOp τ sig (Elt F))) = pc518 ++ (pc521 ++ (pc571)) := rfl

set_option maxRecDepth 8192 in
/-- The list of @main's statements 541 … 579 is its pieces, in order. -/
theorem ops9_cut : (ops9 : List (HloOp τ sig (Elt F))) = pc586 ++ (pc621) := rfl

/-- @main's 626 operations are the fourteen groups, in order. -/
theorem allOps_eq_lay : (allOps : List (HloOp τ sig (Elt F)))
    = lay0 ++ (lay1 ++ (lay2 ++ (lay3 ++ (lay4 ++ (lay5 ++ (lay6 ++ (lay7 ++ (lay8 ++ (lay9 ++ (lay10 ++ (lay11 ++ (lay12 ++ (lay13))))))))))))) := by
  unfold allOps lay0 lay1 lay2 lay3 lay4 lay5 lay6 lay7 lay8 lay9 lay10 lay11 lay12 lay13
  rw [ops0_cut, ops1_cut, ops2_cut, ops3_cut, ops4_cut, ops5_cut, ops6_cut, ops7_cut, ops8_cut, ops9_cut]
  simp only [List.append_assoc]

end Cert.ReferenceIdeal.OpsList

end
-- ==== Proof.RefRunLay0.lean ====
/-
  The operations 1 … 21 of the reference, run from any contents: they leave every argument's buffer as it was, and write
  the edge list's two rows (`Net.srcOf`, `Net.dstOf` of the edge list), the reciprocal in-degrees (`Net.invDeg` of the
  destinations) and the node features through the first linear map (`Net.linIn`), each spelt operation for operation as
  the program computes it.
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

set_option maxRecDepth 16384 in
set_option maxHeartbeats 40000000 in
/-- From contents holding the arguments: the index rows, the reciprocal in-degrees and the first linear map's output, the arguments unchanged. -/
theorem lay0_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32}
    (W : Valuation τ sig (Elt Ideal))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12) :
    after (lay0 (F := Ideal)) W (Proc.devRef .tc main_v1) = srcOf a1
      ∧ after (lay0 (F := Ideal)) W (Proc.devRef .tc main_v3) = dstOf a1
      ∧ after (lay0 (F := Ideal)) W (Proc.devRef .tc main_v11) = invDeg (dstOf a1)
      ∧ after (lay0 (F := Ideal)) W (Proc.devRef .tc main_arg0) = a0
      ∧ after (lay0 (F := Ideal)) W (Proc.devRef .tc main_arg1) = a1
      ∧ after (lay0 (F := Ideal)) W (Proc.devRef .tc main_arg2) = a2
      ∧ after (lay0 (F := Ideal)) W (Proc.devRef .tc main_arg3) = a3
      ∧ after (lay0 (F := Ideal)) W (Proc.devRef .tc main_arg4) = a4
      ∧ after (lay0 (F := Ideal)) W (Proc.devRef .tc main_arg5) = a5
      ∧ after (lay0 (F := Ideal)) W (Proc.devRef .tc main_arg6) = a6
      ∧ after (lay0 (F := Ideal)) W (Proc.devRef .tc main_arg7) = a7
      ∧ after (lay0 (F := Ideal)) W (Proc.devRef .tc main_arg8) = a8
      ∧ after (lay0 (F := Ideal)) W (Proc.devRef .tc main_arg9) = a9
      ∧ after (lay0 (F := Ideal)) W (Proc.devRef .tc main_arg10) = a10
      ∧ after (lay0 (F := Ideal)) W (Proc.devRef .tc main_arg11) = a11
      ∧ after (lay0 (F := Ideal)) W (Proc.devRef .tc main_arg12) = a12
      ∧ after (lay0 (F := Ideal)) W (Proc.devRef .tc main_v16) = linIn a0 (transpose S3x32 [1, 0] a3 transposes_S32x3_S3x32_1_0) a4 := by
  unfold lay0
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    h0, h1, h2, h3, h4, h5, h6, h7, h8, h9, h10, h11, h12]
  and_intros
  all_goals first | exact True.intro | rfl

end Cert.ReferenceIdeal.RefRun

end
-- ==== Proof.RefRunLay1.lean ====
/-
  Message-passing layer 1 of the reference (the operations 22 … 71), run from contents that hold the edge
  list's two rows, the reciprocal in-degrees, the arguments and the node features `H`: it leaves those buffers as they were
  and writes `Net.layer0 … H` — gather by the wrapped source index, the edge perceptron's output times the gathered rows,
  the scatter-add onto the destinations, and the update, with parameter set 0 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call0_cst`'s buffer type are contents at the tensor type `⟨S_, .f32⟩`: the two types are the same. -/
theorem toBuf_call0_cst (h p q) (v : (⟨S_, .f32⟩ : BufTy).Contents (Elt Ideal)) :
    (TRef.of (sig := sig) (T := ⟨S_, .f32⟩) main_call0_cst h p q).toBuf (Val := Elt Ideal) v = v := rfl
@[inherit_doc toBuf_call0_cst]
theorem ofBuf_call0_cst (h p q) (v : (⟨S_, .f32⟩ : BufTy).Contents (Elt Ideal)) :
    (TRef.of (sig := sig) (T := ⟨S_, .f32⟩) main_call0_cst h p q).ofBuf (Val := Elt Ideal) v = v := rfl
/-- Contents at `main_call0_v0`'s buffer type are contents at the tensor type `⟨S1600000x8, .f32⟩`: the two types are the same. -/
theorem toBuf_call0_v0 (h p q) (v : (⟨S1600000x8, .f32⟩ : BufTy).Contents (Elt Ideal)) :
    (TRef.of (sig := sig) (T := ⟨S1600000x8, .f32⟩) main_call0_v0 h p q).toBuf (Val := Elt Ideal) v = v := rfl
@[inherit_doc toBuf_call0_v0]
theorem ofBuf_call0_v0 (h p q) (v : (⟨S1600000x8, .f32⟩ : BufTy).Contents (Elt Ideal)) :
    (TRef.of (sig := sig) (T := ⟨S1600000x8, .f32⟩) main_call0_v0 h p q).ofBuf (Val := Elt Ideal) v = v := rfl
/-- Contents at `main_v25`'s buffer type are contents at the tensor type `⟨S1600000x8, .f32⟩`: the two types are the same. -/
theorem toBuf_v25 (h p q) (v : (⟨S1600000x8, .f32⟩ : BufTy).Contents (Elt Ideal)) :
    (TRef.of (sig := sig) (T := ⟨S1600000x8, .f32⟩) main_v25 h p q).toBuf (Val := Elt Ideal) v = v := rfl
@[inherit_doc toBuf_v25]
theorem ofBuf_v25 (h p q) (v : (⟨S1600000x8, .f32⟩ : BufTy).Contents (Elt Ideal)) :
    (TRef.of (sig := sig) (T := ⟨S1600000x8, .f32⟩) main_v25 h p q).ofBuf (Val := Elt Ideal) v = v := rfl
/-- Contents at `main_v26`'s buffer type are contents at the tensor type `⟨S1600000x8, .f32⟩`: the two types are the same. -/
theorem toBuf_v26 (h p q) (v : (⟨S1600000x8, .f32⟩ : BufTy).Contents (Elt Ideal)) :
    (TRef.of (sig := sig) (T := ⟨S1600000x8, .f32⟩) main_v26 h p q).toBuf (Val := Elt Ideal) v = v := rfl
@[inherit_doc toBuf_v26]
theorem ofBuf_v26 (h p q) (v : (⟨S1600000x8, .f32⟩ : BufTy).Contents (Elt Ideal)) :
    (TRef.of (sig := sig) (T := ⟨S1600000x8, .f32⟩) main_v26 h p q).ofBuf (Val := Elt Ideal) v = v := rfl
/-- Contents at `main_call1_cst`'s buffer type are contents at the tensor type `⟨S_, .f32⟩`: the two types are the same. -/
theorem toBuf_call1_cst (h p q) (v : (⟨S_, .f32⟩ : BufTy).Contents (Elt Ideal)) :
    (TRef.of (sig := sig) (T := ⟨S_, .f32⟩) main_call1_cst h p q).toBuf (Val := Elt Ideal) v = v := rfl
@[inherit_doc toBuf_call1_cst]
theorem ofBuf_call1_cst (h p q) (v : (⟨S_, .f32⟩ : BufTy).Contents (Elt Ideal)) :
    (TRef.of (sig := sig) (T := ⟨S_, .f32⟩) main_call1_cst h p q).ofBuf (Val := Elt Ideal) v = v := rfl
/-- Contents at `main_call1_v0`'s buffer type are contents at the tensor type `⟨S50000x32, .f32⟩`: the two types are the same. -/
theorem toBuf_call1_v0 (h p q) (v : (⟨S50000x32, .f32⟩ : BufTy).Contents (Elt Ideal)) :
    (TRef.of (sig := sig) (T := ⟨S50000x32, .f32⟩) main_call1_v0 h p q).toBuf (Val := Elt Ideal) v = v := rfl
@[inherit_doc toBuf_call1_v0]
theorem ofBuf_call1_v0 (h p q) (v : (⟨S50000x32, .f32⟩ : BufTy).Contents (Elt Ideal)) :
    (TRef.of (sig := sig) (T := ⟨S50000x32, .f32⟩) main_call1_v0 h p q).ofBuf (Val := Elt Ideal) v = v := rfl
/-- Contents at `main_v58`'s buffer type are contents at the tensor type `⟨S50000x32, .f32⟩`: the two types are the same. -/
theorem toBuf_v58 (h p q) (v : (⟨S50000x32, .f32⟩ : BufTy).Contents (Elt Ideal)) :
    (TRef.of (sig := sig) (T := ⟨S50000x32, .f32⟩) main_v58 h p q).toBuf (Val := Elt Ideal) v = v := rfl
@[inherit_doc toBuf_v58]
theorem ofBuf_v58 (h p q) (v : (⟨S50000x32, .f32⟩ : BufTy).Contents (Elt Ideal)) :
    (TRef.of (sig := sig) (T := ⟨S50000x32, .f32⟩) main_v58 h p q).ofBuf (Val := Elt Ideal) v = v := rfl
/-- Contents at `main_v59`'s buffer type are contents at the tensor type `⟨S50000x32, .f32⟩`: the two types are the same. -/
theorem toBuf_v59 (h p q) (v : (⟨S50000x32, .f32⟩ : BufTy).Contents (Elt Ideal)) :
    (TRef.of (sig := sig) (T := ⟨S50000x32, .f32⟩) main_v59 h p q).toBuf (Val := Elt Ideal) v = v := rfl
@[inherit_doc toBuf_v59]
theorem ofBuf_v59 (h p q) (v : (⟨S50000x32, .f32⟩ : BufTy).Contents (Elt Ideal)) :
    (TRef.of (sig := sig) (T := ⟨S50000x32, .f32⟩) main_v59 h p q).ofBuf (Val := Elt Ideal) v = v := rfl

set_option maxRecDepth 16384 in
set_option maxHeartbeats 40000000 in
/-- Layer 1: the index rows, the reciprocal in-degrees and the arguments unchanged, the new node features `Net.layer0` of the old. -/
theorem lay1_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v16) = H) :
    after (lay1 (F := Ideal)) W (Proc.devRef .tc main_v1) = srcOf a1
      ∧ after (lay1 (F := Ideal)) W (Proc.devRef .tc main_v3) = dstOf a1
      ∧ after (lay1 (F := Ideal)) W (Proc.devRef .tc main_v11) = invDeg (dstOf a1)
      ∧ after (lay1 (F := Ideal)) W (Proc.devRef .tc main_arg0) = a0
      ∧ after (lay1 (F := Ideal)) W (Proc.devRef .tc main_arg1) = a1
      ∧ after (lay1 (F := Ideal)) W (Proc.devRef .tc main_arg2) = a2
      ∧ after (lay1 (F := Ideal)) W (Proc.devRef .tc main_arg3) = a3
      ∧ after (lay1 (F := Ideal)) W (Proc.devRef .tc main_arg4) = a4
      ∧ after (lay1 (F := Ideal)) W (Proc.devRef .tc main_arg5) = a5
      ∧ after (lay1 (F := Ideal)) W (Proc.devRef .tc main_arg6) = a6
      ∧ after (lay1 (F := Ideal)) W (Proc.devRef .tc main_arg7) = a7
      ∧ after (lay1 (F := Ideal)) W (Proc.devRef .tc main_arg8) = a8
      ∧ after (lay1 (F := Ideal)) W (Proc.devRef .tc main_arg9) = a9
      ∧ after (lay1 (F := Ideal)) W (Proc.devRef .tc main_arg10) = a10
      ∧ after (lay1 (F := Ideal)) W (Proc.devRef .tc main_arg11) = a11
      ∧ after (lay1 (F := Ideal)) W (Proc.devRef .tc main_arg12) = a12
      ∧ after (lay1 (F := Ideal)) W (Proc.devRef .tc main_v59) = layer0 a2 (srcOf a1) (dstOf a1) a7 a8 a9 a10 a11 a12 H := by
  unfold lay1
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call0_cst, ofBuf_call0_cst, toBuf_call0_v0, ofBuf_call0_v0, toBuf_v25, ofBuf_v25, toBuf_v26, ofBuf_v26, toBuf_call1_cst, ofBuf_call1_cst, toBuf_call1_v0, ofBuf_call1_v0, toBuf_v58, ofBuf_v58, toBuf_v59, ofBuf_v59]
  and_intros
  all_goals first | exact True.intro | rfl

end Cert.ReferenceIdeal.RefRun

end
-- ==== Proof.RefRunLay2.lean ====
/-
  Message-passing layer 2 of the reference (the operations 72 … 121), run from contents that hold the edge
  list's two rows, the reciprocal in-degrees, the arguments and the node features `H`: it leaves those buffers as they were
  and writes `Net.layer1 … H` — gather by the wrapped source index, the edge perceptron's output times the gathered rows,
  the scatter-add onto the destinations, and the update, with parameter set 1 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call2_cst`'s buffer type are contents at the tensor type `⟨S_, .f32⟩`: the two types are the same. -/
theorem toBuf_call2_cst (h p q) (v : (⟨S_, .f32⟩ : BufTy).Contents (Elt Ideal)) :
    (TRef.of (sig := sig) (T := ⟨S_, .f32⟩) main_call2_cst h p q).toBuf (Val := Elt Ideal) v = v := rfl
@[inherit_doc toBuf_call2_cst]
theorem ofBuf_call2_cst (h p q) (v : (⟨S_, .f32⟩ : BufTy).Contents (Elt Ideal)) :
    (TRef.of (sig := sig) (T := ⟨S_, .f32⟩) main_call2_cst h p q).ofBuf (Val := Elt Ideal) v = v := rfl
/-- Contents at `main_call2_v0`'s buffer type are contents at the tensor type `⟨S1600000x8, .f32⟩`: the two types are the same. -/
theorem toBuf_call2_v0 (h p q) (v : (⟨S1600000x8, .f32⟩ : BufTy).Contents (Elt Ideal)) :
    (TRef.of (sig := sig) (T := ⟨S1600000x8, .f32⟩) main_call2_v0 h p q).toBuf (Val := Elt Ideal) v = v := rfl
@[inherit_doc toBuf_call2_v0]
theorem ofBuf_call2_v0 (h p q) (v : (⟨S1600000x8, .f32⟩ : BufTy).Contents (Elt Ideal)) :
    (TRef.of (sig := sig) (T := ⟨S1600000x8, .f32⟩) main_call2_v0 h p q).ofBuf (Val := Elt Ideal) v = v := rfl
/-- Contents at `main_v68`'s buffer type are contents at the tensor type `⟨S1600000x8, .f32⟩`: the two types are the same. -/
theorem toBuf_v68 (h p q) (v : (⟨S1600000x8, .f32⟩ : BufTy).Contents (Elt Ideal)) :
    (TRef.of (sig := sig) (T := ⟨S1600000x8, .f32⟩) main_v68 h p q).toBuf (Val := Elt Ideal) v = v := rfl
@[inherit_doc toBuf_v68]
theorem ofBuf_v68 (h p q) (v : (⟨S1600000x8, .f32⟩ : BufTy).Contents (Elt Ideal)) :
    (TRef.of (sig := sig) (T := ⟨S1600000x8, .f32⟩) main_v68 h p q).ofBuf (Val := Elt Ideal) v = v := rfl
/-- Contents at `main_v69`'s buffer type are contents at the tensor type `⟨S1600000x8, .f32⟩`: the two types are the same. -/
theorem toBuf_v69 (h p q) (v : (⟨S1600000x8, .f32⟩ : BufTy).Contents (Elt Ideal)) :
    (TRef.of (sig := sig) (T := ⟨S1600000x8, .f32⟩) main_v69 h p q).toBuf (Val := Elt Ideal) v = v := rfl
@[inherit_doc toBuf_v69]
theorem ofBuf_v69 (h p q) (v : (⟨S1600000x8, .f32⟩ : BufTy).Contents (Elt Ideal)) :
    (TRef.of (sig := sig) (T := ⟨S1600000x8, .f32⟩) main_v69 h p q).ofBuf (Val := Elt Ideal) v = v := rfl
/-- Contents at `main_call3_cst`'s buffer type are contents at the tensor type `⟨S_, .f32⟩`: the two types are the same. -/
theorem toBuf_call3_cst (h p q) (v : (⟨S_, .f32⟩ : BufTy).Contents (Elt Ideal)) :
    (TRef.of (sig := sig) (T := ⟨S_, .f32⟩) main_call3_cst h p q).toBuf (Val := Elt Ideal) v = v := rfl
@[inherit_doc toBuf_call3_cst]
theorem ofBuf_call3_cst (h p q) (v : (⟨S_, .f32⟩ : BufTy).Contents (Elt Ideal)) :
    (TRef.of (sig := sig) (T := ⟨S_, .f32⟩) main_call3_cst h p q).ofBuf (Val := Elt Ideal) v = v := rfl
/-- Contents at `main_call3_v0`'s buffer type are contents at the tensor type `⟨S50000x32, .f32⟩`: the two types are the same. -/
theorem toBuf_call3_v0 (h p q) (v : (⟨S50000x32, .f32⟩ : BufTy).Contents (Elt Ideal)) :
    (TRef.of (sig := sig) (T := ⟨S50000x32, .f32⟩) main_call3_v0 h p q).toBuf (Val := Elt Ideal) v = v := rfl
@[inherit_doc toBuf_call3_v0]
theorem ofBuf_call3_v0 (h p q) (v : (⟨S50000x32, .f32⟩ : BufTy).Contents (Elt Ideal)) :
    (TRef.of (sig := sig) (T := ⟨S50000x32, .f32⟩) main_call3_v0 h p q).ofBuf (Val := Elt Ideal) v = v := rfl
/-- Contents at `main_v101`'s buffer type are contents at the tensor type `⟨S50000x32, .f32⟩`: the two types are the same. -/
theorem toBuf_v101 (h p q) (v : (⟨S50000x32, .f32⟩ : BufTy).Contents (Elt Ideal)) :
    (TRef.of (sig := sig) (T := ⟨S50000x32, .f32⟩) main_v101 h p q).toBuf (Val := Elt Ideal) v = v := rfl
@[inherit_doc toBuf_v101]
theorem ofBuf_v101 (h p q) (v : (⟨S50000x32, .f32⟩ : BufTy).Contents (Elt Ideal)) :
    (TRef.of (sig := sig) (T := ⟨S50000x32, .f32⟩) main_v101 h p q).ofBuf (Val := Elt Ideal) v = v := rfl
/-- Contents at `main_v102`'s buffer type are contents at the tensor type `⟨S50000x32, .f32⟩`: the two types are the same. -/
theorem toBuf_v102 (h p q) (v : (⟨S50000x32, .f32⟩ : BufTy).Contents (Elt Ideal)) :
    (TRef.of (sig := sig) (T := ⟨S50000x32, .f32⟩) main_v102 h p q).toBuf (Val := Elt Ideal) v = v := rfl
@[inherit_doc toBuf_v102]
theorem ofBuf_v102 (h p q) (v : (⟨S50000x32, .f32⟩ : BufTy).Contents (Elt Ideal)) :
    (TRef.of (sig := sig) (T := ⟨S50000x32, .f32⟩) main_v102 h p q).ofBuf (Val := Elt Ideal) v = v := rfl

set_option maxRecDepth 16384 in
set_option maxHeartbeats 40000000 in
/-- Layer 2: the index rows, the reciprocal in-degrees and the arguments unchanged, the new node features `Net.layer1` of the old. -/
theorem lay2_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v59) = H) :
    after (lay2 (F := Ideal)) W (Proc.devRef .tc main_v1) = srcOf a1
      ∧ after (lay2 (F := Ideal)) W (Proc.devRef .tc main_v3) = dstOf a1
      ∧ after (lay2 (F := Ideal)) W (Proc.devRef .tc main_v11) = invDeg (dstOf a1)
      ∧ after (lay2 (F := Ideal)) W (Proc.devRef .tc main_arg0) = a0
      ∧ after (lay2 (F := Ideal)) W (Proc.devRef .tc main_arg1) = a1
      ∧ after (lay2 (F := Ideal)) W (Proc.devRef .tc main_arg2) = a2
      ∧ after (lay2 (F := Ideal)) W (Proc.devRef .tc main_arg3) = a3
      ∧ after (lay2 (F := Ideal)) W (Proc.devRef .tc main_arg4) = a4
      ∧ after (lay2 (F := Ideal)) W (Proc.devRef .tc main_arg5) = a5
      ∧ after (lay2 (F := Ideal)) W (Proc.devRef .tc main_arg6) = a6
      ∧ after (lay2 (F := Ideal)) W (Proc.devRef .tc main_arg7) = a7
      ∧ after (lay2 (F := Ideal)) W (Proc.devRef .tc main_arg8) = a8
      ∧ after (lay2 (F := Ideal)) W (Proc.devRef .tc main_arg9) = a9
      ∧ after (lay2 (F := Ideal)) W (Proc.devRef .tc main_arg10) = a10
      ∧ after (lay2 (F := Ideal)) W (Proc.devRef .tc main_arg11) = a11
      ∧ after (lay2 (F := Ideal)) W (Proc.devRef .tc main_arg12) = a12
      ∧ after (lay2 (F := Ideal)) W (Proc.devRef .tc main_v102) = layer1 a2 (srcOf a1) (dstOf a1) a7 a8 a9 a10 a11 a12 H := by
  unfold lay2
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call2_cst, ofBuf_call2_cst, toBuf_call2_v0, ofBuf_call2_v0, toBuf_v68, ofBuf_v68, toBuf_v69, ofBuf_v69, toBuf_call3_cst, ofBuf_call3_cst, toBuf_call3_v0, ofBuf_call3_v0, toBuf_v101, ofBuf_v101, toBuf_v102, ofBuf_v102]
  and_intros
  all_goals first | exact True.intro | rfl

end Cert.ReferenceIdeal.RefRun

end
-- ==== Proof.RefRunLay3.lean ====
/-
  Message-passing layer 3 of the reference (the operations 122 … 171), run from contents that hold the edge
  list's two rows, the reciprocal in-degrees, the arguments and the node features `H`: it leaves those buffers as they were
  and writes `Net.layer2 … H` — gather by the wrapped source index, the edge perceptron's output times the gathered rows,
  the scatter-add onto the destinations, and the update, with parameter set 2 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call4_cst`'s buffer type are contents at the tensor type `⟨S_, .f32⟩`: the two types are the same. -/
theorem toBuf_call4_cst (h p q) (v : (⟨S_, .f32⟩ : BufTy).Contents (Elt Ideal)) :
    (TRef.of (sig := sig) (T := ⟨S_, .f32⟩) main_call4_cst h p q).toBuf (Val := Elt Ideal) v = v := rfl
@[inherit_doc toBuf_call4_cst]
theorem ofBuf_call4_cst (h p q) (v : (⟨S_, .f32⟩ : BufTy).Contents (Elt Ideal)) :
    (TRef.of (sig := sig) (T := ⟨S_, .f32⟩) main_call4_cst h p q).ofBuf (Val := Elt Ideal) v = v := rfl
/-- Contents at `main_call4_v0`'s buffer type are contents at the tensor type `⟨S1600000x8, .f32⟩`: the two types are the same. -/
theorem toBuf_call4_v0 (h p q) (v : (⟨S1600000x8, .f32⟩ : BufTy).Contents (Elt Ideal)) :
    (TRef.of (sig := sig) (T := ⟨S1600000x8, .f32⟩) main_call4_v0 h p q).toBuf (Val := Elt Ideal) v = v := rfl
@[inherit_doc toBuf_call4_v0]
theorem ofBuf_call4_v0 (h p q) (v : (⟨S1600000x8, .f32⟩ : BufTy).Contents (Elt Ideal)) :
    (TRef.of (sig := sig) (T := ⟨S1600000x8, .f32⟩) main_call4_v0 h p q).ofBuf (Val := Elt Ideal) v = v := rfl
/-- Contents at `main_v111`'s buffer type are contents at the tensor type `⟨S1600000x8, .f32⟩`: the two types are the same. -/
theorem toBuf_v111 (h p q) (v : (⟨S1600000x8, .f32⟩ : BufTy).Contents (Elt Ideal)) :
    (TRef.of (sig := sig) (T := ⟨S1600000x8, .f32⟩) main_v111 h p q).toBuf (Val := Elt Ideal) v = v := rfl
@[inherit_doc toBuf_v111]
theorem ofBuf_v111 (h p q) (v : (⟨S1600000x8, .f32⟩ : BufTy).Contents (Elt Ideal)) :
    (TRef.of (sig := sig) (T := ⟨S1600000x8, .f32⟩) main_v111 h p q).ofBuf (Val := Elt Ideal) v = v := rfl
/-- Contents at `main_v112`'s buffer type are contents at the tensor type `⟨S1600000x8, .f32⟩`: the two types are the same. -/
theorem toBuf_v112 (h p q) (v : (⟨S1600000x8, .f32⟩ : BufTy).Contents (Elt Ideal)) :
    (TRef.of (sig := sig) (T := ⟨S1600000x8, .f32⟩) main_v112 h p q).toBuf (Val := Elt Ideal) v = v := rfl
@[inherit_doc toBuf_v112]
theorem ofBuf_v112 (h p q) (v : (⟨S1600000x8, .f32⟩ : BufTy).Contents (Elt Ideal)) :
    (TRef.of (sig := sig) (T := ⟨S1600000x8, .f32⟩) main_v112 h p q).ofBuf (Val := Elt Ideal) v = v := rfl
/-- Contents at `main_call5_cst`'s buffer type are contents at the tensor type `⟨S_, .f32⟩`: the two types are the same. -/
theorem toBuf_call5_cst (h p q) (v : (⟨S_, .f32⟩ : BufTy).Contents (Elt Ideal)) :
    (TRef.of (sig := sig) (T := ⟨S_, .f32⟩) main_call5_cst h p q).toBuf (Val := Elt Ideal) v = v := rfl
@[inherit_doc toBuf_call5_cst]
theorem ofBuf_call5_cst (h p q) (v : (⟨S_, .f32⟩ : BufTy).Contents (Elt Ideal)) :
    (TRef.of (sig := sig) (T := ⟨S_, .f32⟩) main_call5_cst h p q).ofBuf (Val := Elt Ideal) v = v := rfl
/-- Contents at `main_call5_v0`'s buffer type are contents at the tensor type `⟨S50000x32, .f32⟩`: the two types are the same. -/
theorem toBuf_call5_v0 (h p q) (v : (⟨S50000x32, .f32⟩ : BufTy).Contents (Elt Ideal)) :
    (TRef.of (sig := sig) (T := ⟨S50000x32, .f32⟩) main_call5_v0 h p q).toBuf (Val := Elt Ideal) v = v := rfl
@[inherit_doc toBuf_call5_v0]
theorem ofBuf_call5_v0 (h p q) (v : (⟨S50000x32, .f32⟩ : BufTy).Contents (Elt Ideal)) :
    (TRef.of (sig := sig) (T := ⟨S50000x32, .f32⟩) main_call5_v0 h p q).ofBuf (Val := Elt Ideal) v = v := rfl
/-- Contents at `main_v144`'s buffer type are contents at the tensor type `⟨S50000x32, .f32⟩`: the two types are the same. -/
theorem toBuf_v144 (h p q) (v : (⟨S50000x32, .f32⟩ : BufTy).Contents (Elt Ideal)) :
    (TRef.of (sig := sig) (T := ⟨S50000x32, .f32⟩) main_v144 h p q).toBuf (Val := Elt Ideal) v = v := rfl
@[inherit_doc toBuf_v144]
theorem ofBuf_v144 (h p q) (v : (⟨S50000x32, .f32⟩ : BufTy).Contents (Elt Ideal)) :
    (TRef.of (sig := sig) (T := ⟨S50000x32, .f32⟩) main_v144 h p q).ofBuf (Val := Elt Ideal) v = v := rfl
/-- Contents at `main_v145`'s buffer type are contents at the tensor type `⟨S50000x32, .f32⟩`: the two types are the same. -/
theorem toBuf_v145 (h p q) (v : (⟨S50000x32, .f32⟩ : BufTy).Contents (Elt Ideal)) :
    (TRef.of (sig := sig) (T := ⟨S50000x32, .f32⟩) main_v145 h p q).toBuf (Val := Elt Ideal) v = v := rfl
@[inherit_doc toBuf_v145]
theorem ofBuf_v145 (h p q) (v : (⟨S50000x32, .f32⟩ : BufTy).Contents (Elt Ideal)) :
    (TRef.of (sig := sig) (T := ⟨S50000x32, .f32⟩) main_v145 h p q).ofBuf (Val := Elt Ideal) v = v := rfl

set_option maxRecDepth 16384 in
set_option maxHeartbeats 40000000 in
/-- Layer 3: the index rows, the reciprocal in-degrees and the arguments unchanged, the new node features `Net.layer2` of the old. -/
theorem lay3_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v102) = H) :
    after (lay3 (F := Ideal)) W (Proc.devRef .tc main_v1) = srcOf a1
      ∧ after (lay3 (F := Ideal)) W (Proc.devRef .tc main_v3) = dstOf a1
      ∧ after (lay3 (F := Ideal)) W (Proc.devRef .tc main_v11) = invDeg (dstOf a1)
      ∧ after (lay3 (F := Ideal)) W (Proc.devRef .tc main_arg0) = a0
      ∧ after (lay3 (F := Ideal)) W (Proc.devRef .tc main_arg1) = a1
      ∧ after (lay3 (F := Ideal)) W (Proc.devRef .tc main_arg2) = a2
      ∧ after (lay3 (F := Ideal)) W (Proc.devRef .tc main_arg3) = a3
      ∧ after (lay3 (F := Ideal)) W (Proc.devRef .tc main_arg4) = a4
      ∧ after (lay3 (F := Ideal)) W (Proc.devRef .tc main_arg5) = a5
      ∧ after (lay3 (F := Ideal)) W (Proc.devRef .tc main_arg6) = a6
      ∧ after (lay3 (F := Ideal)) W (Proc.devRef .tc main_arg7) = a7
      ∧ after (lay3 (F := Ideal)) W (Proc.devRef .tc main_arg8) = a8
      ∧ after (lay3 (F := Ideal)) W (Proc.devRef .tc main_arg9) = a9
      ∧ after (lay3 (F := Ideal)) W (Proc.devRef .tc main_arg10) = a10
      ∧ after (lay3 (F := Ideal)) W (Proc.devRef .tc main_arg11) = a11
      ∧ after (lay3 (F := Ideal)) W (Proc.devRef .tc main_arg12) = a12
      ∧ after (lay3 (F := Ideal)) W (Proc.devRef .tc main_v145) = layer2 a2 (srcOf a1) (dstOf a1) a7 a8 a9 a10 a11 a12 H := by
  unfold lay3
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call4_cst, ofBuf_call4_cst, toBuf_call4_v0, ofBuf_call4_v0, toBuf_v111, ofBuf_v111, toBuf_v112, ofBuf_v112, toBuf_call5_cst, ofBuf_call5_cst, toBuf_call5_v0, ofBuf_call5_v0, toBuf_v144, ofBuf_v144, toBuf_v145, ofBuf_v145]
  and_intros
  all_goals first | exact True.intro | rfl

end Cert.ReferenceIdeal.RefRun

end
-- ==== Proof.RefRunLay4.lean ====
/-
  Message-passing layer 4 of the reference (the operations 172 … 221), run from contents that hold the edge
  list's two rows, the reciprocal in-degrees, the arguments and the node features `H`: it leaves those buffers as they were
  and writes `Net.layer0 … H` — gather by the wrapped source index, the edge perceptron's output times the gathered rows,
  the scatter-add onto the destinations, and the update, with parameter set 0 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call6_cst`'s buffer type are contents at the tensor type `⟨S_, .f32⟩`: the two types are the same. -/
theorem toBuf_call6_cst (h p q) (v : (⟨S_, .f32⟩ : BufTy).Contents (Elt Ideal)) :
    (TRef.of (sig := sig) (T := ⟨S_, .f32⟩) main_call6_cst h p q).toBuf (Val := Elt Ideal) v = v := rfl
@[inherit_doc toBuf_call6_cst]
theorem ofBuf_call6_cst (h p q) (v : (⟨S_, .f32⟩ : BufTy).Contents (Elt Ideal)) :
    (TRef.of (sig := sig) (T := ⟨S_, .f32⟩) main_call6_cst h p q).ofBuf (Val := Elt Ideal) v = v := rfl
/-- Contents at `main_call6_v0`'s buffer type are contents at the tensor type `⟨S1600000x8, .f32⟩`: the two types are the same. -/
theorem toBuf_call6_v0 (h p q) (v : (⟨S1600000x8, .f32⟩ : BufTy).Contents (Elt Ideal)) :
    (TRef.of (sig := sig) (T := ⟨S1600000x8, .f32⟩) main_call6_v0 h p q).toBuf (Val := Elt Ideal) v = v := rfl
@[inherit_doc toBuf_call6_v0]
theorem ofBuf_call6_v0 (h p q) (v : (⟨S1600000x8, .f32⟩ : BufTy).Contents (Elt Ideal)) :
    (TRef.of (sig := sig) (T := ⟨S1600000x8, .f32⟩) main_call6_v0 h p q).ofBuf (Val := Elt Ideal) v = v := rfl
/-- Contents at `main_v154`'s buffer type are contents at the tensor type `⟨S1600000x8, .f32⟩`: the two types are the same. -/
theorem toBuf_v154 (h p q) (v : (⟨S1600000x8, .f32⟩ : BufTy).Contents (Elt Ideal)) :
    (TRef.of (sig := sig) (T := ⟨S1600000x8, .f32⟩) main_v154 h p q).toBuf (Val := Elt Ideal) v = v := rfl
@[inherit_doc toBuf_v154]
theorem ofBuf_v154 (h p q) (v : (⟨S1600000x8, .f32⟩ : BufTy).Contents (Elt Ideal)) :
    (TRef.of (sig := sig) (T := ⟨S1600000x8, .f32⟩) main_v154 h p q).ofBuf (Val := Elt Ideal) v = v := rfl
/-- Contents at `main_v155`'s buffer type are contents at the tensor type `⟨S1600000x8, .f32⟩`: the two types are the same. -/
theorem toBuf_v155 (h p q) (v : (⟨S1600000x8, .f32⟩ : BufTy).Contents (Elt Ideal)) :
    (TRef.of (sig := sig) (T := ⟨S1600000x8, .f32⟩) main_v155 h p q).toBuf (Val := Elt Ideal) v = v := rfl
@[inherit_doc toBuf_v155]
theorem ofBuf_v155 (h p q) (v : (⟨S1600000x8, .f32⟩ : BufTy).Contents (Elt Ideal)) :
    (TRef.of (sig := sig) (T := ⟨S1600000x8, .f32⟩) main_v155 h p q).ofBuf (Val := Elt Ideal) v = v := rfl
/-- Contents at `main_call7_cst`'s buffer type are contents at the tensor type `⟨S_, .f32⟩`: the two types are the same. -/
theorem toBuf_call7_cst (h p q) (v : (⟨S_, .f32⟩ : BufTy).Contents (Elt Ideal)) :
    (TRef.of (sig := sig) (T := ⟨S_, .f32⟩) main_call7_cst h p q).toBuf (Val := Elt Ideal) v = v := rfl
@[inherit_doc toBuf_call7_cst]
theorem ofBuf_call7_cst (h p q) (v : (⟨S_, .f32⟩ : BufTy).Contents (Elt Ideal)) :
    (TRef.of (sig := sig) (T := ⟨S_, .f32⟩) main_call7_cst h p q).ofBuf (Val := Elt Ideal) v = v := rfl
/-- Contents at `main_call7_v0`'s buffer type are contents at the tensor type `⟨S50000x32, .f32⟩`: the two types are the same. -/
theorem toBuf_call7_v0 (h p q) (v : (⟨S50000x32, .f32⟩ : BufTy).Contents (Elt Ideal)) :
    (TRef.of (sig := sig) (T := ⟨S50000x32, .f32⟩) main_call7_v0 h p q).toBuf (Val := Elt Ideal) v = v := rfl
@[inherit_doc toBuf_call7_v0]
theorem ofBuf_call7_v0 (h p q) (v : (⟨S50000x32, .f32⟩ : BufTy).Contents (Elt Ideal)) :
    (TRef.of (sig := sig) (T := ⟨S50000x32, .f32⟩) main_call7_v0 h p q).ofBuf (Val := Elt Ideal) v = v := rfl
/-- Contents at `main_v187`'s buffer type are contents at the tensor type `⟨S50000x32, .f32⟩`: the two types are the same. -/
theorem toBuf_v187 (h p q) (v : (⟨S50000x32, .f32⟩ : BufTy).Contents (Elt Ideal)) :
    (TRef.of (sig := sig) (T := ⟨S50000x32, .f32⟩) main_v187 h p q).toBuf (Val := Elt Ideal) v = v := rfl
@[inherit_doc toBuf_v187]
theorem ofBuf_v187 (h p q) (v : (⟨S50000x32, .f32⟩ : BufTy).Contents (Elt Ideal)) :
    (TRef.of (sig := sig) (T := ⟨S50000x32, .f32⟩) main_v187 h p q).ofBuf (Val := Elt Ideal) v = v := rfl
/-- Contents at `main_v188`'s buffer type are contents at the tensor type `⟨S50000x32, .f32⟩`: the two types are the same. -/
theorem toBuf_v188 (h p q) (v : (⟨S50000x32, .f32⟩ : BufTy).Contents (Elt Ideal)) :
    (TRef.of (sig := sig) (T := ⟨S50000x32, .f32⟩) main_v188 h p q).toBuf (Val := Elt Ideal) v = v := rfl
@[inherit_doc toBuf_v188]
theorem ofBuf_v188 (h p q) (v : (⟨S50000x32, .f32⟩ : BufTy).Contents (Elt Ideal)) :
    (TRef.of (sig := sig) (T := ⟨S50000x32, .f32⟩) main_v188 h p q).ofBuf (Val := Elt Ideal) v = v := rfl

set_option maxRecDepth 16384 in
set_option maxHeartbeats 40000000 in
/-- Layer 4: the index rows, the reciprocal in-degrees and the arguments unchanged, the new node features `Net.layer0` of the old. -/
theorem lay4_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v145) = H) :
    after (lay4 (F := Ideal)) W (Proc.devRef .tc main_v1) = srcOf a1
      ∧ after (lay4 (F := Ideal)) W (Proc.devRef .tc main_v3) = dstOf a1
      ∧ after (lay4 (F := Ideal)) W (Proc.devRef .tc main_v11) = invDeg (dstOf a1)
      ∧ after (lay4 (F := Ideal)) W (Proc.devRef .tc main_arg0) = a0
      ∧ after (lay4 (F := Ideal)) W (Proc.devRef .tc main_arg1) = a1
      ∧ after (lay4 (F := Ideal)) W (Proc.devRef .tc main_arg2) = a2
      ∧ after (lay4 (F := Ideal)) W (Proc.devRef .tc main_arg3) = a3
      ∧ after (lay4 (F := Ideal)) W (Proc.devRef .tc main_arg4) = a4
      ∧ after (lay4 (F := Ideal)) W (Proc.devRef .tc main_arg5) = a5
      ∧ after (lay4 (F := Ideal)) W (Proc.devRef .tc main_arg6) = a6
      ∧ after (lay4 (F := Ideal)) W (Proc.devRef .tc main_arg7) = a7
      ∧ after (lay4 (F := Ideal)) W (Proc.devRef .tc main_arg8) = a8
      ∧ after (lay4 (F := Ideal)) W (Proc.devRef .tc main_arg9) = a9
      ∧ after (lay4 (F := Ideal)) W (Proc.devRef .tc main_arg10) = a10
      ∧ after (lay4 (F := Ideal)) W (Proc.devRef .tc main_arg11) = a11
      ∧ after (lay4 (F := Ideal)) W (Proc.devRef .tc main_arg12) = a12
      ∧ after (lay4 (F := Ideal)) W (Proc.devRef .tc main_v188) = layer0 a2 (srcOf a1) (dstOf a1) a7 a8 a9 a10 a11 a12 H := by
  unfold lay4
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call6_cst, ofBuf_call6_cst, toBuf_call6_v0, ofBuf_call6_v0, toBuf_v154, ofBuf_v154, toBuf_v155, ofBuf_v155, toBuf_call7_cst, ofBuf_call7_cst, toBuf_call7_v0, ofBuf_call7_v0, toBuf_v187, ofBuf_v187, toBuf_v188, ofBuf_v188]
  and_intros
  all_goals first | exact True.intro | rfl

end Cert.ReferenceIdeal.RefRun

end
-- ==== Proof.RefRunLay5.lean ====
/-
  Message-passing layer 5 of the reference (the operations 222 … 271), run from contents that hold the edge
  list's two rows, the reciprocal in-degrees, the arguments and the node features `H`: it leaves those buffers as they were
  and writes `Net.layer1 … H` — gather by the wrapped source index, the edge perceptron's output times the gathered rows,
  the scatter-add onto the destinations, and the update, with parameter set 1 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call8_cst`'s buffer type are contents at the tensor type `⟨S_, .f32⟩`: the two types are the same. -/
theorem toBuf_call8_cst (h p q) (v : (⟨S_, .f32⟩ : BufTy).Contents (Elt Ideal)) :
    (TRef.of (sig := sig) (T := ⟨S_, .f32⟩) main_call8_cst h p q).toBuf (Val := Elt Ideal) v = v := rfl
@[inherit_doc toBuf_call8_cst]
theorem ofBuf_call8_cst (h p q) (v : (⟨S_, .f32⟩ : BufTy).Contents (Elt Ideal)) :
    (TRef.of (sig := sig) (T := ⟨S_, .f32⟩) main_call8_cst h p q).ofBuf (Val := Elt Ideal) v = v := rfl
/-- Contents at `main_call8_v0`'s buffer type are contents at the tensor type `⟨S1600000x8, .f32⟩`: the two types are the same. -/
theorem toBuf_call8_v0 (h p q) (v : (⟨S1600000x8, .f32⟩ : BufTy).Contents (Elt Ideal)) :
    (TRef.of (sig := sig) (T := ⟨S1600000x8, .f32⟩) main_call8_v0 h p q).toBuf (Val := Elt Ideal) v = v := rfl
@[inherit_doc toBuf_call8_v0]
theorem ofBuf_call8_v0 (h p q) (v : (⟨S1600000x8, .f32⟩ : BufTy).Contents (Elt Ideal)) :
    (TRef.of (sig := sig) (T := ⟨S1600000x8, .f32⟩) main_call8_v0 h p q).ofBuf (Val := Elt Ideal) v = v := rfl
/-- Contents at `main_v197`'s buffer type are contents at the tensor type `⟨S1600000x8, .f32⟩`: the two types are the same. -/
theorem toBuf_v197 (h p q) (v : (⟨S1600000x8, .f32⟩ : BufTy).Contents (Elt Ideal)) :
    (TRef.of (sig := sig) (T := ⟨S1600000x8, .f32⟩) main_v197 h p q).toBuf (Val := Elt Ideal) v = v := rfl
@[inherit_doc toBuf_v197]
theorem ofBuf_v197 (h p q) (v : (⟨S1600000x8, .f32⟩ : BufTy).Contents (Elt Ideal)) :
    (TRef.of (sig := sig) (T := ⟨S1600000x8, .f32⟩) main_v197 h p q).ofBuf (Val := Elt Ideal) v = v := rfl
/-- Contents at `main_v198`'s buffer type are contents at the tensor type `⟨S1600000x8, .f32⟩`: the two types are the same. -/
theorem toBuf_v198 (h p q) (v : (⟨S1600000x8, .f32⟩ : BufTy).Contents (Elt Ideal)) :
    (TRef.of (sig := sig) (T := ⟨S1600000x8, .f32⟩) main_v198 h p q).toBuf (Val := Elt Ideal) v = v := rfl
@[inherit_doc toBuf_v198]
theorem ofBuf_v198 (h p q) (v : (⟨S1600000x8, .f32⟩ : BufTy).Contents (Elt Ideal)) :
    (TRef.of (sig := sig) (T := ⟨S1600000x8, .f32⟩) main_v198 h p q).ofBuf (Val := Elt Ideal) v = v := rfl
/-- Contents at `main_call9_cst`'s buffer type are contents at the tensor type `⟨S_, .f32⟩`: the two types are the same. -/
theorem toBuf_call9_cst (h p q) (v : (⟨S_, .f32⟩ : BufTy).Contents (Elt Ideal)) :
    (TRef.of (sig := sig) (T := ⟨S_, .f32⟩) main_call9_cst h p q).toBuf (Val := Elt Ideal) v = v := rfl
@[inherit_doc toBuf_call9_cst]
theorem ofBuf_call9_cst (h p q) (v : (⟨S_, .f32⟩ : BufTy).Contents (Elt Ideal)) :
    (TRef.of (sig := sig) (T := ⟨S_, .f32⟩) main_call9_cst h p q).ofBuf (Val := Elt Ideal) v = v := rfl
/-- Contents at `main_call9_v0`'s buffer type are contents at the tensor type `⟨S50000x32, .f32⟩`: the two types are the same. -/
theorem toBuf_call9_v0 (h p q) (v : (⟨S50000x32, .f32⟩ : BufTy).Contents (Elt Ideal)) :
    (TRef.of (sig := sig) (T := ⟨S50000x32, .f32⟩) main_call9_v0 h p q).toBuf (Val := Elt Ideal) v = v := rfl
@[inherit_doc toBuf_call9_v0]
theorem ofBuf_call9_v0 (h p q) (v : (⟨S50000x32, .f32⟩ : BufTy).Contents (Elt Ideal)) :
    (TRef.of (sig := sig) (T := ⟨S50000x32, .f32⟩) main_call9_v0 h p q).ofBuf (Val := Elt Ideal) v = v := rfl
/-- Contents at `main_v230`'s buffer type are contents at the tensor type `⟨S50000x32, .f32⟩`: the two types are the same. -/
theorem toBuf_v230 (h p q) (v : (⟨S50000x32, .f32⟩ : BufTy).Contents (Elt Ideal)) :
    (TRef.of (sig := sig) (T := ⟨S50000x32, .f32⟩) main_v230 h p q).toBuf (Val := Elt Ideal) v = v := rfl
@[inherit_doc toBuf_v230]
theorem ofBuf_v230 (h p q) (v : (⟨S50000x32, .f32⟩ : BufTy).Contents (Elt Ideal)) :
    (TRef.of (sig := sig) (T := ⟨S50000x32, .f32⟩) main_v230 h p q).ofBuf (Val := Elt Ideal) v = v := rfl
/-- Contents at `main_v231`'s buffer type are contents at the tensor type `⟨S50000x32, .f32⟩`: the two types are the same. -/
theorem toBuf_v231 (h p q) (v : (⟨S50000x32, .f32⟩ : BufTy).Contents (Elt Ideal)) :
    (TRef.of (sig := sig) (T := ⟨S50000x32, .f32⟩) main_v231 h p q).toBuf (Val := Elt Ideal) v = v := rfl
@[inherit_doc toBuf_v231]
theorem ofBuf_v231 (h p q) (v : (⟨S50000x32, .f32⟩ : BufTy).Contents (Elt Ideal)) :
    (TRef.of (sig := sig) (T := ⟨S50000x32, .f32⟩) main_v231 h p q).ofBuf (Val := Elt Ideal) v = v := rfl

set_option maxRecDepth 16384 in
set_option maxHeartbeats 40000000 in
/-- Layer 5: the index rows, the reciprocal in-degrees and the arguments unchanged, the new node features `Net.layer1` of the old. -/
theorem lay5_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v188) = H) :
    after (lay5 (F := Ideal)) W (Proc.devRef .tc main_v1) = srcOf a1
      ∧ after (lay5 (F := Ideal)) W (Proc.devRef .tc main_v3) = dstOf a1
      ∧ after (lay5 (F := Ideal)) W (Proc.devRef .tc main_v11) = invDeg (dstOf a1)
      ∧ after (lay5 (F := Ideal)) W (Proc.devRef .tc main_arg0) = a0
      ∧ after (lay5 (F := Ideal)) W (Proc.devRef .tc main_arg1) = a1
      ∧ after (lay5 (F := Ideal)) W (Proc.devRef .tc main_arg2) = a2
      ∧ after (lay5 (F := Ideal)) W (Proc.devRef .tc main_arg3) = a3
      ∧ after (lay5 (F := Ideal)) W (Proc.devRef .tc main_arg4) = a4
      ∧ after (lay5 (F := Ideal)) W (Proc.devRef .tc main_arg5) = a5
      ∧ after (lay5 (F := Ideal)) W (Proc.devRef .tc main_arg6) = a6
      ∧ after (lay5 (F := Ideal)) W (Proc.devRef .tc main_arg7) = a7
      ∧ after (lay5 (F := Ideal)) W (Proc.devRef .tc main_arg8) = a8
      ∧ after (lay5 (F := Ideal)) W (Proc.devRef .tc main_arg9) = a9
      ∧ after (lay5 (F := Ideal)) W (Proc.devRef .tc main_arg10) = a10
      ∧ after (lay5 (F := Ideal)) W (Proc.devRef .tc main_arg11) = a11
      ∧ after (lay5 (F := Ideal)) W (Proc.devRef .tc main_arg12) = a12
      ∧ after (lay5 (F := Ideal)) W (Proc.devRef .tc main_v231) = layer1 a2 (srcOf a1) (dstOf a1) a7 a8 a9 a10 a11 a12 H := by
  unfold lay5
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call8_cst, ofBuf_call8_cst, toBuf_call8_v0, ofBuf_call8_v0, toBuf_v197, ofBuf_v197, toBuf_v198, ofBuf_v198, toBuf_call9_cst, ofBuf_call9_cst, toBuf_call9_v0, ofBuf_call9_v0, toBuf_v230, ofBuf_v230, toBuf_v231, ofBuf_v231]
  and_intros
  all_goals first | exact True.intro | rfl

end Cert.ReferenceIdeal.RefRun

end
-- ==== Proof.RefRunLay6.lean ====
/-
  Message-passing layer 6 of the reference (the operations 272 … 321), run from contents that hold the edge
  list's two rows, the reciprocal in-degrees, the arguments and the node features `H`: it leaves those buffers as they were
  and writes `Net.layer2 … H` — gather by the wrapped source index, the edge perceptron's output times the gathered rows,
  the scatter-add onto the destinations, and the update, with parameter set 2 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call10_cst`'s buffer type are contents at the tensor type `⟨S_, .f32⟩`: the two types are the same. -/
theorem toBuf_call10_cst (h p q) (v : (⟨S_, .f32⟩ : BufTy).Contents (Elt Ideal)) :
    (TRef.of (sig := sig) (T := ⟨S_, .f32⟩) main_call10_cst h p q).toBuf (Val := Elt Ideal) v = v := rfl
@[inherit_doc toBuf_call10_cst]
theorem ofBuf_call10_cst (h p q) (v : (⟨S_, .f32⟩ : BufTy).Contents (Elt Ideal)) :
    (TRef.of (sig := sig) (T := ⟨S_, .f32⟩) main_call10_cst h p q).ofBuf (Val := Elt Ideal) v = v := rfl
/-- Contents at `main_call10_v0`'s buffer type are contents at the tensor type `⟨S1600000x8, .f32⟩`: the two types are the same. -/
theorem toBuf_call10_v0 (h p q) (v : (⟨S1600000x8, .f32⟩ : BufTy).Contents (Elt Ideal)) :
    (TRef.of (sig := sig) (T := ⟨S1600000x8, .f32⟩) main_call10_v0 h p q).toBuf (Val := Elt Ideal) v = v := rfl
@[inherit_doc toBuf_call10_v0]
theorem ofBuf_call10_v0 (h p q) (v : (⟨S1600000x8, .f32⟩ : BufTy).Contents (Elt Ideal)) :
    (TRef.of (sig := sig) (T := ⟨S1600000x8, .f32⟩) main_call10_v0 h p q).ofBuf (Val := Elt Ideal) v = v := rfl
/-- Contents at `main_v240`'s buffer type are contents at the tensor type `⟨S1600000x8, .f32⟩`: the two types are the same. -/
theorem toBuf_v240 (h p q) (v : (⟨S1600000x8, .f32⟩ : BufTy).Contents (Elt Ideal)) :
    (TRef.of (sig := sig) (T := ⟨S1600000x8, .f32⟩) main_v240 h p q).toBuf (Val := Elt Ideal) v = v := rfl
@[inherit_doc toBuf_v240]
theorem ofBuf_v240 (h p q) (v : (⟨S1600000x8, .f32⟩ : BufTy).Contents (Elt Ideal)) :
    (TRef.of (sig := sig) (T := ⟨S1600000x8, .f32⟩) main_v240 h p q).ofBuf (Val := Elt Ideal) v = v := rfl
/-- Contents at `main_v241`'s buffer type are contents at the tensor type `⟨S1600000x8, .f32⟩`: the two types are the same. -/
theorem toBuf_v241 (h p q) (v : (⟨S1600000x8, .f32⟩ : BufTy).Contents (Elt Ideal)) :
    (TRef.of (sig := sig) (T := ⟨S1600000x8, .f32⟩) main_v241 h p q).toBuf (Val := Elt Ideal) v = v := rfl
@[inherit_doc toBuf_v241]
theorem ofBuf_v241 (h p q) (v : (⟨S1600000x8, .f32⟩ : BufTy).Contents (Elt Ideal)) :
    (TRef.of (sig := sig) (T := ⟨S1600000x8, .f32⟩) main_v241 h p q).ofBuf (Val := Elt Ideal) v = v := rfl
/-- Contents at `main_call11_cst`'s buffer type are contents at the tensor type `⟨S_, .f32⟩`: the two types are the same. -/
theorem toBuf_call11_cst (h p q) (v : (⟨S_, .f32⟩ : BufTy).Contents (Elt Ideal)) :
    (TRef.of (sig := sig) (T := ⟨S_, .f32⟩) main_call11_cst h p q).toBuf (Val := Elt Ideal) v = v := rfl
@[inherit_doc toBuf_call11_cst]
theorem ofBuf_call11_cst (h p q) (v : (⟨S_, .f32⟩ : BufTy).Contents (Elt Ideal)) :
    (TRef.of (sig := sig) (T := ⟨S_, .f32⟩) main_call11_cst h p q).ofBuf (Val := Elt Ideal) v = v := rfl
/-- Contents at `main_call11_v0`'s buffer type are contents at the tensor type `⟨S50000x32, .f32⟩`: the two types are the same. -/
theorem toBuf_call11_v0 (h p q) (v : (⟨S50000x32, .f32⟩ : BufTy).Contents (Elt Ideal)) :
    (TRef.of (sig := sig) (T := ⟨S50000x32, .f32⟩) main_call11_v0 h p q).toBuf (Val := Elt Ideal) v = v := rfl
@[inherit_doc toBuf_call11_v0]
theorem ofBuf_call11_v0 (h p q) (v : (⟨S50000x32, .f32⟩ : BufTy).Contents (Elt Ideal)) :
    (TRef.of (sig := sig) (T := ⟨S50000x32, .f32⟩) main_call11_v0 h p q).ofBuf (Val := Elt Ideal) v = v := rfl
/-- Contents at `main_v273`'s buffer type are contents at the tensor type `⟨S50000x32, .f32⟩`: the two types are the same. -/
theorem toBuf_v273 (h p q) (v : (⟨S50000x32, .f32⟩ : BufTy).Contents (Elt Ideal)) :
    (TRef.of (sig := sig) (T := ⟨S50000x32, .f32⟩) main_v273 h p q).toBuf (Val := Elt Ideal) v = v := rfl
@[inherit_doc toBuf_v273]
theorem ofBuf_v273 (h p q) (v : (⟨S50000x32, .f32⟩ : BufTy).Contents (Elt Ideal)) :
    (TRef.of (sig := sig) (T := ⟨S50000x32, .f32⟩) main_v273 h p q).ofBuf (Val := Elt Ideal) v = v := rfl
/-- Contents at `main_v274`'s buffer type are contents at the tensor type `⟨S50000x32, .f32⟩`: the two types are the same. -/
theorem toBuf_v274 (h p q) (v : (⟨S50000x32, .f32⟩ : BufTy).Contents (Elt Ideal)) :
    (TRef.of (sig := sig) (T := ⟨S50000x32, .f32⟩) main_v274 h p q).toBuf (Val := Elt Ideal) v = v := rfl
@[inherit_doc toBuf_v274]
theorem ofBuf_v274 (h p q) (v : (⟨S50000x32, .f32⟩ : BufTy).Contents (Elt Ideal)) :
    (TRef.of (sig := sig) (T := ⟨S50000x32, .f32⟩) main_v274 h p q).ofBuf (Val := Elt Ideal) v = v := rfl

set_option maxRecDepth 16384 in
set_option maxHeartbeats 40000000 in
/-- Layer 6: the index rows, the reciprocal in-degrees and the arguments unchanged, the new node features `Net.layer2` of the old. -/
theorem lay6_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v231) = H) :
    after (lay6 (F := Ideal)) W (Proc.devRef .tc main_v1) = srcOf a1
      ∧ after (lay6 (F := Ideal)) W (Proc.devRef .tc main_v3) = dstOf a1
      ∧ after (lay6 (F := Ideal)) W (Proc.devRef .tc main_v11) = invDeg (dstOf a1)
      ∧ after (lay6 (F := Ideal)) W (Proc.devRef .tc main_arg0) = a0
      ∧ after (lay6 (F := Ideal)) W (Proc.devRef .tc main_arg1) = a1
      ∧ after (lay6 (F := Ideal)) W (Proc.devRef .tc main_arg2) = a2
      ∧ after (lay6 (F := Ideal)) W (Proc.devRef .tc main_arg3) = a3
      ∧ after (lay6 (F := Ideal)) W (Proc.devRef .tc main_arg4) = a4
      ∧ after (lay6 (F := Ideal)) W (Proc.devRef .tc main_arg5) = a5
      ∧ after (lay6 (F := Ideal)) W (Proc.devRef .tc main_arg6) = a6
      ∧ after (lay6 (F := Ideal)) W (Proc.devRef .tc main_arg7) = a7
      ∧ after (lay6 (F := Ideal)) W (Proc.devRef .tc main_arg8) = a8
      ∧ after (lay6 (F := Ideal)) W (Proc.devRef .tc main_arg9) = a9
      ∧ after (lay6 (F := Ideal)) W (Proc.devRef .tc main_arg10) = a10
      ∧ after (lay6 (F := Ideal)) W (Proc.devRef .tc main_arg11) = a11
      ∧ after (lay6 (F := Ideal)) W (Proc.devRef .tc main_arg12) = a12
      ∧ after (lay6 (F := Ideal)) W (Proc.devRef .tc main_v274) = layer2 a2 (srcOf a1) (dstOf a1) a7 a8 a9 a10 a11 a12 H := by
  unfold lay6
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call10_cst, ofBuf_call10_cst, toBuf_call10_v0, ofBuf_call10_v0, toBuf_v240, ofBuf_v240, toBuf_v241, ofBuf_v241, toBuf_call11_cst, ofBuf_call11_cst, toBuf_call11_v0, ofBuf_call11_v0, toBuf_v273, ofBuf_v273, toBuf_v274, ofBuf_v274]
  and_intros
  all_goals first | exact True.intro | rfl

end Cert.ReferenceIdeal.RefRun

end
-- ==== Proof.RefRunLay7.lean ====
/-
  Message-passing layer 7 of the reference (the operations 322 … 371), run from contents that hold the edge
  list's two rows, the reciprocal in-degrees, the arguments and the node features `H`: it leaves those buffers as they were
  and writes `Net.layer0 … H` — gather by the wrapped source index, the edge perceptron's output times the gathered rows,
  the scatter-add onto the destinations, and the update, with parameter set 0 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call12_cst`'s buffer type are contents at the tensor type `⟨S_, .f32⟩`: the two types are the same. -/
theorem toBuf_call12_cst (h p q) (v : (⟨S_, .f32⟩ : BufTy).Contents (Elt Ideal)) :
    (TRef.of (sig := sig) (T := ⟨S_, .f32⟩) main_call12_cst h p q).toBuf (Val := Elt Ideal) v = v := rfl
@[inherit_doc toBuf_call12_cst]
theorem ofBuf_call12_cst (h p q) (v : (⟨S_, .f32⟩ : BufTy).Contents (Elt Ideal)) :
    (TRef.of (sig := sig) (T := ⟨S_, .f32⟩) main_call12_cst h p q).ofBuf (Val := Elt Ideal) v = v := rfl
/-- Contents at `main_call12_v0`'s buffer type are contents at the tensor type `⟨S1600000x8, .f32⟩`: the two types are the same. -/
theorem toBuf_call12_v0 (h p q) (v : (⟨S1600000x8, .f32⟩ : BufTy).Contents (Elt Ideal)) :
    (TRef.of (sig := sig) (T := ⟨S1600000x8, .f32⟩) main_call12_v0 h p q).toBuf (Val := Elt Ideal) v = v := rfl
@[inherit_doc toBuf_call12_v0]
theorem ofBuf_call12_v0 (h p q) (v : (⟨S1600000x8, .f32⟩ : BufTy).Contents (Elt Ideal)) :
    (TRef.of (sig := sig) (T := ⟨S1600000x8, .f32⟩) main_call12_v0 h p q).ofBuf (Val := Elt Ideal) v = v := rfl
/-- Contents at `main_v283`'s buffer type are contents at the tensor type `⟨S1600000x8, .f32⟩`: the two types are the same. -/
theorem toBuf_v283 (h p q) (v : (⟨S1600000x8, .f32⟩ : BufTy).Contents (Elt Ideal)) :
    (TRef.of (sig := sig) (T := ⟨S1600000x8, .f32⟩) main_v283 h p q).toBuf (Val := Elt Ideal) v = v := rfl
@[inherit_doc toBuf_v283]
theorem ofBuf_v283 (h p q) (v : (⟨S1600000x8, .f32⟩ : BufTy).Contents (Elt Ideal)) :
    (TRef.of (sig := sig) (T := ⟨S1600000x8, .f32⟩) main_v283 h p q).ofBuf (Val := Elt Ideal) v = v := rfl
/-- Contents at `main_v284`'s buffer type are contents at the tensor type `⟨S1600000x8, .f32⟩`: the two types are the same. -/
theorem toBuf_v284 (h p q) (v : (⟨S1600000x8, .f32⟩ : BufTy).Contents (Elt Ideal)) :
    (TRef.of (sig := sig) (T := ⟨S1600000x8, .f32⟩) main_v284 h p q).toBuf (Val := Elt Ideal) v = v := rfl
@[inherit_doc toBuf_v284]
theorem ofBuf_v284 (h p q) (v : (⟨S1600000x8, .f32⟩ : BufTy).Contents (Elt Ideal)) :
    (TRef.of (sig := sig) (T := ⟨S1600000x8, .f32⟩) main_v284 h p q).ofBuf (Val := Elt Ideal) v = v := rfl
/-- Contents at `main_call13_cst`'s buffer type are contents at the tensor type `⟨S_, .f32⟩`: the two types are the same. -/
theorem toBuf_call13_cst (h p q) (v : (⟨S_, .f32⟩ : BufTy).Contents (Elt Ideal)) :
    (TRef.of (sig := sig) (T := ⟨S_, .f32⟩) main_call13_cst h p q).toBuf (Val := Elt Ideal) v = v := rfl
@[inherit_doc toBuf_call13_cst]
theorem ofBuf_call13_cst (h p q) (v : (⟨S_, .f32⟩ : BufTy).Contents (Elt Ideal)) :
    (TRef.of (sig := sig) (T := ⟨S_, .f32⟩) main_call13_cst h p q).ofBuf (Val := Elt Ideal) v = v := rfl
/-- Contents at `main_call13_v0`'s buffer type are contents at the tensor type `⟨S50000x32, .f32⟩`: the two types are the same. -/
theorem toBuf_call13_v0 (h p q) (v : (⟨S50000x32, .f32⟩ : BufTy).Contents (Elt Ideal)) :
    (TRef.of (sig := sig) (T := ⟨S50000x32, .f32⟩) main_call13_v0 h p q).toBuf (Val := Elt Ideal) v = v := rfl
@[inherit_doc toBuf_call13_v0]
theorem ofBuf_call13_v0 (h p q) (v : (⟨S50000x32, .f32⟩ : BufTy).Contents (Elt Ideal)) :
    (TRef.of (sig := sig) (T := ⟨S50000x32, .f32⟩) main_call13_v0 h p q).ofBuf (Val := Elt Ideal) v = v := rfl
/-- Contents at `main_v316`'s buffer type are contents at the tensor type `⟨S50000x32, .f32⟩`: the two types are the same. -/
theorem toBuf_v316 (h p q) (v : (⟨S50000x32, .f32⟩ : BufTy).Contents (Elt Ideal)) :
    (TRef.of (sig := sig) (T := ⟨S50000x32, .f32⟩) main_v316 h p q).toBuf (Val := Elt Ideal) v = v := rfl
@[inherit_doc toBuf_v316]
theorem ofBuf_v316 (h p q) (v : (⟨S50000x32, .f32⟩ : BufTy).Contents (Elt Ideal)) :
    (TRef.of (sig := sig) (T := ⟨S50000x32, .f32⟩) main_v316 h p q).ofBuf (Val := Elt Ideal) v = v := rfl
/-- Contents at `main_v317`'s buffer type are contents at the tensor type `⟨S50000x32, .f32⟩`: the two types are the same. -/
theorem toBuf_v317 (h p q) (v : (⟨S50000x32, .f32⟩ : BufTy).Contents (Elt Ideal)) :
    (TRef.of (sig := sig) (T := ⟨S50000x32, .f32⟩) main_v317 h p q).toBuf (Val := Elt Ideal) v = v := rfl
@[inherit_doc toBuf_v317]
theorem ofBuf_v317 (h p q) (v : (⟨S50000x32, .f32⟩ : BufTy).Contents (Elt Ideal)) :
    (TRef.of (sig := sig) (T := ⟨S50000x32, .f32⟩) main_v317 h p q).ofBuf (Val := Elt Ideal) v = v := rfl

set_option maxRecDepth 16384 in
set_option maxHeartbeats 40000000 in
/-- Layer 7: the index rows, the reciprocal in-degrees and the arguments unchanged, the new node features `Net.layer0` of the old. -/
theorem lay7_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v274) = H) :
    after (lay7 (F := Ideal)) W (Proc.devRef .tc main_v1) = srcOf a1
      ∧ after (lay7 (F := Ideal)) W (Proc.devRef .tc main_v3) = dstOf a1
      ∧ after (lay7 (F := Ideal)) W (Proc.devRef .tc main_v11) = invDeg (dstOf a1)
      ∧ after (lay7 (F := Ideal)) W (Proc.devRef .tc main_arg0) = a0
      ∧ after (lay7 (F := Ideal)) W (Proc.devRef .tc main_arg1) = a1
      ∧ after (lay7 (F := Ideal)) W (Proc.devRef .tc main_arg2) = a2
      ∧ after (lay7 (F := Ideal)) W (Proc.devRef .tc main_arg3) = a3
      ∧ after (lay7 (F := Ideal)) W (Proc.devRef .tc main_arg4) = a4
      ∧ after (lay7 (F := Ideal)) W (Proc.devRef .tc main_arg5) = a5
      ∧ after (lay7 (F := Ideal)) W (Proc.devRef .tc main_arg6) = a6
      ∧ after (lay7 (F := Ideal)) W (Proc.devRef .tc main_arg7) = a7
      ∧ after (lay7 (F := Ideal)) W (Proc.devRef .tc main_arg8) = a8
      ∧ after (lay7 (F := Ideal)) W (Proc.devRef .tc main_arg9) = a9
      ∧ after (lay7 (F := Ideal)) W (Proc.devRef .tc main_arg10) = a10
      ∧ after (lay7 (F := Ideal)) W (Proc.devRef .tc main_arg11) = a11
      ∧ after (lay7 (F := Ideal)) W (Proc.devRef .tc main_arg12) = a12
      ∧ after (lay7 (F := Ideal)) W (Proc.devRef .tc main_v317) = layer0 a2 (srcOf a1) (dstOf a1) a7 a8 a9 a10 a11 a12 H := by
  unfold lay7
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call12_cst, ofBuf_call12_cst, toBuf_call12_v0, ofBuf_call12_v0, toBuf_v283, ofBuf_v283, toBuf_v284, ofBuf_v284, toBuf_call13_cst, ofBuf_call13_cst, toBuf_call13_v0, ofBuf_call13_v0, toBuf_v316, ofBuf_v316, toBuf_v317, ofBuf_v317]
  and_intros
  all_goals first | exact True.intro | rfl

end Cert.ReferenceIdeal.RefRun

end
-- ==== Proof.RefRunLay8.lean ====
/-
  Message-passing layer 8 of the reference (the operations 372 … 421), run from contents that hold the edge
  list's two rows, the reciprocal in-degrees, the arguments and the node features `H`: it leaves those buffers as they were
  and writes `Net.layer1 … H` — gather by the wrapped source index, the edge perceptron's output times the gathered rows,
  the scatter-add onto the destinations, and the update, with parameter set 1 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call14_cst`'s buffer type are contents at the tensor type `⟨S_, .f32⟩`: the two types are the same. -/
theorem toBuf_call14_cst (h p q) (v : (⟨S_, .f32⟩ : BufTy).Contents (Elt Ideal)) :
    (TRef.of (sig := sig) (T := ⟨S_, .f32⟩) main_call14_cst h p q).toBuf (Val := Elt Ideal) v = v := rfl
@[inherit_doc toBuf_call14_cst]
theorem ofBuf_call14_cst (h p q) (v : (⟨S_, .f32⟩ : BufTy).Contents (Elt Ideal)) :
    (TRef.of (sig := sig) (T := ⟨S_, .f32⟩) main_call14_cst h p q).ofBuf (Val := Elt Ideal) v = v := rfl
/-- Contents at `main_call14_v0`'s buffer type are contents at the tensor type `⟨S1600000x8, .f32⟩`: the two types are the same. -/
theorem toBuf_call14_v0 (h p q) (v : (⟨S1600000x8, .f32⟩ : BufTy).Contents (Elt Ideal)) :
    (TRef.of (sig := sig) (T := ⟨S1600000x8, .f32⟩) main_call14_v0 h p q).toBuf (Val := Elt Ideal) v = v := rfl
@[inherit_doc toBuf_call14_v0]
theorem ofBuf_call14_v0 (h p q) (v : (⟨S1600000x8, .f32⟩ : BufTy).Contents (Elt Ideal)) :
    (TRef.of (sig := sig) (T := ⟨S1600000x8, .f32⟩) main_call14_v0 h p q).ofBuf (Val := Elt Ideal) v = v := rfl
/-- Contents at `main_v326`'s buffer type are contents at the tensor type `⟨S1600000x8, .f32⟩`: the two types are the same. -/
theorem toBuf_v326 (h p q) (v : (⟨S1600000x8, .f32⟩ : BufTy).Contents (Elt Ideal)) :
    (TRef.of (sig := sig) (T := ⟨S1600000x8, .f32⟩) main_v326 h p q).toBuf (Val := Elt Ideal) v = v := rfl
@[inherit_doc toBuf_v326]
theorem ofBuf_v326 (h p q) (v : (⟨S1600000x8, .f32⟩ : BufTy).Contents (Elt Ideal)) :
    (TRef.of (sig := sig) (T := ⟨S1600000x8, .f32⟩) main_v326 h p q).ofBuf (Val := Elt Ideal) v = v := rfl
/-- Contents at `main_v327`'s buffer type are contents at the tensor type `⟨S1600000x8, .f32⟩`: the two types are the same. -/
theorem toBuf_v327 (h p q) (v : (⟨S1600000x8, .f32⟩ : BufTy).Contents (Elt Ideal)) :
    (TRef.of (sig := sig) (T := ⟨S1600000x8, .f32⟩) main_v327 h p q).toBuf (Val := Elt Ideal) v = v := rfl
@[inherit_doc toBuf_v327]
theorem ofBuf_v327 (h p q) (v : (⟨S1600000x8, .f32⟩ : BufTy).Contents (Elt Ideal)) :
    (TRef.of (sig := sig) (T := ⟨S1600000x8, .f32⟩) main_v327 h p q).ofBuf (Val := Elt Ideal) v = v := rfl
/-- Contents at `main_call15_cst`'s buffer type are contents at the tensor type `⟨S_, .f32⟩`: the two types are the same. -/
theorem toBuf_call15_cst (h p q) (v : (⟨S_, .f32⟩ : BufTy).Contents (Elt Ideal)) :
    (TRef.of (sig := sig) (T := ⟨S_, .f32⟩) main_call15_cst h p q).toBuf (Val := Elt Ideal) v = v := rfl
@[inherit_doc toBuf_call15_cst]
theorem ofBuf_call15_cst (h p q) (v : (⟨S_, .f32⟩ : BufTy).Contents (Elt Ideal)) :
    (TRef.of (sig := sig) (T := ⟨S_, .f32⟩) main_call15_cst h p q).ofBuf (Val := Elt Ideal) v = v := rfl
/-- Contents at `main_call15_v0`'s buffer type are contents at the tensor type `⟨S50000x32, .f32⟩`: the two types are the same. -/
theorem toBuf_call15_v0 (h p q) (v : (⟨S50000x32, .f32⟩ : BufTy).Contents (Elt Ideal)) :
    (TRef.of (sig := sig) (T := ⟨S50000x32, .f32⟩) main_call15_v0 h p q).toBuf (Val := Elt Ideal) v = v := rfl
@[inherit_doc toBuf_call15_v0]
theorem ofBuf_call15_v0 (h p q) (v : (⟨S50000x32, .f32⟩ : BufTy).Contents (Elt Ideal)) :
    (TRef.of (sig := sig) (T := ⟨S50000x32, .f32⟩) main_call15_v0 h p q).ofBuf (Val := Elt Ideal) v = v := rfl
/-- Contents at `main_v359`'s buffer type are contents at the tensor type `⟨S50000x32, .f32⟩`: the two types are the same. -/
theorem toBuf_v359 (h p q) (v : (⟨S50000x32, .f32⟩ : BufTy).Contents (Elt Ideal)) :
    (TRef.of (sig := sig) (T := ⟨S50000x32, .f32⟩) main_v359 h p q).toBuf (Val := Elt Ideal) v = v := rfl
@[inherit_doc toBuf_v359]
theorem ofBuf_v359 (h p q) (v : (⟨S50000x32, .f32⟩ : BufTy).Contents (Elt Ideal)) :
    (TRef.of (sig := sig) (T := ⟨S50000x32, .f32⟩) main_v359 h p q).ofBuf (Val := Elt Ideal) v = v := rfl
/-- Contents at `main_v360`'s buffer type are contents at the tensor type `⟨S50000x32, .f32⟩`: the two types are the same. -/
theorem toBuf_v360 (h p q) (v : (⟨S50000x32, .f32⟩ : BufTy).Contents (Elt Ideal)) :
    (TRef.of (sig := sig) (T := ⟨S50000x32, .f32⟩) main_v360 h p q).toBuf (Val := Elt Ideal) v = v := rfl
@[inherit_doc toBuf_v360]
theorem ofBuf_v360 (h p q) (v : (⟨S50000x32, .f32⟩ : BufTy).Contents (Elt Ideal)) :
    (TRef.of (sig := sig) (T := ⟨S50000x32, .f32⟩) main_v360 h p q).ofBuf (Val := Elt Ideal) v = v := rfl

set_option maxRecDepth 16384 in
set_option maxHeartbeats 40000000 in
/-- Layer 8: the index rows, the reciprocal in-degrees and the arguments unchanged, the new node features `Net.layer1` of the old. -/
theorem lay8_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v317) = H) :
    after (lay8 (F := Ideal)) W (Proc.devRef .tc main_v1) = srcOf a1
      ∧ after (lay8 (F := Ideal)) W (Proc.devRef .tc main_v3) = dstOf a1
      ∧ after (lay8 (F := Ideal)) W (Proc.devRef .tc main_v11) = invDeg (dstOf a1)
      ∧ after (lay8 (F := Ideal)) W (Proc.devRef .tc main_arg0) = a0
      ∧ after (lay8 (F := Ideal)) W (Proc.devRef .tc main_arg1) = a1
      ∧ after (lay8 (F := Ideal)) W (Proc.devRef .tc main_arg2) = a2
      ∧ after (lay8 (F := Ideal)) W (Proc.devRef .tc main_arg3) = a3
      ∧ after (lay8 (F := Ideal)) W (Proc.devRef .tc main_arg4) = a4
      ∧ after (lay8 (F := Ideal)) W (Proc.devRef .tc main_arg5) = a5
      ∧ after (lay8 (F := Ideal)) W (Proc.devRef .tc main_arg6) = a6
      ∧ after (lay8 (F := Ideal)) W (Proc.devRef .tc main_arg7) = a7
      ∧ after (lay8 (F := Ideal)) W (Proc.devRef .tc main_arg8) = a8
      ∧ after (lay8 (F := Ideal)) W (Proc.devRef .tc main_arg9) = a9
      ∧ after (lay8 (F := Ideal)) W (Proc.devRef .tc main_arg10) = a10
      ∧ after (lay8 (F := Ideal)) W (Proc.devRef .tc main_arg11) = a11
      ∧ after (lay8 (F := Ideal)) W (Proc.devRef .tc main_arg12) = a12
      ∧ after (lay8 (F := Ideal)) W (Proc.devRef .tc main_v360) = layer1 a2 (srcOf a1) (dstOf a1) a7 a8 a9 a10 a11 a12 H := by
  unfold lay8
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call14_cst, ofBuf_call14_cst, toBuf_call14_v0, ofBuf_call14_v0, toBuf_v326, ofBuf_v326, toBuf_v327, ofBuf_v327, toBuf_call15_cst, ofBuf_call15_cst, toBuf_call15_v0, ofBuf_call15_v0, toBuf_v359, ofBuf_v359, toBuf_v360, ofBuf_v360]
  and_intros
  all_goals first | exact True.intro | rfl

end Cert.ReferenceIdeal.RefRun

end
-- ==== Proof.RefRunLay9.lean ====
/-
  Message-passing layer 9 of the reference (the operations 422 … 471), run from contents that hold the edge
  list's two rows, the reciprocal in-degrees, the arguments and the node features `H`: it leaves those buffers as they were
  and writes `Net.layer2 … H` — gather by the wrapped source index, the edge perceptron's output times the gathered rows,
  the scatter-add onto the destinations, and the update, with parameter set 2 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call16_cst`'s buffer type are contents at the tensor type `⟨S_, .f32⟩`: the two types are the same. -/
theorem toBuf_call16_cst (h p q) (v : (⟨S_, .f32⟩ : BufTy).Contents (Elt Ideal)) :
    (TRef.of (sig := sig) (T := ⟨S_, .f32⟩) main_call16_cst h p q).toBuf (Val := Elt Ideal) v = v := rfl
@[inherit_doc toBuf_call16_cst]
theorem ofBuf_call16_cst (h p q) (v : (⟨S_, .f32⟩ : BufTy).Contents (Elt Ideal)) :
    (TRef.of (sig := sig) (T := ⟨S_, .f32⟩) main_call16_cst h p q).ofBuf (Val := Elt Ideal) v = v := rfl
/-- Contents at `main_call16_v0`'s buffer type are contents at the tensor type `⟨S1600000x8, .f32⟩`: the two types are the same. -/
theorem toBuf_call16_v0 (h p q) (v : (⟨S1600000x8, .f32⟩ : BufTy).Contents (Elt Ideal)) :
    (TRef.of (sig := sig) (T := ⟨S1600000x8, .f32⟩) main_call16_v0 h p q).toBuf (Val := Elt Ideal) v = v := rfl
@[inherit_doc toBuf_call16_v0]
theorem ofBuf_call16_v0 (h p q) (v : (⟨S1600000x8, .f32⟩ : BufTy).Contents (Elt Ideal)) :
    (TRef.of (sig := sig) (T := ⟨S1600000x8, .f32⟩) main_call16_v0 h p q).ofBuf (Val := Elt Ideal) v = v := rfl
/-- Contents at `main_v369`'s buffer type are contents at the tensor type `⟨S1600000x8, .f32⟩`: the two types are the same. -/
theorem toBuf_v369 (h p q) (v : (⟨S1600000x8, .f32⟩ : BufTy).Contents (Elt Ideal)) :
    (TRef.of (sig := sig) (T := ⟨S1600000x8, .f32⟩) main_v369 h p q).toBuf (Val := Elt Ideal) v = v := rfl
@[inherit_doc toBuf_v369]
theorem ofBuf_v369 (h p q) (v : (⟨S1600000x8, .f32⟩ : BufTy).Contents (Elt Ideal)) :
    (TRef.of (sig := sig) (T := ⟨S1600000x8, .f32⟩) main_v369 h p q).ofBuf (Val := Elt Ideal) v = v := rfl
/-- Contents at `main_v370`'s buffer type are contents at the tensor type `⟨S1600000x8, .f32⟩`: the two types are the same. -/
theorem toBuf_v370 (h p q) (v : (⟨S1600000x8, .f32⟩ : BufTy).Contents (Elt Ideal)) :
    (TRef.of (sig := sig) (T := ⟨S1600000x8, .f32⟩) main_v370 h p q).toBuf (Val := Elt Ideal) v = v := rfl
@[inherit_doc toBuf_v370]
theorem ofBuf_v370 (h p q) (v : (⟨S1600000x8, .f32⟩ : BufTy).Contents (Elt Ideal)) :
    (TRef.of (sig := sig) (T := ⟨S1600000x8, .f32⟩) main_v370 h p q).ofBuf (Val := Elt Ideal) v = v := rfl
/-- Contents at `main_call17_cst`'s buffer type are contents at the tensor type `⟨S_, .f32⟩`: the two types are the same. -/
theorem toBuf_call17_cst (h p q) (v : (⟨S_, .f32⟩ : BufTy).Contents (Elt Ideal)) :
    (TRef.of (sig := sig) (T := ⟨S_, .f32⟩) main_call17_cst h p q).toBuf (Val := Elt Ideal) v = v := rfl
@[inherit_doc toBuf_call17_cst]
theorem ofBuf_call17_cst (h p q) (v : (⟨S_, .f32⟩ : BufTy).Contents (Elt Ideal)) :
    (TRef.of (sig := sig) (T := ⟨S_, .f32⟩) main_call17_cst h p q).ofBuf (Val := Elt Ideal) v = v := rfl
/-- Contents at `main_call17_v0`'s buffer type are contents at the tensor type `⟨S50000x32, .f32⟩`: the two types are the same. -/
theorem toBuf_call17_v0 (h p q) (v : (⟨S50000x32, .f32⟩ : BufTy).Contents (Elt Ideal)) :
    (TRef.of (sig := sig) (T := ⟨S50000x32, .f32⟩) main_call17_v0 h p q).toBuf (Val := Elt Ideal) v = v := rfl
@[inherit_doc toBuf_call17_v0]
theorem ofBuf_call17_v0 (h p q) (v : (⟨S50000x32, .f32⟩ : BufTy).Contents (Elt Ideal)) :
    (TRef.of (sig := sig) (T := ⟨S50000x32, .f32⟩) main_call17_v0 h p q).ofBuf (Val := Elt Ideal) v = v := rfl
/-- Contents at `main_v402`'s buffer type are contents at the tensor type `⟨S50000x32, .f32⟩`: the two types are the same. -/
theorem toBuf_v402 (h p q) (v : (⟨S50000x32, .f32⟩ : BufTy).Contents (Elt Ideal)) :
    (TRef.of (sig := sig) (T := ⟨S50000x32, .f32⟩) main_v402 h p q).toBuf (Val := Elt Ideal) v = v := rfl
@[inherit_doc toBuf_v402]
theorem ofBuf_v402 (h p q) (v : (⟨S50000x32, .f32⟩ : BufTy).Contents (Elt Ideal)) :
    (TRef.of (sig := sig) (T := ⟨S50000x32, .f32⟩) main_v402 h p q).ofBuf (Val := Elt Ideal) v = v := rfl
/-- Contents at `main_v403`'s buffer type are contents at the tensor type `⟨S50000x32, .f32⟩`: the two types are the same. -/
theorem toBuf_v403 (h p q) (v : (⟨S50000x32, .f32⟩ : BufTy).Contents (Elt Ideal)) :
    (TRef.of (sig := sig) (T := ⟨S50000x32, .f32⟩) main_v403 h p q).toBuf (Val := Elt Ideal) v = v := rfl
@[inherit_doc toBuf_v403]
theorem ofBuf_v403 (h p q) (v : (⟨S50000x32, .f32⟩ : BufTy).Contents (Elt Ideal)) :
    (TRef.of (sig := sig) (T := ⟨S50000x32, .f32⟩) main_v403 h p q).ofBuf (Val := Elt Ideal) v = v := rfl

set_option maxRecDepth 16384 in
set_option maxHeartbeats 40000000 in
/-- Layer 9: the index rows, the reciprocal in-degrees and the arguments unchanged, the new node features `Net.layer2` of the old. -/
theorem lay9_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v360) = H) :
    after (lay9 (F := Ideal)) W (Proc.devRef .tc main_v1) = srcOf a1
      ∧ after (lay9 (F := Ideal)) W (Proc.devRef .tc main_v3) = dstOf a1
      ∧ after (lay9 (F := Ideal)) W (Proc.devRef .tc main_v11) = invDeg (dstOf a1)
      ∧ after (lay9 (F := Ideal)) W (Proc.devRef .tc main_arg0) = a0
      ∧ after (lay9 (F := Ideal)) W (Proc.devRef .tc main_arg1) = a1
      ∧ after (lay9 (F := Ideal)) W (Proc.devRef .tc main_arg2) = a2
      ∧ after (lay9 (F := Ideal)) W (Proc.devRef .tc main_arg3) = a3
      ∧ after (lay9 (F := Ideal)) W (Proc.devRef .tc main_arg4) = a4
      ∧ after (lay9 (F := Ideal)) W (Proc.devRef .tc main_arg5) = a5
      ∧ after (lay9 (F := Ideal)) W (Proc.devRef .tc main_arg6) = a6
      ∧ after (lay9 (F := Ideal)) W (Proc.devRef .tc main_arg7) = a7
      ∧ after (lay9 (F := Ideal)) W (Proc.devRef .tc main_arg8) = a8
      ∧ after (lay9 (F := Ideal)) W (Proc.devRef .tc main_arg9) = a9
      ∧ after (lay9 (F := Ideal)) W (Proc.devRef .tc main_arg10) = a10
      ∧ after (lay9 (F := Ideal)) W (Proc.devRef .tc main_arg11) = a11
      ∧ after (lay9 (F := Ideal)) W (Proc.devRef .tc main_arg12) = a12
      ∧ after (lay9 (F := Ideal)) W (Proc.devRef .tc main_v403) = layer2 a2 (srcOf a1) (dstOf a1) a7 a8 a9 a10 a11 a12 H := by
  unfold lay9
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call16_cst, ofBuf_call16_cst, toBuf_call16_v0, ofBuf_call16_v0, toBuf_v369, ofBuf_v369, toBuf_v370, ofBuf_v370, toBuf_call17_cst, ofBuf_call17_cst, toBuf_call17_v0, ofBuf_call17_v0, toBuf_v402, ofBuf_v402, toBuf_v403, ofBuf_v403]
  and_intros
  all_goals first | exact True.intro | rfl

end Cert.ReferenceIdeal.RefRun

end
-- ==== Proof.RefRunLay10.lean ====
/-
  Message-passing layer 10 of the reference (the operations 472 … 521), run from contents that hold the edge
  list's two rows, the reciprocal in-degrees, the arguments and the node features `H`: it leaves those buffers as they were
  and writes `Net.layer0 … H` — gather by the wrapped source index, the edge perceptron's output times the gathered rows,
  the scatter-add onto the destinations, and the update, with parameter set 0 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call18_cst`'s buffer type are contents at the tensor type `⟨S_, .f32⟩`: the two types are the same. -/
theorem toBuf_call18_cst (h p q) (v : (⟨S_, .f32⟩ : BufTy).Contents (Elt Ideal)) :
    (TRef.of (sig := sig) (T := ⟨S_, .f32⟩) main_call18_cst h p q).toBuf (Val := Elt Ideal) v = v := rfl
@[inherit_doc toBuf_call18_cst]
theorem ofBuf_call18_cst (h p q) (v : (⟨S_, .f32⟩ : BufTy).Contents (Elt Ideal)) :
    (TRef.of (sig := sig) (T := ⟨S_, .f32⟩) main_call18_cst h p q).ofBuf (Val := Elt Ideal) v = v := rfl
/-- Contents at `main_call18_v0`'s buffer type are contents at the tensor type `⟨S1600000x8, .f32⟩`: the two types are the same. -/
theorem toBuf_call18_v0 (h p q) (v : (⟨S1600000x8, .f32⟩ : BufTy).Contents (Elt Ideal)) :
    (TRef.of (sig := sig) (T := ⟨S1600000x8, .f32⟩) main_call18_v0 h p q).toBuf (Val := Elt Ideal) v = v := rfl
@[inherit_doc toBuf_call18_v0]
theorem ofBuf_call18_v0 (h p q) (v : (⟨S1600000x8, .f32⟩ : BufTy).Contents (Elt Ideal)) :
    (TRef.of (sig := sig) (T := ⟨S1600000x8, .f32⟩) main_call18_v0 h p q).ofBuf (Val := Elt Ideal) v = v := rfl
/-- Contents at `main_v412`'s buffer type are contents at the tensor type `⟨S1600000x8, .f32⟩`: the two types are the same. -/
theorem toBuf_v412 (h p q) (v : (⟨S1600000x8, .f32⟩ : BufTy).Contents (Elt Ideal)) :
    (TRef.of (sig := sig) (T := ⟨S1600000x8, .f32⟩) main_v412 h p q).toBuf (Val := Elt Ideal) v = v := rfl
@[inherit_doc toBuf_v412]
theorem ofBuf_v412 (h p q) (v : (⟨S1600000x8, .f32⟩ : BufTy).Contents (Elt Ideal)) :
    (TRef.of (sig := sig) (T := ⟨S1600000x8, .f32⟩) main_v412 h p q).ofBuf (Val := Elt Ideal) v = v := rfl
/-- Contents at `main_v413`'s buffer type are contents at the tensor type `⟨S1600000x8, .f32⟩`: the two types are the same. -/
theorem toBuf_v413 (h p q) (v : (⟨S1600000x8, .f32⟩ : BufTy).Contents (Elt Ideal)) :
    (TRef.of (sig := sig) (T := ⟨S1600000x8, .f32⟩) main_v413 h p q).toBuf (Val := Elt Ideal) v = v := rfl
@[inherit_doc toBuf_v413]
theorem ofBuf_v413 (h p q) (v : (⟨S1600000x8, .f32⟩ : BufTy).Contents (Elt Ideal)) :
    (TRef.of (sig := sig) (T := ⟨S1600000x8, .f32⟩) main_v413 h p q).ofBuf (Val := Elt Ideal) v = v := rfl
/-- Contents at `main_call19_cst`'s buffer type are contents at the tensor type `⟨S_, .f32⟩`: the two types are the same. -/
theorem toBuf_call19_cst (h p q) (v : (⟨S_, .f32⟩ : BufTy).Contents (Elt Ideal)) :
    (TRef.of (sig := sig) (T := ⟨S_, .f32⟩) main_call19_cst h p q).toBuf (Val := Elt Ideal) v = v := rfl
@[inherit_doc toBuf_call19_cst]
theorem ofBuf_call19_cst (h p q) (v : (⟨S_, .f32⟩ : BufTy).Contents (Elt Ideal)) :
    (TRef.of (sig := sig) (T := ⟨S_, .f32⟩) main_call19_cst h p q).ofBuf (Val := Elt Ideal) v = v := rfl
/-- Contents at `main_call19_v0`'s buffer type are contents at the tensor type `⟨S50000x32, .f32⟩`: the two types are the same. -/
theorem toBuf_call19_v0 (h p q) (v : (⟨S50000x32, .f32⟩ : BufTy).Contents (Elt Ideal)) :
    (TRef.of (sig := sig) (T := ⟨S50000x32, .f32⟩) main_call19_v0 h p q).toBuf (Val := Elt Ideal) v = v := rfl
@[inherit_doc toBuf_call19_v0]
theorem ofBuf_call19_v0 (h p q) (v : (⟨S50000x32, .f32⟩ : BufTy).Contents (Elt Ideal)) :
    (TRef.of (sig := sig) (T := ⟨S50000x32, .f32⟩) main_call19_v0 h p q).ofBuf (Val := Elt Ideal) v = v := rfl
/-- Contents at `main_v445`'s buffer type are contents at the tensor type `⟨S50000x32, .f32⟩`: the two types are the same. -/
theorem toBuf_v445 (h p q) (v : (⟨S50000x32, .f32⟩ : BufTy).Contents (Elt Ideal)) :
    (TRef.of (sig := sig) (T := ⟨S50000x32, .f32⟩) main_v445 h p q).toBuf (Val := Elt Ideal) v = v := rfl
@[inherit_doc toBuf_v445]
theorem ofBuf_v445 (h p q) (v : (⟨S50000x32, .f32⟩ : BufTy).Contents (Elt Ideal)) :
    (TRef.of (sig := sig) (T := ⟨S50000x32, .f32⟩) main_v445 h p q).ofBuf (Val := Elt Ideal) v = v := rfl
/-- Contents at `main_v446`'s buffer type are contents at the tensor type `⟨S50000x32, .f32⟩`: the two types are the same. -/
theorem toBuf_v446 (h p q) (v : (⟨S50000x32, .f32⟩ : BufTy).Contents (Elt Ideal)) :
    (TRef.of (sig := sig) (T := ⟨S50000x32, .f32⟩) main_v446 h p q).toBuf (Val := Elt Ideal) v = v := rfl
@[inherit_doc toBuf_v446]
theorem ofBuf_v446 (h p q) (v : (⟨S50000x32, .f32⟩ : BufTy).Contents (Elt Ideal)) :
    (TRef.of (sig := sig) (T := ⟨S50000x32, .f32⟩) main_v446 h p q).ofBuf (Val := Elt Ideal) v = v := rfl

set_option maxRecDepth 16384 in
set_option maxHeartbeats 40000000 in
/-- Layer 10: the index rows, the reciprocal in-degrees and the arguments unchanged, the new node features `Net.layer0` of the old. -/
theorem lay10_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v403) = H) :
    after (lay10 (F := Ideal)) W (Proc.devRef .tc main_v1) = srcOf a1
      ∧ after (lay10 (F := Ideal)) W (Proc.devRef .tc main_v3) = dstOf a1
      ∧ after (lay10 (F := Ideal)) W (Proc.devRef .tc main_v11) = invDeg (dstOf a1)
      ∧ after (lay10 (F := Ideal)) W (Proc.devRef .tc main_arg0) = a0
      ∧ after (lay10 (F := Ideal)) W (Proc.devRef .tc main_arg1) = a1
      ∧ after (lay10 (F := Ideal)) W (Proc.devRef .tc main_arg2) = a2
      ∧ after (lay10 (F := Ideal)) W (Proc.devRef .tc main_arg3) = a3
      ∧ after (lay10 (F := Ideal)) W (Proc.devRef .tc main_arg4) = a4
      ∧ after (lay10 (F := Ideal)) W (Proc.devRef .tc main_arg5) = a5
      ∧ after (lay10 (F := Ideal)) W (Proc.devRef .tc main_arg6) = a6
      ∧ after (lay10 (F := Ideal)) W (Proc.devRef .tc main_arg7) = a7
      ∧ after (lay10 (F := Ideal)) W (Proc.devRef .tc main_arg8) = a8
      ∧ after (lay10 (F := Ideal)) W (Proc.devRef .tc main_arg9) = a9
      ∧ after (lay10 (F := Ideal)) W (Proc.devRef .tc main_arg10) = a10
      ∧ after (lay10 (F := Ideal)) W (Proc.devRef .tc main_arg11) = a11
      ∧ after (lay10 (F := Ideal)) W (Proc.devRef .tc main_arg12) = a12
      ∧ after (lay10 (F := Ideal)) W (Proc.devRef .tc main_v446) = layer0 a2 (srcOf a1) (dstOf a1) a7 a8 a9 a10 a11 a12 H := by
  unfold lay10
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call18_cst, ofBuf_call18_cst, toBuf_call18_v0, ofBuf_call18_v0, toBuf_v412, ofBuf_v412, toBuf_v413, ofBuf_v413, toBuf_call19_cst, ofBuf_call19_cst, toBuf_call19_v0, ofBuf_call19_v0, toBuf_v445, ofBuf_v445, toBuf_v446, ofBuf_v446]
  and_intros
  all_goals first | exact True.intro | rfl

end Cert.ReferenceIdeal.RefRun

end
-- ==== Proof.RefRunLay11.lean ====
/-
  Message-passing layer 11 of the reference (the operations 522 … 571), run from contents that hold the edge
  list's two rows, the reciprocal in-degrees, the arguments and the node features `H`: it leaves those buffers as they were
  and writes `Net.layer1 … H` — gather by the wrapped source index, the edge perceptron's output times the gathered rows,
  the scatter-add onto the destinations, and the update, with parameter set 1 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call20_cst`'s buffer type are contents at the tensor type `⟨S_, .f32⟩`: the two types are the same. -/
theorem toBuf_call20_cst (h p q) (v : (⟨S_, .f32⟩ : BufTy).Contents (Elt Ideal)) :
    (TRef.of (sig := sig) (T := ⟨S_, .f32⟩) main_call20_cst h p q).toBuf (Val := Elt Ideal) v = v := rfl
@[inherit_doc toBuf_call20_cst]
theorem ofBuf_call20_cst (h p q) (v : (⟨S_, .f32⟩ : BufTy).Contents (Elt Ideal)) :
    (TRef.of (sig := sig) (T := ⟨S_, .f32⟩) main_call20_cst h p q).ofBuf (Val := Elt Ideal) v = v := rfl
/-- Contents at `main_call20_v0`'s buffer type are contents at the tensor type `⟨S1600000x8, .f32⟩`: the two types are the same. -/
theorem toBuf_call20_v0 (h p q) (v : (⟨S1600000x8, .f32⟩ : BufTy).Contents (Elt Ideal)) :
    (TRef.of (sig := sig) (T := ⟨S1600000x8, .f32⟩) main_call20_v0 h p q).toBuf (Val := Elt Ideal) v = v := rfl
@[inherit_doc toBuf_call20_v0]
theorem ofBuf_call20_v0 (h p q) (v : (⟨S1600000x8, .f32⟩ : BufTy).Contents (Elt Ideal)) :
    (TRef.of (sig := sig) (T := ⟨S1600000x8, .f32⟩) main_call20_v0 h p q).ofBuf (Val := Elt Ideal) v = v := rfl
/-- Contents at `main_v455`'s buffer type are contents at the tensor type `⟨S1600000x8, .f32⟩`: the two types are the same. -/
theorem toBuf_v455 (h p q) (v : (⟨S1600000x8, .f32⟩ : BufTy).Contents (Elt Ideal)) :
    (TRef.of (sig := sig) (T := ⟨S1600000x8, .f32⟩) main_v455 h p q).toBuf (Val := Elt Ideal) v = v := rfl
@[inherit_doc toBuf_v455]
theorem ofBuf_v455 (h p q) (v : (⟨S1600000x8, .f32⟩ : BufTy).Contents (Elt Ideal)) :
    (TRef.of (sig := sig) (T := ⟨S1600000x8, .f32⟩) main_v455 h p q).ofBuf (Val := Elt Ideal) v = v := rfl
/-- Contents at `main_v456`'s buffer type are contents at the tensor type `⟨S1600000x8, .f32⟩`: the two types are the same. -/
theorem toBuf_v456 (h p q) (v : (⟨S1600000x8, .f32⟩ : BufTy).Contents (Elt Ideal)) :
    (TRef.of (sig := sig) (T := ⟨S1600000x8, .f32⟩) main_v456 h p q).toBuf (Val := Elt Ideal) v = v := rfl
@[inherit_doc toBuf_v456]
theorem ofBuf_v456 (h p q) (v : (⟨S1600000x8, .f32⟩ : BufTy).Contents (Elt Ideal)) :
    (TRef.of (sig := sig) (T := ⟨S1600000x8, .f32⟩) main_v456 h p q).ofBuf (Val := Elt Ideal) v = v := rfl
/-- Contents at `main_call21_cst`'s buffer type are contents at the tensor type `⟨S_, .f32⟩`: the two types are the same. -/
theorem toBuf_call21_cst (h p q) (v : (⟨S_, .f32⟩ : BufTy).Contents (Elt Ideal)) :
    (TRef.of (sig := sig) (T := ⟨S_, .f32⟩) main_call21_cst h p q).toBuf (Val := Elt Ideal) v = v := rfl
@[inherit_doc toBuf_call21_cst]
theorem ofBuf_call21_cst (h p q) (v : (⟨S_, .f32⟩ : BufTy).Contents (Elt Ideal)) :
    (TRef.of (sig := sig) (T := ⟨S_, .f32⟩) main_call21_cst h p q).ofBuf (Val := Elt Ideal) v = v := rfl
/-- Contents at `main_call21_v0`'s buffer type are contents at the tensor type `⟨S50000x32, .f32⟩`: the two types are the same. -/
theorem toBuf_call21_v0 (h p q) (v : (⟨S50000x32, .f32⟩ : BufTy).Contents (Elt Ideal)) :
    (TRef.of (sig := sig) (T := ⟨S50000x32, .f32⟩) main_call21_v0 h p q).toBuf (Val := Elt Ideal) v = v := rfl
@[inherit_doc toBuf_call21_v0]
theorem ofBuf_call21_v0 (h p q) (v : (⟨S50000x32, .f32⟩ : BufTy).Contents (Elt Ideal)) :
    (TRef.of (sig := sig) (T := ⟨S50000x32, .f32⟩) main_call21_v0 h p q).ofBuf (Val := Elt Ideal) v = v := rfl
/-- Contents at `main_v488`'s buffer type are contents at the tensor type `⟨S50000x32, .f32⟩`: the two types are the same. -/
theorem toBuf_v488 (h p q) (v : (⟨S50000x32, .f32⟩ : BufTy).Contents (Elt Ideal)) :
    (TRef.of (sig := sig) (T := ⟨S50000x32, .f32⟩) main_v488 h p q).toBuf (Val := Elt Ideal) v = v := rfl
@[inherit_doc toBuf_v488]
theorem ofBuf_v488 (h p q) (v : (⟨S50000x32, .f32⟩ : BufTy).Contents (Elt Ideal)) :
    (TRef.of (sig := sig) (T := ⟨S50000x32, .f32⟩) main_v488 h p q).ofBuf (Val := Elt Ideal) v = v := rfl
/-- Contents at `main_v489`'s buffer type are contents at the tensor type `⟨S50000x32, .f32⟩`: the two types are the same. -/
theorem toBuf_v489 (h p q) (v : (⟨S50000x32, .f32⟩ : BufTy).Contents (Elt Ideal)) :
    (TRef.of (sig := sig) (T := ⟨S50000x32, .f32⟩) main_v489 h p q).toBuf (Val := Elt Ideal) v = v := rfl
@[inherit_doc toBuf_v489]
theorem ofBuf_v489 (h p q) (v : (⟨S50000x32, .f32⟩ : BufTy).Contents (Elt Ideal)) :
    (TRef.of (sig := sig) (T := ⟨S50000x32, .f32⟩) main_v489 h p q).ofBuf (Val := Elt Ideal) v = v := rfl

set_option maxRecDepth 16384 in
set_option maxHeartbeats 40000000 in
/-- Layer 11: the index rows, the reciprocal in-degrees and the arguments unchanged, the new node features `Net.layer1` of the old. -/
theorem lay11_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v446) = H) :
    after (lay11 (F := Ideal)) W (Proc.devRef .tc main_v1) = srcOf a1
      ∧ after (lay11 (F := Ideal)) W (Proc.devRef .tc main_v3) = dstOf a1
      ∧ after (lay11 (F := Ideal)) W (Proc.devRef .tc main_v11) = invDeg (dstOf a1)
      ∧ after (lay11 (F := Ideal)) W (Proc.devRef .tc main_arg0) = a0
      ∧ after (lay11 (F := Ideal)) W (Proc.devRef .tc main_arg1) = a1
      ∧ after (lay11 (F := Ideal)) W (Proc.devRef .tc main_arg2) = a2
      ∧ after (lay11 (F := Ideal)) W (Proc.devRef .tc main_arg3) = a3
      ∧ after (lay11 (F := Ideal)) W (Proc.devRef .tc main_arg4) = a4
      ∧ after (lay11 (F := Ideal)) W (Proc.devRef .tc main_arg5) = a5
      ∧ after (lay11 (F := Ideal)) W (Proc.devRef .tc main_arg6) = a6
      ∧ after (lay11 (F := Ideal)) W (Proc.devRef .tc main_arg7) = a7
      ∧ after (lay11 (F := Ideal)) W (Proc.devRef .tc main_arg8) = a8
      ∧ after (lay11 (F := Ideal)) W (Proc.devRef .tc main_arg9) = a9
      ∧ after (lay11 (F := Ideal)) W (Proc.devRef .tc main_arg10) = a10
      ∧ after (lay11 (F := Ideal)) W (Proc.devRef .tc main_arg11) = a11
      ∧ after (lay11 (F := Ideal)) W (Proc.devRef .tc main_arg12) = a12
      ∧ after (lay11 (F := Ideal)) W (Proc.devRef .tc main_v489) = layer1 a2 (srcOf a1) (dstOf a1) a7 a8 a9 a10 a11 a12 H := by
  unfold lay11
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call20_cst, ofBuf_call20_cst, toBuf_call20_v0, ofBuf_call20_v0, toBuf_v455, ofBuf_v455, toBuf_v456, ofBuf_v456, toBuf_call21_cst, ofBuf_call21_cst, toBuf_call21_v0, ofBuf_call21_v0, toBuf_v488, ofBuf_v488, toBuf_v489, ofBuf_v489]
  and_intros
  all_goals first | exact True.intro | rfl

end Cert.ReferenceIdeal.RefRun

end
-- ==== Proof.RefRunLay12.lean ====
/-
  Message-passing layer 12 of the reference (the operations 572 … 621), run from contents that hold the edge
  list's two rows, the reciprocal in-degrees, the arguments and the node features `H`: it leaves those buffers as they were
  and writes `Net.layer2 … H` — gather by the wrapped source index, the edge perceptron's output times the gathered rows,
  the scatter-add onto the destinations, and the update, with parameter set 2 of each stack —, spelt operation for
  operation as the program computes it. (The outlined rectifier reads and writes its buffers at the tensor type of its
  values; a buffer's type and that tensor type are the same type, so the two transports are the identity.)
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

/-- Contents at `main_call22_cst`'s buffer type are contents at the tensor type `⟨S_, .f32⟩`: the two types are the same. -/
theorem toBuf_call22_cst (h p q) (v : (⟨S_, .f32⟩ : BufTy).Contents (Elt Ideal)) :
    (TRef.of (sig := sig) (T := ⟨S_, .f32⟩) main_call22_cst h p q).toBuf (Val := Elt Ideal) v = v := rfl
@[inherit_doc toBuf_call22_cst]
theorem ofBuf_call22_cst (h p q) (v : (⟨S_, .f32⟩ : BufTy).Contents (Elt Ideal)) :
    (TRef.of (sig := sig) (T := ⟨S_, .f32⟩) main_call22_cst h p q).ofBuf (Val := Elt Ideal) v = v := rfl
/-- Contents at `main_call22_v0`'s buffer type are contents at the tensor type `⟨S1600000x8, .f32⟩`: the two types are the same. -/
theorem toBuf_call22_v0 (h p q) (v : (⟨S1600000x8, .f32⟩ : BufTy).Contents (Elt Ideal)) :
    (TRef.of (sig := sig) (T := ⟨S1600000x8, .f32⟩) main_call22_v0 h p q).toBuf (Val := Elt Ideal) v = v := rfl
@[inherit_doc toBuf_call22_v0]
theorem ofBuf_call22_v0 (h p q) (v : (⟨S1600000x8, .f32⟩ : BufTy).Contents (Elt Ideal)) :
    (TRef.of (sig := sig) (T := ⟨S1600000x8, .f32⟩) main_call22_v0 h p q).ofBuf (Val := Elt Ideal) v = v := rfl
/-- Contents at `main_v498`'s buffer type are contents at the tensor type `⟨S1600000x8, .f32⟩`: the two types are the same. -/
theorem toBuf_v498 (h p q) (v : (⟨S1600000x8, .f32⟩ : BufTy).Contents (Elt Ideal)) :
    (TRef.of (sig := sig) (T := ⟨S1600000x8, .f32⟩) main_v498 h p q).toBuf (Val := Elt Ideal) v = v := rfl
@[inherit_doc toBuf_v498]
theorem ofBuf_v498 (h p q) (v : (⟨S1600000x8, .f32⟩ : BufTy).Contents (Elt Ideal)) :
    (TRef.of (sig := sig) (T := ⟨S1600000x8, .f32⟩) main_v498 h p q).ofBuf (Val := Elt Ideal) v = v := rfl
/-- Contents at `main_v499`'s buffer type are contents at the tensor type `⟨S1600000x8, .f32⟩`: the two types are the same. -/
theorem toBuf_v499 (h p q) (v : (⟨S1600000x8, .f32⟩ : BufTy).Contents (Elt Ideal)) :
    (TRef.of (sig := sig) (T := ⟨S1600000x8, .f32⟩) main_v499 h p q).toBuf (Val := Elt Ideal) v = v := rfl
@[inherit_doc toBuf_v499]
theorem ofBuf_v499 (h p q) (v : (⟨S1600000x8, .f32⟩ : BufTy).Contents (Elt Ideal)) :
    (TRef.of (sig := sig) (T := ⟨S1600000x8, .f32⟩) main_v499 h p q).ofBuf (Val := Elt Ideal) v = v := rfl
/-- Contents at `main_call23_cst`'s buffer type are contents at the tensor type `⟨S_, .f32⟩`: the two types are the same. -/
theorem toBuf_call23_cst (h p q) (v : (⟨S_, .f32⟩ : BufTy).Contents (Elt Ideal)) :
    (TRef.of (sig := sig) (T := ⟨S_, .f32⟩) main_call23_cst h p q).toBuf (Val := Elt Ideal) v = v := rfl
@[inherit_doc toBuf_call23_cst]
theorem ofBuf_call23_cst (h p q) (v : (⟨S_, .f32⟩ : BufTy).Contents (Elt Ideal)) :
    (TRef.of (sig := sig) (T := ⟨S_, .f32⟩) main_call23_cst h p q).ofBuf (Val := Elt Ideal) v = v := rfl
/-- Contents at `main_call23_v0`'s buffer type are contents at the tensor type `⟨S50000x32, .f32⟩`: the two types are the same. -/
theorem toBuf_call23_v0 (h p q) (v : (⟨S50000x32, .f32⟩ : BufTy).Contents (Elt Ideal)) :
    (TRef.of (sig := sig) (T := ⟨S50000x32, .f32⟩) main_call23_v0 h p q).toBuf (Val := Elt Ideal) v = v := rfl
@[inherit_doc toBuf_call23_v0]
theorem ofBuf_call23_v0 (h p q) (v : (⟨S50000x32, .f32⟩ : BufTy).Contents (Elt Ideal)) :
    (TRef.of (sig := sig) (T := ⟨S50000x32, .f32⟩) main_call23_v0 h p q).ofBuf (Val := Elt Ideal) v = v := rfl
/-- Contents at `main_v531`'s buffer type are contents at the tensor type `⟨S50000x32, .f32⟩`: the two types are the same. -/
theorem toBuf_v531 (h p q) (v : (⟨S50000x32, .f32⟩ : BufTy).Contents (Elt Ideal)) :
    (TRef.of (sig := sig) (T := ⟨S50000x32, .f32⟩) main_v531 h p q).toBuf (Val := Elt Ideal) v = v := rfl
@[inherit_doc toBuf_v531]
theorem ofBuf_v531 (h p q) (v : (⟨S50000x32, .f32⟩ : BufTy).Contents (Elt Ideal)) :
    (TRef.of (sig := sig) (T := ⟨S50000x32, .f32⟩) main_v531 h p q).ofBuf (Val := Elt Ideal) v = v := rfl
/-- Contents at `main_v532`'s buffer type are contents at the tensor type `⟨S50000x32, .f32⟩`: the two types are the same. -/
theorem toBuf_v532 (h p q) (v : (⟨S50000x32, .f32⟩ : BufTy).Contents (Elt Ideal)) :
    (TRef.of (sig := sig) (T := ⟨S50000x32, .f32⟩) main_v532 h p q).toBuf (Val := Elt Ideal) v = v := rfl
@[inherit_doc toBuf_v532]
theorem ofBuf_v532 (h p q) (v : (⟨S50000x32, .f32⟩ : BufTy).Contents (Elt Ideal)) :
    (TRef.of (sig := sig) (T := ⟨S50000x32, .f32⟩) main_v532 h p q).ofBuf (Val := Elt Ideal) v = v := rfl

set_option maxRecDepth 16384 in
set_option maxHeartbeats 40000000 in
/-- Layer 12: the index rows, the reciprocal in-degrees and the arguments unchanged, the new node features `Net.layer2` of the old. -/
theorem lay12_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (hs : W (Proc.devRef .tc main_v1) = srcOf a1) (hd : W (Proc.devRef .tc main_v3) = dstOf a1) (hq : W (Proc.devRef .tc main_v11) = invDeg (dstOf a1))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v489) = H) :
    after (lay12 (F := Ideal)) W (Proc.devRef .tc main_v1) = srcOf a1
      ∧ after (lay12 (F := Ideal)) W (Proc.devRef .tc main_v3) = dstOf a1
      ∧ after (lay12 (F := Ideal)) W (Proc.devRef .tc main_v11) = invDeg (dstOf a1)
      ∧ after (lay12 (F := Ideal)) W (Proc.devRef .tc main_arg0) = a0
      ∧ after (lay12 (F := Ideal)) W (Proc.devRef .tc main_arg1) = a1
      ∧ after (lay12 (F := Ideal)) W (Proc.devRef .tc main_arg2) = a2
      ∧ after (lay12 (F := Ideal)) W (Proc.devRef .tc main_arg3) = a3
      ∧ after (lay12 (F := Ideal)) W (Proc.devRef .tc main_arg4) = a4
      ∧ after (lay12 (F := Ideal)) W (Proc.devRef .tc main_arg5) = a5
      ∧ after (lay12 (F := Ideal)) W (Proc.devRef .tc main_arg6) = a6
      ∧ after (lay12 (F := Ideal)) W (Proc.devRef .tc main_arg7) = a7
      ∧ after (lay12 (F := Ideal)) W (Proc.devRef .tc main_arg8) = a8
      ∧ after (lay12 (F := Ideal)) W (Proc.devRef .tc main_arg9) = a9
      ∧ after (lay12 (F := Ideal)) W (Proc.devRef .tc main_arg10) = a10
      ∧ after (lay12 (F := Ideal)) W (Proc.devRef .tc main_arg11) = a11
      ∧ after (lay12 (F := Ideal)) W (Proc.devRef .tc main_arg12) = a12
      ∧ after (lay12 (F := Ideal)) W (Proc.devRef .tc main_v532) = layer2 a2 (srcOf a1) (dstOf a1) a7 a8 a9 a10 a11 a12 H := by
  unfold lay12
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    hs, hd, hq, h0, h1, h2, h3, h4, h5, h6, h7, h8, h9, h10, h11, h12, hH,
    toBuf_call22_cst, ofBuf_call22_cst, toBuf_call22_v0, ofBuf_call22_v0, toBuf_v498, ofBuf_v498, toBuf_v499, ofBuf_v499, toBuf_call23_cst, ofBuf_call23_cst, toBuf_call23_v0, ofBuf_call23_v0, toBuf_v531, ofBuf_v531, toBuf_v532, ofBuf_v532]
  and_intros
  all_goals first | exact True.intro | rfl

end Cert.ReferenceIdeal.RefRun

end
-- ==== Proof.RefRunLay13.lean ====
/-
  The last five operations of the reference, run from contents that hold the arguments and the node features `H`: they
  leave the arguments as they were and write the last linear map of `H` (`Net.linOut`), spelt operation for operation as
  the program computes it.
-/
import proofs.«163905_j57775900066584_1_alg».proof.Proof.RefRunLays
import proofs.«163905_j57775900066584_1_alg».proof.Proof.NetOut

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

set_option maxRecDepth 16384 in
set_option maxHeartbeats 40000000 in
/-- The last linear map of the node features, the arguments unchanged. -/
theorem lay13_step {a0 : Arr S50000x3} {a1 : Ints S2x1600000} {a2 : Arr S1600000x3} {a3 : Arr S32x3} {a4 : Arr S32} {a5 : Arr S1x32} {a6 : Arr S1} {a7 : Arr S3x8x3} {a8 : Arr S3x8} {a9 : Arr S3x32x8} {a10 : Arr S3x32} {a11 : Arr S3x32x32} {a12 : Arr S3x32} {H : Arr S50000x32}
    (W : Valuation τ sig (Elt Ideal))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) (h10 : W (Proc.devRef .tc main_arg10) = a10) (h11 : W (Proc.devRef .tc main_arg11) = a11) (h12 : W (Proc.devRef .tc main_arg12) = a12)
    (hH : W (Proc.devRef .tc main_v532) = H) :
    after (lay13 (F := Ideal)) W (Proc.devRef .tc main_v537) = linOut H (transpose S32x1 [1, 0] a5 transposes_S1x32_S32x1_1_0) a6
      ∧ after (lay13 (F := Ideal)) W (Proc.devRef .tc main_arg0) = a0
      ∧ after (lay13 (F := Ideal)) W (Proc.devRef .tc main_arg1) = a1
      ∧ after (lay13 (F := Ideal)) W (Proc.devRef .tc main_arg2) = a2
      ∧ after (lay13 (F := Ideal)) W (Proc.devRef .tc main_arg3) = a3
      ∧ after (lay13 (F := Ideal)) W (Proc.devRef .tc main_arg4) = a4
      ∧ after (lay13 (F := Ideal)) W (Proc.devRef .tc main_arg5) = a5
      ∧ after (lay13 (F := Ideal)) W (Proc.devRef .tc main_arg6) = a6
      ∧ after (lay13 (F := Ideal)) W (Proc.devRef .tc main_arg7) = a7
      ∧ after (lay13 (F := Ideal)) W (Proc.devRef .tc main_arg8) = a8
      ∧ after (lay13 (F := Ideal)) W (Proc.devRef .tc main_arg9) = a9
      ∧ after (lay13 (F := Ideal)) W (Proc.devRef .tc main_arg10) = a10
      ∧ after (lay13 (F := Ideal)) W (Proc.devRef .tc main_arg11) = a11
      ∧ after (lay13 (F := Ideal)) W (Proc.devRef .tc main_arg12) = a12 := by
  unfold lay13
  simp (maxSteps := 2000000) (disch := decide) only [↓ after_append, ↓ after_cons, ↓ after_nil,
    ↓ nullary_result', ↓ unary_result', ↓ binary_result', ↓ ternary_result', ↓ quaternary_result', ↓ reshape_result', ↓ nary4_result', ↓ nary_result', ↓ unaryIndexed_result', ↓ binaryIndexed_result', ↓ nullary_result_ne', ↓ unary_result_ne', ↓ binary_result_ne', ↓ ternary_result_ne', ↓ quaternary_result_ne', ↓ reshape_result_ne', ↓ nary_result_ne', ↓ unaryIndexed_result_ne', ↓ binaryIndexed_result_ne',
    h0, h1, h2, h3, h4, h5, h6, h7, h8, h9, h10, h11, h12, hH]
  and_intros
  all_goals first | exact True.intro | rfl

end Cert.ReferenceIdeal.RefRun

end
-- ==== Proof.RefRunValue.lean ====
/-
  The fold of @main's 626 operations over the launch contents, read back. The operations are the index rows, the
  reciprocal in-degrees and the first linear map, then twelve message-passing layers, then the last linear map; each group,
  run from contents that hold what it reads, leaves the arguments, the index rows and the reciprocal in-degrees as they were
  and writes its stage of the network. Chained from the launch contents: at the result buffer the fold is the last linear
  map of twelve layers of the first linear map of the arguments — `Net.out`, which is four rounds of three layers —, and at
  each argument's buffer it is the launch contents, no operation writing an argument.
-/
import proofs.«163905_j57775900066584_1_alg».proof.Proof.RefRunCut
import proofs.«163905_j57775900066584_1_alg».proof.Proof.RefRunLay0
import proofs.«163905_j57775900066584_1_alg».proof.Proof.RefRunLay1
import proofs.«163905_j57775900066584_1_alg».proof.Proof.RefRunLay2
import proofs.«163905_j57775900066584_1_alg».proof.Proof.RefRunLay3
import proofs.«163905_j57775900066584_1_alg».proof.Proof.RefRunLay4
import proofs.«163905_j57775900066584_1_alg».proof.Proof.RefRunLay5
import proofs.«163905_j57775900066584_1_alg».proof.Proof.RefRunLay6
import proofs.«163905_j57775900066584_1_alg».proof.Proof.RefRunLay7
import proofs.«163905_j57775900066584_1_alg».proof.Proof.RefRunLay8
import proofs.«163905_j57775900066584_1_alg».proof.Proof.RefRunLay9
import proofs.«163905_j57775900066584_1_alg».proof.Proof.RefRunLay10
import proofs.«163905_j57775900066584_1_alg».proof.Proof.RefRunLay11
import proofs.«163905_j57775900066584_1_alg».proof.Proof.RefRunLay12
import proofs.«163905_j57775900066584_1_alg».proof.Proof.RefRunLay13

noncomputable section

namespace Cert.ReferenceIdeal.RefRun

open Cert.ReferenceIdeal Cert.ReferenceIdeal.Gen Cert.ReferenceIdeal.OpsList Cert.Net
open Idealize.ShloMosaic Idealize.ShloMosaic.TcCoe Idealize.SL.Sem Idealize.ShloMosaic.StableHlo

set_option maxRecDepth 16384 in
set_option maxHeartbeats 40000000 in
/-- The fold of @main's operations over the launch contents is the network of the arguments at the result buffer, and
    the launch contents at each argument's buffer. -/
theorem vals_eq (m : (ℓ : Loc nD τ sig) → Buf (Elt Ideal) ℓ) (c : Dev nD) :
    after (allOps (F := Ideal)) (launchContents m c) (Proc.devRef .tc main_v537) = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ after (allOps (F := Ideal)) (launchContents m c) (Proc.devRef .tc main_arg0) = m ((c.tc : Thread nD τ).loc main_arg0)
      ∧ after (allOps (F := Ideal)) (launchContents m c) (Proc.devRef .tc main_arg1) = m ((c.tc : Thread nD τ).loc main_arg1)
      ∧ after (allOps (F := Ideal)) (launchContents m c) (Proc.devRef .tc main_arg2) = m ((c.tc : Thread nD τ).loc main_arg2)
      ∧ after (allOps (F := Ideal)) (launchContents m c) (Proc.devRef .tc main_arg3) = m ((c.tc : Thread nD τ).loc main_arg3)
      ∧ after (allOps (F := Ideal)) (launchContents m c) (Proc.devRef .tc main_arg4) = m ((c.tc : Thread nD τ).loc main_arg4)
      ∧ after (allOps (F := Ideal)) (launchContents m c) (Proc.devRef .tc main_arg5) = m ((c.tc : Thread nD τ).loc main_arg5)
      ∧ after (allOps (F := Ideal)) (launchContents m c) (Proc.devRef .tc main_arg6) = m ((c.tc : Thread nD τ).loc main_arg6)
      ∧ after (allOps (F := Ideal)) (launchContents m c) (Proc.devRef .tc main_arg7) = m ((c.tc : Thread nD τ).loc main_arg7)
      ∧ after (allOps (F := Ideal)) (launchContents m c) (Proc.devRef .tc main_arg8) = m ((c.tc : Thread nD τ).loc main_arg8)
      ∧ after (allOps (F := Ideal)) (launchContents m c) (Proc.devRef .tc main_arg9) = m ((c.tc : Thread nD τ).loc main_arg9)
      ∧ after (allOps (F := Ideal)) (launchContents m c) (Proc.devRef .tc main_arg10) = m ((c.tc : Thread nD τ).loc main_arg10)
      ∧ after (allOps (F := Ideal)) (launchContents m c) (Proc.devRef .tc main_arg11) = m ((c.tc : Thread nD τ).loc main_arg11)
      ∧ after (allOps (F := Ideal)) (launchContents m c) (Proc.devRef .tc main_arg12) = m ((c.tc : Thread nD τ).loc main_arg12) := by
  rw [allOps_eq_lay]
  simp only [after_append]
  obtain ⟨s0, d0, q0, f0_0, f0_1, f0_2, f0_3, f0_4, f0_5, f0_6, f0_7, f0_8, f0_9, f0_10, f0_11, f0_12, v0⟩ :=
    lay0_step (launchContents m c) rfl rfl rfl rfl rfl rfl rfl rfl rfl rfl rfl rfl rfl
  obtain ⟨s1, d1, q1, f1_0, f1_1, f1_2, f1_3, f1_4, f1_5, f1_6, f1_7, f1_8, f1_9, f1_10, f1_11, f1_12, v1⟩ :=
    lay1_step (after (lay0 (F := Ideal)) (launchContents m c)) s0 d0 q0 f0_0 f0_1 f0_2 f0_3 f0_4 f0_5 f0_6 f0_7 f0_8 f0_9 f0_10 f0_11 f0_12 v0
  obtain ⟨s2, d2, q2, f2_0, f2_1, f2_2, f2_3, f2_4, f2_5, f2_6, f2_7, f2_8, f2_9, f2_10, f2_11, f2_12, v2⟩ :=
    lay2_step (after (lay1 (F := Ideal)) (after (lay0 (F := Ideal)) (launchContents m c))) s1 d1 q1 f1_0 f1_1 f1_2 f1_3 f1_4 f1_5 f1_6 f1_7 f1_8 f1_9 f1_10 f1_11 f1_12 v1
  obtain ⟨s3, d3, q3, f3_0, f3_1, f3_2, f3_3, f3_4, f3_5, f3_6, f3_7, f3_8, f3_9, f3_10, f3_11, f3_12, v3⟩ :=
    lay3_step (after (lay2 (F := Ideal)) (after (lay1 (F := Ideal)) (after (lay0 (F := Ideal)) (launchContents m c)))) s2 d2 q2 f2_0 f2_1 f2_2 f2_3 f2_4 f2_5 f2_6 f2_7 f2_8 f2_9 f2_10 f2_11 f2_12 v2
  obtain ⟨s4, d4, q4, f4_0, f4_1, f4_2, f4_3, f4_4, f4_5, f4_6, f4_7, f4_8, f4_9, f4_10, f4_11, f4_12, v4⟩ :=
    lay4_step (after (lay3 (F := Ideal)) (after (lay2 (F := Ideal)) (after (lay1 (F := Ideal)) (after (lay0 (F := Ideal)) (launchContents m c))))) s3 d3 q3 f3_0 f3_1 f3_2 f3_3 f3_4 f3_5 f3_6 f3_7 f3_8 f3_9 f3_10 f3_11 f3_12 v3
  obtain ⟨s5, d5, q5, f5_0, f5_1, f5_2, f5_3, f5_4, f5_5, f5_6, f5_7, f5_8, f5_9, f5_10, f5_11, f5_12, v5⟩ :=
    lay5_step (after (lay4 (F := Ideal)) (after (lay3 (F := Ideal)) (after (lay2 (F := Ideal)) (after (lay1 (F := Ideal)) (after (lay0 (F := Ideal)) (launchContents m c)))))) s4 d4 q4 f4_0 f4_1 f4_2 f4_3 f4_4 f4_5 f4_6 f4_7 f4_8 f4_9 f4_10 f4_11 f4_12 v4
  obtain ⟨s6, d6, q6, f6_0, f6_1, f6_2, f6_3, f6_4, f6_5, f6_6, f6_7, f6_8, f6_9, f6_10, f6_11, f6_12, v6⟩ :=
    lay6_step (after (lay5 (F := Ideal)) (after (lay4 (F := Ideal)) (after (lay3 (F := Ideal)) (after (lay2 (F := Ideal)) (after (lay1 (F := Ideal)) (after (lay0 (F := Ideal)) (launchContents m c))))))) s5 d5 q5 f5_0 f5_1 f5_2 f5_3 f5_4 f5_5 f5_6 f5_7 f5_8 f5_9 f5_10 f5_11 f5_12 v5
  obtain ⟨s7, d7, q7, f7_0, f7_1, f7_2, f7_3, f7_4, f7_5, f7_6, f7_7, f7_8, f7_9, f7_10, f7_11, f7_12, v7⟩ :=
    lay7_step (after (lay6 (F := Ideal)) (after (lay5 (F := Ideal)) (after (lay4 (F := Ideal)) (after (lay3 (F := Ideal)) (after (lay2 (F := Ideal)) (after (lay1 (F := Ideal)) (after (lay0 (F := Ideal)) (launchContents m c)))))))) s6 d6 q6 f6_0 f6_1 f6_2 f6_3 f6_4 f6_5 f6_6 f6_7 f6_8 f6_9 f6_10 f6_11 f6_12 v6
  obtain ⟨s8, d8, q8, f8_0, f8_1, f8_2, f8_3, f8_4, f8_5, f8_6, f8_7, f8_8, f8_9, f8_10, f8_11, f8_12, v8⟩ :=
    lay8_step (after (lay7 (F := Ideal)) (after (lay6 (F := Ideal)) (after (lay5 (F := Ideal)) (after (lay4 (F := Ideal)) (after (lay3 (F := Ideal)) (after (lay2 (F := Ideal)) (after (lay1 (F := Ideal)) (after (lay0 (F := Ideal)) (launchContents m c))))))))) s7 d7 q7 f7_0 f7_1 f7_2 f7_3 f7_4 f7_5 f7_6 f7_7 f7_8 f7_9 f7_10 f7_11 f7_12 v7
  obtain ⟨s9, d9, q9, f9_0, f9_1, f9_2, f9_3, f9_4, f9_5, f9_6, f9_7, f9_8, f9_9, f9_10, f9_11, f9_12, v9⟩ :=
    lay9_step (after (lay8 (F := Ideal)) (after (lay7 (F := Ideal)) (after (lay6 (F := Ideal)) (after (lay5 (F := Ideal)) (after (lay4 (F := Ideal)) (after (lay3 (F := Ideal)) (after (lay2 (F := Ideal)) (after (lay1 (F := Ideal)) (after (lay0 (F := Ideal)) (launchContents m c)))))))))) s8 d8 q8 f8_0 f8_1 f8_2 f8_3 f8_4 f8_5 f8_6 f8_7 f8_8 f8_9 f8_10 f8_11 f8_12 v8
  obtain ⟨s10, d10, q10, f10_0, f10_1, f10_2, f10_3, f10_4, f10_5, f10_6, f10_7, f10_8, f10_9, f10_10, f10_11, f10_12, v10⟩ :=
    lay10_step (after (lay9 (F := Ideal)) (after (lay8 (F := Ideal)) (after (lay7 (F := Ideal)) (after (lay6 (F := Ideal)) (after (lay5 (F := Ideal)) (after (lay4 (F := Ideal)) (after (lay3 (F := Ideal)) (after (lay2 (F := Ideal)) (after (lay1 (F := Ideal)) (after (lay0 (F := Ideal)) (launchContents m c))))))))))) s9 d9 q9 f9_0 f9_1 f9_2 f9_3 f9_4 f9_5 f9_6 f9_7 f9_8 f9_9 f9_10 f9_11 f9_12 v9
  obtain ⟨s11, d11, q11, f11_0, f11_1, f11_2, f11_3, f11_4, f11_5, f11_6, f11_7, f11_8, f11_9, f11_10, f11_11, f11_12, v11⟩ :=
    lay11_step (after (lay10 (F := Ideal)) (after (lay9 (F := Ideal)) (after (lay8 (F := Ideal)) (after (lay7 (F := Ideal)) (after (lay6 (F := Ideal)) (after (lay5 (F := Ideal)) (after (lay4 (F := Ideal)) (after (lay3 (F := Ideal)) (after (lay2 (F := Ideal)) (after (lay1 (F := Ideal)) (after (lay0 (F := Ideal)) (launchContents m c)))))))))))) s10 d10 q10 f10_0 f10_1 f10_2 f10_3 f10_4 f10_5 f10_6 f10_7 f10_8 f10_9 f10_10 f10_11 f10_12 v10
  obtain ⟨s12, d12, q12, f12_0, f12_1, f12_2, f12_3, f12_4, f12_5, f12_6, f12_7, f12_8, f12_9, f12_10, f12_11, f12_12, v12⟩ :=
    lay12_step (after (lay11 (F := Ideal)) (after (lay10 (F := Ideal)) (after (lay9 (F := Ideal)) (after (lay8 (F := Ideal)) (after (lay7 (F := Ideal)) (after (lay6 (F := Ideal)) (after (lay5 (F := Ideal)) (after (lay4 (F := Ideal)) (after (lay3 (F := Ideal)) (after (lay2 (F := Ideal)) (after (lay1 (F := Ideal)) (after (lay0 (F := Ideal)) (launchContents m c))))))))))))) s11 d11 q11 f11_0 f11_1 f11_2 f11_3 f11_4 f11_5 f11_6 f11_7 f11_8 f11_9 f11_10 f11_11 f11_12 v11
  obtain ⟨out, f13_0, f13_1, f13_2, f13_3, f13_4, f13_5, f13_6, f13_7, f13_8, f13_9, f13_10, f13_11, f13_12⟩ :=
    lay13_step (after (lay12 (F := Ideal)) (after (lay11 (F := Ideal)) (after (lay10 (F := Ideal)) (after (lay9 (F := Ideal)) (after (lay8 (F := Ideal)) (after (lay7 (F := Ideal)) (after (lay6 (F := Ideal)) (after (lay5 (F := Ideal)) (after (lay4 (F := Ideal)) (after (lay3 (F := Ideal)) (after (lay2 (F := Ideal)) (after (lay1 (F := Ideal)) (after (lay0 (F := Ideal)) (launchContents m c)))))))))))))) f12_0 f12_1 f12_2 f12_3 f12_4 f12_5 f12_6 f12_7 f12_8 f12_9 f12_10 f12_11 f12_12 v12
  exact ⟨out.trans rfl, f13_0.trans rfl, f13_1.trans rfl, f13_2.trans rfl, f13_3.trans rfl, f13_4.trans rfl, f13_5.trans rfl, f13_6.trans rfl, f13_7.trans rfl, f13_8.trans rfl, f13_9.trans rfl, f13_10.trans rfl, f13_11.trans rfl, f13_12.trans rfl⟩

end Cert.ReferenceIdeal.RefRun

end
-- ==== Proof.RefRun.lean ====
/-
  The reference's run, read back. @main is 626 host operations in a row, so every weakly fair execution terminates with
  each buffer at the fold of the operations' results over the launch contents. Read at the result buffer that fold is the
  network `Net.out` of the thirteen argument arrays: the operations are, in order, exactly the ones `Net.out` is spelt
  with (the index rows, the in-degree reciprocals, the first linear map, twelve layers of gather · edge perceptron ·
  scatter-add · update, the last linear map), each intermediate result read where later operations use it. No operation
  writes an argument, so each argument ends as launched.
-/
import proofs.«163905_j57775900066584_1_alg».proof.Proof.RefRunValue

noncomputable section

namespace Cert.ReferenceIdeal.RefRun

open Cert.ReferenceIdeal Cert.ReferenceIdeal.Gen Cert.ReferenceIdeal.OpsList
open Idealize.ShloMosaic Idealize.ShloMosaic.TcCoe Idealize.SL.Sem Idealize.ShloMosaic.StableHlo

/-- Every weakly fair execution of the reference terminates with the result at the network of the arguments and every
    argument as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v537) = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨e, e0, e1, e2, e3, e4, e5, e6, e7, e8, e9, e10, e11, e12⟩ := vals_eq m c
      exact ⟨(h c main_v537).trans e, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8, (h c main_arg9).trans e9, (h c main_arg10).trans e10, (h c main_arg11).trans e11, (h c main_arg12).trans e12⟩)
    (run_after m ρ)

end Cert.ReferenceIdeal.RefRun

end
-- ==== Proof.lean ====
/- A graph network of twelve message-passing layers, tiled by rows, against its plain array-program reference, over the
   extended reals.
   Both programs compute, in the same order: each node's reciprocal in-degree (clamped below by one); a linear map of the
   node features; twelve times — gather the source node's features along every edge, multiply them entry by entry by a
   two-layer perceptron of the edge's attributes, add the messages up at their destination nodes, scale by the reciprocal
   in-degree, add the node's own features through a 32 × 32 matrix and a bias, rectify —; and a last linear map. The
   kernel does the three dense stages in row tiles (10 tiles of 5000 nodes, 200 tiles of 8000 edges) with matrix
   products into zero accumulators; the reference does them on whole arrays with contractions. A result row of every
   dense stage depends on one row of each large operand only, a product into a zero accumulator and a contraction are
   the same sum, and casting a bias to a row and repeating it is placing it on axis 1 and repeating it: so every tiled
   stage is the whole-array stage (Proof/Rows.lean, Proof/Region*.lean), the kernel's result is the network `Net.out` of
   its arguments (Proof/KernelValue.lean over Proof/RunValue.lean), the reference's result is the same function of ITS
   arguments (Proof/RefRun.lean), and the arguments agree. No law of arithmetic beyond these re-readings is used, so the
   finiteness of the inputs is never opened. The idealization rewrote nothing, so `preserves` is trivial; the three
   frames are the generated frame certificates and the reference's run with its result dropped. -/
import proofs.«163905_j57775900066584_1_alg».proof.Defs
import proofs.«163905_j57775900066584_1_alg».proof.Proof.Gen.Kernel
import proofs.«163905_j57775900066584_1_alg».proof.Proof.Gen.Kernel.Frame
import proofs.«163905_j57775900066584_1_alg».proof.Proof.Gen.KernelIdeal
import proofs.«163905_j57775900066584_1_alg».proof.Proof.Gen.KernelIdeal.Frame
import proofs.«163905_j57775900066584_1_alg».proof.Proof.Gen.ReferenceIdeal
import proofs.«163905_j57775900066584_1_alg».proof.Proof.Gen.Pre_finite_inputs
import proofs.«163905_j57775900066584_1_alg».proof.Proof.RunValue
import proofs.«163905_j57775900066584_1_alg».proof.Proof.KernelValue
import proofs.«163905_j57775900066584_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both runs end with the network of their (agreeing) arguments in the result buffer. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.value m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.RefRun.run m' ρ')
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
